-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)
  ∧ IdealRules.named_const.Statement Cert.KernelIdeal.κ "inv_20" .f32 0x3D4CCCCD#32 ((1 / 20 : ℝ) : EReal)

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S1024x20 : Shape := ⟨2, ![1024, 20]⟩
abbrev S100000x64 : Shape := ⟨2, ![100000, 64]⟩
abbrev S100000 : Shape := ⟨1, ![100000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000 : S_.BroadcastsInDim S100000 (![] : Fin 0 → Fin S100000.rank)
  reducesTo_S100000_S_d0 : S100000.ReducesTo [0] S_
  bcast_S_S1024x20 : S_.BroadcastsInDim S1024x20 (![] : Fin 0 → Fin S1024x20.rank)
  reducesTo_S1024x20_S_d0_1 : S1024x20.ReducesTo [0, 1] S_

variable [Facts]

def fn_part1 {F : FTy → Type} [FloatOps F] (main_arg0 : IVec S1024x20 32) (main_v13 : IVec S_ 1) (main_v15 : IVec S1024x20 1) (main_c_5 : IVec S_ 32) : IVec S_ 1 :=
  let main_v16 : IVec S1024x20 32 := broadcastInDim S1024x20 ![] bcast_S_S1024x20 main_c_5
  let main_v17 : IVec S1024x20 1 := cmpi .sle main_arg0 main_v16
  let main_v18 : IVec S1024x20 1 := andi main_v15 main_v17
  let main_c_6 : IVec S_ 1 := constantI S_ 1 1#1
  let main_v19 : IVec S_ 1 := (fun x v => Host.reduce IntOp.andi x v reducesTo_S1024x20_S_d0_1 h_S_) main_v18 main_c_6
  let main_v20 : IVec S_ 1 := andi main_v13 main_v19
  main_v20

def fn {F : FTy → Type} [FloatOps F] (main_arg0 : IVec S1024x20 32) (main_arg1 : FVec F S100000x64 .f32) (main_arg2 : FVec F S100000x64 .f32) (main_arg3 : FVec F S100000 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S100000 .f32 := Host.absf main_arg3
  let main_cst_2 : FVec F S_ .f32 := constant S_ .f32 0x7F800000#32
  let main_v10 : FVec F S100000 .f32 := broadcastInDim S100000 ![] bcast_S_S100000 main_cst_2
  let main_v11 : IVec S100000 1 := cmpf .olt main_v9 main_v10
  let main_c_3 : IVec S_ 1 := constantI S_ 1 1#1
  let main_v12 : IVec S_ 1 := (fun x v => Host.reduce IntOp.andi x v reducesTo_S100000_S_d0 h_S_) main_v11 main_c_3
  let main_v13 : IVec S_ 1 := andi main_v8 main_v12
  let main_c_4 : IVec S_ 32 := constantI S_ 32 0#32
  let main_v14 : IVec S1024x20 32 := broadcastInDim S1024x20 ![] bcast_S_S1024x20 main_c_4
  let main_v15 : IVec S1024x20 1 := cmpi .sge main_arg0 main_v14
  let main_c_5 : IVec S_ 32 := constantI S_ 32 99999#32
  fn_part1 (F := F) main_arg0 main_v13 main_v15 main_c_5
-- ==== Kernel.lean ====
abbrev S1024x20 : Shape := ⟨2, ![1024, 20]⟩
abbrev S100000x64 : Shape := ⟨2, ![100000, 64]⟩
abbrev S100000 : Shape := ⟨1, ![100000]⟩
abbrev S_ : Shape := ⟨0, ![]⟩
abbrev S32x8x80 : Shape := ⟨3, ![32, 8, 80]⟩
abbrev S32x640x1 : Shape := ⟨3, ![32, 640, 1]⟩
abbrev S32x640x16 : Shape := ⟨3, ![32, 640, 16]⟩
abbrev S50000x128 : Shape := ⟨2, ![50000, 128]⟩
abbrev S1024x64 : Shape := ⟨2, ![1024, 64]⟩
abbrev S8x80 : Shape := ⟨2, ![8, 80]⟩
abbrev S2x80x128 : Shape := ⟨3, ![2, 80, 128]⟩
abbrev S640x16 : Shape := ⟨2, ![640, 16]⟩
abbrev S32x64 : Shape := ⟨2, ![32, 64]⟩
abbrev S1x8x80 : Shape := ⟨3, ![1, 8, 80]⟩
abbrev S1x640x16 : Shape := ⟨3, ![1, 640, 16]⟩
abbrev S1x80x128 : Shape := ⟨3, ![1, 80, 128]⟩
abbrev S80x128 : Shape := ⟨2, ![80, 128]⟩
abbrev S1x80 : Shape := ⟨2, ![1, 80]⟩
abbrev S80 : Shape := ⟨1, ![80]⟩
abbrev S16 : Shape := ⟨1, ![16]⟩
abbrev S1x16 : Shape := ⟨2, ![1, 16]⟩
abbrev S1x1x16 : Shape := ⟨3, ![1, 1, 16]⟩
abbrev S1x100000 : Shape := ⟨2, ![1, 100000]⟩
abbrev S1024x100000 : Shape := ⟨2, ![1024, 100000]⟩
abbrev S256x64 : Shape := ⟨2, ![256, 64]⟩
abbrev S8192x64 : Shape := ⟨2, ![8192, 64]⟩
abbrev S1x8192 : Shape := ⟨2, ![1, 8192]⟩
abbrev S256x8192 : Shape := ⟨2, ![256, 8192]⟩
abbrev S2048x64 : Shape := ⟨2, ![2048, 64]⟩
abbrev S1x2048 : Shape := ⟨2, ![1, 2048]⟩
abbrev S1024x2048 : Shape := ⟨2, ![1024, 2048]⟩

abbrev nBuf : Table → Nat
  | .hbm => 19
  | .local .tc .vmem => 12
  | .local .scVector .vmem => 4
  | _ => 0

abbrev bufTy : (tb : Table) → Fin (nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i32⟩
  | .hbm, ⟨7, _⟩ => ⟨S32x8x80, .i32⟩
  | .hbm, ⟨8, _⟩ => ⟨S_, .i32⟩
  | .hbm, ⟨9, _⟩ => ⟨S1024x20, .i32⟩
  | .hbm, ⟨10, _⟩ => ⟨S1024x20, .i32⟩
  | .hbm, ⟨11, _⟩ => ⟨S1024x20, .f32⟩
  | .hbm, ⟨12, _⟩ => ⟨S32x640x1, .f32⟩
  | .hbm, ⟨13, _⟩ => ⟨S32x640x16, .f32⟩
  | .hbm, ⟨14, _⟩ => ⟨S50000x128, .f32⟩
  | .hbm, ⟨15, _⟩ => ⟨S1024x64, .f32⟩
  | .hbm, ⟨16, _⟩ => ⟨S1x100000, .f32⟩
  | .hbm, ⟨17, _⟩ => ⟨S1024x100000, .f32⟩
  | .hbm, ⟨18, _⟩ => ⟨S1024x100000, .f32⟩
  | .local .tc .vmem, ⟨0, _⟩ => ⟨S256x64, .f32⟩
  | .local .tc .vmem, ⟨1, _⟩ => ⟨S256x64, .f32⟩
  | .local .tc .vmem, ⟨2, _⟩ => ⟨S8192x64, .f32⟩
  | .local .tc .vmem, ⟨3, _⟩ => ⟨S8192x64, .f32⟩
  | .local .tc .vmem, ⟨4, _⟩ => ⟨S1x8192, .f32⟩
  | .local .tc .vmem, ⟨5, _⟩ => ⟨S1x8192, .f32⟩
  | .local .tc .vmem, ⟨6, _⟩ => ⟨S256x8192, .f32⟩
  | .local .tc .vmem, ⟨7, _⟩ => ⟨S256x8192, .f32⟩
  | .local .tc .vmem, ⟨8, _⟩ => ⟨S1024x64, .f32⟩
  | .local .tc .vmem, ⟨9, _⟩ => ⟨S2048x64, .f32⟩
  | .local .tc .vmem, ⟨10, _⟩ => ⟨S1x2048, .f32⟩
  | .local .tc .vmem, ⟨11, _⟩ => ⟨S1024x2048, .f32⟩
  | .local .scVector .vmem, ⟨0, _⟩ => ⟨S8x80, .i32⟩
  | .local .scVector .vmem, ⟨1, _⟩ => ⟨S2x80x128, .f32⟩
  | .local .scVector .vmem, ⟨2, _⟩ => ⟨S640x16, .f32⟩
  | .local .scVector .vmem, ⟨3, _⟩ => ⟨S32x64, .f32⟩
  | _, _ => ⟨S1024x20, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 17 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTables nBuf rfl bufTy 4 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v8_scv : Ref sig .scVector := ⟨.hbm, 14, rfl⟩
abbrev main_v2_scv : Ref sig .scVector := ⟨.hbm, 7, rfl⟩
abbrev main_v7_scv : Ref sig .scVector := ⟨.hbm, 13, rfl⟩
abbrev main_v9_scv : Ref sig .scVector := ⟨.hbm, 15, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem1_0 : DmaSem sig := 14
abbrev cc2_sem2_0 : DmaSem sig := 15
abbrev cc2_sem3_0 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_152_r0 : BitVec 32 := 0#32
  let c0_i32_153_r0 : BitVec 32 := 0#32
  ![v1.toNat, 0, 0]
def k0_off2 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_152_r1 : BitVec 32 := 0#32
  let c0_i32_153_r1 : BitVec 32 := 0#32
  ![v1.toNat, 0, 0]
@[reducible] def k0_t1_loop : Scf.Loop 32 :=
  let c0_i32_20 : BitVec 32 := 0#32
  let c4_i32 : BitVec 32 := 4#32
  let v17 : BitVec 32 := Scalar.addi c0_i32_20 c4_i32
  let c1_i32_21 : BitVec 32 := 1#32
  ⟨c0_i32_20, v17, c1_i32_21⟩
def k0_off3 (k0_t1 : Fin k0_t1_loop.trips) (c0_i32_153 : BitVec 32) : Fin 2 → Nat :=
  let c0_i32_154 : BitVec 32 := 0#32
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v94 : BitVec 32 := Scalar.addi c0_i32_154 v93
  let v95 : Index := Scalar.indexCast v94
  let c0 : Index := 0#32
  ![v95.toNat, 0]
def k0_off4 (k0_t1 : Fin k0_t1_loop.trips) (c0_i32_153 : BitVec 32) : Fin 3 → Nat :=
  let c0_i32_155 : BitVec 32 := 0#32
  let v98 : Index := Scalar.indexCast c0_i32_155
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v99 : Index := Scalar.indexCast v93
  let c0_156 : Index := 0#32
  ![0, v99.toNat, 0]
def k0_off5 (k0_t1 : Fin k0_t1_loop.trips) (c0_i32_153 : BitVec 32) : Fin 3 → Nat :=
  let c0_i32_157 : BitVec 32 := 0#32
  let v102 : Index := Scalar.indexCast c0_i32_157
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v103 : Index := Scalar.indexCast v93
  let c64 : Index := 64#32
  ![0, v103.toNat, 64]
def k0_off6 (k0_t1 : Fin k0_t1_loop.trips) (c0_i32_153 : BitVec 32) : Fin 3 → Nat :=
  let c0_i32_158 : BitVec 32 := 0#32
  let v110 : Index := Scalar.indexCast c0_i32_158
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v111 : Index := Scalar.indexCast v93
  let c16 : Index := 16#32
  ![0, v111.toNat, 16]
def k0_off7 (k0_t1 : Fin k0_t1_loop.trips) (c0_i32_153 : BitVec 32) : Fin 3 → Nat :=
  let c0_i32_159 : BitVec 32 := 0#32
  let v114 : Index := Scalar.indexCast c0_i32_159
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v115 : Index := Scalar.indexCast v93
  let c80 : Index := 80#32
  ![0, v115.toNat, 80]
def k0_off8 (k0_t1 : Fin k0_t1_loop.trips) (c0_i32_153 : BitVec 32) : Fin 3 → Nat :=
  let c0_i32_160 : BitVec 32 := 0#32
  let v122 : Index := Scalar.indexCast c0_i32_160
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v123 : Index := Scalar.indexCast v93
  let c32 : Index := 32#32
  ![0, v123.toNat, 32]
def k0_off9 (k0_t1 : Fin k0_t1_loop.trips) (c0_i32_153 : BitVec 32) : Fin 3 → Nat :=
  let c0_i32_161 : BitVec 32 := 0#32
  let v126 : Index := Scalar.indexCast c0_i32_161
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v127 : Index := Scalar.indexCast v93
  let c96 : Index := 96#32
  ![0, v127.toNat, 96]
def k0_off10 (k0_t1 : Fin k0_t1_loop.trips) (c0_i32_153 : BitVec 32) : Fin 3 → Nat :=
  let c0_i32_162 : BitVec 32 := 0#32
  let v134 : Index := Scalar.indexCast c0_i32_162
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v135 : Index := Scalar.indexCast v93
  let c48 : Index := 48#32
  ![0, v135.toNat, 48]
def k0_off11 (k0_t1 : Fin k0_t1_loop.trips) (c0_i32_153 : BitVec 32) : Fin 3 → Nat :=
  let c0_i32_163 : BitVec 32 := 0#32
  let v138 : Index := Scalar.indexCast c0_i32_163
  let c0_i32_20 : BitVec 32 := 0#32
  let c1_i32_21 : BitVec 32 := 1#32
  let arg12 : BitVec 32 := Scf.iv c0_i32_20 c1_i32_21 k0_t1
  let c20_i32 : BitVec 32 := 20#32
  let v91 : BitVec 32 := Scalar.muli arg12 c20_i32
  let v93 : BitVec 32 := Scalar.addi v91 c0_i32_153
  let v139 : Index := Scalar.indexCast v93
  let c112 : Index := 112#32
  ![0, v139.toNat, 112]
def k0_off12 (k0_t1 : Fin k0_t1_loop.trips) : Fin 2 → Nat :=
  let c0_i32_513 : BitVec 32 := 0#32
  let c0_i32_20 : BitVec 32 := 0#32
  let c1_i32_21 : BitVec 32 := 1#32
  let arg12 : BitVec 32 := Scf.iv c0_i32_20 c1_i32_21 k0_t1
  let v1155 : BitVec 32 := Scalar.addi c0_i32_513 arg12
  let v1156 : Index := Scalar.indexCast v1155
  let c0_514 : Index := 0#32
  ![v1156.toNat, 0]
def k0_off13 (k0_t1 : Fin k0_t1_loop.trips) : Fin 2 → Nat :=
  let c0_i32_515 : BitVec 32 := 0#32
  let c0_i32_20 : BitVec 32 := 0#32
  let c1_i32_21 : BitVec 32 := 1#32
  let arg12 : BitVec 32 := Scf.iv c0_i32_20 c1_i32_21 k0_t1
  let v1162 : BitVec 32 := Scalar.addi c0_i32_515 arg12
  let v1163 : Index := Scalar.indexCast v1162
  let c16_516 : Index := 16#32
  ![v1163.toNat, 16]
def k0_off14 (k0_t1 : Fin k0_t1_loop.trips) : Fin 2 → Nat :=
  let c0_i32_517 : BitVec 32 := 0#32
  let c0_i32_20 : BitVec 32 := 0#32
  let c1_i32_21 : BitVec 32 := 1#32
  let arg12 : BitVec 32 := Scf.iv c0_i32_20 c1_i32_21 k0_t1
  let v1169 : BitVec 32 := Scalar.addi c0_i32_517 arg12
  let v1170 : Index := Scalar.indexCast v1169
  let c32_518 : Index := 32#32
  ![v1170.toNat, 32]
def k0_off15 (k0_t1 : Fin k0_t1_loop.trips) : Fin 2 → Nat :=
  let c0_i32_519 : BitVec 32 := 0#32
  let c0_i32_20 : BitVec 32 := 0#32
  let c1_i32_21 : BitVec 32 := 1#32
  let arg12 : BitVec 32 := Scf.iv c0_i32_20 c1_i32_21 k0_t1
  let v1176 : BitVec 32 := Scalar.addi c0_i32_519 arg12
  let v1177 : Index := Scalar.indexCast v1176
  let c48_520 : Index := 48#32
  ![v1177.toNat, 48]
@[reducible] def k0_t2_loop : Scf.Loop 32 :=
  let c0_i32_39 : BitVec 32 := 0#32
  let c4_i32_40 : BitVec 32 := 4#32
  let v28 : BitVec 32 := Scalar.addi c0_i32_39 c4_i32_40
  let c1_i32_41 : BitVec 32 := 1#32
  ⟨c0_i32_39, v28, c1_i32_41⟩
def k0_off16 (k0_t2 : Fin k0_t2_loop.trips) (c0_i32_153 : BitVec 32) : Fin 2 → Nat :=
  let c80_i32 : BitVec 32 := 80#32
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v94 : BitVec 32 := Scalar.addi c80_i32 v93
  let v95 : Index := Scalar.indexCast v94
  let c0 : Index := 0#32
  ![v95.toNat, 0]
def k0_off17 (k0_t2 : Fin k0_t2_loop.trips) (c0_i32_153 : BitVec 32) : Fin 3 → Nat :=
  let c1_i32_154 : BitVec 32 := 1#32
  let v98 : Index := Scalar.indexCast c1_i32_154
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![1, v99.toNat, 0]
def k0_off18 (k0_t2 : Fin k0_t2_loop.trips) (c0_i32_153 : BitVec 32) : Fin 3 → Nat :=
  let c1_i32_156 : BitVec 32 := 1#32
  let v102 : Index := Scalar.indexCast c1_i32_156
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v103 : Index := Scalar.indexCast v93
  let c64 : Index := 64#32
  ![1, v103.toNat, 64]
def k0_off19 (k0_t2 : Fin k0_t2_loop.trips) (c0_i32_153 : BitVec 32) : Fin 3 → Nat :=
  let c1_i32_157 : BitVec 32 := 1#32
  let v110 : Index := Scalar.indexCast c1_i32_157
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v111 : Index := Scalar.indexCast v93
  let c16 : Index := 16#32
  ![1, v111.toNat, 16]
def k0_off20 (k0_t2 : Fin k0_t2_loop.trips) (c0_i32_153 : BitVec 32) : Fin 3 → Nat :=
  let c1_i32_158 : BitVec 32 := 1#32
  let v114 : Index := Scalar.indexCast c1_i32_158
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v115 : Index := Scalar.indexCast v93
  let c80 : Index := 80#32
  ![1, v115.toNat, 80]
def k0_off21 (k0_t2 : Fin k0_t2_loop.trips) (c0_i32_153 : BitVec 32) : Fin 3 → Nat :=
  let c1_i32_159 : BitVec 32 := 1#32
  let v122 : Index := Scalar.indexCast c1_i32_159
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v123 : Index := Scalar.indexCast v93
  let c32 : Index := 32#32
  ![1, v123.toNat, 32]
def k0_off22 (k0_t2 : Fin k0_t2_loop.trips) (c0_i32_153 : BitVec 32) : Fin 3 → Nat :=
  let c1_i32_160 : BitVec 32 := 1#32
  let v126 : Index := Scalar.indexCast c1_i32_160
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v127 : Index := Scalar.indexCast v93
  let c96 : Index := 96#32
  ![1, v127.toNat, 96]
def k0_off23 (k0_t2 : Fin k0_t2_loop.trips) (c0_i32_153 : BitVec 32) : Fin 3 → Nat :=
  let c1_i32_161 : BitVec 32 := 1#32
  let v134 : Index := Scalar.indexCast c1_i32_161
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v135 : Index := Scalar.indexCast v93
  let c48 : Index := 48#32
  ![1, v135.toNat, 48]
def k0_off24 (k0_t2 : Fin k0_t2_loop.trips) (c0_i32_153 : BitVec 32) : Fin 3 → Nat :=
  let c1_i32_162 : BitVec 32 := 1#32
  let v138 : Index := Scalar.indexCast c1_i32_162
  let c0_i32_39 : BitVec 32 := 0#32
  let c1_i32_41 : BitVec 32 := 1#32
  let arg12 : BitVec 32 := Scf.iv c0_i32_39 c1_i32_41 k0_t2
  let c20_i32 : BitVec 32 := 20#32
  let v91 : BitVec 32 := Scalar.muli arg12 c20_i32
  let v93 : BitVec 32 := Scalar.addi v91 c0_i32_153
  let v139 : Index := Scalar.indexCast v93
  let c112 : Index := 112#32
  ![1, v139.toNat, 112]
def k0_off25 (k0_t2 : Fin k0_t2_loop.trips) : Fin 2 → Nat :=
  let c4_i32_512 : BitVec 32 := 4#32
  let c0_i32_39 : BitVec 32 := 0#32
  let c1_i32_41 : BitVec 32 := 1#32
  let arg12 : BitVec 32 := Scf.iv c0_i32_39 c1_i32_41 k0_t2
  let v1155 : BitVec 32 := Scalar.addi c4_i32_512 arg12
  let v1156 : Index := Scalar.indexCast v1155
  let c0_513 : Index := 0#32
  ![v1156.toNat, 0]
def k0_off26 (k0_t2 : Fin k0_t2_loop.trips) : Fin 2 → Nat :=
  let c4_i32_514 : BitVec 32 := 4#32
  let c0_i32_39 : BitVec 32 := 0#32
  let c1_i32_41 : BitVec 32 := 1#32
  let arg12 : BitVec 32 := Scf.iv c0_i32_39 c1_i32_41 k0_t2
  let v1162 : BitVec 32 := Scalar.addi c4_i32_514 arg12
  let v1163 : Index := Scalar.indexCast v1162
  let c16_515 : Index := 16#32
  ![v1163.toNat, 16]
def k0_off27 (k0_t2 : Fin k0_t2_loop.trips) : Fin 2 → Nat :=
  let c4_i32_516 : BitVec 32 := 4#32
  let c0_i32_39 : BitVec 32 := 0#32
  let c1_i32_41 : BitVec 32 := 1#32
  let arg12 : BitVec 32 := Scf.iv c0_i32_39 c1_i32_41 k0_t2
  let v1169 : BitVec 32 := Scalar.addi c4_i32_516 arg12
  let v1170 : Index := Scalar.indexCast v1169
  let c32_517 : Index := 32#32
  ![v1170.toNat, 32]
def k0_off28 (k0_t2 : Fin k0_t2_loop.trips) : Fin 2 → Nat :=
  let c4_i32_518 : BitVec 32 := 4#32
  let c0_i32_39 : BitVec 32 := 0#32
  let c1_i32_41 : BitVec 32 := 1#32
  let arg12 : BitVec 32 := Scf.iv c0_i32_39 c1_i32_41 k0_t2
  let v1176 : BitVec 32 := Scalar.addi c4_i32_518 arg12
  let v1177 : Index := Scalar.indexCast v1176
  let c48_519 : Index := 48#32
  ![v1177.toNat, 48]
@[reducible] def k0_t3_loop : Scf.Loop 32 :=
  let c0_i32_58 : BitVec 32 := 0#32
  let c4_i32_59 : BitVec 32 := 4#32
  let v39 : BitVec 32 := Scalar.addi c0_i32_58 c4_i32_59
  let c1_i32_60 : BitVec 32 := 1#32
  ⟨c0_i32_58, v39, c1_i32_60⟩
def k0_off29 (k0_t3 : Fin k0_t3_loop.trips) (c0_i32_153 : BitVec 32) : Fin 2 → Nat :=
  let c160_i32 : BitVec 32 := 160#32
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v94 : BitVec 32 := Scalar.addi c160_i32 v93
  let v95 : Index := Scalar.indexCast v94
  let c0 : Index := 0#32
  ![v95.toNat, 0]
def k0_off30 (k0_t3 : Fin k0_t3_loop.trips) (c0_i32_153 : BitVec 32) : Fin 3 → Nat :=
  let c0_i32_154 : BitVec 32 := 0#32
  let v98 : Index := Scalar.indexCast c0_i32_154
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![0, v99.toNat, 0]
def k0_off31 (k0_t3 : Fin k0_t3_loop.trips) (c0_i32_153 : BitVec 32) : Fin 3 → Nat :=
  let c0_i32_156 : BitVec 32 := 0#32
  let v102 : Index := Scalar.indexCast c0_i32_156
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v103 : Index := Scalar.indexCast v93
  let c64 : Index := 64#32
  ![0, v103.toNat, 64]
def k0_off32 (k0_t3 : Fin k0_t3_loop.trips) (c0_i32_153 : BitVec 32) : Fin 3 → Nat :=
  let c0_i32_157 : BitVec 32 := 0#32
  let v110 : Index := Scalar.indexCast c0_i32_157
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v111 : Index := Scalar.indexCast v93
  let c16 : Index := 16#32
  ![0, v111.toNat, 16]
def k0_off33 (k0_t3 : Fin k0_t3_loop.trips) (c0_i32_153 : BitVec 32) : Fin 3 → Nat :=
  let c0_i32_158 : BitVec 32 := 0#32
  let v114 : Index := Scalar.indexCast c0_i32_158
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v115 : Index := Scalar.indexCast v93
  let c80 : Index := 80#32
  ![0, v115.toNat, 80]
def k0_off34 (k0_t3 : Fin k0_t3_loop.trips) (c0_i32_153 : BitVec 32) : Fin 3 → Nat :=
  let c0_i32_159 : BitVec 32 := 0#32
  let v122 : Index := Scalar.indexCast c0_i32_159
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v123 : Index := Scalar.indexCast v93
  let c32 : Index := 32#32
  ![0, v123.toNat, 32]
def k0_off35 (k0_t3 : Fin k0_t3_loop.trips) (c0_i32_153 : BitVec 32) : Fin 3 → Nat :=
  let c0_i32_160 : BitVec 32 := 0#32
  let v126 : Index := Scalar.indexCast c0_i32_160
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v127 : Index := Scalar.indexCast v93
  let c96 : Index := 96#32
  ![0, v127.toNat, 96]
def k0_off36 (k0_t3 : Fin k0_t3_loop.trips) (c0_i32_153 : BitVec 32) : Fin 3 → Nat :=
  let c0_i32_161 : BitVec 32 := 0#32
  let v134 : Index := Scalar.indexCast c0_i32_161
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v135 : Index := Scalar.indexCast v93
  let c48 : Index := 48#32
  ![0, v135.toNat, 48]
def k0_off37 (k0_t3 : Fin k0_t3_loop.trips) (c0_i32_153 : BitVec 32) : Fin 3 → Nat :=
  let c0_i32_162 : BitVec 32 := 0#32
  let v138 : Index := Scalar.indexCast c0_i32_162
  let c0_i32_58 : BitVec 32 := 0#32
  let c1_i32_60 : BitVec 32 := 1#32
  let arg12 : BitVec 32 := Scf.iv c0_i32_58 c1_i32_60 k0_t3
  let c20_i32 : BitVec 32 := 20#32
  let v91 : BitVec 32 := Scalar.muli arg12 c20_i32
  let v93 : BitVec 32 := Scalar.addi v91 c0_i32_153
  let v139 : Index := Scalar.indexCast v93
  let c112 : Index := 112#32
  ![0, v139.toNat, 112]
def k0_off38 (k0_t3 : Fin k0_t3_loop.trips) : Fin 2 → Nat :=
  let c8_i32_512 : BitVec 32 := 8#32
  let c0_i32_58 : BitVec 32 := 0#32
  let c1_i32_60 : BitVec 32 := 1#32
  let arg12 : BitVec 32 := Scf.iv c0_i32_58 c1_i32_60 k0_t3
  let v1155 : BitVec 32 := Scalar.addi c8_i32_512 arg12
  let v1156 : Index := Scalar.indexCast v1155
  let c0_513 : Index := 0#32
  ![v1156.toNat, 0]
def k0_off39 (k0_t3 : Fin k0_t3_loop.trips) : Fin 2 → Nat :=
  let c8_i32_514 : BitVec 32 := 8#32
  let c0_i32_58 : BitVec 32 := 0#32
  let c1_i32_60 : BitVec 32 := 1#32
  let arg12 : BitVec 32 := Scf.iv c0_i32_58 c1_i32_60 k0_t3
  let v1162 : BitVec 32 := Scalar.addi c8_i32_514 arg12
  let v1163 : Index := Scalar.indexCast v1162
  let c16_515 : Index := 16#32
  ![v1163.toNat, 16]
def k0_off40 (k0_t3 : Fin k0_t3_loop.trips) : Fin 2 → Nat :=
  let c8_i32_516 : BitVec 32 := 8#32
  let c0_i32_58 : BitVec 32 := 0#32
  let c1_i32_60 : BitVec 32 := 1#32
  let arg12 : BitVec 32 := Scf.iv c0_i32_58 c1_i32_60 k0_t3
  let v1169 : BitVec 32 := Scalar.addi c8_i32_516 arg12
  let v1170 : Index := Scalar.indexCast v1169
  let c32_517 : Index := 32#32
  ![v1170.toNat, 32]
def k0_off41 (k0_t3 : Fin k0_t3_loop.trips) : Fin 2 → Nat :=
  let c8_i32_518 : BitVec 32 := 8#32
  let c0_i32_58 : BitVec 32 := 0#32
  let c1_i32_60 : BitVec 32 := 1#32
  let arg12 : BitVec 32 := Scf.iv c0_i32_58 c1_i32_60 k0_t3
  let v1176 : BitVec 32 := Scalar.addi c8_i32_518 arg12
  let v1177 : Index := Scalar.indexCast v1176
  let c48_519 : Index := 48#32
  ![v1177.toNat, 48]
@[reducible] def k0_t4_loop : Scf.Loop 32 :=
  let c0_i32_78 : BitVec 32 := 0#32
  let c4_i32_79 : BitVec 32 := 4#32
  let v50 : BitVec 32 := Scalar.addi c0_i32_78 c4_i32_79
  let c1_i32_80 : BitVec 32 := 1#32
  ⟨c0_i32_78, v50, c1_i32_80⟩
def k0_off42 (k0_t4 : Fin k0_t4_loop.trips) (c0_i32_153 : BitVec 32) : Fin 2 → Nat :=
  let c240_i32 : BitVec 32 := 240#32
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v94 : BitVec 32 := Scalar.addi c240_i32 v93
  let v95 : Index := Scalar.indexCast v94
  let c0 : Index := 0#32
  ![v95.toNat, 0]
def k0_off43 (k0_t4 : Fin k0_t4_loop.trips) (c0_i32_153 : BitVec 32) : Fin 3 → Nat :=
  let c1_i32_154 : BitVec 32 := 1#32
  let v98 : Index := Scalar.indexCast c1_i32_154
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![1, v99.toNat, 0]
def k0_off44 (k0_t4 : Fin k0_t4_loop.trips) (c0_i32_153 : BitVec 32) : Fin 3 → Nat :=
  let c1_i32_156 : BitVec 32 := 1#32
  let v102 : Index := Scalar.indexCast c1_i32_156
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v103 : Index := Scalar.indexCast v93
  let c64 : Index := 64#32
  ![1, v103.toNat, 64]
def k0_off45 (k0_t4 : Fin k0_t4_loop.trips) (c0_i32_153 : BitVec 32) : Fin 3 → Nat :=
  let c1_i32_157 : BitVec 32 := 1#32
  let v110 : Index := Scalar.indexCast c1_i32_157
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v111 : Index := Scalar.indexCast v93
  let c16 : Index := 16#32
  ![1, v111.toNat, 16]
def k0_off46 (k0_t4 : Fin k0_t4_loop.trips) (c0_i32_153 : BitVec 32) : Fin 3 → Nat :=
  let c1_i32_158 : BitVec 32 := 1#32
  let v114 : Index := Scalar.indexCast c1_i32_158
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v115 : Index := Scalar.indexCast v93
  let c80 : Index := 80#32
  ![1, v115.toNat, 80]
def k0_off47 (k0_t4 : Fin k0_t4_loop.trips) (c0_i32_153 : BitVec 32) : Fin 3 → Nat :=
  let c1_i32_159 : BitVec 32 := 1#32
  let v122 : Index := Scalar.indexCast c1_i32_159
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v123 : Index := Scalar.indexCast v93
  let c32 : Index := 32#32
  ![1, v123.toNat, 32]
def k0_off48 (k0_t4 : Fin k0_t4_loop.trips) (c0_i32_153 : BitVec 32) : Fin 3 → Nat :=
  let c1_i32_160 : BitVec 32 := 1#32
  let v126 : Index := Scalar.indexCast c1_i32_160
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v127 : Index := Scalar.indexCast v93
  let c96 : Index := 96#32
  ![1, v127.toNat, 96]
def k0_off49 (k0_t4 : Fin k0_t4_loop.trips) (c0_i32_153 : BitVec 32) : Fin 3 → Nat :=
  let c1_i32_161 : BitVec 32 := 1#32
  let v134 : Index := Scalar.indexCast c1_i32_161
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v135 : Index := Scalar.indexCast v93
  let c48 : Index := 48#32
  ![1, v135.toNat, 48]
def k0_off50 (k0_t4 : Fin k0_t4_loop.trips) (c0_i32_153 : BitVec 32) : Fin 3 → Nat :=
  let c1_i32_162 : BitVec 32 := 1#32
  let v138 : Index := Scalar.indexCast c1_i32_162
  let c0_i32_78 : BitVec 32 := 0#32
  let c1_i32_80 : BitVec 32 := 1#32
  let arg12 : BitVec 32 := Scf.iv c0_i32_78 c1_i32_80 k0_t4
  let c20_i32 : BitVec 32 := 20#32
  let v91 : BitVec 32 := Scalar.muli arg12 c20_i32
  let v93 : BitVec 32 := Scalar.addi v91 c0_i32_153
  let v139 : Index := Scalar.indexCast v93
  let c112 : Index := 112#32
  ![1, v139.toNat, 112]
def k0_off51 (k0_t4 : Fin k0_t4_loop.trips) : Fin 2 → Nat :=
  let c12_i32_512 : BitVec 32 := 12#32
  let c0_i32_78 : BitVec 32 := 0#32
  let c1_i32_80 : BitVec 32 := 1#32
  let arg12 : BitVec 32 := Scf.iv c0_i32_78 c1_i32_80 k0_t4
  let v1155 : BitVec 32 := Scalar.addi c12_i32_512 arg12
  let v1156 : Index := Scalar.indexCast v1155
  let c0_513 : Index := 0#32
  ![v1156.toNat, 0]
def k0_off52 (k0_t4 : Fin k0_t4_loop.trips) : Fin 2 → Nat :=
  let c12_i32_514 : BitVec 32 := 12#32
  let c0_i32_78 : BitVec 32 := 0#32
  let c1_i32_80 : BitVec 32 := 1#32
  let arg12 : BitVec 32 := Scf.iv c0_i32_78 c1_i32_80 k0_t4
  let v1162 : BitVec 32 := Scalar.addi c12_i32_514 arg12
  let v1163 : Index := Scalar.indexCast v1162
  let c16_515 : Index := 16#32
  ![v1163.toNat, 16]
def k0_off53 (k0_t4 : Fin k0_t4_loop.trips) : Fin 2 → Nat :=
  let c12_i32_516 : BitVec 32 := 12#32
  let c0_i32_78 : BitVec 32 := 0#32
  let c1_i32_80 : BitVec 32 := 1#32
  let arg12 : BitVec 32 := Scf.iv c0_i32_78 c1_i32_80 k0_t4
  let v1169 : BitVec 32 := Scalar.addi c12_i32_516 arg12
  let v1170 : Index := Scalar.indexCast v1169
  let c32_517 : Index := 32#32
  ![v1170.toNat, 32]
def k0_off54 (k0_t4 : Fin k0_t4_loop.trips) : Fin 2 → Nat :=
  let c12_i32_518 : BitVec 32 := 12#32
  let c0_i32_78 : BitVec 32 := 0#32
  let c1_i32_80 : BitVec 32 := 1#32
  let arg12 : BitVec 32 := Scf.iv c0_i32_78 c1_i32_80 k0_t4
  let v1176 : BitVec 32 := Scalar.addi c12_i32_518 arg12
  let v1177 : Index := Scalar.indexCast v1176
  let c48_519 : Index := 48#32
  ![v1177.toNat, 48]
@[reducible] def k0_t5_loop : Scf.Loop 32 :=
  let c0_i32_97 : BitVec 32 := 0#32
  let c4_i32_98 : BitVec 32 := 4#32
  let v61 : BitVec 32 := Scalar.addi c0_i32_97 c4_i32_98
  let c1_i32_99 : BitVec 32 := 1#32
  ⟨c0_i32_97, v61, c1_i32_99⟩
def k0_off55 (k0_t5 : Fin k0_t5_loop.trips) (c0_i32_153 : BitVec 32) : Fin 2 → Nat :=
  let c320_i32 : BitVec 32 := 320#32
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v94 : BitVec 32 := Scalar.addi c320_i32 v93
  let v95 : Index := Scalar.indexCast v94
  let c0 : Index := 0#32
  ![v95.toNat, 0]
def k0_off56 (k0_t5 : Fin k0_t5_loop.trips) (c0_i32_153 : BitVec 32) : Fin 3 → Nat :=
  let c0_i32_154 : BitVec 32 := 0#32
  let v98 : Index := Scalar.indexCast c0_i32_154
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![0, v99.toNat, 0]
def k0_off57 (k0_t5 : Fin k0_t5_loop.trips) (c0_i32_153 : BitVec 32) : Fin 3 → Nat :=
  let c0_i32_156 : BitVec 32 := 0#32
  let v102 : Index := Scalar.indexCast c0_i32_156
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v103 : Index := Scalar.indexCast v93
  let c64 : Index := 64#32
  ![0, v103.toNat, 64]
def k0_off58 (k0_t5 : Fin k0_t5_loop.trips) (c0_i32_153 : BitVec 32) : Fin 3 → Nat :=
  let c0_i32_157 : BitVec 32 := 0#32
  let v110 : Index := Scalar.indexCast c0_i32_157
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v111 : Index := Scalar.indexCast v93
  let c16 : Index := 16#32
  ![0, v111.toNat, 16]
def k0_off59 (k0_t5 : Fin k0_t5_loop.trips) (c0_i32_153 : BitVec 32) : Fin 3 → Nat :=
  let c0_i32_158 : BitVec 32 := 0#32
  let v114 : Index := Scalar.indexCast c0_i32_158
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v115 : Index := Scalar.indexCast v93
  let c80 : Index := 80#32
  ![0, v115.toNat, 80]
def k0_off60 (k0_t5 : Fin k0_t5_loop.trips) (c0_i32_153 : BitVec 32) : Fin 3 → Nat :=
  let c0_i32_159 : BitVec 32 := 0#32
  let v122 : Index := Scalar.indexCast c0_i32_159
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v123 : Index := Scalar.indexCast v93
  let c32 : Index := 32#32
  ![0, v123.toNat, 32]
def k0_off61 (k0_t5 : Fin k0_t5_loop.trips) (c0_i32_153 : BitVec 32) : Fin 3 → Nat :=
  let c0_i32_160 : BitVec 32 := 0#32
  let v126 : Index := Scalar.indexCast c0_i32_160
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v127 : Index := Scalar.indexCast v93
  let c96 : Index := 96#32
  ![0, v127.toNat, 96]
def k0_off62 (k0_t5 : Fin k0_t5_loop.trips) (c0_i32_153 : BitVec 32) : Fin 3 → Nat :=
  let c0_i32_161 : BitVec 32 := 0#32
  let v134 : Index := Scalar.indexCast c0_i32_161
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v135 : Index := Scalar.indexCast v93
  let c48 : Index := 48#32
  ![0, v135.toNat, 48]
def k0_off63 (k0_t5 : Fin k0_t5_loop.trips) (c0_i32_153 : BitVec 32) : Fin 3 → Nat :=
  let c0_i32_162 : BitVec 32 := 0#32
  let v138 : Index := Scalar.indexCast c0_i32_162
  let c0_i32_97 : BitVec 32 := 0#32
  let c1_i32_99 : BitVec 32 := 1#32
  let arg12 : BitVec 32 := Scf.iv c0_i32_97 c1_i32_99 k0_t5
  let c20_i32 : BitVec 32 := 20#32
  let v91 : BitVec 32 := Scalar.muli arg12 c20_i32
  let v93 : BitVec 32 := Scalar.addi v91 c0_i32_153
  let v139 : Index := Scalar.indexCast v93
  let c112 : Index := 112#32
  ![0, v139.toNat, 112]
def k0_off64 (k0_t5 : Fin k0_t5_loop.trips) : Fin 2 → Nat :=
  let c16_i32_512 : BitVec 32 := 16#32
  let c0_i32_97 : BitVec 32 := 0#32
  let c1_i32_99 : BitVec 32 := 1#32
  let arg12 : BitVec 32 := Scf.iv c0_i32_97 c1_i32_99 k0_t5
  let v1155 : BitVec 32 := Scalar.addi c16_i32_512 arg12
  let v1156 : Index := Scalar.indexCast v1155
  let c0_513 : Index := 0#32
  ![v1156.toNat, 0]
def k0_off65 (k0_t5 : Fin k0_t5_loop.trips) : Fin 2 → Nat :=
  let c16_i32_514 : BitVec 32 := 16#32
  let c0_i32_97 : BitVec 32 := 0#32
  let c1_i32_99 : BitVec 32 := 1#32
  let arg12 : BitVec 32 := Scf.iv c0_i32_97 c1_i32_99 k0_t5
  let v1162 : BitVec 32 := Scalar.addi c16_i32_514 arg12
  let v1163 : Index := Scalar.indexCast v1162
  let c16_515 : Index := 16#32
  ![v1163.toNat, 16]
def k0_off66 (k0_t5 : Fin k0_t5_loop.trips) : Fin 2 → Nat :=
  let c16_i32_516 : BitVec 32 := 16#32
  let c0_i32_97 : BitVec 32 := 0#32
  let c1_i32_99 : BitVec 32 := 1#32
  let arg12 : BitVec 32 := Scf.iv c0_i32_97 c1_i32_99 k0_t5
  let v1169 : BitVec 32 := Scalar.addi c16_i32_516 arg12
  let v1170 : Index := Scalar.indexCast v1169
  let c32_517 : Index := 32#32
  ![v1170.toNat, 32]
def k0_off67 (k0_t5 : Fin k0_t5_loop.trips) : Fin 2 → Nat :=
  let c16_i32_518 : BitVec 32 := 16#32
  let c0_i32_97 : BitVec 32 := 0#32
  let c1_i32_99 : BitVec 32 := 1#32
  let arg12 : BitVec 32 := Scf.iv c0_i32_97 c1_i32_99 k0_t5
  let v1176 : BitVec 32 := Scalar.addi c16_i32_518 arg12
  let v1177 : Index := Scalar.indexCast v1176
  let c48_519 : Index := 48#32
  ![v1177.toNat, 48]
@[reducible] def k0_t6_loop : Scf.Loop 32 :=
  let c0_i32_116 : BitVec 32 := 0#32
  let c4_i32_117 : BitVec 32 := 4#32
  let v72 : BitVec 32 := Scalar.addi c0_i32_116 c4_i32_117
  let c1_i32_118 : BitVec 32 := 1#32
  ⟨c0_i32_116, v72, c1_i32_118⟩
def k0_off68 (k0_t6 : Fin k0_t6_loop.trips) (c0_i32_153 : BitVec 32) : Fin 2 → Nat :=
  let c400_i32 : BitVec 32 := 400#32
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v94 : BitVec 32 := Scalar.addi c400_i32 v93
  let v95 : Index := Scalar.indexCast v94
  let c0 : Index := 0#32
  ![v95.toNat, 0]
def k0_off69 (k0_t6 : Fin k0_t6_loop.trips) (c0_i32_153 : BitVec 32) : Fin 3 → Nat :=
  let c1_i32_154 : BitVec 32 := 1#32
  let v98 : Index := Scalar.indexCast c1_i32_154
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![1, v99.toNat, 0]
def k0_off70 (k0_t6 : Fin k0_t6_loop.trips) (c0_i32_153 : BitVec 32) : Fin 3 → Nat :=
  let c1_i32_156 : BitVec 32 := 1#32
  let v102 : Index := Scalar.indexCast c1_i32_156
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v103 : Index := Scalar.indexCast v93
  let c64 : Index := 64#32
  ![1, v103.toNat, 64]
def k0_off71 (k0_t6 : Fin k0_t6_loop.trips) (c0_i32_153 : BitVec 32) : Fin 3 → Nat :=
  let c1_i32_157 : BitVec 32 := 1#32
  let v110 : Index := Scalar.indexCast c1_i32_157
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v111 : Index := Scalar.indexCast v93
  let c16 : Index := 16#32
  ![1, v111.toNat, 16]
def k0_off72 (k0_t6 : Fin k0_t6_loop.trips) (c0_i32_153 : BitVec 32) : Fin 3 → Nat :=
  let c1_i32_158 : BitVec 32 := 1#32
  let v114 : Index := Scalar.indexCast c1_i32_158
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v115 : Index := Scalar.indexCast v93
  let c80 : Index := 80#32
  ![1, v115.toNat, 80]
def k0_off73 (k0_t6 : Fin k0_t6_loop.trips) (c0_i32_153 : BitVec 32) : Fin 3 → Nat :=
  let c1_i32_159 : BitVec 32 := 1#32
  let v122 : Index := Scalar.indexCast c1_i32_159
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v123 : Index := Scalar.indexCast v93
  let c32 : Index := 32#32
  ![1, v123.toNat, 32]
def k0_off74 (k0_t6 : Fin k0_t6_loop.trips) (c0_i32_153 : BitVec 32) : Fin 3 → Nat :=
  let c1_i32_160 : BitVec 32 := 1#32
  let v126 : Index := Scalar.indexCast c1_i32_160
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v127 : Index := Scalar.indexCast v93
  let c96 : Index := 96#32
  ![1, v127.toNat, 96]
def k0_off75 (k0_t6 : Fin k0_t6_loop.trips) (c0_i32_153 : BitVec 32) : Fin 3 → Nat :=
  let c1_i32_161 : BitVec 32 := 1#32
  let v134 : Index := Scalar.indexCast c1_i32_161
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v135 : Index := Scalar.indexCast v93
  let c48 : Index := 48#32
  ![1, v135.toNat, 48]
def k0_off76 (k0_t6 : Fin k0_t6_loop.trips) (c0_i32_153 : BitVec 32) : Fin 3 → Nat :=
  let c1_i32_162 : BitVec 32 := 1#32
  let v138 : Index := Scalar.indexCast c1_i32_162
  let c0_i32_116 : BitVec 32 := 0#32
  let c1_i32_118 : BitVec 32 := 1#32
  let arg12 : BitVec 32 := Scf.iv c0_i32_116 c1_i32_118 k0_t6
  let c20_i32 : BitVec 32 := 20#32
  let v91 : BitVec 32 := Scalar.muli arg12 c20_i32
  let v93 : BitVec 32 := Scalar.addi v91 c0_i32_153
  let v139 : Index := Scalar.indexCast v93
  let c112 : Index := 112#32
  ![1, v139.toNat, 112]
def k0_off77 (k0_t6 : Fin k0_t6_loop.trips) : Fin 2 → Nat :=
  let c20_i32_512 : BitVec 32 := 20#32
  let c0_i32_116 : BitVec 32 := 0#32
  let c1_i32_118 : BitVec 32 := 1#32
  let arg12 : BitVec 32 := Scf.iv c0_i32_116 c1_i32_118 k0_t6
  let v1155 : BitVec 32 := Scalar.addi c20_i32_512 arg12
  let v1156 : Index := Scalar.indexCast v1155
  let c0_513 : Index := 0#32
  ![v1156.toNat, 0]
def k0_off78 (k0_t6 : Fin k0_t6_loop.trips) : Fin 2 → Nat :=
  let c20_i32_514 : BitVec 32 := 20#32
  let c0_i32_116 : BitVec 32 := 0#32
  let c1_i32_118 : BitVec 32 := 1#32
  let arg12 : BitVec 32 := Scf.iv c0_i32_116 c1_i32_118 k0_t6
  let v1162 : BitVec 32 := Scalar.addi c20_i32_514 arg12
  let v1163 : Index := Scalar.indexCast v1162
  let c16_515 : Index := 16#32
  ![v1163.toNat, 16]
def k0_off79 (k0_t6 : Fin k0_t6_loop.trips) : Fin 2 → Nat :=
  let c20_i32_516 : BitVec 32 := 20#32
  let c0_i32_116 : BitVec 32 := 0#32
  let c1_i32_118 : BitVec 32 := 1#32
  let arg12 : BitVec 32 := Scf.iv c0_i32_116 c1_i32_118 k0_t6
  let v1169 : BitVec 32 := Scalar.addi c20_i32_516 arg12
  let v1170 : Index := Scalar.indexCast v1169
  let c32_517 : Index := 32#32
  ![v1170.toNat, 32]
def k0_off80 (k0_t6 : Fin k0_t6_loop.trips) : Fin 2 → Nat :=
  let c20_i32_518 : BitVec 32 := 20#32
  let c0_i32_116 : BitVec 32 := 0#32
  let c1_i32_118 : BitVec 32 := 1#32
  let arg12 : BitVec 32 := Scf.iv c0_i32_116 c1_i32_118 k0_t6
  let v1176 : BitVec 32 := Scalar.addi c20_i32_518 arg12
  let v1177 : Index := Scalar.indexCast v1176
  let c48_519 : Index := 48#32
  ![v1177.toNat, 48]
@[reducible] def k0_t7_loop : Scf.Loop 32 :=
  let c0_i32_135 : BitVec 32 := 0#32
  let c4_i32_136 : BitVec 32 := 4#32
  let v83 : BitVec 32 := Scalar.addi c0_i32_135 c4_i32_136
  let c1_i32_137 : BitVec 32 := 1#32
  ⟨c0_i32_135, v83, c1_i32_137⟩
def k0_off81 (k0_t7 : Fin k0_t7_loop.trips) (c0_i32_153 : BitVec 32) : Fin 2 → Nat :=
  let c480_i32 : BitVec 32 := 480#32
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v94 : BitVec 32 := Scalar.addi c480_i32 v93
  let v95 : Index := Scalar.indexCast v94
  let c0 : Index := 0#32
  ![v95.toNat, 0]
def k0_off82 (k0_t7 : Fin k0_t7_loop.trips) (c0_i32_153 : BitVec 32) : Fin 3 → Nat :=
  let c0_i32_154 : BitVec 32 := 0#32
  let v98 : Index := Scalar.indexCast c0_i32_154
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![0, v99.toNat, 0]
def k0_off83 (k0_t7 : Fin k0_t7_loop.trips) (c0_i32_153 : BitVec 32) : Fin 3 → Nat :=
  let c0_i32_156 : BitVec 32 := 0#32
  let v102 : Index := Scalar.indexCast c0_i32_156
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v103 : Index := Scalar.indexCast v93
  let c64 : Index := 64#32
  ![0, v103.toNat, 64]
def k0_off84 (k0_t7 : Fin k0_t7_loop.trips) (c0_i32_153 : BitVec 32) : Fin 3 → Nat :=
  let c0_i32_157 : BitVec 32 := 0#32
  let v110 : Index := Scalar.indexCast c0_i32_157
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v111 : Index := Scalar.indexCast v93
  let c16 : Index := 16#32
  ![0, v111.toNat, 16]
def k0_off85 (k0_t7 : Fin k0_t7_loop.trips) (c0_i32_153 : BitVec 32) : Fin 3 → Nat :=
  let c0_i32_158 : BitVec 32 := 0#32
  let v114 : Index := Scalar.indexCast c0_i32_158
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v115 : Index := Scalar.indexCast v93
  let c80 : Index := 80#32
  ![0, v115.toNat, 80]
def k0_off86 (k0_t7 : Fin k0_t7_loop.trips) (c0_i32_153 : BitVec 32) : Fin 3 → Nat :=
  let c0_i32_159 : BitVec 32 := 0#32
  let v122 : Index := Scalar.indexCast c0_i32_159
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v123 : Index := Scalar.indexCast v93
  let c32 : Index := 32#32
  ![0, v123.toNat, 32]
def k0_off87 (k0_t7 : Fin k0_t7_loop.trips) (c0_i32_153 : BitVec 32) : Fin 3 → Nat :=
  let c0_i32_160 : BitVec 32 := 0#32
  let v126 : Index := Scalar.indexCast c0_i32_160
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v127 : Index := Scalar.indexCast v93
  let c96 : Index := 96#32
  ![0, v127.toNat, 96]
def k0_off88 (k0_t7 : Fin k0_t7_loop.trips) (c0_i32_153 : BitVec 32) : Fin 3 → Nat :=
  let c0_i32_161 : BitVec 32 := 0#32
  let v134 : Index := Scalar.indexCast c0_i32_161
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v135 : Index := Scalar.indexCast v93
  let c48 : Index := 48#32
  ![0, v135.toNat, 48]
def k0_off89 (k0_t7 : Fin k0_t7_loop.trips) (c0_i32_153 : BitVec 32) : Fin 3 → Nat :=
  let c0_i32_162 : BitVec 32 := 0#32
  let v138 : Index := Scalar.indexCast c0_i32_162
  let c0_i32_135 : BitVec 32 := 0#32
  let c1_i32_137 : BitVec 32 := 1#32
  let arg12 : BitVec 32 := Scf.iv c0_i32_135 c1_i32_137 k0_t7
  let c20_i32 : BitVec 32 := 20#32
  let v91 : BitVec 32 := Scalar.muli arg12 c20_i32
  let v93 : BitVec 32 := Scalar.addi v91 c0_i32_153
  let v139 : Index := Scalar.indexCast v93
  let c112 : Index := 112#32
  ![0, v139.toNat, 112]
def k0_off90 (k0_t7 : Fin k0_t7_loop.trips) : Fin 2 → Nat :=
  let c24_i32 : BitVec 32 := 24#32
  let c0_i32_135 : BitVec 32 := 0#32
  let c1_i32_137 : BitVec 32 := 1#32
  let arg12 : BitVec 32 := Scf.iv c0_i32_135 c1_i32_137 k0_t7
  let v1155 : BitVec 32 := Scalar.addi c24_i32 arg12
  let v1156 : Index := Scalar.indexCast v1155
  let c0_512 : Index := 0#32
  ![v1156.toNat, 0]
def k0_off91 (k0_t7 : Fin k0_t7_loop.trips) : Fin 2 → Nat :=
  let c24_i32_513 : BitVec 32 := 24#32
  let c0_i32_135 : BitVec 32 := 0#32
  let c1_i32_137 : BitVec 32 := 1#32
  let arg12 : BitVec 32 := Scf.iv c0_i32_135 c1_i32_137 k0_t7
  let v1162 : BitVec 32 := Scalar.addi c24_i32_513 arg12
  let v1163 : Index := Scalar.indexCast v1162
  let c16_514 : Index := 16#32
  ![v1163.toNat, 16]
def k0_off92 (k0_t7 : Fin k0_t7_loop.trips) : Fin 2 → Nat :=
  let c24_i32_515 : BitVec 32 := 24#32
  let c0_i32_135 : BitVec 32 := 0#32
  let c1_i32_137 : BitVec 32 := 1#32
  let arg12 : BitVec 32 := Scf.iv c0_i32_135 c1_i32_137 k0_t7
  let v1169 : BitVec 32 := Scalar.addi c24_i32_515 arg12
  let v1170 : Index := Scalar.indexCast v1169
  let c32_516 : Index := 32#32
  ![v1170.toNat, 32]
def k0_off93 (k0_t7 : Fin k0_t7_loop.trips) : Fin 2 → Nat :=
  let c24_i32_517 : BitVec 32 := 24#32
  let c0_i32_135 : BitVec 32 := 0#32
  let c1_i32_137 : BitVec 32 := 1#32
  let arg12 : BitVec 32 := Scf.iv c0_i32_135 c1_i32_137 k0_t7
  let v1176 : BitVec 32 := Scalar.addi c24_i32_517 arg12
  let v1177 : Index := Scalar.indexCast v1176
  let c48_518 : Index := 48#32
  ![v1177.toNat, 48]
@[reducible] def k0_t8_loop : Scf.Loop 32 :=
  let c0_i32_148 : BitVec 32 := 0#32
  let c4_i32_149 : BitVec 32 := 4#32
  let v89 : BitVec 32 := Scalar.addi c0_i32_148 c4_i32_149
  let c1_i32_150 : BitVec 32 := 1#32
  ⟨c0_i32_148, v89, c1_i32_150⟩
def k0_off94 (k0_t8 : Fin k0_t8_loop.trips) (c0_i32_153 : BitVec 32) : Fin 2 → Nat :=
  let c560_i32 : BitVec 32 := 560#32
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v94 : BitVec 32 := Scalar.addi c560_i32 v93
  let v95 : Index := Scalar.indexCast v94
  let c0 : Index := 0#32
  ![v95.toNat, 0]
def k0_off95 (k0_t8 : Fin k0_t8_loop.trips) (c0_i32_153 : BitVec 32) : Fin 3 → Nat :=
  let c1_i32_154 : BitVec 32 := 1#32
  let v98 : Index := Scalar.indexCast c1_i32_154
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v99 : Index := Scalar.indexCast v93
  let c0_155 : Index := 0#32
  ![1, v99.toNat, 0]
def k0_off96 (k0_t8 : Fin k0_t8_loop.trips) (c0_i32_153 : BitVec 32) : Fin 3 → Nat :=
  let c1_i32_156 : BitVec 32 := 1#32
  let v102 : Index := Scalar.indexCast c1_i32_156
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v103 : Index := Scalar.indexCast v93
  let c64 : Index := 64#32
  ![1, v103.toNat, 64]
def k0_off97 (k0_t8 : Fin k0_t8_loop.trips) (c0_i32_153 : BitVec 32) : Fin 3 → Nat :=
  let c1_i32_157 : BitVec 32 := 1#32
  let v110 : Index := Scalar.indexCast c1_i32_157
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v111 : Index := Scalar.indexCast v93
  let c16 : Index := 16#32
  ![1, v111.toNat, 16]
def k0_off98 (k0_t8 : Fin k0_t8_loop.trips) (c0_i32_153 : BitVec 32) : Fin 3 → Nat :=
  let c1_i32_158 : BitVec 32 := 1#32
  let v114 : Index := Scalar.indexCast c1_i32_158
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v115 : Index := Scalar.indexCast v93
  let c80 : Index := 80#32
  ![1, v115.toNat, 80]
def k0_off99 (k0_t8 : Fin k0_t8_loop.trips) (c0_i32_153 : BitVec 32) : Fin 3 → Nat :=
  let c1_i32_159 : BitVec 32 := 1#32
  let v122 : Index := Scalar.indexCast c1_i32_159
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v123 : Index := Scalar.indexCast v93
  let c32 : Index := 32#32
  ![1, v123.toNat, 32]
def k0_off100 (k0_t8 : Fin k0_t8_loop.trips) (c0_i32_153 : BitVec 32) : Fin 3 → Nat :=
  let c1_i32_160 : BitVec 32 := 1#32
  let v126 : Index := Scalar.indexCast c1_i32_160
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v127 : Index := Scalar.indexCast v93
  let c96 : Index := 96#32
  ![1, v127.toNat, 96]
def k0_off101 (k0_t8 : Fin k0_t8_loop.trips) (c0_i32_153 : BitVec 32) : Fin 3 → Nat :=
  let c1_i32_161 : BitVec 32 := 1#32
  let v134 : Index := Scalar.indexCast c1_i32_161
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v135 : Index := Scalar.indexCast v93
  let c48 : Index := 48#32
  ![1, v135.toNat, 48]
def k0_off102 (k0_t8 : Fin k0_t8_loop.trips) (c0_i32_153 : BitVec 32) : Fin 3 → Nat :=
  let c1_i32_162 : BitVec 32 := 1#32
  let v138 : Index := Scalar.indexCast c1_i32_162
  let c0_i32_148 : BitVec 32 := 0#32
  let c1_i32_150 : BitVec 32 := 1#32
  let arg12 : BitVec 32 := Scf.iv c0_i32_148 c1_i32_150 k0_t8
  let c20_i32 : BitVec 32 := 20#32
  let v91 : BitVec 32 := Scalar.muli arg12 c20_i32
  let v93 : BitVec 32 := Scalar.addi v91 c0_i32_153
  let v139 : Index := Scalar.indexCast v93
  let c112 : Index := 112#32
  ![1, v139.toNat, 112]
def k0_off103 (k0_t8 : Fin k0_t8_loop.trips) : Fin 2 → Nat :=
  let c28_i32 : BitVec 32 := 28#32
  let c0_i32_148 : BitVec 32 := 0#32
  let c1_i32_150 : BitVec 32 := 1#32
  let arg12 : BitVec 32 := Scf.iv c0_i32_148 c1_i32_150 k0_t8
  let v1155 : BitVec 32 := Scalar.addi c28_i32 arg12
  let v1156 : Index := Scalar.indexCast v1155
  let c0_512 : Index := 0#32
  ![v1156.toNat, 0]
def k0_off104 (k0_t8 : Fin k0_t8_loop.trips) : Fin 2 → Nat :=
  let c28_i32_513 : BitVec 32 := 28#32
  let c0_i32_148 : BitVec 32 := 0#32
  let c1_i32_150 : BitVec 32 := 1#32
  let arg12 : BitVec 32 := Scf.iv c0_i32_148 c1_i32_150 k0_t8
  let v1162 : BitVec 32 := Scalar.addi c28_i32_513 arg12
  let v1163 : Index := Scalar.indexCast v1162
  let c16_514 : Index := 16#32
  ![v1163.toNat, 16]
def k0_off105 (k0_t8 : Fin k0_t8_loop.trips) : Fin 2 → Nat :=
  let c28_i32_515 : BitVec 32 := 28#32
  let c0_i32_148 : BitVec 32 := 0#32
  let c1_i32_150 : BitVec 32 := 1#32
  let arg12 : BitVec 32 := Scf.iv c0_i32_148 c1_i32_150 k0_t8
  let v1169 : BitVec 32 := Scalar.addi c28_i32_515 arg12
  let v1170 : Index := Scalar.indexCast v1169
  let c32_516 : Index := 32#32
  ![v1170.toNat, 32]
def k0_off106 (k0_t8 : Fin k0_t8_loop.trips) : Fin 2 → Nat :=
  let c28_i32_517 : BitVec 32 := 28#32
  let c0_i32_148 : BitVec 32 := 0#32
  let c1_i32_150 : BitVec 32 := 1#32
  let arg12 : BitVec 32 := Scf.iv c0_i32_148 c1_i32_150 k0_t8
  let v1176 : BitVec 32 := Scalar.addi c28_i32_517 arg12
  let v1177 : Index := Scalar.indexCast v1176
  let c48_518 : Index := 48#32
  ![v1177.toNat, 48]
def k0_off107 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v90 : BitVec 32 := Scalar.muli v1 c32_i32
  let c0_i32_152_r2 : BitVec 32 := 0#32
  ![v90.toNat, 0]
abbrev grid1 : Pipeline.Grid := ⟨2, ![12, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S256x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S8192x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S256x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c48_i32 : BitVec 32 := 48#32
  let c0_i32 : BitVec 32 := 0#32
  let c0_i32_0 : BitVec 32 := 0#32
  ![c48_i32.toNat, c0_i32.toNat]

def cc2_transform_2 (i : grid2.Coords) : Fin 2 → Nat :=
  let arg0 : BitVec 32 := BitVec.ofNat 32 (i 0).val
  let c0_i32 : BitVec 32 := 0#32
  let c48_i32 : BitVec 32 := 48#32
  let c0_i32_0 : BitVec 32 := 0#32
  ![c0_i32.toNat, c48_i32.toNat]

def cc2_transform_4 (i : grid2.Coords) : Fin 2 → Nat :=
  let arg0 : BitVec 32 := BitVec.ofNat 32 (i 0).val
  let c0_i32 : BitVec 32 := 0#32
  let c48_i32 : BitVec 32 := 48#32
  let c0_i32_0 : BitVec 32 := 0#32
  ![c0_i32.toNat, c48_i32.toNat]

abbrev stage2_0 : Fin 1 → Memref sig .tc .vmem S1024x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  bcast_S_S1024x20 : S_.BroadcastsInDim S1024x20 (![] : Fin 0 → Fin S1024x20.rank)
  shapeCasts_S1024x20_S32x8x80 : S1024x20.ShapeCasts S32x8x80
  shapeCasts_S1024x20_S32x640x1 : S1024x20.ShapeCasts S32x640x1
  bcast_S32x640x1_S32x640x16_0_1_2 : S32x640x1.BroadcastsInDim S32x640x16 (![0, 1, 2] : Fin 3 → Fin S32x640x16.rank)
  shapeCasts_S100000x64_S50000x128 : S100000x64.ShapeCasts S50000x128
  squeezes_S1x8x80_S8x80 : S1x8x80.Squeezes S8x80
  squeezes_S1x640x16_S640x16 : S1x640x16.Squeezes S640x16
  inb_S2x80x128_S1x80x128_0_0_0 : ∀ a, (![0, 0, 0] : Fin 3 → Nat) a + S1x80x128.size a ≤ S2x80x128.size a
  squeezes_S1x80x128_S80x128 : S1x80x128.Squeezes S80x128
  inb_S8x80_S1x80_0_0 : ∀ a, (![0, 0] : Fin 2 → Nat) a + S1x80.size a ≤ S8x80.size a
  squeezes_S1x80_S80 : S1x80.Squeezes S80
  inb_S50000x128_S50000x128_0_0 : ∀ a, (![0, 0] : Fin 2 → Nat) a + S50000x128.size a ≤ S50000x128.size a
  gathers_S50000x128_S80x128 : S50000x128.Gathers 0 S80x128
  inb_S2x80x128_S1x80x128_1_0_0 : ∀ a, (![1, 0, 0] : Fin 3 → Nat) a + S1x80x128.size a ≤ S2x80x128.size a
  inb_S8x80_S1x80_1_0 : ∀ a, (![1, 0] : Fin 2 → Nat) a + S1x80.size a ≤ S8x80.size a
  h_S1x16 : 0 < S1x16.numel
  shapeCasts_S1x16_S16 : S1x16.ShapeCasts S16
  h_S1x1x16 : 0 < S1x1x16.numel
  shapeCasts_S1x1x16_S16 : S1x1x16.ShapeCasts S16
  shapeCasts_S16_S1x16 : S16.ShapeCasts S1x16
  inb_S8x80_S1x80_2_0 : ∀ a, (![2, 0] : Fin 2 → Nat) a + S1x80.size a ≤ S8x80.size a
  inb_S8x80_S1x80_3_0 : ∀ a, (![3, 0] : Fin 2 → Nat) a + S1x80.size a ≤ S8x80.size a
  inb_S8x80_S1x80_4_0 : ∀ a, (![4, 0] : Fin 2 → Nat) a + S1x80.size a ≤ S8x80.size a
  inb_S8x80_S1x80_5_0 : ∀ a, (![5, 0] : Fin 2 → Nat) a + S1x80.size a ≤ S8x80.size a
  inb_S8x80_S1x80_6_0 : ∀ a, (![6, 0] : Fin 2 → Nat) a + S1x80.size a ≤ S8x80.size a
  inb_S8x80_S1x80_7_0 : ∀ a, (![7, 0] : Fin 2 → Nat) a + S1x80.size a ≤ S8x80.size a
  shapeCasts_S100000_S1x100000 : S100000.ShapeCasts S1x100000
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S8192x64_S8192x64_0_0 : ∀ a, (![0, 0] : Fin 2 → Nat) a + S8192x64.size a ≤ S8192x64.size a
  h_S8192x64 : 0 < S8192x64.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  broadcasts_S1x8192_S256x8192 : S1x8192.Broadcasts S256x8192
  inb_S256x8192_S256x8192_0_0 : ∀ a, (![0, 0] : Fin 2 → Nat) a + S256x8192.size a ≤ S256x8192.size a
  h_S256x8192 : 0 < S256x8192.numel
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x64_S2048x64_0_0 : ∀ a, (![0, 0] : Fin 2 → Nat) a + S2048x64.size a ≤ S2048x64.size a
  h_S2048x64 : 0 < S2048x64.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S256x64_S8192x64_S256x8192_1_1_0_0_n_n_wf : DotDims.WF S256x64 S8192x64 S256x8192 [1] [1] [0] [0] [] []
  dot_S1024x64_S2048x64_S1024x2048_1_1_0_0_n_n_wf : DotDims.WF S1024x64 S2048x64 S1024x2048 [1] [1] [0] [0] [] []
  hcc0_scratch4 : 0 + S_.numel ≤ 17
  hcc0_scratch5 : 1 + S_.numel ≤ 17
  hcc0_scoped0 : 2 + S_.numel ≤ 17
  hcc0_scoped1 : 3 + S_.numel ≤ 17
  hcc0_scoped2 : 4 + S_.numel ≤ 17
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S1x8x80.size a ≤ S32x8x80.size a
  k0_off2_inb : ∀ i : grid0.Coords, ∀ a, (k0_off2 i) a + S1x640x16.size a ≤ S32x640x16.size a
  k0_t1_ok : k0_t1_loop.OK
  k0_off3_inb : ∀ k0_t1 : Fin k0_t1_loop.trips, ∀ (r : Fin 20), ∀ a, (k0_off3 k0_t1 (BitVec.ofNat 32 r.val)) a + S1x16.size a ≤ S640x16.size a
  k0_off4_inb : ∀ k0_t1 : Fin k0_t1_loop.trips, ∀ (r : Fin 20), ∀ a, (k0_off4 k0_t1 (BitVec.ofNat 32 r.val)) a + S1x1x16.size a ≤ S2x80x128.size a
  k0_off5_inb : ∀ k0_t1 : Fin k0_t1_loop.trips, ∀ (r : Fin 20), ∀ a, (k0_off5 k0_t1 (BitVec.ofNat 32 r.val)) a + S1x1x16.size a ≤ S2x80x128.size a
  k0_off6_inb : ∀ k0_t1 : Fin k0_t1_loop.trips, ∀ (r : Fin 20), ∀ a, (k0_off6 k0_t1 (BitVec.ofNat 32 r.val)) a + S1x1x16.size a ≤ S2x80x128.size a
  k0_off7_inb : ∀ k0_t1 : Fin k0_t1_loop.trips, ∀ (r : Fin 20), ∀ a, (k0_off7 k0_t1 (BitVec.ofNat 32 r.val)) a + S1x1x16.size a ≤ S2x80x128.size a
  k0_off8_inb : ∀ k0_t1 : Fin k0_t1_loop.trips, ∀ (r : Fin 20), ∀ a, (k0_off8 k0_t1 (BitVec.ofNat 32 r.val)) a + S1x1x16.size a ≤ S2x80x128.size a
  k0_off9_inb : ∀ k0_t1 : Fin k0_t1_loop.trips, ∀ (r : Fin 20), ∀ a, (k0_off9 k0_t1 (BitVec.ofNat 32 r.val)) a + S1x1x16.size a ≤ S2x80x128.size a
  k0_off10_inb : ∀ k0_t1 : Fin k0_t1_loop.trips, ∀ (r : Fin 20), ∀ a, (k0_off10 k0_t1 (BitVec.ofNat 32 r.val)) a + S1x1x16.size a ≤ S2x80x128.size a
  k0_off11_inb : ∀ k0_t1 : Fin k0_t1_loop.trips, ∀ (r : Fin 20), ∀ a, (k0_off11 k0_t1 (BitVec.ofNat 32 r.val)) a + S1x1x16.size a ≤ S2x80x128.size a
  k0_off12_inb : ∀ k0_t1 : Fin k0_t1_loop.trips, ∀ a, (k0_off12 k0_t1) a + S1x16.size a ≤ S32x64.size a
  k0_off13_inb : ∀ k0_t1 : Fin k0_t1_loop.trips, ∀ a, (k0_off13 k0_t1) a + S1x16.size a ≤ S32x64.size a
  k0_off14_inb : ∀ k0_t1 : Fin k0_t1_loop.trips, ∀ a, (k0_off14 k0_t1) a + S1x16.size a ≤ S32x64.size a
  k0_off15_inb : ∀ k0_t1 : Fin k0_t1_loop.trips, ∀ a, (k0_off15 k0_t1) a + S1x16.size a ≤ S32x64.size a
  k0_t2_ok : k0_t2_loop.OK
  k0_off16_inb : ∀ k0_t2 : Fin k0_t2_loop.trips, ∀ (r : Fin 20), ∀ a, (k0_off16 k0_t2 (BitVec.ofNat 32 r.val)) a + S1x16.size a ≤ S640x16.size a
  k0_off17_inb : ∀ k0_t2 : Fin k0_t2_loop.trips, ∀ (r : Fin 20), ∀ a, (k0_off17 k0_t2 (BitVec.ofNat 32 r.val)) a + S1x1x16.size a ≤ S2x80x128.size a
  k0_off18_inb : ∀ k0_t2 : Fin k0_t2_loop.trips, ∀ (r : Fin 20), ∀ a, (k0_off18 k0_t2 (BitVec.ofNat 32 r.val)) a + S1x1x16.size a ≤ S2x80x128.size a
  k0_off19_inb : ∀ k0_t2 : Fin k0_t2_loop.trips, ∀ (r : Fin 20), ∀ a, (k0_off19 k0_t2 (BitVec.ofNat 32 r.val)) a + S1x1x16.size a ≤ S2x80x128.size a
  k0_off20_inb : ∀ k0_t2 : Fin k0_t2_loop.trips, ∀ (r : Fin 20), ∀ a, (k0_off20 k0_t2 (BitVec.ofNat 32 r.val)) a + S1x1x16.size a ≤ S2x80x128.size a
  k0_off21_inb : ∀ k0_t2 : Fin k0_t2_loop.trips, ∀ (r : Fin 20), ∀ a, (k0_off21 k0_t2 (BitVec.ofNat 32 r.val)) a + S1x1x16.size a ≤ S2x80x128.size a
  k0_off22_inb : ∀ k0_t2 : Fin k0_t2_loop.trips, ∀ (r : Fin 20), ∀ a, (k0_off22 k0_t2 (BitVec.ofNat 32 r.val)) a + S1x1x16.size a ≤ S2x80x128.size a
  k0_off23_inb : ∀ k0_t2 : Fin k0_t2_loop.trips, ∀ (r : Fin 20), ∀ a, (k0_off23 k0_t2 (BitVec.ofNat 32 r.val)) a + S1x1x16.size a ≤ S2x80x128.size a
  k0_off24_inb : ∀ k0_t2 : Fin k0_t2_loop.trips, ∀ (r : Fin 20), ∀ a, (k0_off24 k0_t2 (BitVec.ofNat 32 r.val)) a + S1x1x16.size a ≤ S2x80x128.size a
  k0_off25_inb : ∀ k0_t2 : Fin k0_t2_loop.trips, ∀ a, (k0_off25 k0_t2) a + S1x16.size a ≤ S32x64.size a
  k0_off26_inb : ∀ k0_t2 : Fin k0_t2_loop.trips, ∀ a, (k0_off26 k0_t2) a + S1x16.size a ≤ S32x64.size a
  k0_off27_inb : ∀ k0_t2 : Fin k0_t2_loop.trips, ∀ a, (k0_off27 k0_t2) a + S1x16.size a ≤ S32x64.size a
  k0_off28_inb : ∀ k0_t2 : Fin k0_t2_loop.trips, ∀ a, (k0_off28 k0_t2) a + S1x16.size a ≤ S32x64.size a
  k0_t3_ok : k0_t3_loop.OK
  k0_off29_inb : ∀ k0_t3 : Fin k0_t3_loop.trips, ∀ (r : Fin 20), ∀ a, (k0_off29 k0_t3 (BitVec.ofNat 32 r.val)) a + S1x16.size a ≤ S640x16.size a
  k0_off30_inb : ∀ k0_t3 : Fin k0_t3_loop.trips, ∀ (r : Fin 20), ∀ a, (k0_off30 k0_t3 (BitVec.ofNat 32 r.val)) a + S1x1x16.size a ≤ S2x80x128.size a
  k0_off31_inb : ∀ k0_t3 : Fin k0_t3_loop.trips, ∀ (r : Fin 20), ∀ a, (k0_off31 k0_t3 (BitVec.ofNat 32 r.val)) a + S1x1x16.size a ≤ S2x80x128.size a
  k0_off32_inb : ∀ k0_t3 : Fin k0_t3_loop.trips, ∀ (r : Fin 20), ∀ a, (k0_off32 k0_t3 (BitVec.ofNat 32 r.val)) a + S1x1x16.size a ≤ S2x80x128.size a
  k0_off33_inb : ∀ k0_t3 : Fin k0_t3_loop.trips, ∀ (r : Fin 20), ∀ a, (k0_off33 k0_t3 (BitVec.ofNat 32 r.val)) a + S1x1x16.size a ≤ S2x80x128.size a
  k0_off34_inb : ∀ k0_t3 : Fin k0_t3_loop.trips, ∀ (r : Fin 20), ∀ a, (k0_off34 k0_t3 (BitVec.ofNat 32 r.val)) a + S1x1x16.size a ≤ S2x80x128.size a
  k0_off35_inb : ∀ k0_t3 : Fin k0_t3_loop.trips, ∀ (r : Fin 20), ∀ a, (k0_off35 k0_t3 (BitVec.ofNat 32 r.val)) a + S1x1x16.size a ≤ S2x80x128.size a
  k0_off36_inb : ∀ k0_t3 : Fin k0_t3_loop.trips, ∀ (r : Fin 20), ∀ a, (k0_off36 k0_t3 (BitVec.ofNat 32 r.val)) a + S1x1x16.size a ≤ S2x80x128.size a
  k0_off37_inb : ∀ k0_t3 : Fin k0_t3_loop.trips, ∀ (r : Fin 20), ∀ a, (k0_off37 k0_t3 (BitVec.ofNat 32 r.val)) a + S1x1x16.size a ≤ S2x80x128.size a
  k0_off38_inb : ∀ k0_t3 : Fin k0_t3_loop.trips, ∀ a, (k0_off38 k0_t3) a + S1x16.size a ≤ S32x64.size a
  k0_off39_inb : ∀ k0_t3 : Fin k0_t3_loop.trips, ∀ a, (k0_off39 k0_t3) a + S1x16.size a ≤ S32x64.size a
  k0_off40_inb : ∀ k0_t3 : Fin k0_t3_loop.trips, ∀ a, (k0_off40 k0_t3) a + S1x16.size a ≤ S32x64.size a
  k0_off41_inb : ∀ k0_t3 : Fin k0_t3_loop.trips, ∀ a, (k0_off41 k0_t3) a + S1x16.size a ≤ S32x64.size a
  k0_t4_ok : k0_t4_loop.OK
  k0_off42_inb : ∀ k0_t4 : Fin k0_t4_loop.trips, ∀ (r : Fin 20), ∀ a, (k0_off42 k0_t4 (BitVec.ofNat 32 r.val)) a + S1x16.size a ≤ S640x16.size a
  k0_off43_inb : ∀ k0_t4 : Fin k0_t4_loop.trips, ∀ (r : Fin 20), ∀ a, (k0_off43 k0_t4 (BitVec.ofNat 32 r.val)) a + S1x1x16.size a ≤ S2x80x128.size a
  k0_off44_inb : ∀ k0_t4 : Fin k0_t4_loop.trips, ∀ (r : Fin 20), ∀ a, (k0_off44 k0_t4 (BitVec.ofNat 32 r.val)) a + S1x1x16.size a ≤ S2x80x128.size a
  k0_off45_inb : ∀ k0_t4 : Fin k0_t4_loop.trips, ∀ (r : Fin 20), ∀ a, (k0_off45 k0_t4 (BitVec.ofNat 32 r.val)) a + S1x1x16.size a ≤ S2x80x128.size a
  k0_off46_inb : ∀ k0_t4 : Fin k0_t4_loop.trips, ∀ (r : Fin 20), ∀ a, (k0_off46 k0_t4 (BitVec.ofNat 32 r.val)) a + S1x1x16.size a ≤ S2x80x128.size a
  k0_off47_inb : ∀ k0_t4 : Fin k0_t4_loop.trips, ∀ (r : Fin 20), ∀ a, (k0_off47 k0_t4 (BitVec.ofNat 32 r.val)) a + S1x1x16.size a ≤ S2x80x128.size a
  k0_off48_inb : ∀ k0_t4 : Fin k0_t4_loop.trips, ∀ (r : Fin 20), ∀ a, (k0_off48 k0_t4 (BitVec.ofNat 32 r.val)) a + S1x1x16.size a ≤ S2x80x128.size a
  k0_off49_inb : ∀ k0_t4 : Fin k0_t4_loop.trips, ∀ (r : Fin 20), ∀ a, (k0_off49 k0_t4 (BitVec.ofNat 32 r.val)) a + S1x1x16.size a ≤ S2x80x128.size a
  k0_off50_inb : ∀ k0_t4 : Fin k0_t4_loop.trips, ∀ (r : Fin 20), ∀ a, (k0_off50 k0_t4 (BitVec.ofNat 32 r.val)) a + S1x1x16.size a ≤ S2x80x128.size a
  k0_off51_inb : ∀ k0_t4 : Fin k0_t4_loop.trips, ∀ a, (k0_off51 k0_t4) a + S1x16.size a ≤ S32x64.size a
  k0_off52_inb : ∀ k0_t4 : Fin k0_t4_loop.trips, ∀ a, (k0_off52 k0_t4) a + S1x16.size a ≤ S32x64.size a
  k0_off53_inb : ∀ k0_t4 : Fin k0_t4_loop.trips, ∀ a, (k0_off53 k0_t4) a + S1x16.size a ≤ S32x64.size a
  k0_off54_inb : ∀ k0_t4 : Fin k0_t4_loop.trips, ∀ a, (k0_off54 k0_t4) a + S1x16.size a ≤ S32x64.size a
  k0_t5_ok : k0_t5_loop.OK
  k0_off55_inb : ∀ k0_t5 : Fin k0_t5_loop.trips, ∀ (r : Fin 20), ∀ a, (k0_off55 k0_t5 (BitVec.ofNat 32 r.val)) a + S1x16.size a ≤ S640x16.size a
  k0_off56_inb : ∀ k0_t5 : Fin k0_t5_loop.trips, ∀ (r : Fin 20), ∀ a, (k0_off56 k0_t5 (BitVec.ofNat 32 r.val)) a + S1x1x16.size a ≤ S2x80x128.size a
  k0_off57_inb : ∀ k0_t5 : Fin k0_t5_loop.trips, ∀ (r : Fin 20), ∀ a, (k0_off57 k0_t5 (BitVec.ofNat 32 r.val)) a + S1x1x16.size a ≤ S2x80x128.size a
  k0_off58_inb : ∀ k0_t5 : Fin k0_t5_loop.trips, ∀ (r : Fin 20), ∀ a, (k0_off58 k0_t5 (BitVec.ofNat 32 r.val)) a + S1x1x16.size a ≤ S2x80x128.size a
  k0_off59_inb : ∀ k0_t5 : Fin k0_t5_loop.trips, ∀ (r : Fin 20), ∀ a, (k0_off59 k0_t5 (BitVec.ofNat 32 r.val)) a + S1x1x16.size a ≤ S2x80x128.size a
  k0_off60_inb : ∀ k0_t5 : Fin k0_t5_loop.trips, ∀ (r : Fin 20), ∀ a, (k0_off60 k0_t5 (BitVec.ofNat 32 r.val)) a + S1x1x16.size a ≤ S2x80x128.size a
  k0_off61_inb : ∀ k0_t5 : Fin k0_t5_loop.trips, ∀ (r : Fin 20), ∀ a, (k0_off61 k0_t5 (BitVec.ofNat 32 r.val)) a + S1x1x16.size a ≤ S2x80x128.size a
  k0_off62_inb : ∀ k0_t5 : Fin k0_t5_loop.trips, ∀ (r : Fin 20), ∀ a, (k0_off62 k0_t5 (BitVec.ofNat 32 r.val)) a + S1x1x16.size a ≤ S2x80x128.size a
  k0_off63_inb : ∀ k0_t5 : Fin k0_t5_loop.trips, ∀ (r : Fin 20), ∀ a, (k0_off63 k0_t5 (BitVec.ofNat 32 r.val)) a + S1x1x16.size a ≤ S2x80x128.size a
  k0_off64_inb : ∀ k0_t5 : Fin k0_t5_loop.trips, ∀ a, (k0_off64 k0_t5) a + S1x16.size a ≤ S32x64.size a
  k0_off65_inb : ∀ k0_t5 : Fin k0_t5_loop.trips, ∀ a, (k0_off65 k0_t5) a + S1x16.size a ≤ S32x64.size a
  k0_off66_inb : ∀ k0_t5 : Fin k0_t5_loop.trips, ∀ a, (k0_off66 k0_t5) a + S1x16.size a ≤ S32x64.size a
  k0_off67_inb : ∀ k0_t5 : Fin k0_t5_loop.trips, ∀ a, (k0_off67 k0_t5) a + S1x16.size a ≤ S32x64.size a
  k0_t6_ok : k0_t6_loop.OK
  k0_off68_inb : ∀ k0_t6 : Fin k0_t6_loop.trips, ∀ (r : Fin 20), ∀ a, (k0_off68 k0_t6 (BitVec.ofNat 32 r.val)) a + S1x16.size a ≤ S640x16.size a
  k0_off69_inb : ∀ k0_t6 : Fin k0_t6_loop.trips, ∀ (r : Fin 20), ∀ a, (k0_off69 k0_t6 (BitVec.ofNat 32 r.val)) a + S1x1x16.size a ≤ S2x80x128.size a
  k0_off70_inb : ∀ k0_t6 : Fin k0_t6_loop.trips, ∀ (r : Fin 20), ∀ a, (k0_off70 k0_t6 (BitVec.ofNat 32 r.val)) a + S1x1x16.size a ≤ S2x80x128.size a
  k0_off71_inb : ∀ k0_t6 : Fin k0_t6_loop.trips, ∀ (r : Fin 20), ∀ a, (k0_off71 k0_t6 (BitVec.ofNat 32 r.val)) a + S1x1x16.size a ≤ S2x80x128.size a
  k0_off72_inb : ∀ k0_t6 : Fin k0_t6_loop.trips, ∀ (r : Fin 20), ∀ a, (k0_off72 k0_t6 (BitVec.ofNat 32 r.val)) a + S1x1x16.size a ≤ S2x80x128.size a
  k0_off73_inb : ∀ k0_t6 : Fin k0_t6_loop.trips, ∀ (r : Fin 20), ∀ a, (k0_off73 k0_t6 (BitVec.ofNat 32 r.val)) a + S1x1x16.size a ≤ S2x80x128.size a
  k0_off74_inb : ∀ k0_t6 : Fin k0_t6_loop.trips, ∀ (r : Fin 20), ∀ a, (k0_off74 k0_t6 (BitVec.ofNat 32 r.val)) a + S1x1x16.size a ≤ S2x80x128.size a
  k0_off75_inb : ∀ k0_t6 : Fin k0_t6_loop.trips, ∀ (r : Fin 20), ∀ a, (k0_off75 k0_t6 (BitVec.ofNat 32 r.val)) a + S1x1x16.size a ≤ S2x80x128.size a
  k0_off76_inb : ∀ k0_t6 : Fin k0_t6_loop.trips, ∀ (r : Fin 20), ∀ a, (k0_off76 k0_t6 (BitVec.ofNat 32 r.val)) a + S1x1x16.size a ≤ S2x80x128.size a
  k0_off77_inb : ∀ k0_t6 : Fin k0_t6_loop.trips, ∀ a, (k0_off77 k0_t6) a + S1x16.size a ≤ S32x64.size a
  k0_off78_inb : ∀ k0_t6 : Fin k0_t6_loop.trips, ∀ a, (k0_off78 k0_t6) a + S1x16.size a ≤ S32x64.size a
  k0_off79_inb : ∀ k0_t6 : Fin k0_t6_loop.trips, ∀ a, (k0_off79 k0_t6) a + S1x16.size a ≤ S32x64.size a
  k0_off80_inb : ∀ k0_t6 : Fin k0_t6_loop.trips, ∀ a, (k0_off80 k0_t6) a + S1x16.size a ≤ S32x64.size a
  k0_t7_ok : k0_t7_loop.OK
  k0_off81_inb : ∀ k0_t7 : Fin k0_t7_loop.trips, ∀ (r : Fin 20), ∀ a, (k0_off81 k0_t7 (BitVec.ofNat 32 r.val)) a + S1x16.size a ≤ S640x16.size a
  k0_off82_inb : ∀ k0_t7 : Fin k0_t7_loop.trips, ∀ (r : Fin 20), ∀ a, (k0_off82 k0_t7 (BitVec.ofNat 32 r.val)) a + S1x1x16.size a ≤ S2x80x128.size a
  k0_off83_inb : ∀ k0_t7 : Fin k0_t7_loop.trips, ∀ (r : Fin 20), ∀ a, (k0_off83 k0_t7 (BitVec.ofNat 32 r.val)) a + S1x1x16.size a ≤ S2x80x128.size a
  k0_off84_inb : ∀ k0_t7 : Fin k0_t7_loop.trips, ∀ (r : Fin 20), ∀ a, (k0_off84 k0_t7 (BitVec.ofNat 32 r.val)) a + S1x1x16.size a ≤ S2x80x128.size a
  k0_off85_inb : ∀ k0_t7 : Fin k0_t7_loop.trips, ∀ (r : Fin 20), ∀ a, (k0_off85 k0_t7 (BitVec.ofNat 32 r.val)) a + S1x1x16.size a ≤ S2x80x128.size a
  k0_off86_inb : ∀ k0_t7 : Fin k0_t7_loop.trips, ∀ (r : Fin 20), ∀ a, (k0_off86 k0_t7 (BitVec.ofNat 32 r.val)) a + S1x1x16.size a ≤ S2x80x128.size a
  k0_off87_inb : ∀ k0_t7 : Fin k0_t7_loop.trips, ∀ (r : Fin 20), ∀ a, (k0_off87 k0_t7 (BitVec.ofNat 32 r.val)) a + S1x1x16.size a ≤ S2x80x128.size a
  k0_off88_inb : ∀ k0_t7 : Fin k0_t7_loop.trips, ∀ (r : Fin 20), ∀ a, (k0_off88 k0_t7 (BitVec.ofNat 32 r.val)) a + S1x1x16.size a ≤ S2x80x128.size a
  k0_off89_inb : ∀ k0_t7 : Fin k0_t7_loop.trips, ∀ (r : Fin 20), ∀ a, (k0_off89 k0_t7 (BitVec.ofNat 32 r.val)) a + S1x1x16.size a ≤ S2x80x128.size a
  k0_off90_inb : ∀ k0_t7 : Fin k0_t7_loop.trips, ∀ a, (k0_off90 k0_t7) a + S1x16.size a ≤ S32x64.size a
  k0_off91_inb : ∀ k0_t7 : Fin k0_t7_loop.trips, ∀ a, (k0_off91 k0_t7) a + S1x16.size a ≤ S32x64.size a
  k0_off92_inb : ∀ k0_t7 : Fin k0_t7_loop.trips, ∀ a, (k0_off92 k0_t7) a + S1x16.size a ≤ S32x64.size a
  k0_off93_inb : ∀ k0_t7 : Fin k0_t7_loop.trips, ∀ a, (k0_off93 k0_t7) a + S1x16.size a ≤ S32x64.size a
  k0_t8_ok : k0_t8_loop.OK
  k0_off94_inb : ∀ k0_t8 : Fin k0_t8_loop.trips, ∀ (r : Fin 20), ∀ a, (k0_off94 k0_t8 (BitVec.ofNat 32 r.val)) a + S1x16.size a ≤ S640x16.size a
  k0_off95_inb : ∀ k0_t8 : Fin k0_t8_loop.trips, ∀ (r : Fin 20), ∀ a, (k0_off95 k0_t8 (BitVec.ofNat 32 r.val)) a + S1x1x16.size a ≤ S2x80x128.size a
  k0_off96_inb : ∀ k0_t8 : Fin k0_t8_loop.trips, ∀ (r : Fin 20), ∀ a, (k0_off96 k0_t8 (BitVec.ofNat 32 r.val)) a + S1x1x16.size a ≤ S2x80x128.size a
  k0_off97_inb : ∀ k0_t8 : Fin k0_t8_loop.trips, ∀ (r : Fin 20), ∀ a, (k0_off97 k0_t8 (BitVec.ofNat 32 r.val)) a + S1x1x16.size a ≤ S2x80x128.size a
  k0_off98_inb : ∀ k0_t8 : Fin k0_t8_loop.trips, ∀ (r : Fin 20), ∀ a, (k0_off98 k0_t8 (BitVec.ofNat 32 r.val)) a + S1x1x16.size a ≤ S2x80x128.size a
  k0_off99_inb : ∀ k0_t8 : Fin k0_t8_loop.trips, ∀ (r : Fin 20), ∀ a, (k0_off99 k0_t8 (BitVec.ofNat 32 r.val)) a + S1x1x16.size a ≤ S2x80x128.size a
  k0_off100_inb : ∀ k0_t8 : Fin k0_t8_loop.trips, ∀ (r : Fin 20), ∀ a, (k0_off100 k0_t8 (BitVec.ofNat 32 r.val)) a + S1x1x16.size a ≤ S2x80x128.size a
  k0_off101_inb : ∀ k0_t8 : Fin k0_t8_loop.trips, ∀ (r : Fin 20), ∀ a, (k0_off101 k0_t8 (BitVec.ofNat 32 r.val)) a + S1x1x16.size a ≤ S2x80x128.size a
  k0_off102_inb : ∀ k0_t8 : Fin k0_t8_loop.trips, ∀ (r : Fin 20), ∀ a, (k0_off102 k0_t8 (BitVec.ofNat 32 r.val)) a + S1x1x16.size a ≤ S2x80x128.size a
  k0_off103_inb : ∀ k0_t8 : Fin k0_t8_loop.trips, ∀ a, (k0_off103 k0_t8) a + S1x16.size a ≤ S32x64.size a
  k0_off104_inb : ∀ k0_t8 : Fin k0_t8_loop.trips, ∀ a, (k0_off104 k0_t8) a + S1x16.size a ≤ S32x64.size a
  k0_off105_inb : ∀ k0_t8 : Fin k0_t8_loop.trips, ∀ a, (k0_off105 k0_t8) a + S1x16.size a ≤ S32x64.size a
  k0_off106_inb : ∀ k0_t8 : Fin k0_t8_loop.trips, ∀ a, (k0_off106 k0_t8) a + S1x16.size a ≤ S32x64.size a
  k0_off107_inb : ∀ i : grid0.Coords, ∀ a, (k0_off107 i) a + S32x64.size a ≤ S1024x64.size a
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x64.size a ≤ S1024x64.size a
  hwx1_0 : ∀ i : grid1.Coords, EltTy.bits .f32 = 32 ∨ (Rect.block (s := S1024x64) S256x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S8192x64.size a < S100000x64.size a
  hwx1_1 : ∀ i : grid1.Coords, EltTy.bits .f32 = 32 ∨ (Rect.unit (s := S100000x64) (fun a => cc1_transform_1 i a * S8192x64.size a) (fun a => (Pipeline.Clip.of (cc1_transform_1 i a) (S8192x64.size a) (S100000x64.size a)).extent (S8192x64.size a)) fun a => Pipeline.Clip.inb (Pipeline.Clip.ok_of (hstart1_1 i a))).WholeWords (EltTy.packing .f32)
  hwxs1_1 : ∀ i : grid1.Coords, EltTy.bits .f32 = 32 ∨ (Rect.unit (s := S8192x64) (fun _ => 0) (fun a => (Pipeline.Clip.of (cc1_transform_1 i a) (S8192x64.size a) (S100000x64.size a)).extent (S8192x64.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S1x8192.size a < S1x100000.size a
  hwx1_2 : ∀ i : grid1.Coords, EltTy.bits .f32 = 32 ∨ (Rect.unit (s := S1x100000) (fun a => cc1_transform_2 i a * S1x8192.size a) (fun a => (Pipeline.Clip.of (cc1_transform_2 i a) (S1x8192.size a) (S1x100000.size a)).extent (S1x8192.size a)) fun a => Pipeline.Clip.inb (Pipeline.Clip.ok_of (hstart1_2 i a))).WholeWords (EltTy.packing .f32)
  hwxs1_2 : ∀ i : grid1.Coords, EltTy.bits .f32 = 32 ∨ (Rect.unit (s := S1x8192) (fun _ => 0) (fun a => (Pipeline.Clip.of (cc1_transform_2 i a) (S1x8192.size a) (S1x100000.size a)).extent (S1x8192.size a)) fun a => (Nat.zero_add _).trans_le (Pipeline.Clip.extent_le (Pipeline.Clip.ok_of (hstart1_2 i a)))).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hstart1_3 : ∀ (i : grid1.Coords) a, cc1_transform_3 i a * S256x8192.size a < S1024x100000.size a
  hwx1_3 : ∀ i : grid1.Coords, EltTy.bits .f32 = 32 ∨ (Rect.unit (s := S1024x100000) (fun a => cc1_transform_3 i a * S256x8192.size a) (fun a => (Pipeline.Clip.of (cc1_transform_3 i a) (S256x8192.size a) (S1024x100000.size a)).extent (S256x8192.size a)) fun a => Pipeline.Clip.inb (Pipeline.Clip.ok_of (hstart1_3 i a))).WholeWords (EltTy.packing .f32)
  hwxs1_3 : ∀ i : grid1.Coords, EltTy.bits .f32 = 32 ∨ (Rect.unit (s := S256x8192) (fun _ => 0) (fun a => (Pipeline.Clip.of (cc1_transform_3 i a) (S256x8192.size a) (S1024x100000.size a)).extent (S256x8192.size a)) fun a => (Nat.zero_add _).trans_le (Pipeline.Clip.extent_le (Pipeline.Clip.ok_of (hstart1_3 i a)))).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1024x64.size a ≤ S1024x64.size a
  hwx2_0 : ∀ i : grid2.Coords, EltTy.bits .f32 = 32 ∨ (Rect.block (s := S1024x64) S1024x64.size (cc2_transform_0 i) (hinb2_0 i)).WholeWords (EltTy.packing .f32)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hstart2_1 : ∀ (i : grid2.Coords) a, cc2_transform_1 i a * S2048x64.size a < S100000x64.size a
  hwx2_1 : ∀ i : grid2.Coords, EltTy.bits .f32 = 32 ∨ (Rect.unit (s := S100000x64) (fun a => cc2_transform_1 i a * S2048x64.size a) (fun a => (Pipeline.Clip.of (cc2_transform_1 i a) (S2048x64.size a) (S100000x64.size a)).extent (S2048x64.size a)) fun a => Pipeline.Clip.inb (Pipeline.Clip.ok_of (hstart2_1 i a))).WholeWords (EltTy.packing .f32)
  hwxs2_1 : ∀ i : grid2.Coords, EltTy.bits .f32 = 32 ∨ (Rect.unit (s := S2048x64) (fun _ => 0) (fun a => (Pipeline.Clip.of (cc2_transform_1 i a) (S2048x64.size a) (S100000x64.size a)).extent (S2048x64.size a)) fun a => (Nat.zero_add _).trans_le (Pipeline.Clip.extent_le (Pipeline.Clip.ok_of (hstart2_1 i a)))).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hstart2_2 : ∀ (i : grid2.Coords) a, cc2_transform_2 i a * S1x2048.size a < S1x100000.size a
  hwx2_2 : ∀ i : grid2.Coords, EltTy.bits .f32 = 32 ∨ (Rect.unit (s := S1x100000) (fun a => cc2_transform_2 i a * S1x2048.size a) (fun a => (Pipeline.Clip.of (cc2_transform_2 i a) (S1x2048.size a) (S1x100000.size a)).extent (S1x2048.size a)) fun a => Pipeline.Clip.inb (Pipeline.Clip.ok_of (hstart2_2 i a))).WholeWords (EltTy.packing .f32)
  hwxs2_2 : ∀ i : grid2.Coords, EltTy.bits .f32 = 32 ∨ (Rect.unit (s := S1x2048) (fun _ => 0) (fun a => (Pipeline.Clip.of (cc2_transform_2 i a) (S1x2048.size a) (S1x100000.size a)).extent (S1x2048.size a)) fun a => (Nat.zero_add _).trans_le (Pipeline.Clip.extent_le (Pipeline.Clip.ok_of (hstart2_2 i a)))).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_4 i = cc2_transform_4 i'
  hstart2_3 : ∀ (i : grid2.Coords) a, cc2_transform_4 i a * S1024x2048.size a < S1024x100000.size a
  hwx2_3 : ∀ i : grid2.Coords, EltTy.bits .f32 = 32 ∨ (Rect.unit (s := S1024x100000) (fun a => cc2_transform_4 i a * S1024x2048.size a) (fun a => (Pipeline.Clip.of (cc2_transform_4 i a) (S1024x2048.size a) (S1024x100000.size a)).extent (S1024x2048.size a)) fun a => Pipeline.Clip.inb (Pipeline.Clip.ok_of (hstart2_3 i a))).WholeWords (EltTy.packing .f32)
  hwxs2_3 : ∀ i : grid2.Coords, EltTy.bits .f32 = 32 ∨ (Rect.unit (s := S1024x2048) (fun _ => 0) (fun a => (Pipeline.Clip.of (cc2_transform_4 i a) (S1024x2048.size a) (S1024x100000.size a)).extent (S1024x2048.size a)) fun a => (Nat.zero_add _).trans_le (Pipeline.Clip.extent_le (Pipeline.Clip.ok_of (hstart2_3 i a)))).WholeWords (EltTy.packing .f32)

variable [Facts₀]

abbrev cc0_scratch4 : DmaSems sig S_ := SemArray.consecutive 0 S_ hcc0_scratch4
abbrev cc0_scratch5 : DmaSems sig S_ := SemArray.consecutive 1 S_ hcc0_scratch5
abbrev cc0_scoped0 : DmaSems sig S_ := SemArray.consecutive 2 S_ hcc0_scoped0
abbrev cc0_scoped1 : DmaSems sig S_ := SemArray.consecutive 3 S_ hcc0_scoped1
abbrev cc0_scoped2 : DmaSems sig S_ := SemArray.consecutive 4 S_ hcc0_scoped2
def dot_S256x64_S8192x64_S256x8192_1_1_0_0_n_n : DotDims S256x64 S8192x64 S256x8192 where
  lhsContracting := [1]
  rhsContracting := [1]
  lhsNonContracting := [0]
  rhsNonContracting := [0]
  lhsBatch := []
  rhsBatch := []
  wf := dot_S256x64_S8192x64_S256x8192_1_1_0_0_n_n_wf
def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf

abbrev win1_0 : Pipeline.Window sig grid1 :=
  Pipeline.Window.ofSpec (Memref.whole main_v9) S256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpecClip (Memref.whole main_arg2) S8192x64.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v10) S1x8192.size cc1_transform_2 reads1_2 false false 2 stage1_2 sem1_2
    hrank1 hreads1_2 hstart1_2 nbuf1_2 (Memref.isWhole_whole _) hwx1_2 hwxs1_2 hstage1_2

abbrev win1_3 : Pipeline.Window sig grid1 :=
  Pipeline.Window.ofSpecClip (Memref.whole main_v11) S256x8192.size cc1_transform_3 reads1_3 true false 2 stage1_3 sem1_3
    hrank1 hreads1_3 hstart1_3 nbuf1_3 (Memref.isWhole_whole _) hwx1_3 hwxs1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v9) S1024x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpecClip (Memref.whole main_arg2) S2048x64.size cc2_transform_1 reads2_1 false false 1 stage2_1 sem2_1
    hrank2 hreads2_1 hstart2_1 nbuf2_1 (Memref.isWhole_whole _) hwx2_1 hwxs2_1 hstage2_1

abbrev win2_2 : Pipeline.Window sig grid2 :=
  Pipeline.Window.ofSpecClip (Memref.whole main_v10) S1x2048.size cc2_transform_2 reads2_2 false false 1 stage2_2 sem2_2
    hrank2 hreads2_2 hstart2_2 nbuf2_2 (Memref.isWhole_whole _) hwx2_2 hwxs2_2 hstage2_2

abbrev win2_3 : Pipeline.Window sig grid2 :=
  Pipeline.Window.ofSpecClip (Memref.whole main_v12) S1024x2048.size cc2_transform_4 reads2_3 true false 1 stage2_3 sem2_3
    hrank2 hreads2_3 hstart2_3 nbuf2_3 (Memref.isWhole_whole _) hwx2_3 hwxs2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S1024x20 : Shape := ⟨2, ![1024, 20]⟩
abbrev S100000x64 : Shape := ⟨2, ![100000, 64]⟩
abbrev S100000 : Shape := ⟨1, ![100000]⟩
abbrev S_ : Shape := ⟨0, ![]⟩
abbrev S1024x20x1 : Shape := ⟨3, ![1024, 20, 1]⟩
abbrev S1 : Shape := ⟨1, ![1]⟩
abbrev S1x1x1 : Shape := ⟨3, ![1, 1, 1]⟩
abbrev S1024x20x64 : Shape := ⟨3, ![1024, 20, 64]⟩
abbrev S1024x64 : Shape := ⟨2, ![1024, 64]⟩
abbrev S64x100000 : Shape := ⟨2, ![64, 100000]⟩
abbrev S1024x100000 : Shape := ⟨2, ![1024, 100000]⟩
abbrev S1x100000 : Shape := ⟨2, ![1, 100000]⟩

abbrev nBuf : Space → Nat
  | .hbm => 37
  | .vmem => 0
  | .smem => 0
  | _ => 0

abbrev bufTy : (tb : Table) → Fin (tcTables nBuf tb) → BufTy
  | .hbm, ⟨0, _⟩ => ⟨S1024x20, .i32⟩
  | .hbm, ⟨1, _⟩ => ⟨S100000x64, .f32⟩
  | .hbm, ⟨2, _⟩ => ⟨S100000x64, .f32⟩
  | .hbm, ⟨3, _⟩ => ⟨S100000, .f32⟩
  | .hbm, ⟨4, _⟩ => ⟨S_, .i32⟩
  | .hbm, ⟨5, _⟩ => ⟨S1024x20, .i32⟩
  | .hbm, ⟨6, _⟩ => ⟨S1024x20, .i1⟩
  | .hbm, ⟨7, _⟩ => ⟨S_, .i32⟩
  | .hbm, ⟨8, _⟩ => ⟨S1024x20, .i32⟩
  | .hbm, ⟨9, _⟩ => ⟨S1024x20, .i32⟩
  | .hbm, ⟨10, _⟩ => ⟨S1024x20, .i32⟩
  | .hbm, ⟨11, _⟩ => ⟨S1024x20x1, .i32⟩
  | .hbm, ⟨12, _⟩ => ⟨S1, .i32⟩
  | .hbm, ⟨13, _⟩ => ⟨S_, .i32⟩
  | .hbm, ⟨14, _⟩ => ⟨S1024x20x1, .i32⟩
  | .hbm, ⟨15, _⟩ => ⟨S1024x20x1, .i1⟩
  | .hbm, ⟨16, _⟩ => ⟨S1x1x1, .i32⟩
  | .hbm, ⟨17, _⟩ => ⟨S1024x20x1, .i32⟩
  | .hbm, ⟨18, _⟩ => ⟨S1024x20x1, .i1⟩
  | .hbm, ⟨19, _⟩ => ⟨S1024x20x1, .i1⟩
  | .hbm, ⟨20, _⟩ => ⟨S_, .i1⟩
  | .hbm, ⟨21, _⟩ => ⟨S1024x20, .i1⟩
  | .hbm, ⟨22, _⟩ => ⟨S1024x20x64, .f32⟩
  | .hbm, ⟨23, _⟩ => ⟨S1024x20x64, .i1⟩
  | .hbm, ⟨24, _⟩ => ⟨S_, .f32⟩
  | .hbm, ⟨25, _⟩ => ⟨S1024x20x64, .f32⟩
  | .hbm, ⟨26, _⟩ => ⟨S1024x20x64, .f32⟩
  | .hbm, ⟨27, _⟩ => ⟨S_, .f32⟩
  | .hbm, ⟨28, _⟩ => ⟨S1024x64, .f32⟩
  | .hbm, ⟨29, _⟩ => ⟨S_, .f32⟩
  | .hbm, ⟨30, _⟩ => ⟨S1024x64, .f32⟩
  | .hbm, ⟨31, _⟩ => ⟨S1024x64, .f32⟩
  | .hbm, ⟨32, _⟩ => ⟨S64x100000, .f32⟩
  | .hbm, ⟨33, _⟩ => ⟨S1024x100000, .f32⟩
  | .hbm, ⟨34, _⟩ => ⟨S1x100000, .f32⟩
  | .hbm, ⟨35, _⟩ => ⟨S1024x100000, .f32⟩
  | .hbm, ⟨36, _⟩ => ⟨S1024x100000, .f32⟩
  | _, _ => ⟨S1024x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_cst : Ref sig .tc := ⟨.hbm, 27, rfl⟩
abbrev main_v1 : Ref sig .tc := ⟨.hbm, 28, rfl⟩
abbrev main_cst_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩

abbrev nD : Nat := 1
abbrev τ : Topo := Topo.v7x

variable {F : FTy → Type} [FloatOps F]

class Facts₀ : Prop where
  bcast_S_S1024x20 : S_.BroadcastsInDim S1024x20 (![] : Fin 0 → Fin S1024x20.rank)
  bcast_S1024x20_S1024x20x1_0_1 : S1024x20.BroadcastsInDim S1024x20x1 (![0, 1] : Fin 2 → Fin S1024x20x1.rank)
  bcast_S_S1024x20x1 : S_.BroadcastsInDim S1024x20x1 (![] : Fin 0 → Fin S1024x20x1.rank)
  bcast_S1_S1x1x1_2 : S1.BroadcastsInDim S1x1x1 (![2] : Fin 1 → Fin S1x1x1.rank)
  bcast_S1x1x1_S1024x20x1_0_1_2 : S1x1x1.BroadcastsInDim S1024x20x1 (![0, 1, 2] : Fin 3 → Fin S1024x20x1.rank)
  reducesTo_S1024x20x1_S1024x20_d2 : S1024x20x1.ReducesTo [2] S1024x20
  h_S_ : 0 < S_.numel
  bcast_S1024x20_S1024x20x64_0_1 : S1024x20.BroadcastsInDim S1024x20x64 (![0, 1] : Fin 2 → Fin S1024x20x64.rank)
  bcast_S_S1024x20x64 : S_.BroadcastsInDim S1024x20x64 (![] : Fin 0 → Fin S1024x20x64.rank)
  reducesTo_S1024x20x64_S1024x64_d1 : S1024x20x64.ReducesTo [1] S1024x64
  bcast_S_S1024x64 : S_.BroadcastsInDim S1024x64 (![] : Fin 0 → Fin S1024x64.rank)
  transposes_S100000x64_S64x100000_1_0 : S100000x64.Transposes [1, 0] S64x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  gather_S100000x64_S1024x20x1_S1024x20x64_2_0_n_n_0_2_164_wf : GatherDims.WF S100000x64 S1024x20x1 S1024x20x64 [2] [0] [] [0] [] 2 ![1, 64]
  dot_S1024x64_S64x100000_S1024x100000_1_0_0_1_n_n_wf : DotDims.WF S1024x64 S64x100000 S1024x100000 [1] [0] [0] [1] [] []

variable [Facts₀]

def gather_S100000x64_S1024x20x1_S1024x20x64_2_0_n_n_0_2_164 : GatherDims S100000x64 S1024x20x1 S1024x20x64 where
  offsetDims := [2]
  collapsedSliceDims := [0]
  operandBatchingDims := []
  startIndicesBatchingDims := []
  startIndexMap := [0]
  indexVectorDim := 2
  sliceSizes := ![1, 64]
  wf := gather_S100000x64_S1024x20x1_S1024x20x64_2_0_n_n_0_2_164_wf
def dot_S1024x64_S64x100000_S1024x100000_1_0_0_1_n_n : DotDims S1024x64 S64x100000 S1024x100000 where
  lhsContracting := [1]
  rhsContracting := [0]
  lhsNonContracting := [0]
  rhsNonContracting := [1]
  lhsBatch := []
  rhsBatch := []
  wf := dot_S1024x64_S64x100000_S1024x100000_1_0_0_1_n_n_wf

class Facts : Prop extends Facts₀ where

variable [Facts]
-- ==== Proof.Iface.lean ====
/-
  The kernel program as the SparseCore launch theorem sees it, and the names its proof shares.

  @main computes three arrays on the TensorCore before it starts the SparseCores: the context words halved
  (`V2`: word >> 1, laid out tile × chunk × entry), their parities as floats broadcast over sixteen lanes (`V7`)
  and the embedding table with its rows paired (`V8`: row h of the paired table is rows 2h and 2h+1 of the table
  side by side). Tile `w` of the thirty-two reads block `w` of the first two, any row of the third, and writes rows
  [32 w, 32 w + 32) of the hidden array.
-/
import proofs.«204096_g51513837748514_cont_sun_m_306_14_alg».proof.Defs
import Idealize.ShloMosaic.Lib.SparseCore.Launch
import Idealize.ShloMosaic.Lib.StableHlo.Run
import Idealize.ShloMosaic.Lib.Pipeline.Kit
import Idealize.ShloMosaic.Lib.Tactic
import proofs.«204096_g51513837748514_cont_sun_m_306_14_alg».proof.Proof.Gen.KernelIdeal
import proofs.«204096_g51513837748514_cont_sun_m_306_14_alg».proof.Proof.Gen.KernelIdeal.Launch

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-! ## The program -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays the TensorCore hands the SparseCores -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v2Loc (d : Dev nD) : Loc nD τ sig := (SparseCore.T d).loc main_v2
abbrev v7Loc (d : Dev nD) : Loc nD τ sig := (SparseCore.T d).loc main_v7
abbrev v8Loc (d : Dev nD) : Loc nD τ sig := (SparseCore.T d).loc main_v8
abbrev v9Loc (d : Dev nD) : Loc nD τ sig := (SparseCore.T d).loc main_v9

/-- The all-ones word array both integer host operations take as their second operand. -/
def ones : IVec S1024x20 32 := broadcastInDim S1024x20 ![] bcast_S_S1024x20 (constantI S_ 32 1#32)

/-- The context words halved, tile × chunk × entry. -/
def V2 (d : Dev nD) : Buf (Elt F) (v2Loc d) :=
  shapeCast S32x8x80 (Host.shrsi (m (a0Loc d)) ones : IVec S1024x20 32) shapeCasts_S1024x20_S32x8x80

/-- The context words' parities as floats, one per entry, broadcast over sixteen lanes. -/
def V7 (d : Dev nD) : Buf (Elt F) (v7Loc d) :=
  broadcastInDim S32x640x16 ![0, 1, 2] bcast_S32x640x1_S32x640x16_0_1_2
    (shapeCast S32x640x1 (sitofp .f32 (andi (m (a0Loc d)) ones : IVec S1024x20 32) : FVec F S1024x20 .f32) shapeCasts_S1024x20_S32x640x1)

/-- The embedding table with its rows paired. -/
def V8 (d : Dev nD) : Buf (Elt F) (v8Loc d) :=
  shapeCast S50000x128 (m (a1Loc d)) shapeCasts_S100000x64_S50000x128

end Cert.Proof.KI

end
-- ==== Proof.RowsPart.lean ====
/-
  How the hidden array's rows split among the thirty-two vector subcores.

  The subcore with coordinates (c, i) — SparseCore c of two, subcore i of sixteen — writes the thirty-two rows
  starting at row 64 i + 32 c of the hidden array, all sixty-four columns: the rows r with r / 32 = 2 i + c.
  As (c, i) ranges over the thirty-two subcores, 2 i + c ranges over 0 … 31 once each, so these row blocks are
  pairwise disjoint and together are the whole array.
-/
import proofs.«204096_g51513837748514_cont_sun_m_306_14_alg».proof.Proof.Iface
import Idealize.ShloMosaic.Lib.ValueIdx

noncomputable section

namespace Cert.Proof.KI

open Cert.KernelIdeal Cert.KernelIdeal.Gen

open Idealize.ShloMosaic Idealize.ShloMosaic.ValueIdx

/-- The grid coordinates of the subcore (c, s). -/
def coordsV (c : Fin (grid0.bound 0)) (s : Fin (grid0.bound 1)) : grid0.Coords :=
  fun | 0 => c | 1 => s | ⟨_ + 2, h⟩ => absurd h (Nat.not_lt.2 (Nat.le_add_left _ _))

/-- The hidden array, whole, as a vector subcore names it. -/
abbrev oV : Memref sig .scVector .hbm S1024x64 .f32 := Memref.whole main_v9_scv

/-- The block of thirty-two rows the subcore at grid coordinates `L` writes. -/
abbrev oRowK (L : grid0.Coords) : Memref sig .scVector .hbm S32x64 .f32 :=
  (oV).slice (Rect.unit (s := S1024x64) (k0_off107 L) S32x64.size (k0_off107_inb L)) (fun _ => rfl)

/-- The indices of the hidden array the subcore (c, i) writes. -/
def rowsOf (c : Fin 2) (i : Fin 16) : Finset S1024x64.Idx := (oRowK (coordsV c i)).view.set

/-- They are the rows r with r / 32 = 2 i + c, every column. -/
theorem mem_rowsOf (c : Fin 2) (i : Fin 16) (j : S1024x64.Idx) : j ∈ rowsOf c i ↔ (j 0).val / 32 = 2 * i.val + c.val := by
  have key : (∀ a : Fin 2, (![64 * i.val + 32 * c.val, 0] : Fin 2 → ℕ) a ≤ (j a).val
      ∧ (j a).val < (![64 * i.val + 32 * c.val, 0] : Fin 2 → ℕ) a + (![32, 64] : Fin 2 → ℕ) a)
      ↔ (j 0).val / 32 = 2 * i.val + c.val := by
    rw [Fin.forall_fin_two]
    simp only [Matrix.cons_val_zero, Matrix.cons_val_one]
    have h1 := idx2_lt1 j
    have h0 := idx2_lt0 j
    constructor
    · rintro ⟨⟨ha, hb⟩, -⟩; omega
    · intro h; exact ⟨⟨by omega, by omega⟩, ⟨by omega, by omega⟩⟩
  unfold rowsOf
  show j ∈ ((View.whole (main_v9_scv : Ref sig .scVector)).slice
      (Rect.unit (s := S1024x64) (k0_off107 (coordsV c i)) S32x64.size (k0_off107_inb (coordsV c i)))).set ↔ _
  rw [View.set_slice_whole, Rect.mem_set_unit, k0_off107_eq]
  exact key

/-- Two different subcores write disjoint row blocks. -/
theorem rowsOf_disjoint : ∀ t ∈ (Finset.univ : Finset (Fin 2 × Fin 16)), ∀ t' ∈ (Finset.univ : Finset (Fin 2 × Fin 16)),
    t ≠ t' → Disjoint (rowsOf t.1 t.2) (rowsOf t'.1 t'.2) := by
  intro t _ t' _ hne
  refine Finset.disjoint_left.2 fun j hj hj' => hne ?_
  have e := (mem_rowsOf t.1 t.2 j).1 hj
  have e' := (mem_rowsOf t'.1 t'.2 j).1 hj'
  have hc := t.1.isLt
  have hc' := t'.1.isLt
  exact Prod.ext (Fin.ext (by omega)) (Fin.ext (by omega))

/-- Together the row blocks are the whole hidden array. -/
theorem rowsOf_cover : (Finset.univ : Finset (Fin 2 × Fin 16)).biUnion (fun t => rowsOf t.1 t.2) = Finset.univ := by
  ext j
  simp only [Finset.mem_biUnion, Finset.mem_univ, true_and, iff_true]
  have h0 := idx2_lt0 j
  refine ⟨(⟨(j 0).val / 32 % 2, Nat.mod_lt _ (by norm_num)⟩, ⟨(j 0).val / 64, by omega⟩), ?_⟩
  rw [mem_rowsOf]
  show (j 0).val / 32 = 2 * ((j 0).val / 64) + (j 0).val / 32 % 2
  omega

end Cert.Proof.KI

end
-- ==== Proof.Tile.lean ====
/-
  One vector subcore's task, run once at a symbolic tile.

  The task copies its block of halved context words and of parities into its own memory, then works through eight
  chunks of eighty words: the rows of the paired table the chunk's words name are gathered into one of two slots
  (chunk k into slot k mod 2, on that slot's own semaphore; the next chunk's gather is started before the current
  one is waited for, and touches only the other slot), and while a chunk's rows rest in its slot the task reads them,
  mixes the two halves of each row by the word's parity, sums twenty at a time and scales by the named constant,
  writing four rows of its output scratch per chunk. At the end the thirty-two rows are copied out to the tile's rows
  of the hidden array. Every word a gather reads is below 50000 (the halved table's height): that is the one fact
  about the data the run needs, and it enters as a hypothesis.
-/
import proofs.«204096_g51513837748514_cont_sun_m_306_14_alg».proof.Proof.Iface
import proofs.«204096_g51513837748514_cont_sun_m_306_14_alg».proof.Proof.RowsPart
import proofs.«204096_g51513837748514_cont_sun_m_306_14_alg».proof.Proof.Gen.KernelIdeal.Skeleton
import Idealize.ShloMosaic.Lib.SparseCore.Ops

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The kernel's memrefs, as the body table passes them -/

abbrev tV : Memref sig .scVector .hbm S50000x128 .f32 := Memref.whole main_v8_scv
abbrev iV : Memref sig .scVector .hbm S32x8x80 .i32 := Memref.whole main_v2_scv
abbrev pV : Memref sig .scVector .hbm S32x640x16 .f32 := Memref.whole main_v7_scv
abbrev sIdx : Memref sig .scVector .vmem S8x80 .i32 := Memref.whole cc0_scratch0
abbrev sRows : Memref sig .scVector .vmem S2x80x128 .f32 := Memref.whole cc0_scratch1
abbrev sPar : Memref sig .scVector .vmem S640x16 .f32 := Memref.whole cc0_scratch2
abbrev sHid : Memref sig .scVector .vmem S32x64 .f32 := Memref.whole cc0_scratch3

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cG0 (d : Dev nD) (L : grid0.Coords) : GSem nD τ sig := (thr d L, .dma cc0_scratch4.sem)
abbrev cG1 (d : Dev nD) (L : grid0.Coords) : GSem nD τ sig := (thr d L, .dma cc0_scratch5.sem)
abbrev cA (d : Dev nD) (L : grid0.Coords) : GSem nD τ sig := (thr d L, .dma cc0_scoped0.sem)
abbrev cB (d : Dev nD) (L : grid0.Coords) : GSem nD τ sig := (thr d L, .dma cc0_scoped1.sem)
abbrev cC (d : Dev nD) (L : grid0.Coords) : GSem nD τ sig := (thr d L, .dma cc0_scoped2.sem)

omit [FloatOps F] [Named F] in
theorem cell_ne {s t : DmaSem sig} (h : s ≠ t) : ((thr d L, SemLoc.dma s) : GSem nD τ sig) ≠ (thr d L, SemLoc.dma t) :=
  fun e => h (SemLoc.dma.inj (Prod.mk.inj e).2)

omit [FloatOps F] [Named F] in
theorem cell_mem (s : DmaSem sig) (hs : (SemLoc.dma s : SemLoc sig).isScoped .scVector = true) :
    ((thr d L, SemLoc.dma s) : GSem nD τ sig) ∈ ownCells (thr d L) := (mem_ownCells (g := (thr d L, SemLoc.dma s))).mpr ⟨rfl, hs⟩

omit [FloatOps F] [Named F] in
/-- The tile's own semaphores: the two gather semaphores, the three copies' semaphores, and the rest. -/
theorem ownSems0_V :
    (ownSems0 (thr d L) : sProp 𝕄)
      = iprop(semVal (cG0 d L) 0 ∗ semVal (cG1 d L) 0 ∗ semVal (cA d L) 0 ∗ semVal (cB d L) 0 ∗ semVal (cC d L) 0
          ∗ bigSep ((((((ownCells (thr d L)).erase (cG0 d L)).erase (cG1 d L)).erase (cA d L)).erase (cB d L)).erase (cC d L)) fun g => semVal g 0) := by
  unfold SparseCore.Cfg.ownSems0
  rw [SparseCore.bigSep_erase' (cell_mem d L cc0_scratch4.sem (by decide)),
    SparseCore.bigSep_erase' (Finset.mem_erase.mpr ⟨cell_ne d L (by decide), cell_mem d L cc0_scratch5.sem (by decide)⟩),
    SparseCore.bigSep_erase' (Finset.mem_erase.mpr ⟨cell_ne d L (by decide), Finset.mem_erase.mpr ⟨cell_ne d L (by decide), cell_mem d L cc0_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped1.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped2.sem (by decide)⟩⟩⟩⟩)]

omit [FloatOps F] [Named F] in
theorem ref_ne {a b : Ref sig .scVector} (h : a ≠ b) :
    (Proc.scVector (cV L) (jV L)).devRef a ≠ ((Proc.scVector (cV L) (jV L)).devRef b : DevRef τ sig) :=
  fun e => h (Proc.devRef_injective _ e)

omit [FloatOps F] [Named F] in
theorem ref_mem (a : Ref sig .scVector) (h : ((Proc.scVector (cV L) (jV L)).devRef a : DevRef τ sig).owner = Owner.proc (Proc.scVector (cV L) (jV L))) :
    ((Proc.scVector (cV L) (jV L)).devRef a : DevRef τ sig) ∈ ownRefs (τ := τ) (Proc.scVector (cV L) (jV L)) :=
  SparseCore.Cfg.mem_ownRefs_of_owner h

omit [FloatOps F] [Named F] in
/-- The tile's own buffers: the four scratches, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩)]

abbrev pts2 (q : PosShare TreeShare) (f : Buf (Elt F) ((iV).view.loc (thr d L))) : sProp 𝕄 := (iV).view.loc (thr d L) ↦{q} f
abbrev pts7 (q : PosShare TreeShare) (f : Buf (Elt F) ((pV).view.loc (thr d L))) : sProp 𝕄 := (pV).view.loc (thr d L) ↦{q} f
abbrev pts8 (q : PosShare TreeShare) (f : Buf (Elt F) ((tV).view.loc (thr d L))) : sProp 𝕄 := (tV).view.loc (thr d L) ↦{q} f
abbrev pts9 (f : Buf (Elt F) ((oRowK L).view.loc (thr d L))) : sProp 𝕄 := (oRowK L).view.loc (thr d L) ↦[(oRowK L).view.set]{fullShare} f

omit [FloatOps F] [Named F] in
theorem wok_refl (W : Waits sig (HIx 1)) : ∀ p ∈ W, p ∈ W ∨ p.2 = none := fun _ hp => .inl hp
omit [FloatOps F] [Named F] in
theorem wok_insert {W' W : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 64000000 in
set_option sl_exec.unrollTrips 4 in
theorem tile_body (hF : (K (F := F)).Facts) (q2 q7 q8a q8b : PosShare TreeShare)
    (f2 : Buf (Elt F) ((iV).view.loc (thr d L))) (f7 : Buf (Elt F) ((pV).view.loc (thr d L))) (f8 : Buf (Elt F) ((tV).view.loc (thr d L)))
    (f9 : Buf (Elt F) ((oRowK L).view.loc (thr d L)))
    (hin : ∀ j, (f2 j).toNat < 50000)
    (O : CellTallies nD τ sig (HIx 1)) (W : Waits sig (HIx 1)) (hO : ∀ g, O g none = 0) :
    iprop(levAts (K (F := F)).L (K (F := F)).lev ∗ emp
        ∗ (pts2 d L q2 f2 ∗ pts7 d L q7 f7 ∗ pts8 d L q8a f8 ∗ pts8 d L q8b f8 ∗ pts9 d L f9)
        ∗ scopedBufs (thr d L) ∗ scopedSems0 (thr d L) ∗ owes (thr d L) O W)
      ⊢ wp frame (wpE (defs₀ (F := F)) 𝒱₀ (thr d L) none) Set.univ
          (cc0__sc_hidden L tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop((pts2 d L q2 f2 ∗ pts7 d L q7 f7 ∗ pts8 d L q8a f8 ∗ pts8 d L q8b f8 ∗ ∃ f, pts9 d L f)
            ∗ scopedBufs (thr d L) ∗ scopedSems0 (thr d L)
            ∗ ∃ W', ⌜∀ p ∈ W', p ∈ W ∨ p.2 = none⌝ ∗ owes (thr d L) O W') := by
  simp only [cc0__sc_hidden_eq_skeleton]; unfold cc0__sc_hidden_skel
  rw [(K (F := F)).scopedBufs_V hF d (cV L) (jV L), SparseCore.Cfg.scopedSems0_V (Val := Elt F) d (cV L) (jV L), ownSems0_V, ownBufs_V]
  iintro ⟨#Hlv, -, ⟨H2, H7, H8a, H8b, H9⟩, ⟨⟨%fs0, Hs0⟩, ⟨%fs1, Hs1⟩, ⟨%fs2, Hs2⟩, ⟨%fs3, Hs3⟩, Hbufs⟩, ⟨HG0, HG1, HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Hs0' := (Entails.of_eq (show (((thr d L).loc cc0_scratch0 ↦{fullShare} fs0 : sProp 𝕄)) = ((sIdx).view.loc (thr d L) ↦{fullShare} fs0) from rfl)) $$ Hs0
  ihave Hs1' := (Entails.of_eq (show (((thr d L).loc cc0_scratch1 ↦{fullShare} fs1 : sProp 𝕄)) = ((sRows).view.loc (thr d L) ↦{fullShare} fs1) from rfl)) $$ Hs1
  ihave Hs2' := (Entails.of_eq (show (((thr d L).loc cc0_scratch2 ↦{fullShare} fs2 : sProp 𝕄)) = ((sPar).view.loc (thr d L) ↦{fullShare} fs2) from rfl)) $$ Hs2
  ihave Hs3' := (Entails.of_eq (show (((thr d L).loc cc0_scratch3 ↦{fullShare} fs3 : sProp 𝕄)) = ((sHid).view.loc (thr d L) ↦{fullShare} fs3) from rfl)) $$ Hs3
  sl_exec
  have hpay : ∀ j, (tile_body.sl.dma0 d L f2 j).toNat < 50000 := fun j => hin _
  have hin_0 : ∀ x : S80.Idx, (View.read (Elt F) ((sIdx.slice (Rect.unit (s := S8x80) ![0, 0] S1x80.size inb_S8x80_S1x80_0_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_1 : ∀ x : S80.Idx, (View.read (Elt F) ((sIdx.slice (Rect.unit (s := S8x80) ![1, 0] S1x80.size inb_S8x80_S1x80_1_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_2 : ∀ x : S80.Idx, (View.read (Elt F) ((sIdx.slice (Rect.unit (s := S8x80) ![2, 0] S1x80.size inb_S8x80_S1x80_2_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_3 : ∀ x : S80.Idx, (View.read (Elt F) ((sIdx.slice (Rect.unit (s := S8x80) ![3, 0] S1x80.size inb_S8x80_S1x80_3_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_4 : ∀ x : S80.Idx, (View.read (Elt F) ((sIdx.slice (Rect.unit (s := S8x80) ![4, 0] S1x80.size inb_S8x80_S1x80_4_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_5 : ∀ x : S80.Idx, (View.read (Elt F) ((sIdx.slice (Rect.unit (s := S8x80) ![5, 0] S1x80.size inb_S8x80_S1x80_5_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_6 : ∀ x : S80.Idx, (View.read (Elt F) ((sIdx.slice (Rect.unit (s := S8x80) ![6, 0] S1x80.size inb_S8x80_S1x80_6_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_7 : ∀ x : S80.Idx, (View.read (Elt F) ((sIdx.slice (Rect.unit (s := S8x80) ![7, 0] S1x80.size inb_S8x80_S1x80_7_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  sl_exec_parts
  sl_step
  isplitl [H2 H7 H8a H8b H9]
  · isplitl [H2]
    · iexact H2
    isplitl [H7]
    · iexact H7
    isplitl [H8a]
    · iexact H8a
    isplitl [H8b]
    · iexact H8b
    · iexists _; iexact H9
  isplitl [Hs0' Hs1' Hs2' Hs3' Hbufs]
  · isplitl [Hs0']
    · iexists _; iexact Hs0'
    isplitl [Hs1']
    · iexists _; iexact Hs1'
    isplitl [Hs2']
    · iexists _; iexact Hs2'
    isplitl [Hs3']
    · iexists _; iexact Hs3'
    · iexact Hbufs
  isplitl [HG0 HG1 HA HB HC Hsems]
  · isplitl [HG0]
    · iexact HG0
    isplitl [HG1]
    · iexact HG1
    isplitl [HA]
    · iexact HA
    isplitl [HB]
    · iexact HB
    isplitl [HC]
    · iexact HC
    · iexact Hsems
  iexists _; isplitr
  swap
  · iexact HO
  ipureintro
  repeat (first | exact wok_refl _ | refine wok_insert _ ?_)

end Tile
end Cert.Proof.KI
end
-- ==== Proof.Call.lean ====
/-
  The SparseCore call as the TensorCore sees it.

  The three arrays the tiles only read (the halved words, the parities, the paired table) are dealt out as read shares:
  one share per SparseCore, each split again into one per tile; a tile splits its share of the table once more, one
  half per gather slot, since two gathers are in flight at once. The hidden array is dealt by rows: tile (c, i) owns
  rows [64 i + 32 c, 64 i + 32 c + 32) outright and writes them. After the call every share comes back and the
  hidden array is whole again, at contents the frame does not name.
-/
import proofs.«204096_g51513837748514_cont_sun_m_306_14_alg».proof.Proof.Iface
import proofs.«204096_g51513837748514_cont_sun_m_306_14_alg».proof.Proof.RowsPart
import proofs.«204096_g51513837748514_cont_sun_m_306_14_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The shares -/

/-- SparseCore `c`'s read share of an array the tiles only read. -/
def qc (c : Fin 2) : PosShare TreeShare := Transfers.shareTok fullShare 2 c
/-- Tile `(c, i)`'s. -/
def qt (c : Fin 2) (i : Fin 16) : PosShare TreeShare := Transfers.shareTok (qc c) 16 i

/-- The three read-only arrays at share `q`. -/
def ins (d : Dev nD) (q : PosShare TreeShare) : sProp 𝕄 :=
  iprop((v2Loc d ↦{q} V2 m d) ∗ (v7Loc d ↦{q} V7 m d) ∗ (v8Loc d ↦{q} V8 m d))

/-- What tile `(c, i)` is handed, and hands back: its read shares and its rows of the hidden array at some contents. -/
def goP (d : Dev nD) (c : Fin 2) (i : Fin 16) : sProp 𝕄 :=
  iprop(ins m d (qt c i) ∗ ∃ f, v9Loc d ↦[rowsOf c i]{fullShare} f)

/-- What SparseCore `c` is handed, and hands back. -/
def stP (d : Dev nD) (c : Fin 2) : sProp 𝕄 :=
  iprop(ins m d (qc c) ∗ bigSep Finset.univ fun i : Fin 16 => iprop(∃ f, v9Loc d ↦[rowsOf c i]{fullShare} f))

def P : (K (F := F)).Pay (nD := nD) (Val := Elt F) (Name := ℕ) (U := UU) where
  st := fun q d c => match q with | 0 => stP m d (Fin.cast nCore_zero c)
  dn := fun q d c => match q with | 0 => stP m d (Fin.cast nCore_zero c)
  go := fun q d c i => match q with | 0 => goP m d (Fin.cast nCore_zero c) (Fin.cast nSub_zero i)
  td := fun q d c i => match q with | 0 => goP m d (Fin.cast nCore_zero c) (Fin.cast nSub_zero i)
  x := fun _ _ => iprop(emp)

instance P_storable : (P (F := F) m).IsStorable where
  st q d c := match q with | 0 => by show BI.Storable _ (stP m d _); unfold stP ins; infer_instance
  dn q d c := match q with | 0 => by show BI.Storable _ (stP m d _); unfold stP ins; infer_instance
  go q d c i := match q with | 0 => by show BI.Storable _ (goP m d _ _); unfold goP ins; infer_instance
  td q d c i := match q with | 0 => by show BI.Storable _ (goP m d _ _); unfold goP ins; infer_instance

/-! ## The split of a SparseCore's holdings among its tiles -/

omit [FloatOps F] [Named F] in
theorem toks16 (ℓ : Loc nD τ sig) (q : PosShare TreeShare) (f : Buf (Elt F) ℓ) :
    (ℓ ↦{q} f : sProp 𝕄) ⊣⊢ iprop((ℓ ↦{Transfers.shareDrop q 16} f) ∗ bigSep Finset.univ (fun i : Fin 16 => ℓ ↦{Transfers.shareTok q 16 i} f)) :=
  Transfers.pointsTo_toks q 16

theorem vecSplit : (K (F := F)).VecSplit' (P m) 0 := by
  intro d c
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => goP m d (Fin.cast nCore_zero c) (Fin.cast nSub_zero i))
          -∗ stP m d (Fin.cast nCore_zero c)))
  generalize Fin.cast nCore_zero c = c'
  rw [show (bigSep Finset.univ fun i : Fin ((K (F := F)).nSub 0) => goP m d c' (Fin.cast nSub_zero i)) = bigSep Finset.univ (fun i : Fin 16 => goP m d c' i) from
    bigSep_congr fun _ _ => congrArg (goP m d c') (Fin.ext rfl)]
  unfold stP goP ins
  rw [bigSep_sep', bigSep_sep', bigSep_sep']
  iintro ⟨⟨H2, H7, H8⟩, H9⟩
  ihave H2' := (toks16 (F := F) (v2Loc d) (qc c') _).1 $$ H2
  ihave H7' := (toks16 (F := F) (v7Loc d) (qc c') _).1 $$ H7
  ihave H8' := (toks16 (F := F) (v8Loc d) (qc c') _).1 $$ H8
  icases H2' with ⟨D2, T2⟩
  icases H7' with ⟨D7, T7⟩
  icases H8' with ⟨D8, T8⟩
  imodintro
  isplitl [T2 T7 T8 H9]
  · isplitl [T2 T7 T8]
    · isplitl [T2]
      · iexact T2
      isplitl [T7]
      · iexact T7
      · iexact T8
    · iexact H9
  iintro ⟨⟨T2, T7, T8⟩, H9⟩
  isplitr [H9]
  · isplitl [D2 T2]
    · iapply (toks16 (F := F) (v2Loc d) (qc c') _).2
      isplitl [D2]
      · iexact D2
      · iexact T2
    isplitl [D7 T7]
    · iapply (toks16 (F := F) (v7Loc d) (qc c') _).2
      isplitl [D7]
      · iexact D7
      · iexact T7
    · iapply (toks16 (F := F) (v8Loc d) (qc c') _).2
      isplitl [D8]
      · iexact D8
      · iexact T8
  · iexact H9

/-! ## The tile's obligation -/

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_hidden (coordsV c s)
          tV (Memref.isWhole_whole _) iV (Memref.isWhole_whole _) pV (Memref.isWhole_whole _) oV (Memref.isWhole_whole _)
          sIdx (Memref.isWhole_whole _) sRows (Memref.isWhole_whole _) sPar (Memref.isWhole_whole _) sHid (Memref.isWhole_whole _)
          cc0_scratch4 cc0_scratch5 cc0_scoped0 cc0_scoped1 cc0_scoped2) ⟨⟩ c s := rfl

/-- Every halved word is below the paired table's height. -/
def HalfOK : Prop := ∀ (d : Dev nD) (j : S32x8x80.Idx), ((V2 m d) j).toNat < 50000

theorem tile_post (d : Dev nD) (c : Fin 2) (i : Fin 16) {X Y Z : sProp 𝕄} :
    iprop((pts2 d (coordsV c i) (qt c i) (V2 m d) ∗ pts7 d (coordsV c i) (qt c i) (V7 m d) ∗ pts8 d (coordsV c i) (qt c i).left (V8 m d)
        ∗ pts8 d (coordsV c i) (qt c i).right (V8 m d) ∗ ∃ f, pts9 d (coordsV c i) f) ∗ X ∗ Y ∗ Z)
      ⊢ iprop(goP m d c i ∗ X ∗ Y ∗ Z) := by
  unfold goP ins
  iintro ⟨⟨H2, H7, H8a, H8b, ⟨%f, H9⟩⟩, Hsb, Hss, HO⟩
  isplitl [H2 H7 H8a H8b H9]
  · isplitl [H2 H7 H8a H8b]
    · isplitl [H2]
      · iexact H2
      isplitl [H7]
      · iexact H7
      · iapply (pointsTo_share (PosShare.mem_left_op_right (qt c i))).2
        isplitl [H8a]
        · iexact H8a
        · iexact H8b
    · iexists f; iexact H9
  isplitl [Hsb]
  · iexact Hsb
  isplitl [Hss]
  · iexact Hss
  · iexact HO

/-- The task of tile `(c, i)`, in the payloads' own words. -/
theorem tile_P (hF : (K (F := F)).Facts) (hh : HalfOK m) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0__sc_hidden (coordsV c i) tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop(goP m d c i ∗ scopedBufs (thr d (coordsV c i)) ∗ scopedSems0 (thr d (coordsV c i))
            ∗ ∃ W', ⌜∀ p ∈ W', p ∈ W ∨ p.2 = none⌝ ∗ owes (thr d (coordsV c i)) O W') := by
  unfold goP ins
  iintro ⟨Hlv, -, ⟨⟨H2, H7, H8⟩, ⟨%f9, H9⟩⟩, Hsb, Hss, HO⟩
  ihave H8' := (pointsTo_share (PosShare.mem_left_op_right (qt c i))).1 $$ H8
  icases H8' with ⟨H8a, H8b⟩
  iapply (BIBase.Entails.trans (tile_body d (coordsV c i) hF (qt c i) (qt c i) (qt c i).left (qt c i).right (V2 m d) (V7 m d) (V8 m d) f9 (hh d) O W hO)
    (wp_mono frame _ _ fun _ => tile_post m d c i)) $$ [Hlv H2 H7 H8a H8b H9 Hsb Hss HO]
  · isplitl [Hlv]
    · iexact Hlv
    isplitr
    · iempintro
    isplitl [H2 H7 H8a H8b H9]
    · isplitl [H2]
      · iexact H2
      isplitl [H7]
      · iexact H7
      isplitl [H8a]
      · iexact H8a
      isplitl [H8b]
      · iexact H8b
      · iexact H9
    isplitl [Hsb]
    · iexact Hsb
    isplitl [Hss]
    · iexact Hss
    · iexact HO

theorem tileObl (hF : (K (F := F)).Facts) (hh : HalfOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_P m hF hh d (Fin.cast nCore_zero c) (Fin.cast nSub_zero i) O W hO).trans (wp_mono frame _ _ fun _ => obl_post)

/-! ## The hidden array dealt by rows -/

omit [FloatOps F] [Named F] in
theorem v9_split (d : Dev nD) (f : Buf (Elt F) (v9Loc d)) :
    (v9Loc d ↦{fullShare} f : sProp 𝕄) = bigSep Finset.univ fun c : Fin 2 => bigSep Finset.univ fun i : Fin 16 => v9Loc d ↦[rowsOf c i]{fullShare} f := by
  have h : (v9Loc d ↦[(Finset.univ : Finset (Fin 2 × Fin 16)).biUnion (fun t => rowsOf t.1 t.2)]{fullShare} f : sProp 𝕄)
      = bigSep (Finset.univ : Finset (Fin 2 × Fin 16)) fun t => v9Loc d ↦[rowsOf t.1 t.2]{fullShare} f :=
    pointsTo_biUnion (ℓ := v9Loc d) (q := fullShare) (f := f) Finset.univ (fun t : Fin 2 × Fin 16 => rowsOf t.1 t.2) rowsOf_disjoint
  rw [rowsOf_cover] at h
  rw [← SparseCore.bigSep_product (Finset.univ : Finset (Fin 2)) (Finset.univ : Finset (Fin 16)) (fun t : Fin 2 × Fin 16 => (v9Loc d ↦[rowsOf t.1 t.2]{fullShare} f : sProp 𝕄)),
    Finset.univ_product_univ, ← h]

theorem v9_join (d : Dev nD) :
    (bigSep Finset.univ fun c : Fin 2 => bigSep Finset.univ fun i : Fin 16 => iprop(∃ f, v9Loc d ↦[rowsOf c i]{fullShare} f))
      ⊢ (iprop(∃ f, v9Loc d ↦{fullShare} f) : sProp 𝕄) := by
  rw [← SparseCore.bigSep_product (Finset.univ : Finset (Fin 2)) (Finset.univ : Finset (Fin 16))
    (fun t : Fin 2 × Fin 16 => (iprop(∃ f, v9Loc d ↦[rowsOf t.1 t.2]{fullShare} f) : sProp 𝕄)), Finset.univ_product_univ]
  refine (bigSep_exists_pi Finset.univ (fun (t : Fin 2 × Fin 16) (f : Buf (Elt F) (v9Loc d)) => (v9Loc d ↦[rowsOf t.1 t.2]{fullShare} f : sProp 𝕄))).trans ?_
  iintro ⟨%fs, H⟩
  ihave H' := (pointsTo_biUnion_join Finset.univ (fun t : Fin 2 × Fin 16 => rowsOf t.1 t.2) fs (fs (0, 0)) rowsOf_disjoint) $$ H
  icases H' with ⟨%g, -, Hg⟩
  rw [rowsOf_cover]
  iexists g; iexact Hg

omit [FloatOps F] [Named F] in
theorem toks2 (ℓ : Loc nD τ sig) (f : Buf (Elt F) ℓ) :
    (ℓ ↦{fullShare} f : sProp 𝕄) ⊣⊢ iprop((ℓ ↦{Transfers.shareDrop fullShare 2} f) ∗ bigSep Finset.univ (fun c : Fin 2 => ℓ ↦{qc c} f)) :=
  Transfers.pointsTo_toks fullShare 2

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] [Named F] in
theorem rows_ex (d : Dev nD) (f9 : Buf (Elt F) (v9Loc d)) :
    (bigSep Finset.univ fun c : Fin 2 => bigSep Finset.univ fun i : Fin 16 => (v9Loc d ↦[rowsOf c i]{fullShare} f9 : sProp 𝕄))
      ⊢ bigSep Finset.univ fun c : Fin 2 => bigSep Finset.univ fun i : Fin 16 => iprop(∃ f, v9Loc d ↦[rowsOf c i]{fullShare} f) :=
  bigSep_mono fun c _ => bigSep_mono fun i _ => exists_intro (Φ := fun f => (v9Loc d ↦[rowsOf c i]{fullShare} f : sProp 𝕄)) f9

/-- The cores' holdings from the shares and the hidden array whole. -/
theorem st_intro (d : Dev nD) (f9 : Buf (Elt F) (v9Loc d)) :
    iprop((bigSep Finset.univ fun c : Fin 2 => v2Loc d ↦{qc c} V2 m d) ∗ (bigSep Finset.univ fun c : Fin 2 => v7Loc d ↦{qc c} V7 m d)
        ∗ (bigSep Finset.univ fun c : Fin 2 => v8Loc d ↦{qc c} V8 m d) ∗ (v9Loc d ↦{fullShare} f9))
      ⊢ (bigSep Finset.univ fun c : Fin ((K (F := F)).nCore 0) => (P (F := F) m).st 0 d c : sProp 𝕄) := by
  show _ ⊢ bigSep Finset.univ fun c : Fin ((K (F := F)).nCore 0) => stP m d (Fin.cast nCore_zero c)
  rw [bigSep_cores (F := F) (stP m d), v9_split]
  unfold stP ins
  rw [bigSep_sep', bigSep_sep', bigSep_sep']
  iintro ⟨T2, T7, T8, H9⟩
  isplitl [T2 T7 T8]
  · isplitl [T2]
    · iexact T2
    isplitl [T7]
    · iexact T7
    · iexact T8
  · iapply (rows_ex (F := F) d f9)
    iexact H9

/-- and back. -/
theorem dn_elim (d : Dev nD) :
    (bigSep Finset.univ fun c : Fin ((K (F := F)).nCore 0) => (P (F := F) m).dn 0 d c : sProp 𝕄)
      ⊢ iprop((bigSep Finset.univ fun c : Fin 2 => v2Loc d ↦{qc c} V2 m d) ∗ (bigSep Finset.univ fun c : Fin 2 => v7Loc d ↦{qc c} V7 m d)
        ∗ (bigSep Finset.univ fun c : Fin 2 => v8Loc d ↦{qc c} V8 m d) ∗ ∃ g, v9Loc d ↦{fullShare} g) := by
  show (bigSep Finset.univ fun c : Fin ((K (F := F)).nCore 0) => stP m d (Fin.cast nCore_zero c)) ⊢ _
  rw [bigSep_cores (F := F) (stP m d)]
  unfold stP ins
  rw [bigSep_sep', bigSep_sep', bigSep_sep']
  iintro ⟨⟨T2, T7, T8⟩, H9⟩
  isplitl [T2]
  · iexact T2
  isplitl [T7]
  · iexact T7
  isplitl [T8]
  · iexact T8
  · iapply (v9_join (F := F) d); iexact H9

/-! ## The call -/

/-- The TensorCore at the SparseCore call: the three read-only arrays go out as shares and come back, the hidden
    array goes out by rows and comes back whole at some contents. -/
theorem wp_sc_call (κ : GSem nD τ sig → ℕ) (d : Dev nD) (Φ : PUnit → sProp 𝕄) :
    iprop((K (F := F)).ctx EH (P m) κ ∗ (K (F := F)).tcSt EH d 0 ∗ (v8Loc d ↦{fullShare} V8 m d) ∗ (v2Loc d ↦{fullShare} V2 m d) ∗ (v7Loc d ↦{fullShare} V7 m d)
        ∗ (∃ f, v9Loc d ↦{fullShare} f)
        ∗ (((K (F := F)).tcSt EH d 1 ∗ (∃ f, v8Loc d ↦{fullShare} f) ∗ (∃ f, v2Loc d ↦{fullShare} f) ∗ (∃ f, v7Loc d ↦{fullShare} f)
            ∗ (∃ f, ⌜True⌝ ∗ v9Loc d ↦{fullShare} f)) -∗ Φ ⟨⟩))
      ⊢ wp frame (wpE ((K (F := F)).defs (D (F := F))) 𝒱 (SparseCore.T d) none) Set.univ (sc.run d 0) Φ := by
  iintro ⟨#Hctx, Hst, H8, H2, H7, ⟨%f9, H9⟩, Hk⟩
  ihave H8' := (toks2 (F := F) (v8Loc d) _).1 $$ H8
  ihave H2' := (toks2 (F := F) (v2Loc d) _).1 $$ H2
  ihave H7' := (toks2 (F := F) (v7Loc d) _).1 $$ H7
  icases H8' with ⟨D8, T8⟩
  icases H2' with ⟨D2, T2⟩
  icases H7' with ⟨D7, T7⟩
  iapply ((K (F := F)).wp_run (D (F := F)) 𝒱 (EH := EH) (P := P m) κ d 0) $$ [Hst T8 T2 T7 H9 D8 D2 D7 Hk]
  isplitr
  · iexact Hctx
  isplitl [Hst]
  · iexact Hst
  isplitl [T8 T2 T7 H9]
  · iapply (st_intro (F := F) m d f9)
    isplitl [T2]
    · iexact T2
    isplitl [T7]
    · iexact T7
    isplitl [T8]
    · iexact T8
    · iexact H9
  iintro ⟨Hst, Hdn⟩
  ihave Hdn' := (dn_elim (F := F) m d) $$ Hdn
  icases Hdn' with ⟨T2, T7, T8, ⟨%g, Hg⟩⟩
  iapply Hk
  isplitl [Hst]
  · iexact Hst
  isplitl [D8 T8]
  · iexists _
    iapply (toks2 (F := F) (v8Loc d) _).2
    isplitl [D8]
    · iexact D8
    · iexact T8
  isplitl [D2 T2]
  · iexists _
    iapply (toks2 (F := F) (v2Loc d) _).2
    isplitl [D2]
    · iexact D2
    · iexact T2
  isplitl [D7 T7]
  · iexists _
    iapply (toks2 (F := F) (v7Loc d) _).2
    isplitl [D7]
    · iexact D7
    · iexact T7
  · iexists g
    isplitr
    · ipureintro; trivial
    · iexact Hg

end Cert.Proof.KI

end
-- ==== Proof.PreFacts.lean ====
/-
  What the precondition says, read back.

  The precondition is one bit: the conjunction of "every entry of the embedding table, of the weights and of the
  bias has absolute value below +∞" and "every context word w satisfies 0 ≤ w ≤ 99999 as a signed word", each
  an all-reduction by `and` of an elementwise comparison. When the bit is one, every comparison is one at every
  index. For a word that gives its unsigned value below the table's height 100000; for an extended real, that
  it is a real number.
-/
import proofs.«204096_g51513837748514_cont_sun_m_306_14_alg».proof.Pre_input_domain
import proofs.«204096_g51513837748514_cont_sun_m_306_14_alg».proof.Proof.Gen.Pre_input_domain
import Idealize.ShloMosaic.Lib.ReduceAll
import Idealize.ShloMosaic.Lib.ValueIdx
import Idealize.ShloMosaic.PureOps.Ideal

noncomputable section

namespace Cert.PreFacts

open Idealize.ShloMosaic Idealize.ShloMosaic.ValueIdx Cert.Pre_input_domain Cert.Pre_input_domain.Gen

/-- The scalar shape has one index. -/
instance : Subsingleton S_.Idx := ⟨fun _ _ => funext fun d => d.elim0⟩

/-- The five comparisons behind the bit, each at every index: the three "finite" tests and the two range tests. -/
theorem parts {F : FTy → Type} [FloatOps F] (a0 : IVec S1024x20 32) (a1 a2 : FVec F S100000x64 .f32) (a3 : FVec F S100000 .f32)
    (h : Cert.Pre_input_domain.fn (F := F) a0 a1 a2 a3 = fun _ => 1#1) :
    (∀ j, cmpf .olt (Host.absf a1) (broadcastInDim S100000x64 ![] bcast_S_S100000x64 (constant S_ .f32 0x7F800000#32)) j = 1#1)
    ∧ (∀ j, cmpf .olt (Host.absf a2) (broadcastInDim S100000x64 ![] bcast_S_S100000x64 (constant S_ .f32 0x7F800000#32)) j = 1#1)
    ∧ (∀ j, cmpf .olt (Host.absf a3) (broadcastInDim S100000 ![] bcast_S_S100000 (constant S_ .f32 0x7F800000#32)) j = 1#1)
    ∧ (∀ j, cmpi .sge a0 (broadcastInDim S1024x20 ![] bcast_S_S1024x20 (constantI S_ 32 0#32)) j = 1#1)
    ∧ (∀ j, cmpi .sle a0 (broadcastInDim S1024x20 ![] bcast_S_S1024x20 (constantI S_ 32 99999#32)) j = 1#1) := by
  have h0 := congrFun h ix0
  dsimp only [fn, fn_part1] at h0
  obtain ⟨h13, h19⟩ := IntOp.andi_eq_one.1 h0
  obtain ⟨h8, h12⟩ := IntOp.andi_eq_one.1 h13
  obtain ⟨h3, h7⟩ := IntOp.andi_eq_one.1 h8
  have hw := fun j => IntOp.andi_eq_one.1 (Host.reduce_andi_all _ _ _ _ ix0 h19 j)
  exact ⟨fun j => Host.reduce_andi_all _ _ _ _ ix0 h3 j, fun j => Host.reduce_andi_all _ _ _ _ ix0 h7 j,
    fun j => Host.reduce_andi_all _ _ _ _ ix0 h12 j, fun j => (hw j).1, fun j => (hw j).2⟩

/-- Every context word, read unsigned, is below the table's height. -/
theorem idx_lt {F : FTy → Type} [FloatOps F] (a0 : IVec S1024x20 32) (a1 a2 : FVec F S100000x64 .f32) (a3 : FVec F S100000 .f32)
    (h : Cert.Pre_input_domain.fn (F := F) a0 a1 a2 a3 = fun _ => 1#1) : ∀ j, (a0 j).toNat < 100000 := by
  intro j
  obtain ⟨-, -, -, hge, hle⟩ := parts a0 a1 a2 a3 h
  have h1 : (0#32 : BitVec 32).toInt ≤ (a0 j).toInt := IntOp.cmpi_sge.1 (hge j)
  have h2 : (a0 j).toInt ≤ (99999#32 : BitVec 32).toInt := IntOp.cmpi_sle.1 (hle j)
  rw [show (0#32 : BitVec 32).toInt = 0 from by decide] at h1
  rw [show (99999#32 : BitVec 32).toInt = 99999 from by decide] at h2
  have h3 := (a0 j).isLt
  rw [BitVec.toInt_eq_toNat_cond] at h1 h2
  split at h1 <;> omega

/-- The same in the signed reading: the word is a nonnegative integer below the height. -/
theorem idx_toInt {F : FTy → Type} [FloatOps F] (a0 : IVec S1024x20 32) (a1 a2 : FVec F S100000x64 .f32) (a3 : FVec F S100000 .f32)
    (h : Cert.Pre_input_domain.fn (F := F) a0 a1 a2 a3 = fun _ => 1#1) : ∀ j, 0 ≤ (a0 j).toInt ∧ (a0 j).toInt ≤ 99999 := by
  intro j
  obtain ⟨-, -, -, hge, hle⟩ := parts a0 a1 a2 a3 h
  have h1 : (0#32 : BitVec 32).toInt ≤ (a0 j).toInt := IntOp.cmpi_sge.1 (hge j)
  have h2 : (a0 j).toInt ≤ (99999#32 : BitVec 32).toInt := IntOp.cmpi_sle.1 (hle j)
  rw [show (0#32 : BitVec 32).toInt = 0 from by decide] at h1
  rw [show (99999#32 : BitVec 32).toInt = 99999 from by decide] at h2
  exact ⟨h1, h2⟩

/-- The word the "finite" tests compare against denotes +∞ … -/
theorem ofBits_inf : Ideal.ofBits .f32 0x7F800000#32 = ⊤ := by
  simp [Ideal.ofBits, Ideal.ieee]

/-- … and the reference's divisor word denotes the real number twenty. -/
theorem ofBits_twenty : Ideal.ofBits .f32 0x41A00000#32 = ((20 : ℝ) : EReal) := by
  simp [Ideal.ofBits, Ideal.ieee, -EReal.coe_mul]; norm_num

/-- An extended real whose absolute value is below +∞ is a real number. -/
theorem real_of_abs_lt (x : EReal) (hx : Ideal.cmp .olt (max x (-x)) (Ideal.ofBits .f32 0x7F800000#32) = 1#1) :
    ∃ r : ℝ, x = (r : EReal) := by
  rw [ofBits_inf] at hx
  induction x using EReal.rec with
  | bot => exact absurd hx (by simp [Ideal.cmp])
  | coe r => exact ⟨r, rfl⟩
  | top => exact absurd hx (by simp [Ideal.cmp])

/-- Every entry of the embedding table is a real number … -/
theorem emb_real (a0 : IVec S1024x20 32) (a1 a2 : FVec Ideal S100000x64 .f32) (a3 : FVec Ideal S100000 .f32)
    (h : Cert.Pre_input_domain.fn (F := Ideal) a0 a1 a2 a3 = fun _ => 1#1) : ∀ j, ∃ x : ℝ, a1 j = (x : EReal) :=
  fun j => real_of_abs_lt (a1 j) ((parts a0 a1 a2 a3 h).1 j)

/-- … and so is every entry of the weights … -/
theorem w_real (a0 : IVec S1024x20 32) (a1 a2 : FVec Ideal S100000x64 .f32) (a3 : FVec Ideal S100000 .f32)
    (h : Cert.Pre_input_domain.fn (F := Ideal) a0 a1 a2 a3 = fun _ => 1#1) : ∀ j, ∃ x : ℝ, a2 j = (x : EReal) :=
  fun j => real_of_abs_lt (a2 j) ((parts a0 a1 a2 a3 h).2.1 j)

/-- … and of the bias. -/
theorem bias_real (a0 : IVec S1024x20 32) (a1 a2 : FVec Ideal S100000x64 .f32) (a3 : FVec Ideal S100000 .f32)
    (h : Cert.Pre_input_domain.fn (F := Ideal) a0 a1 a2 a3 = fun _ => 1#1) : ∀ j, ∃ x : ℝ, a3 j = (x : EReal) :=
  fun j => real_of_abs_lt (a3 j) ((parts a0 a1 a2 a3 h).2.2.1 j)

end Cert.PreFacts

end
-- ==== Proof.HalfOK.lean ====
/-
  The halved context words name rows of the paired table.

  Under the precondition a context word w is a signed word with 0 ≤ w ≤ 99999. Its arithmetic shift right by one
  is then w / 2 read unsigned, which is below 50000, the paired table's height. The array of halved words is a
  re-laying of the word array (same elements in row-major order), so the bound holds at every one of its indices.
-/
import proofs.«204096_g51513837748514_cont_sun_m_306_14_alg».proof.Proof.Iface
import proofs.«204096_g51513837748514_cont_sun_m_306_14_alg».proof.Proof.PreFacts

noncomputable section

namespace Cert.Proof.KI

open Cert.KernelIdeal Cert.KernelIdeal.Gen

open Idealize.ShloMosaic

variable {F : FTy → Type} [FloatOps F] [Named F]

/-- The arithmetic shift right by one of a nonnegative word is half its unsigned value. -/
theorem toNat_shrsi_one (u : ArithUnit) (w : BitVec 32) (h0 : 0 ≤ w.toInt) : (IntOp.shrsi u w 1#32).toNat = w.toNat / 2 := by
  have hm : w.msb = false := by
    rw [BitVec.msb_eq_false_iff_two_mul_lt]; exact BitVec.toInt_pos_iff.1 h0
  unfold IntOp.shrsi
  rw [if_pos (by decide)]
  show (w.sshiftRight (1#32).toNat).toNat = _
  rw [BitVec.sshiftRight_eq_of_msb_false hm, BitVec.toNat_ushiftRight]
  show w.toNat >>> 1 = _
  rw [Nat.shiftRight_eq_div_pow]

/-- Every halved context word is below the paired table's height. -/
theorem halfOK (m : (ℓ : Loc nD τ sig) → Buf (Elt F) ℓ)
    (hpre : ∀ c : Dev nD, Cert.Pre_input_domain.fn (F := F) (m (a0Loc c)) (m (a1Loc c)) (m (a2Loc c)) (m (a3Loc c)) = fun _ => 1#1) :
    ∀ (d : Dev nD) (j : S32x8x80.Idx), ((V2 m d) j).toNat < 50000 := by
  intro d j
  have hr := Cert.PreFacts.idx_toInt _ _ _ _ (hpre d)
  have hlt := Cert.PreFacts.idx_lt _ _ _ _ (hpre d)
  show (IntOp.shrsi .host (m (a0Loc d) (Shape.reshapeEquiv shapeCasts_S1024x20_S32x8x80 j)) 1#32).toNat < 50000
  rw [toNat_shrsi_one _ _ (hr _).1]
  have := hlt (Shape.reshapeEquiv shapeCasts_S1024x20_S32x8x80 j)
  omega

end Cert.Proof.KI

end
-- ==== Proof.Main.lean ====
/-
  The kernel program's run: the launch theorem for SparseCore programs applied to this program.

  The vector subcores' task is one theorem for every tile; a SparseCore's holdings split among its tiles by shares
  and by rows; @main on the TensorCore meets the SparseCore call with the call's rule and runs its host operations
  and its two TensorCore kernel regions; the launch element funds the handshakes' cells and the two pipelines'
  staging cells. What is read off the final memory: the four argument arrays are what they were.
-/
import proofs.«204096_g51513837748514_cont_sun_m_306_14_alg».proof.Proof.Call
import proofs.«204096_g51513837748514_cont_sun_m_306_14_alg».proof.Proof.HalfOK

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)

/-! ## The launch element -/

/-- The launch element: the handshakes' rounds, the pipelines' rounds at `uP`, the transfers' counters at their unit. -/
def u₀ (uP : UP) : UU := (initOf (K (F := F)).hsCells (K (F := F)).hsToks, (uP, 1))

omit [FloatOps F] [Named F] in
theorem bigSep_emp' {I : Type} (s : Finset I) : (bigSep s fun _ => iprop(emp)) = (iprop(emp) : sProp 𝕄) := bigSep_emp_const s

theorem hu₀ (G : Dev nD → sProp 𝕄) (uP : UP)
    (hfund : (BI.own ((EP (F := F)) uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ bigSep Finset.univ G
        ∗ bigSep Finset.univ fun thr : Thread nD τ => bigSep Finset.univ fun q : Fin 1 => (P (F := F) m).x q thr) := by
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  imod (show (BI.own (((Emb.inl : Emb UP (UP × Counters)).trans (embR : Emb (UP × Counters) 𝕄)) uP) : sProp 𝕄) ⊢ |={Set.univ}=> bigSep Finset.univ G from hfund) $$ HP with HG
  imodintro
  isplitl [HH]
  · iexact HH
  isplitl [HG]
  · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- The four argument arrays whole at their launch contents, and whatever else @main's proof leaves (`R`). -/
abbrev FIN (R : Dev nD → sProp 𝕄) (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d)) ∗ R d)

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)

theorem hfin (R : Dev nD → sProp 𝕄) (d : Dev nD) (s' : Phys nD τ sig (Elt F)) : iprop(FIN m R d ∗ SI s') ⊢ (⌜fq m d s'⌝ : sProp 𝕄) := by
  iintro ⟨⟨H0, H1, H2, H3, -⟩, HSI⟩
  icombine HSI H0 gives %h0
  icombine HSI H1 gives %h1
  icombine HSI H2 gives %h2
  icombine HSI H3 gives %h3
  ipureintro
  exact ⟨funext fun i => h0 i (Finset.mem_univ i), funext fun i => h1 i (Finset.mem_univ i), funext fun i => h2 i (Finset.mem_univ i), funext fun i => h3 i (Finset.mem_univ i)⟩

def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c) ∧ r.2.mem (a3Loc c) = m (a3Loc c)

/-! ## The run -/

theorem run_main [∀ e, Nonempty (Elt F e)] (hh : HalfOK m) (G R : Dev nD → sProp 𝕄) (uP : UP)
    (hfund : (BI.own ((EP (F := F)) uP) : sProp 𝕄) ⊢ |={Set.univ}=> bigSep Finset.univ G)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m R d)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hh)
    (fun q _ => match q with | 0 => SparseCore.Cfg.VecSplit.of_plain (vecSplit m))
    m ρ main G (FIN m R) (u₀ (F := F) uP) (sep_elim_left.trans (hu₀ m G uP hfund)) hmain (fq m) (hfin m R) (QC m) (fun _ h => h)

end Cert.Proof.KI

end
-- ==== Proof.TcData.lean ====
/-
  The two matrix products of @main on the TensorCore, as the pipeline library's relational proof data.

  Each product is a grid of points; at a point the body reads three staged blocks — rows of the hidden array, rows
  of the weights, a stretch of the bias — and stores their product plus the bias into the staged block of the
  result. A block of the weights, the bias or the result may run past the hundred thousand columns: what the
  staging buffers hold past the array's end is chosen by nobody, so what the body stores is stated for SOME
  contents there, and what is claimed of the result's block is claimed for every such choice.
-/
import proofs.«204096_g51513837748514_cont_sun_m_306_14_alg».proof.Proof.Iface
import proofs.«204096_g51513837748514_cont_sun_m_306_14_alg».proof.Proof.Gen.KernelIdeal.Launch
import proofs.«204096_g51513837748514_cont_sun_m_306_14_alg».proof.Proof.Gen.KernelIdeal.Points
import proofs.«204096_g51513837748514_cont_sun_m_306_14_alg».proof.Proof.Gen.KernelIdeal.Skeleton
import Idealize.ShloMosaic.Lib.Pipeline.FrameBody
import Idealize.ShloMosaic.Lib.Pipeline.Regions
import Idealize.ShloMosaic.Lib.Tactic

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F] [∀ e, Nonempty (Elt F e)]

local notation "𝕄" => MT nD τ sig (HIx 1) (Elt F) ℕ UU ℕ

/-- No pipeline has a prefetched table. -/
abbrev adm : (p : Fin 2) → (pcfgs (F := F) p).Adm := fun p => (cfgs p).toPCfg_adm

section Data

-- the TensorCore's buffer contents when a product is entered
variable (V : (c : Dev nD) → (b : Ref sig .tc) → Buf (Elt F) ((c : Thread nD τ).loc b))

/-! ## The first product: columns [0, 98304), twelve column blocks by four row blocks -/

/-- Window `w`'s block at point `t`, its part inside the array, read off the array as the product finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S256x64 := Rect.unit (s := S256x64) ![0, 0] S256x64.size inb_S256x64_S256x64_0_0
abbrev r1_1 : Rect S8192x64 := Rect.unit (s := S8192x64) ![0, 0] S8192x64.size inb_S8192x64_S8192x64_0_0
abbrev r1_2 : Rect S1x8192 := Rect.unit (s := S1x8192) ![0, 0] S1x8192.size inb_S1x8192_S1x8192_0_0
abbrev r1_3 : Rect S256x8192 := Rect.unit (s := S256x8192) ![0, 0] S256x8192.size inb_S256x8192_S256x8192_0_0

/-- What the body stores in the result's staging buffer, from what the three input buffers hold. -/
def out1 (x0 : Vec F S256x64 .f32) (x1 : Vec F S8192x64 .f32) (x2 : Vec F S1x8192 .f32) : Vec F S256x8192 .f32 :=
  View.canon [⟨r1_3, k1_pay1 (View.ld x0 r1_0) (View.ld x1 r1_1) (View.ld x2 r1_2)⟩]

theorem cover1 (p0 : Vec F S256x8192 .f32) (y : S256x8192.Idx) :
    ∃ pc ∈ ([⟨r1_3, p0⟩] : List (View.Piece (Elt F) S256x8192 .f32)), y ∈ pc.1.set :=
  View.cover_of_tiled [⟨r1_3, p0⟩] S256x8192.size (by rfl) y

set_option maxHeartbeats 1000000 in
/-- The body on whole staging memrefs: the three inputs are read and left as they were, the result's buffer ends
    at `out1` of them. -/
theorem sound_kernel1 (c : Dev nD) (E : Set ℕ) (i : grid1.Coords)
    (arg2 : Memref sig .tc .vmem S256x64 .f32) (harg2 : arg2.IsWhole) (arg3 : Memref sig .tc .vmem S8192x64 .f32) (harg3 : arg3.IsWhole)
    (arg4 : Memref sig .tc .vmem S1x8192 .f32) (harg4 : arg4.IsWhole) (arg5 : Memref sig .tc .vmem S256x8192 .f32) (harg5 : arg5.IsWhole)
    (x0 : Vec F S256x64 .f32) (x1 : Vec F S8192x64 .f32) (x2 : Vec F S1x8192 .f32) (Kk : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1 x0 x1 x2)) -∗ Kk ⟨⟩))
      ⊢ wp frame (wpE (defs₀ (F := F)) Variants.none c none) E (cc1__mm_body i arg2 harg2 arg3 harg3 arg4 harg4 arg5 harg5) Kk := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ### The relational proof data -/

/-- The pairs a wait of the TensorCore's may have recorded by the time a product is entered: those at levels up to
    the end of the SparseCore call's band. The products' own waits, at the kernels' index, are among them. -/
def recd (c : Dev nD) : Set (SemLoc sig × HIx 1) := {p | (K (F := F)).lev ((T c : Thread nD τ), p.1) p.2 ≤ 8}

/-- The first product's proof data on core `c`: the arrays as it finds them; the three inputs' staging buffers
    left as found; the result's buffer at `out1` of the three inputs' blocks, each filled out past the array's
    end by contents not chosen; the invariant the scoped buffers no window stages; nothing owed. -/
def rdat1 (c : Dev nD) : RDat τ (Elt F) (HIx 1) ℕ UU ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun _ X => ∃ d0 d1 d2, X = out1 (win1_0.fill (grid1.coords t) d0 (blk1 V c 0 t))
        (win1_1.fill (grid1.coords t) d1 (blk1 V c 1 t)) (win1_2.fill (grid1.coords t) d2 (blk1 V c 2 t))
  Φ _ := Pipeline.scopedRest spec1 c
  q _ := fullShare
  owed _ := 0
  recorded _ := recd (F := F) c

theorem rdat1_A (c : Dev nD) (w : Fin cfg1.W) : (rdat1 V c).A w = V c (Pipeline.arrRef spec1 w) := by dsimp only [rdat1]

/-- An input's staging buffer holds, whenever the body runs, its block filled out by some contents. -/
theorem finds1_0 (c : Dev nD) (t : Fin cfg1.N) (Y) (h : (rdat1 V c).Finds 0 t Y) : ∃ d, Y = win1_0.fill (grid1.coords t) d (blk1 V c 0 t) :=
  (rdat1 V c).finds_in_eq_fetched 0 rfl (fun _ _ _ => rfl) (fun _ _ _ h => h) t Y h
theorem finds1_1 (c : Dev nD) (t : Fin cfg1.N) (Y) (h : (rdat1 V c).Finds 1 t Y) : ∃ d, Y = win1_1.fill (grid1.coords t) d (blk1 V c 1 t) :=
  (rdat1 V c).finds_in_eq_fetched 1 rfl (fun t t' h => by
    funext a; show Pipeline.Clip.of (cc1_transform_1 (grid1.coords t) a) _ _ = Pipeline.Clip.of (cc1_transform_1 (grid1.coords t') a) _ _
    rw [show cc1_transform_1 (grid1.coords t) = cc1_transform_1 (grid1.coords t') from h]) (fun _ _ _ h => h) t Y h
theorem finds1_2 (c : Dev nD) (t : Fin cfg1.N) (Y) (h : (rdat1 V c).Finds 2 t Y) : ∃ d, Y = win1_2.fill (grid1.coords t) d (blk1 V c 2 t) :=
  (rdat1 V c).finds_in_eq_fetched 2 rfl (fun t t' h => by
    funext a; show Pipeline.Clip.of (cc1_transform_2 (grid1.coords t) a) _ _ = Pipeline.Clip.of (cc1_transform_2 (grid1.coords t') a) _ _
    rw [show cc1_transform_2 (grid1.coords t) = cc1_transform_2 (grid1.coords t') from h]) (fun _ _ _ h => h) t Y h

/-- The library's body obligation for the first product. -/
theorem body_obligation1 (c : Dev nD) : (rdat1 V c).BodyObligation (defs₀ (F := F)) Variants.none (none : HIx 1) Set.univ := fun t Y hY => by
  obtain ⟨d0, h0⟩ := finds1_0 V c t (Y 0) (hY 0)
  obtain ⟨d1, h1⟩ := finds1_1 V c t (Y 1) (hY 1)
  obtain ⟨d2, h2⟩ := finds1_2 V c t (Y 2) (hY 2)
  rw [bigSep_W1, bigSep_W1]
  show _ ⊢ wp frame (wpE (defs₀ (F := F)) Variants.none c none) Set.univ (bodyAt1 t) _
  unfold bodyAt1
  rw [show (rdat1 V c).Φ t.succ = (rdat1 V c).Φ t.castSucc from rfl,
    show (rdat1 V c).owesAt (none : HIx 1) t.succ = (rdat1 V c).owesAt (none : HIx 1) t.castSucc from rfl]
  iintro ⟨HΦ, Ho, H0, H1, H2, H3⟩
  iapply (sound_kernel1 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; dsimp only [rdat1]
    iexact H0
  isplitl [H1]
  · iexists (Y 1); isplitr; · ipureintro; dsimp only [rdat1]
    iexact H1
  isplitl [H2]
  · iexists (Y 2); isplitr; · ipureintro; dsimp only [rdat1]
    iexact H2
  iexists _; isplitr
  swap; · iexact H3
  ipureintro; dsimp only [rdat1]
  exact ⟨d0, d1, d2, by rw [← h0, ← h1, ← h2]⟩

/-! ## The second product: columns [98304, 100352) in one point, its blocks cut at column 100000 -/

/-- Window `w`'s block at the one point, its part inside the array, read off the array as the product finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x64 := Rect.unit (s := S1024x64) ![0, 0] S1024x64.size inb_S1024x64_S1024x64_0_0
abbrev r2_1 : Rect S2048x64 := Rect.unit (s := S2048x64) ![0, 0] S2048x64.size inb_S2048x64_S2048x64_0_0
abbrev r2_2 : Rect S1x2048 := Rect.unit (s := S1x2048) ![0, 0] S1x2048.size inb_S1x2048_S1x2048_0_0
abbrev r2_3 : Rect S1024x2048 := Rect.unit (s := S1024x2048) ![0, 0] S1024x2048.size inb_S1024x2048_S1024x2048_0_0

/-- What the body stores in the result's staging buffer, from what the three input buffers hold. -/
def out2 (x0 : Vec F S1024x64 .f32) (x1 : Vec F S2048x64 .f32) (x2 : Vec F S1x2048 .f32) : Vec F S1024x2048 .f32 :=
  View.canon [⟨r2_3, k2_pay1 (View.ld x0 r2_0) (View.ld x1 r2_1) (View.ld x2 r2_2)⟩]

theorem cover2 (p0 : Vec F S1024x2048 .f32) (y : S1024x2048.Idx) :
    ∃ pc ∈ ([⟨r2_3, p0⟩] : List (View.Piece (Elt F) S1024x2048 .f32)), y ∈ pc.1.set :=
  View.cover_of_tiled [⟨r2_3, p0⟩] S1024x2048.size (by rfl) y

set_option maxHeartbeats 1000000 in
/-- The body on whole staging memrefs: the three inputs are read and left as they were, the result's buffer ends
    at `out2` of them; the result's array itself, which the body is also handed, is not touched. -/
theorem sound_kernel2 (c : Dev nD) (E : Set ℕ) (i : grid2.Coords)
    (arg1 : Memref sig .tc .vmem S1024x64 .f32) (harg1 : arg1.IsWhole) (arg2 : Memref sig .tc .vmem S2048x64 .f32) (harg2 : arg2.IsWhole)
    (arg3 : Memref sig .tc .vmem S1x2048 .f32) (harg3 : arg3.IsWhole) (arg4 : Memref sig .tc .hbm S1024x100000 .f32) (harg4 : arg4.IsWhole)
    (arg5 : Memref sig .tc .vmem S1024x2048 .f32) (harg5 : arg5.IsWhole)
    (x0 : Vec F S1024x64 .f32) (x1 : Vec F S2048x64 .f32) (x2 : Vec F S1x2048 .f32) (Kk : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (out2 x0 x1 x2)) -∗ Kk ⟨⟩))
      ⊢ wp frame (wpE (defs₀ (F := F)) Variants.none c none) E (cc2__tail_body i arg1 harg1 arg2 harg2 arg3 harg3 arg4 harg4 arg5 harg5) Kk := by
  simp only [cc2__tail_body_eq_skeleton]; unfold cc2__tail_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The second product's proof data on core `c`, as the first's. -/
def rdat2 (c : Dev nD) : RDat τ (Elt F) (HIx 1) ℕ UU ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ d0 d1 d2, X = out2 (win2_0.fill (grid2.coords t) d0 (blk2 V c 0 t))
        (win2_1.fill (grid2.coords t) d1 (blk2 V c 1 t)) (win2_2.fill (grid2.coords t) d2 (blk2 V c 2 t))
  Φ _ := Pipeline.scopedRest spec2 c
  q _ := fullShare
  owed _ := 0
  recorded _ := recd (F := F) c

theorem rdat2_A (c : Dev nD) (w : Fin cfg2.W) : (rdat2 V c).A w = V c (Pipeline.arrRef spec2 w) := by dsimp only [rdat2]

theorem finds2_0 (c : Dev nD) (t : Fin cfg2.N) (Y) (h : (rdat2 V c).Finds 0 t Y) : ∃ d, Y = win2_0.fill (grid2.coords t) d (blk2 V c 0 t) :=
  (rdat2 V c).finds_in_eq_fetched 0 rfl (fun _ _ _ => rfl) (fun _ _ _ h => h) t Y h
theorem finds2_1 (c : Dev nD) (t : Fin cfg2.N) (Y) (h : (rdat2 V c).Finds 1 t Y) : ∃ d, Y = win2_1.fill (grid2.coords t) d (blk2 V c 1 t) :=
  (rdat2 V c).finds_in_eq_fetched 1 rfl (fun t t' h => by
    funext a; show Pipeline.Clip.of (cc2_transform_1 (grid2.coords t) a) _ _ = Pipeline.Clip.of (cc2_transform_1 (grid2.coords t') a) _ _
    rw [show cc2_transform_1 (grid2.coords t) = cc2_transform_1 (grid2.coords t') from h]) (fun _ _ _ h => h) t Y h
theorem finds2_2 (c : Dev nD) (t : Fin cfg2.N) (Y) (h : (rdat2 V c).Finds 2 t Y) : ∃ d, Y = win2_2.fill (grid2.coords t) d (blk2 V c 2 t) :=
  (rdat2 V c).finds_in_eq_fetched 2 rfl (fun t t' h => by
    funext a; show Pipeline.Clip.of (cc2_transform_2 (grid2.coords t) a) _ _ = Pipeline.Clip.of (cc2_transform_2 (grid2.coords t') a) _ _
    rw [show cc2_transform_2 (grid2.coords t) = cc2_transform_2 (grid2.coords t') from h]) (fun _ _ _ h => h) t Y h

/-- The library's body obligation for the second product. -/
theorem body_obligation2 (c : Dev nD) : (rdat2 V c).BodyObligation (defs₀ (F := F)) Variants.none (none : HIx 1) Set.univ := fun t Y hY => by
  obtain ⟨d0, h0⟩ := finds2_0 V c t (Y 0) (hY 0)
  obtain ⟨d1, h1⟩ := finds2_1 V c t (Y 1) (hY 1)
  obtain ⟨d2, h2⟩ := finds2_2 V c t (Y 2) (hY 2)
  rw [bigSep_W2, bigSep_W2]
  show _ ⊢ wp frame (wpE (defs₀ (F := F)) Variants.none c none) Set.univ (bodyAt2 t) _
  unfold bodyAt2
  rw [show (rdat2 V c).Φ t.succ = (rdat2 V c).Φ t.castSucc from rfl,
    show (rdat2 V c).owesAt (none : HIx 1) t.succ = (rdat2 V c).owesAt (none : HIx 1) t.castSucc from rfl]
  iintro ⟨HΦ, Ho, H0, H1, H2, H3⟩
  iapply (sound_kernel2 c Set.univ _ _ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; dsimp only [rdat2]
    iexact H0
  isplitl [H1]
  · iexists (Y 1); isplitr; · ipureintro; dsimp only [rdat2]
    iexact H1
  isplitl [H2]
  · iexists (Y 2); isplitr; · ipureintro; dsimp only [rdat2]
    iexact H2
  iexists _; isplitr
  swap; · iexact H3
  ipureintro; dsimp only [rdat2]
  exact ⟨d0, d1, d2, by rw [← h0, ← h1, ← h2]⟩

end Data

end Cert.Proof.KI.Tc

end
-- ==== Proof.TcRegion.lean ====
/-
  The two matrix products as regions of @main: what each is entered from and what it leaves.

  A product is entered holding every unscoped buffer of the TensorCore at known contents, the generator register,
  and the TensorCore owing nothing with every recorded wait at a level up to the SparseCore call's. It leaves the
  same, the result's array alone changed: to contents the product's write-backs may leave.
-/
import proofs.«204096_g51513837748514_cont_sun_m_306_14_alg».proof.Proof.TcData

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F] [∀ e, Nonempty (Elt F e)]

local notation "𝕄" => MT nD τ sig (HIx 1) (Elt F) ℕ UU ℕ

variable (ρ : Dev nD → PrngReg)
-- the TensorCore's buffer contents when the first product is entered, and when the second is
variable (V1 V2 : (c : Dev nD) → (b : Ref sig .tc) → Buf (Elt F) ((c : Thread nD τ).loc b))

/-- Both products' proof data, each at its own entry contents. -/
def rdats : (p : Fin 2) → (c : Dev nD) → RDat τ (Elt F) (HIx 1) ℕ UU ℕ (Pipeline.pin (pcfgs (F := F)) adm p) c
  | ⟨0, _⟩ => fun c => rdat1 V1 c
  | ⟨1, _⟩ => fun c => rdat2 V2 c

/-- The levels are the SparseCore launch's. -/
abbrev Lk : GSem nD τ sig → Finset (HIx 1) := (K (F := F)).L
abbrev lvk : GSem nD τ sig → HIx 1 → ℕ := (K (F := F)).lev

/-- The TensorCore owes nothing, and every pair its waits have recorded sits at a level up to the call's. -/
def Ow (c : Dev nD) : sProp 𝕄 :=
  iprop(∃ W, ⌜(K (F := F)).WBelow (T c) W 8⌝ ∗ owes (T c : Thread nD τ) (0 : CellTallies nD τ sig (HIx 1)) W)

theorem Ow_within (c : Dev nD) (B : Set (SemLoc sig × HIx 1)) (hB : recd (F := F) c ⊆ B) :
    Ow (F := F) c ⊢ (Pipeline.owesWithin c (0 : CellTallies nD τ sig (HIx 1)) B : sProp 𝕄) := by
  unfold Ow Pipeline.owesWithin
  iintro ⟨%W, %hW, HO⟩; iexists W; isplitr
  · ipureintro; exact fun p hp => hB (hW p (Finset.mem_coe.mp hp))
  iexact HO

theorem within_Ow (c : Dev nD) (cfg : Cfg sig Λ₀) :
    (Pipeline.owesWithin c (0 : CellTallies nD τ sig (HIx 1)) (recd (F := F) c ∪ cfg.waitPairs (none : HIx 1)) : sProp 𝕄) ⊢ Ow (F := F) c := by
  unfold Ow Pipeline.owesWithin
  iintro ⟨%W, %hW, HO⟩; iexists W; isplitr
  · ipureintro; intro p hp
    rcases hW (Finset.mem_coe.mpr hp) with h | ⟨w, s, rfl⟩
    · exact h
    · exact Nat.zero_le _
  iexact HO

/-! ## The first product -/

/-- A window's array, whole at the full share, as the pipeline holds it and as @main does. -/
theorem arr_pts1 (c : Dev nD) (w : Fin cfg1.W) (G : Buf (Elt F) ((cfg1.win w).arr.view.loc (c.tc : Thread nD τ))) :
    ((cfg1.win w).arr.view.loc (c.tc : Thread nD τ) ↦[(cfg1.win w).arr.view.set]{(rdat1 V1 c).share w} G : sProp 𝕄)
      = (((c.tc : Thread nD τ).loc (Pipeline.arrRef spec1 w)) ↦{fullShare} G) := by
  rw [show (cfg1.win w).arr.view.set = Finset.univ from (launch1.arr_whole w).set_eq_univ, (rdat1 V1 c).share_full (fun _ => rfl) w]

/-- The buffers that are no window's array do not see a change of the result's array. -/
theorem unscopedRest_update1 (c : Dev nD) (g : Buf (Elt F) ((c : Thread nD τ).loc main_v11)) :
    (Pipeline.unscopedRest spec1 c (Function.update (V1 c) main_v11 g) : sProp 𝕄) = Pipeline.unscopedRest spec1 c (V1 c) := by
  unfold Pipeline.unscopedRest
  exact bigSep_congr fun b hb => by
    rw [Function.update_of_ne (fun e => (Finset.mem_sdiff.mp hb).2 (Finset.mem_image.mpr ⟨3, Finset.mem_univ _, e.symm⟩))]

/-- What the first product may leave in the result's array. -/
abbrev Left1 (c : Dev nD) (g : Buf (Elt F) ((c : Thread nD τ).loc main_v11)) : Prop := (rdat1 V1 c).ArrAt 3 cfg1.N g

set_option backward.isDefEq.respectTransparency.types false in
def reg1 : Pipeline.RDat.RegionSeg (pcfgs (F := F)) adm (rdats V1 V2) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := body_obligation1 V1 c
  hwaits := Pipeline.RDat.hwaits_of_owed_zero _ _ _ _ (Lk (F := F)) (lvk (F := F)) 0 fun _ _ => rfl
  pre c := iprop(unscopedBufs c (V1 c) ∗ prngReg c (ρ c) ∗ Ow (F := F) c)
  post c := iprop(∃ g, ⌜Left1 V1 c g⌝ ∗ unscopedBufs c (Function.update (V1 c) main_v11 g) ∗ prngReg c (ρ c) ∗ Ow (F := F) c)
  X c := iprop(emp)
  Y c := iprop(emp)
  Z c := iprop(Pipeline.unscopedRest spec1 c (V1 c) ∗ prngReg c (ρ c))
  hentry c := by
    rw [Pipeline.ownSems0_none]
    have hsplit := Pipeline.RDat.arrays_of_unscopedBufs (p := 0) (pcfgs (F := F)) adm (rdats V1 V2) launch1.win launch1.arr_whole c
      ((rdats V1 V2 0 c).share_full fun _ => rfl) (V1 c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Ow_within (F := F) c _ (fun p hp => Or.inl hp)); iexact HO
    isplitr; · iempintro
    isplitl [Hrest]; · iexact Hrest
    iexact Hp
  hin c := by
    rw [show (rdats V1 V2 0 c).Φ 0 = Pipeline.scopedRest spec1 c from rfl]
    iintro ⟨-, -, Hr⟩; iexact Hr
  hout c := by
    rw [Pipeline.ownSems0_none, show (rdats V1 V2 0 c).Φ (Fin.last _) = Pipeline.scopedRest spec1 c from rfl]
    iintro Hr
    isplitr; · iempintro
    isplitr; · iempintro
    iexact Hr
  hexit c := by
    rw [show (rdats V1 V2 0 c).arraysAt (Pipeline.pin (pcfgs (F := F)) adm 0).N = (rdat1 V1 c).arraysAt cfg1.N from rfl]
    unfold Pipeline.RDat.arraysAt
    rw [bigSep_W1]
    iintro ⟨⟨⟨%F0, %h0, H0⟩, ⟨%F1, %h1, H1⟩, ⟨%F2, %h2, H2⟩, ⟨%F3, %h3, H3⟩⟩, HO, -, Hrest, Hp⟩
    rw [(rdat1 V1 c).ArrAt_in 0 rfl] at h0
    rw [(rdat1 V1 c).ArrAt_in 1 rfl] at h1
    rw [(rdat1 V1 c).ArrAt_in 2 rfl] at h2
    subst h0; subst h1; subst h2
    imodintro
    iexists F3
    isplitr; · ipureintro; exact h3
    isplitl [H0 H1 H2 H3 Hrest]
    · rw [Pipeline.unscopedBufs_split (Pipeline.pin (pcfgs (F := F)) adm) 0 launch1.win.arr_unscoped launch1.win.arr_inj c _, bigSep_W1]
      isplitr [Hrest]
      · isplitl [H0]
        · iapply (Entails.of_eq (arr_pts1 V1 c 0 _)) $$ H0
        isplitl [H1]
        · iapply (Entails.of_eq (arr_pts1 V1 c 1 _)) $$ H1
        isplitl [H2]
        · iapply (Entails.of_eq (arr_pts1 V1 c 2 _)) $$ H2
        · iapply (Entails.of_eq (arr_pts1 V1 c 3 _)) $$ H3
      · iapply (Entails.of_eq (unscopedRest_update1 V1 c F3).symm) $$ Hrest
    isplitl [Hp]; · iexact Hp
    iapply (within_Ow (F := F) c cfg1); iexact HO

/-! ## The second product -/

/-- A window's array, whole at the full share, as the pipeline holds it and as @main does. -/
theorem arr_pts2 (c : Dev nD) (w : Fin cfg2.W) (G : Buf (Elt F) ((cfg2.win w).arr.view.loc (c.tc : Thread nD τ))) :
    ((cfg2.win w).arr.view.loc (c.tc : Thread nD τ) ↦[(cfg2.win w).arr.view.set]{(rdat2 V2 c).share w} G : sProp 𝕄)
      = (((c.tc : Thread nD τ).loc (Pipeline.arrRef spec2 w)) ↦{fullShare} G) := by
  rw [show (cfg2.win w).arr.view.set = Finset.univ from (launch2.arr_whole w).set_eq_univ, (rdat2 V2 c).share_full (fun _ => rfl) w]

/-- The buffers that are no window's array do not see a change of the result's array. -/
theorem unscopedRest_update2 (c : Dev nD) (g : Buf (Elt F) ((c : Thread nD τ).loc main_v12)) :
    (Pipeline.unscopedRest spec2 c (Function.update (V2 c) main_v12 g) : sProp 𝕄) = Pipeline.unscopedRest spec2 c (V2 c) := by
  unfold Pipeline.unscopedRest
  exact bigSep_congr fun b hb => by
    rw [Function.update_of_ne (fun e => (Finset.mem_sdiff.mp hb).2 (Finset.mem_image.mpr ⟨3, Finset.mem_univ _, e.symm⟩))]

/-- What the second product may leave in the result's array. -/
abbrev Left2 (c : Dev nD) (g : Buf (Elt F) ((c : Thread nD τ).loc main_v12)) : Prop := (rdat2 V2 c).ArrAt 3 cfg2.N g

set_option backward.isDefEq.respectTransparency.types false in
def reg2 : Pipeline.RDat.RegionSeg (pcfgs (F := F)) adm (rdats V1 V2) (none : HIx 1) defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := body_obligation2 V2 c
  hwaits := Pipeline.RDat.hwaits_of_owed_zero _ _ _ _ (Lk (F := F)) (lvk (F := F)) 1 fun _ _ => rfl
  pre c := iprop(unscopedBufs c (V2 c) ∗ prngReg c (ρ c) ∗ Ow (F := F) c)
  post c := iprop(∃ g, ⌜Left2 V2 c g⌝ ∗ unscopedBufs c (Function.update (V2 c) main_v12 g) ∗ prngReg c (ρ c) ∗ Ow (F := F) c)
  X c := iprop(emp)
  Y c := iprop(emp)
  Z c := iprop(Pipeline.unscopedRest spec2 c (V2 c) ∗ prngReg c (ρ c))
  hentry c := by
    rw [Pipeline.ownSems0_none]
    have hsplit := Pipeline.RDat.arrays_of_unscopedBufs (p := 1) (pcfgs (F := F)) adm (rdats V1 V2) launch2.win launch2.arr_whole c
      ((rdats V1 V2 1 c).share_full fun _ => rfl) (V2 c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Ow_within (F := F) c _ (fun p hp => Or.inl hp)); iexact HO
    isplitr; · iempintro
    isplitl [Hrest]; · iexact Hrest
    iexact Hp
  hin c := by
    rw [show (rdats V1 V2 1 c).Φ 0 = Pipeline.scopedRest spec2 c from rfl]
    iintro ⟨-, -, Hr⟩; iexact Hr
  hout c := by
    rw [Pipeline.ownSems0_none, show (rdats V1 V2 1 c).Φ (Fin.last _) = Pipeline.scopedRest spec2 c from rfl]
    iintro Hr
    isplitr; · iempintro
    isplitr; · iempintro
    iexact Hr
  hexit c := by
    rw [show (rdats V1 V2 1 c).arraysAt (Pipeline.pin (pcfgs (F := F)) adm 1).N = (rdat2 V2 c).arraysAt cfg2.N from rfl]
    unfold Pipeline.RDat.arraysAt
    rw [bigSep_W2]
    iintro ⟨⟨⟨%F0, %h0, H0⟩, ⟨%F1, %h1, H1⟩, ⟨%F2, %h2, H2⟩, ⟨%F3, %h3, H3⟩⟩, HO, -, Hrest, Hp⟩
    rw [(rdat2 V2 c).ArrAt_in 0 rfl] at h0
    rw [(rdat2 V2 c).ArrAt_in 1 rfl] at h1
    rw [(rdat2 V2 c).ArrAt_in 2 rfl] at h2
    subst h0; subst h1; subst h2
    imodintro
    iexists F3
    isplitr; · ipureintro; exact h3
    isplitl [H0 H1 H2 H3 Hrest]
    · rw [Pipeline.unscopedBufs_split (Pipeline.pin (pcfgs (F := F)) adm) 1 launch2.win.arr_unscoped launch2.win.arr_inj c _, bigSep_W2]
      isplitr [Hrest]
      · isplitl [H0]
        · iapply (Entails.of_eq (arr_pts2 V2 c 0 _)) $$ H0
        isplitl [H1]
        · iapply (Entails.of_eq (arr_pts2 V2 c 1 _)) $$ H1
        isplitl [H2]
        · iapply (Entails.of_eq (arr_pts2 V2 c 2 _)) $$ H2
        · iapply (Entails.of_eq (arr_pts2 V2 c 3 _)) $$ H3
      · iapply (Entails.of_eq (unscopedRest_update2 V2 c F3).symm) $$ Hrest
    isplitl [Hp]; · iexact Hp
    iapply (within_Ow (F := F) c cfg2); iexact HO

end Cert.Proof.KI.Tc

end
-- ==== Proof.TcEntry.lean ====
/-
  Entering a matrix product from @main: the product's call, a call of the TensorCore program's own signature lifted
  into the SparseCore program's, run by the pipeline library's region rule.
-/
import proofs.«204096_g51513837748514_cont_sun_m_306_14_alg».proof.Proof.TcRegion

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [Named F] [∀ e, Nonempty (Elt F e)]

local notation "𝕄" => MT nD τ sig (HIx 1) (Elt F) ℕ UU ℕ

variable (ρ : Dev nD → PrngReg)
variable (V1 V2 : (c : Dev nD) → (b : Ref sig .tc) → Buf (Elt F) ((c : Thread nD τ).loc b))

/-- A product's call in the SparseCore program's signature is the call in the TensorCore program's, lifted. -/
theorem lift_entry (p : Fin 2) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun x => .ret x) := rfl

set_option maxHeartbeats 400000 in
set_option backward.isDefEq.respectTransparency.types false in
theorem wp_region1_pipe (d : Dev nD) {Φ : PUnit → sProp 𝕄} :
    iprop((iprop(boundary (d.tc : Thread nD τ) ∗ (reg1 ρ V1 V2).post d) -∗ wp frame (wpE (D (F := F)) 𝒱 (d.tc : Thread nD τ) none) Set.univ (.ret ⟨⟩) Φ)
        ∗ boundary (d.tc : Thread nD τ) ∗ (reg1 ρ V1 V2).pre d ∗ levAts (Lk (F := F)) (lvk (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun x => .ret x) Φ :=
  Pipeline.RDat.RegionSeg.wp (pcfgs (F := F)) adm (rdats V1 V2) (none : HIx 1) cellOf_inj EP defs₀ 𝒱₀ (Lk (F := F)) (lvk (F := F))
    (reg1 ρ V1 V2) d none (fun _ h => nomatch h) (fun x => .ret x) Φ

set_option maxHeartbeats 400000 in
/-- The first product inside @main: from the region boundary, what it is entered from, the level facts and its
    pipeline's staging cells' ghost state, its call runs to the boundary and what it leaves. -/
theorem wp_region1 (d : Dev nD) {Φ : PUnit → sProp 𝕄} :
    iprop(boundary (d.tc : Thread nD τ) ∗ (reg1 ρ V1 V2).pre d ∗ levAts (Lk (F := F)) (lvk (F := F))
        ∗ Pipeline.cellsGhost (Pipeline.pin (pcfgs (F := F)) adm) EP 0 d ∗ Pipeline.toksInit (Pipeline.pin (pcfgs (F := F)) adm) EP 0 d
        ∗ (iprop(boundary (d.tc : Thread nD τ) ∗ (reg1 ρ V1 V2).post d) -∗ Φ ⟨⟩))
      ⊢ wp frame (wpE ((K (F := F)).defs D) 𝒱 (d.tc : Thread nD τ) none) Set.univ
          (Prog.lift (.customCall (SparseCore.inner (Pipeline.entry 0)) ())) Φ := by
  rw [lift_entry]
  iintro ⟨Hb, Hpre, Hlev, Hg, Ht, Hk⟩
  iapply ((K (F := F)).wp_liftProg D 𝒱 (d.tc : Thread nD τ) Set.univ none _ Φ)
  iapply (wp_region1_pipe ρ V1 V2 d)
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht
set_option maxHeartbeats 400000 in
set_option backward.isDefEq.respectTransparency.types false in
theorem wp_region2_pipe (d : Dev nD) {Φ : PUnit → sProp 𝕄} :
    iprop((iprop(boundary (d.tc : Thread nD τ) ∗ (reg2 ρ V1 V2).post d) -∗ wp frame (wpE (D (F := F)) 𝒱 (d.tc : Thread nD τ) none) Set.univ (.ret ⟨⟩) Φ)
        ∗ boundary (d.tc : Thread nD τ) ∗ (reg2 ρ V1 V2).pre d ∗ levAts (Lk (F := F)) (lvk (F := F))
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) fun x => .ret x) Φ :=
  Pipeline.RDat.RegionSeg.wp (pcfgs (F := F)) adm (rdats V1 V2) (none : HIx 1) cellOf_inj EP defs₀ 𝒱₀ (Lk (F := F)) (lvk (F := F))
    (reg2 ρ V1 V2) d none (fun _ h => nomatch h) (fun x => .ret x) Φ

set_option maxHeartbeats 400000 in
/-- The second product inside @main: from the region boundary, what it is entered from, the level facts and its
    pipeline's staging cells' ghost state, its call runs to the boundary and what it leaves. -/
theorem wp_region2 (d : Dev nD) {Φ : PUnit → sProp 𝕄} :
    iprop(boundary (d.tc : Thread nD τ) ∗ (reg2 ρ V1 V2).pre d ∗ levAts (Lk (F := F)) (lvk (F := F))
        ∗ Pipeline.cellsGhost (Pipeline.pin (pcfgs (F := F)) adm) EP 1 d ∗ Pipeline.toksInit (Pipeline.pin (pcfgs (F := F)) adm) EP 1 d
        ∗ (iprop(boundary (d.tc : Thread nD τ) ∗ (reg2 ρ V1 V2).post d) -∗ Φ ⟨⟩))
      ⊢ wp frame (wpE ((K (F := F)).defs D) 𝒱 (d.tc : Thread nD τ) none) Set.univ
          (Prog.lift (.customCall (SparseCore.inner (Pipeline.entry 1)) ())) Φ := by
  rw [lift_entry]
  iintro ⟨Hb, Hpre, Hlev, Hg, Ht, Hk⟩
  iapply ((K (F := F)).wp_liftProg D 𝒱 (d.tc : Thread nD τ) Set.univ none _ Φ)
  iapply (wp_region2_pipe ρ V1 V2 d)
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

end Cert.Proof.KI.Tc

end
-- ==== Proof.TcMain.lean ====
/-
  @main on the TensorCore: eleven host operations that lay the context words and the table out for the SparseCores,
  the SparseCore call, the bias reshaped, the first matrix product, the result copied into the buffer the second
  product writes, the second product. The four argument arrays end as they were launched: no host operation writes
  one, the SparseCore call is handed none, and each product reads the weights through an input window and never
  the others.
-/
import proofs.«204096_g51513837748514_cont_sun_m_306_14_alg».proof.Proof.TcEntry
import Idealize.ShloMosaic.Lib.StableHlo.Run

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.StableHlo (held held_sub_split held_congr)

variable {F : FTy → Type} [FloatOps F] [Named F] [∀ e, Nonempty (Elt F e)]

local notation "𝕄" => MT nD τ sig (HIx 1) (Elt F) ℕ UU ℕ

/-! ## The pipelines' ghost state -/

/-- What @main's proof starts from beyond the launch's deal: both products' staging cells' ghost state and the
    duty tokens of their transfers. -/
def G (d : Dev nD) : sProp 𝕄 :=
  bigSep Finset.univ fun p : Fin 2 => iprop(Pipeline.cellsGhost (Pipeline.pin (pcfgs (F := F)) adm) EP p d
    ∗ Pipeline.toksInit (Pipeline.pin (pcfgs (F := F)) adm) EP p d)

/-- The pipeline library's launch element: every staging cell's owner at round 0, a token per transfer. -/
def uP : UP := initOf (Pipeline.cells cfgs cellOf_inj) (Pipeline.launchToks cfgs cellOf_inj)

theorem hfund : (BI.own ((EP (F := F)) uP) : sProp 𝕄) ⊢ |={Set.univ}=> bigSep Finset.univ (G (F := F)) := by
  unfold G uP
  iintro Hu
  imod (Pipeline.fund_ghost (Pipeline.pin (pcfgs (F := F)) adm) (EP (F := F)) cellOf_inj) $$ Hu with ⟨Hg, Ht⟩
  imodintro
  simp only [bigSep_sep']
  isplitl [Hg]; · iexact Hg
  iexact Ht

/-! ## @main as a chain of stretches, calls and products -/

/-- The eleven operations before the SparseCore call. -/
abbrev ops0 : List (HloOp τ sig (Elt F)) :=
  [ StableHlo.nullary main_c (constantI S_ 32 1#32),
    StableHlo.unary main_c main_v0 (broadcastInDim S1024x20 ![] bcast_S_S1024x20 : (⟨S_, .i32⟩ : BufTy).Contents (Elt F) → (⟨S1024x20, .i32⟩ : BufTy).Contents (Elt F)),
    StableHlo.binary main_arg0 main_v0 main_v1 (Host.shrsi : (⟨S1024x20, .i32⟩ : BufTy).Contents (Elt F) → (⟨S1024x20, .i32⟩ : BufTy).Contents (Elt F) → (⟨S1024x20, .i32⟩ : BufTy).Contents (Elt F)),
    StableHlo.reshape main_v1 main_v2 rfl shapeCasts_S1024x20_S32x8x80,
    StableHlo.nullary main_c_0 (constantI S_ 32 1#32),
    StableHlo.unary main_c_0 main_v3 (broadcastInDim S1024x20 ![] bcast_S_S1024x20 : (⟨S_, .i32⟩ : BufTy).Contents (Elt F) → (⟨S1024x20, .i32⟩ : BufTy).Contents (Elt F)),
    StableHlo.binary main_arg0 main_v3 main_v4 (andi : (⟨S1024x20, .i32⟩ : BufTy).Contents (Elt F) → (⟨S1024x20, .i32⟩ : BufTy).Contents (Elt F) → (⟨S1024x20, .i32⟩ : BufTy).Contents (Elt F)),
    StableHlo.unary main_v4 main_v5 (sitofp .f32 : (⟨S1024x20, .i32⟩ : BufTy).Contents (Elt F) → (⟨S1024x20, .f32⟩ : BufTy).Contents (Elt F)),
    StableHlo.reshape main_v5 main_v6 rfl shapeCasts_S1024x20_S32x640x1,
    StableHlo.unary main_v6 main_v7 (broadcastInDim S32x640x16 ![0, 1, 2] bcast_S32x640x1_S32x640x16_0_1_2 : (⟨S32x640x1, .f32⟩ : BufTy).Contents (Elt F) → (⟨S32x640x16, .f32⟩ : BufTy).Contents (Elt F)),
    StableHlo.reshape main_arg1 main_v8 rfl shapeCasts_S100000x64_S50000x128 ]
/-- The bias reshaped. -/
abbrev ops1 : List (HloOp τ sig (Elt F)) := [ StableHlo.reshape main_arg3 main_v10 rfl shapeCasts_S100000_S1x100000 ]
/-- The first product's result copied into the second's buffer. -/
abbrev ops2 : List (HloOp τ sig (Elt F)) := [ StableHlo.unary main_v11 main_v12 id ]

theorem main_chain (d : Dev nD) : main (F := F) d = (Pipeline.chain
    [ StableHlo.seq ops0,
      sc.run d 0,
      StableHlo.seq ops1,
      Prog.lift (.customCall (SparseCore.inner (Pipeline.entry 0)) ()),
      StableHlo.seq ops2,
      Prog.lift (.customCall (SparseCore.inner (Pipeline.entry 1)) ()) ] :
      Prog (TpuEff nD τ sig (Elt F) (SparseCore.Sig (ΛP (F := F)) 1) .tc) PUnit) := by
  chain_rfl

theorem ops0_sub : ∀ op ∈ (ops0 : List (HloOp τ sig (Elt F))), op.bufs ⊆ Pipeline.ucRefs τ sig := fun op h =>
  Pipeline.sub_ucRefs op ((List.forall_iff_forall_mem.mp (show (ops0 : List (HloOp τ sig (Elt F))).Forall fun op => op.bufs ⊆ StableHlo.tcRefs τ sig by
    simp only [List.Forall, StableHlo.nullary_bufs_sub, StableHlo.unary_bufs_sub, StableHlo.binary_bufs_sub, StableHlo.reshape_bufs_sub, and_self])) op h)
theorem ops1_sub : ∀ op ∈ (ops1 : List (HloOp τ sig (Elt F))), op.bufs ⊆ Pipeline.ucRefs τ sig := fun op h =>
  Pipeline.sub_ucRefs op ((List.forall_iff_forall_mem.mp (show (ops1 : List (HloOp τ sig (Elt F))).Forall fun op => op.bufs ⊆ StableHlo.tcRefs τ sig by
    simp only [List.Forall, StableHlo.reshape_bufs_sub])) op h)
theorem ops2_sub : ∀ op ∈ (ops2 : List (HloOp τ sig (Elt F))), op.bufs ⊆ Pipeline.ucRefs τ sig := fun op h =>
  Pipeline.sub_ucRefs op ((List.forall_iff_forall_mem.mp (show (ops2 : List (HloOp τ sig (Elt F))).Forall fun op => op.bufs ⊆ StableHlo.tcRefs τ sig by
    simp only [List.Forall, StableHlo.unary_bufs_sub])) op h)
theorem ops0_fresh : ∀ op ∈ (ops0 : List (HloOp τ sig (Elt F))), op.fresh = ∅ :=
  List.forall_iff_forall_mem.mp (by simp only [List.Forall]; repeat' constructor)
theorem ops1_fresh : ∀ op ∈ (ops1 : List (HloOp τ sig (Elt F))), op.fresh = ∅ :=
  List.forall_iff_forall_mem.mp (by simp only [List.Forall]; rfl)
theorem ops2_fresh : ∀ op ∈ (ops2 : List (HloOp τ sig (Elt F))), op.fresh = ∅ :=
  List.forall_iff_forall_mem.mp (by simp only [List.Forall]; rfl)

/-! ## The buffers' contents along @main -/

section Main

variable (m : (ℓ : Loc nD τ sig) → Buf (Elt F) ℓ) (ρ : Dev nD → PrngReg)
variable (P : (K (F := F)).Pay (nD := nD) (Val := Elt F) (Name := ℕ) (U := UU))

/-- The TensorCore's unscoped buffers. -/
abbrev UC : Finset (DevRef τ sig) := Pipeline.ucRefs τ sig
abbrev dr (b : Ref sig .tc) : DevRef τ sig := Proc.devRef .tc b

/-- At launch, and after the eleven operations. -/
abbrev W0 (d : Dev nD) : Valuation τ sig (Elt F) := fun b => m (d, b)
abbrev W1 (d : Dev nD) : Valuation τ sig (Elt F) := StableHlo.after ops0 (W0 m d)

/-- The four buffers the SparseCore call is handed. -/
abbrev T4 : Finset (DevRef τ sig) := {dr main_v8, dr main_v2, dr main_v7, dr main_v9}

/-- After the call: those four at what it returns. -/
def W2 (d : Dev nD) (f8 : Buf (Elt F) (v8Loc d)) (f2 : Buf (Elt F) (v2Loc d)) (f7 : Buf (Elt F) (v7Loc d)) (f9 : Buf (Elt F) (v9Loc d)) :
    Valuation τ sig (Elt F) :=
  Function.update (Function.update (Function.update (Function.update (W1 m d) (dr main_v8) f8) (dr main_v2) f2) (dr main_v7) f7) (dr main_v9) f9

theorem held_T4 (d : Dev nD) (W : Valuation τ sig (Elt F)) :
    (held (T d) T4 W : sProp 𝕄) = iprop((v8Loc d ↦{fullShare} W (dr main_v8)) ∗ (v2Loc d ↦{fullShare} W (dr main_v2))
      ∗ (v7Loc d ↦{fullShare} W (dr main_v7)) ∗ (v9Loc d ↦{fullShare} W (dr main_v9))) := by
  unfold held T4
  rw [SparseCore.bigSep_insert' (by decide), SparseCore.bigSep_insert' (by decide), SparseCore.bigSep_insert' (by decide), bigSep_singleton]

theorem T4_sub : (T4 : Finset (DevRef τ sig)) ⊆ UC := by decide

theorem W2_v8 (d : Dev nD) (f8 f2 f7 f9) : W2 m d f8 f2 f7 f9 (dr main_v8) = f8 := by
  unfold W2; rw [Function.update_of_ne (by decide), Function.update_of_ne (by decide), Function.update_of_ne (by decide), Function.update_self]
theorem W2_v2 (d : Dev nD) (f8 f2 f7 f9) : W2 m d f8 f2 f7 f9 (dr main_v2) = f2 := by
  unfold W2; rw [Function.update_of_ne (by decide), Function.update_of_ne (by decide), Function.update_self]
theorem W2_v7 (d : Dev nD) (f8 f2 f7 f9) : W2 m d f8 f2 f7 f9 (dr main_v7) = f7 := by
  unfold W2; rw [Function.update_of_ne (by decide), Function.update_self]
theorem W2_v9 (d : Dev nD) (f8 f2 f7 f9) : W2 m d f8 f2 f7 f9 (dr main_v9) = f9 := by
  unfold W2; rw [Function.update_self]
theorem W2_of_not_mem (d : Dev nD) (f8 f2 f7 f9) (b : DevRef τ sig) (hb : b ∉ (T4 : Finset (DevRef τ sig))) : W2 m d f8 f2 f7 f9 b = W1 m d b := by
  unfold W2
  rw [Function.update_of_ne (fun e => hb (by rw [e]; decide)), Function.update_of_ne (fun e => hb (by rw [e]; decide)),
    Function.update_of_ne (fun e => hb (by rw [e]; decide)), Function.update_of_ne (fun e => hb (by rw [e]; decide))]

/-- The four buffers back from the call and the rest untouched are every unscoped buffer at the updated contents. -/
theorem held_W2 (d : Dev nD) (f8 f2 f7 f9) :
    iprop((v8Loc d ↦{fullShare} f8) ∗ (v2Loc d ↦{fullShare} f2) ∗ (v7Loc d ↦{fullShare} f7) ∗ (v9Loc d ↦{fullShare} f9)
        ∗ held (T d) (UC \ T4) (W1 m d))
      ⊢ (held (T d) UC (W2 m d f8 f2 f7 f9) : sProp 𝕄) := by
  rw [held_sub_split (T d) T4_sub (W2 m d f8 f2 f7 f9), held_T4, W2_v8, W2_v2, W2_v7, W2_v9,
    held_congr (T d) (V := W2 m d f8 f2 f7 f9) (V' := W1 m d) fun b hb => W2_of_not_mem m d f8 f2 f7 f9 b (Finset.mem_sdiff.mp hb).2]
  iintro ⟨H8, H2, H7, H9, Hr⟩
  isplitr [Hr]
  · isplitl [H8]; · iexact H8
    isplitl [H2]; · iexact H2
    isplitl [H7]; · iexact H7
    iexact H9
  iexact Hr

/-- What the SparseCores are handed is what the interface names. -/
theorem W1_v8 (d : Dev nD) : W1 m d (dr main_v8) = V8 m d := by
  unfold V8; show StableHlo.after ops0 (W0 m d) (Proc.devRef .tc main_v8) = _; after_results; rfl
theorem W1_v2 (d : Dev nD) : W1 m d (dr main_v2) = V2 m d := by
  unfold V2 ones; show StableHlo.after ops0 (W0 m d) (Proc.devRef .tc main_v2) = _; after_results; rfl
theorem W1_v7 (d : Dev nD) : W1 m d (dr main_v7) = V7 m d := by
  unfold V7 ones; show StableHlo.after ops0 (W0 m d) (Proc.devRef .tc main_v7) = _; after_results; rfl

/-! ### Through the products -/

/-- Every unscoped buffer at contents `W` with one array's replaced, read at the TensorCore's references. -/
theorem update_ref (W : Valuation τ sig (Elt F)) (x : Ref sig .tc) (d : Dev nD) (g : Buf (Elt F) ((d : Thread nD τ).loc x)) :
    Function.update (fun b : Ref sig .tc => (W b : Buf (Elt F) ((d : Thread nD τ).loc b))) x g
      = fun b : Ref sig .tc => (Function.update W (dr x) g (dr b) : Buf (Elt F) ((d : Thread nD τ).loc b)) := by
  funext b
  by_cases h : b = x
  · subst h; rw [Function.update_self, Function.update_self]
  · rw [Function.update_of_ne h, Function.update_of_ne (StableHlo.devRef_ne_of_ne h)]

/-- No operation of a stretch writes the reference. -/
macro "not_written" : tactic => `(tactic| (
  refine List.forall_iff_forall_mem.mp ?_
  simp only [List.Forall, StableHlo.nullary_writes, StableHlo.unary_writes, StableHlo.binary_writes, StableHlo.reshape_writes, Finset.mem_singleton]
  repeat' apply And.intro
  all_goals exact StableHlo.devRef_ne_of_ne (by decide)))

/-- An argument array holds its launch contents after all of @main: no stretch writes it, the SparseCore call is not
    handed it, neither product's result lands in it. -/
theorem kept (d : Dev nD) (x : Ref sig .tc) (f8 f2 f7 f9) (g1 : Buf (Elt F) ((d : Thread nD τ).loc main_v11)) (g2 : Buf (Elt F) ((d : Thread nD τ).loc main_v12))
    (h0 : ∀ op ∈ (ops0 : List (HloOp τ sig (Elt F))), dr x ∉ op.writes) (h1 : ∀ op ∈ (ops1 : List (HloOp τ sig (Elt F))), dr x ∉ op.writes)
    (h2 : ∀ op ∈ (ops2 : List (HloOp τ sig (Elt F))), dr x ∉ op.writes)
    (h4 : dr x ∉ (T4 : Finset (DevRef τ sig))) (h11 : x ≠ main_v11) (h12 : x ≠ main_v12) :
    Function.update (StableHlo.after ops2 (Function.update (StableHlo.after ops1 (W2 m d f8 f2 f7 f9)) (dr main_v11) g1)) (dr main_v12) g2 (dr x)
      = m ((T d : Thread nD τ).loc x) := by
  rw [Function.update_of_ne (StableHlo.devRef_ne_of_ne h12), StableHlo.after_of_forall_not_mem _ _ h2,
    Function.update_of_ne (StableHlo.devRef_ne_of_ne h11), StableHlo.after_of_forall_not_mem _ _ h1, W2_of_not_mem m d f8 f2 f7 f9 _ h4]
  show StableHlo.after ops0 (W0 m d) (dr x) = _
  rw [StableHlo.after_of_forall_not_mem _ _ h0]

/-- The buffers @main's claim reads at the end: the four arguments and the result. -/
abbrev T5 : Finset (DevRef τ sig) := {dr main_arg0, dr main_arg1, dr main_arg2, dr main_arg3, dr main_v12}

theorem held_T5 (d : Dev nD) (W : Valuation τ sig (Elt F)) :
    (held (T d) T5 W : sProp 𝕄) = iprop((a0Loc d ↦{fullShare} W (dr main_arg0)) ∗ (a1Loc d ↦{fullShare} W (dr main_arg1))
      ∗ (a2Loc d ↦{fullShare} W (dr main_arg2)) ∗ (a3Loc d ↦{fullShare} W (dr main_arg3)) ∗ ((T d : Thread nD τ).loc main_v12 ↦{fullShare} W (dr main_v12))) := by
  unfold held T5
  rw [SparseCore.bigSep_insert' (by decide), SparseCore.bigSep_insert' (by decide), SparseCore.bigSep_insert' (by decide),
    SparseCore.bigSep_insert' (by decide), bigSep_singleton]

theorem T5_sub : (T5 : Finset (DevRef τ sig)) ⊆ UC := by decide

/-- After the call the TensorCore owes nothing: its state before the next call opens to that and closes again. -/
theorem tcSt_open (d : Dev nD) :
    (K (F := F)).tcSt EH d 1 ⊢ (iprop(Ow (F := F) d ∗ (Ow (F := F) d -∗ (K (F := F)).tcSt EH d 1)) : sProp 𝕄) := by
  unfold SparseCore.Cfg.tcSt Ow
  rw [(K (F := F)).Otc_end d (le_refl 1), Nat.mul_one]
  iintro ⟨HO, Hr⟩
  isplitl [HO]; · iexact HO
  iintro HO
  isplitl [HO]; · iexact HO
  iexact Hr

/-- What @main leaves beyond the arguments: the result's buffer, at what the two products' write-backs left. -/
def Rq (d : Dev nD) : sProp 𝕄 := iprop(∃ g, (T d : Thread nD τ).loc main_v12 ↦{fullShare} g)

theorem reg1_pre (V1 V2 : (c : Dev nD) → (b : Ref sig .tc) → Buf (Elt F) ((c : Thread nD τ).loc b)) (d : Dev nD) :
    (reg1 ρ V1 V2).pre d = iprop(unscopedBufs d (V1 d) ∗ prngReg d (ρ d) ∗ Ow (F := F) d) := rfl
theorem reg1_post (V1 V2 : (c : Dev nD) → (b : Ref sig .tc) → Buf (Elt F) ((c : Thread nD τ).loc b)) (d : Dev nD) :
    (reg1 ρ V1 V2).post d = iprop(∃ g, ⌜Left1 V1 d g⌝ ∗ unscopedBufs d (Function.update (V1 d) main_v11 g) ∗ prngReg d (ρ d) ∗ Ow (F := F) d) := rfl
theorem reg2_pre (V1 V2 : (c : Dev nD) → (b : Ref sig .tc) → Buf (Elt F) ((c : Thread nD τ).loc b)) (d : Dev nD) :
    (reg2 ρ V1 V2).pre d = iprop(unscopedBufs d (V2 d) ∗ prngReg d (ρ d) ∗ Ow (F := F) d) := rfl
theorem reg2_post (V1 V2 : (c : Dev nD) → (b : Ref sig .tc) → Buf (Elt F) ((c : Thread nD τ).loc b)) (d : Dev nD) :
    (reg2 ρ V1 V2).post d = iprop(∃ g, ⌜Left2 V2 d g⌝ ∗ unscopedBufs d (Function.update (V2 d) main_v12 g) ∗ prngReg d (ρ d) ∗ Ow (F := F) d) := rfl

/-! ## @main -/

set_option maxHeartbeats 1600000 in
/-- @main on device `d`'s TensorCore, given the SparseCore call's rule: the stretches by the host operations' rule
    over every unscoped buffer, the call from the three arrays it reads and the one it writes, each product by its
    entry; the TensorCore ends owing nothing, the arguments as launched, the result at some contents. -/
theorem hmain
    (hsc : ∀ (κ : GSem nD τ sig → ℕ) (d : Dev nD) (Φ : PUnit → sProp 𝕄),
      iprop((K (F := F)).ctx EH P κ ∗ (K (F := F)).tcSt EH d 0 ∗ (v8Loc d ↦{fullShare} V8 m d) ∗ (v2Loc d ↦{fullShare} V2 m d)
          ∗ (v7Loc d ↦{fullShare} V7 m d) ∗ (∃ f, v9Loc d ↦{fullShare} f)
          ∗ (((K (F := F)).tcSt EH d 1 ∗ (∃ f, v8Loc d ↦{fullShare} f) ∗ (∃ f, v2Loc d ↦{fullShare} f) ∗ (∃ f, v7Loc d ↦{fullShare} f)
              ∗ (∃ f, ⌜True⌝ ∗ v9Loc d ↦{fullShare} f)) -∗ Φ ⟨⟩))
        ⊢ wp frame (wpE ((K (F := F)).defs (D (F := F))) 𝒱 (T d) none) Set.univ (sc.run d 0) Φ)
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (T d) none) Set.univ (main d) fun _ =>
          iprop((K (F := F)).tcSt EH d 1 ∗ (a0Loc d ↦{fullShare} m (a0Loc d)) ∗ (a1Loc d ↦{fullShare} m (a1Loc d))
            ∗ (a2Loc d ↦{fullShare} m (a2Loc d)) ∗ (a3Loc d ↦{fullShare} m (a3Loc d)) ∗ Rq (F := F) d) := by
  unfold SparseCore.Cfg.tcRes G
  rw [main_chain]
  simp only [Pipeline.chain_cons, Pipeline.chain_nil]
  rw [show (unscopedBufs d (fun b => m ((T d : Thread nD τ).loc b)) : sProp 𝕄) = held (d.tc : Thread nD τ) UC (W0 m d)
      from Pipeline.unscopedBufs_held d (W0 m d),
    show (Finset.univ : Finset (Fin 2)) = {0, 1} from by decide, SparseCore.bigSep_insert' (by decide), bigSep_singleton]
  iintro ⟨#Hctx, Hst, ⟨Hb, Hh, -, Hp⟩, ⟨Hg0, Ht0⟩, ⟨Hg1, Ht1⟩⟩
  ihave #Hlev := (SparseCore.Cfg.ctx_levAts κ) $$ Hctx
  -- the eleven operations
  iapply (StableHlo.wp_seq (defs := (K (F := F)).defs (D (F := F))) 𝒱 none Set.univ d UC _ ops0 ops0_sub ops0_fresh (W0 m d)) $$ [Hb Hh]
  · isplitl [Hb] <;> iassumption
  iintro ⟨Hb, Hh⟩
  -- the SparseCore call, from the four buffers it is handed
  rw [wp_bind]
  ihave Hs := (Entails.of_eq (held_sub_split (T d : Thread nD τ) T4_sub (W1 m d))) $$ Hh
  icases Hs with ⟨H4, Hrest⟩
  ihave H4' := (Entails.of_eq (held_T4 d (W1 m d))) $$ H4
  icases H4' with ⟨H8, H2, H7, H9⟩
  rw [W1_v8, W1_v2, W1_v7]
  iapply (hsc κ d _)
  isplitr; · iexact Hctx
  isplitl [Hst]; · iexact Hst
  isplitl [H8]; · iexact H8
  isplitl [H2]; · iexact H2
  isplitl [H7]; · iexact H7
  isplitl [H9]; · iexists _; iexact H9
  iintro ⟨Hst, ⟨%f8, H8⟩, ⟨%f2, H2⟩, ⟨%f7, H7⟩, ⟨%f9, -, H9⟩⟩
  ihave Hh := (held_W2 m d f8 f2 f7 f9) $$ [H8 H2 H7 H9 Hrest]
  · isplitl [H8]; · iexact H8
    isplitl [H2]; · iexact H2
    isplitl [H7]; · iexact H7
    isplitl [H9]; · iexact H9
    iexact Hrest
  -- the bias reshaped
  iapply (StableHlo.wp_seq (defs := (K (F := F)).defs (D (F := F))) 𝒱 none Set.univ d UC _ ops1 ops1_sub ops1_fresh (W2 m d f8 f2 f7 f9)) $$ [Hb Hh]
  · isplitl [Hb] <;> iassumption
  iintro ⟨Hb, Hh⟩
  -- the first product
  rw [wp_bind]
  ihave Hopen := (tcSt_open (F := F) d) $$ Hst
  icases Hopen with ⟨HOw, Hclose⟩
  iapply (wp_region1 ρ (fun _ b => StableHlo.after ops1 (W2 m d f8 f2 f7 f9) b) (fun _ b => StableHlo.after ops1 (W2 m d f8 f2 f7 f9) b) d)
  rw [reg1_pre, reg1_post]
  isplitl [Hb]; · iexact Hb
  isplitl [Hh Hp HOw]
  · isplitl [Hh]
    · iapply (Entails.of_eq (Pipeline.unscopedBufs_held d (StableHlo.after ops1 (W2 m d f8 f2 f7 f9))).symm) $$ Hh
    isplitl [Hp]; · iexact Hp
    iexact HOw
  isplitr; · iexact Hlev
  isplitl [Hg0]; · iexact Hg0
  isplitl [Ht0]; · iexact Ht0
  iintro ⟨Hb, %g1, -, Hub, Hp, HOw⟩
  rw [update_ref (StableHlo.after ops1 (W2 m d f8 f2 f7 f9)) main_v11 d g1]
  ihave Hh := (Entails.of_eq (Pipeline.unscopedBufs_held d (Function.update (StableHlo.after ops1 (W2 m d f8 f2 f7 f9)) (dr main_v11) g1))) $$ Hub
  -- the result copied
  iapply (StableHlo.wp_seq (defs := (K (F := F)).defs (D (F := F))) 𝒱 none Set.univ d UC _ ops2 ops2_sub ops2_fresh
    (Function.update (StableHlo.after ops1 (W2 m d f8 f2 f7 f9)) (dr main_v11) g1)) $$ [Hb Hh]
  · isplitl [Hb] <;> iassumption
  iintro ⟨Hb, Hh⟩
  -- the second product
  rw [wp_bind]
  iapply (wp_region2 ρ (fun _ b => StableHlo.after ops2 (Function.update (StableHlo.after ops1 (W2 m d f8 f2 f7 f9)) (dr main_v11) g1) b)
    (fun _ b => StableHlo.after ops2 (Function.update (StableHlo.after ops1 (W2 m d f8 f2 f7 f9)) (dr main_v11) g1) b) d)
  rw [reg2_pre, reg2_post]
  isplitl [Hb]; · iexact Hb
  isplitl [Hh Hp HOw]
  · isplitl [Hh]
    · iapply (Entails.of_eq (Pipeline.unscopedBufs_held d (StableHlo.after ops2 (Function.update (StableHlo.after ops1 (W2 m d f8 f2 f7 f9)) (dr main_v11) g1))).symm) $$ Hh
    isplitl [Hp]; · iexact Hp
    iexact HOw
  isplitr; · iexact Hlev
  isplitl [Hg1]; · iexact Hg1
  isplitl [Ht1]; · iexact Ht1
  iintro ⟨Hb, %g2, -, Hub, Hp, HOw⟩
  rw [update_ref (StableHlo.after ops2 (Function.update (StableHlo.after ops1 (W2 m d f8 f2 f7 f9)) (dr main_v11) g1)) main_v12 d g2]
  ihave Hh := (Entails.of_eq (Pipeline.unscopedBufs_held d
    (Function.update (StableHlo.after ops2 (Function.update (StableHlo.after ops1 (W2 m d f8 f2 f7 f9)) (dr main_v11) g1)) (dr main_v12) g2))) $$ Hub
  -- the return: the arguments and the result read off the buffers
  ihave Hs := (Entails.of_eq (held_sub_split (T d : Thread nD τ) T5_sub _)) $$ Hh
  icases Hs with ⟨H5, -⟩
  ihave H5' := (Entails.of_eq (held_T5 d _)) $$ H5
  icases H5' with ⟨Ha0, Ha1, Ha2, Ha3, Hv12⟩
  rw [kept m d main_arg0 f8 f2 f7 f9 g1 g2 (by not_written) (by not_written) (by not_written) (by decide) (by decide) (by decide),
    kept m d main_arg1 f8 f2 f7 f9 g1 g2 (by not_written) (by not_written) (by not_written) (by decide) (by decide) (by decide),
    kept m d main_arg2 f8 f2 f7 f9 g1 g2 (by not_written) (by not_written) (by not_written) (by decide) (by decide) (by decide),
    kept m d main_arg3 f8 f2 f7 f9 g1 g2 (by not_written) (by not_written) (by not_written) (by decide) (by decide) (by decide)]
  rw [wp_pure]; imodintro
  isplitl [HOw Hclose]; · iapply Hclose; iexact HOw
  isplitl [Ha0]; · iexact Ha0
  isplitl [Ha1]; · iexact Ha1
  isplitl [Ha2]; · iexact Ha2
  isplitl [Ha3]; · iexact Ha3
  unfold Rq; iexists _; iexact Hv12

end Main

end Cert.Proof.KI.Tc

end
-- ==== Proof.Frames.lean ====
/-
  The kernel program runs to the end with its argument arrays unchanged, whatever the float instance: the
  SparseCore launch theorem at the tiles' task, the call's rule and @main on the TensorCore. The one fact about the
  data the run needs — every halved context word names a row of the paired table — comes from the precondition.
-/
import proofs.«204096_g51513837748514_cont_sun_m_306_14_alg».proof.Proof.Main
import proofs.«204096_g51513837748514_cont_sun_m_306_14_alg».proof.Proof.TcMain

noncomputable section

namespace Cert.Proof.KI

open Cert.KernelIdeal Cert.KernelIdeal.Gen

open Idealize.ShloMosaic
open Idealize.SL Idealize.SL.Sem

variable {F : FTy → Type} [FloatOps F] [Named F] [∀ e, Nonempty (Elt F e)]

theorem run (m : (ℓ : Loc nD τ sig) → Buf (Elt F) ℓ) (ρ : Dev nD → PrngReg)
    (hpre : ∀ c : Dev nD, Cert.Pre_input_domain.fn (F := F) (m (a0Loc c)) (m (a1Loc c)) (m (a2Loc c)) (m (a3Loc c)) = fun _ => 1#1) :
    θ_run (Cert.KernelIdeal.defs (F := F)) (Cert.KernelIdeal.threads (F := F)) ⟨m, fun _ => 0, ρ⟩ (QC m) :=
  run_main m ρ (halfOK m hpre) Tc.G Tc.Rq Tc.uP Tc.hfund
    (fun κ d => Tc.hmain m ρ (P m) (fun κ d Φ => wp_sc_call m κ d Φ) κ d)

end Cert.Proof.KI

end
-- ==== Proof.IfaceB.lean ====
/-
  The kernel program as the SparseCore launch theorem sees it, and the names its proof shares.

  @main computes three arrays on the TensorCore before it starts the SparseCores: the context words halved
  (`V2`: word >> 1, laid out tile × chunk × entry), their parities as floats broadcast over sixteen lanes (`V7`)
  and the embedding table with its rows paired (`V8`: row h of the paired table is rows 2h and 2h+1 of the table
  side by side). Tile `w` of the thirty-two reads block `w` of the first two, any row of the third, and writes rows
  [32 w, 32 w + 32) of the hidden array.
-/
import proofs.«204096_g51513837748514_cont_sun_m_306_14_alg».proof.Defs
import Idealize.ShloMosaic.Lib.SparseCore.Launch
import Idealize.ShloMosaic.Lib.StableHlo.Run
import Idealize.ShloMosaic.Lib.Pipeline.Kit
import Idealize.ShloMosaic.Lib.Tactic
import proofs.«204096_g51513837748514_cont_sun_m_306_14_alg».proof.Proof.Gen.Kernel
import proofs.«204096_g51513837748514_cont_sun_m_306_14_alg».proof.Proof.Gen.Kernel.Launch

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program -/

abbrev ΛP : Labels := Pipeline.Sig Λ₀ (Fin 2) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the TensorCore pipelines' rounds, the transfers' counters -/

abbrev UH : Type := URounds (GSem nD τ sig) ℕ
abbrev UP : Type := URounds (GSem nD τ sig) Unit
abbrev UU : Type := UH × (UP × Counters)

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP (MT nD τ sig (HIx 1) (Elt F) ℕ UU ℕ)).LandsIn (upEmb : UEmb _ (MT nD τ sig (HIx 1) (Elt F) ℕ UU ℕ)) := by
  unfold EP; infer_instance

/-! ## The arrays the TensorCore hands the SparseCores -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev a2Loc (d : Dev nD) : Loc nD τ sig := (SparseCore.T d).loc main_arg2
abbrev a3Loc (d : Dev nD) : Loc nD τ sig := (SparseCore.T d).loc main_arg3
abbrev v2Loc (d : Dev nD) : Loc nD τ sig := (SparseCore.T d).loc main_v2
abbrev v7Loc (d : Dev nD) : Loc nD τ sig := (SparseCore.T d).loc main_v7
abbrev v8Loc (d : Dev nD) : Loc nD τ sig := (SparseCore.T d).loc main_v8
abbrev v9Loc (d : Dev nD) : Loc nD τ sig := (SparseCore.T d).loc main_v9

/-- The all-ones word array both integer host operations take as their second operand. -/
def ones : IVec S1024x20 32 := broadcastInDim S1024x20 ![] bcast_S_S1024x20 (constantI S_ 32 1#32)

/-- The context words halved, tile × chunk × entry. -/
def V2 (d : Dev nD) : Buf (Elt F) (v2Loc d) :=
  shapeCast S32x8x80 (Host.shrsi (m (a0Loc d)) ones : IVec S1024x20 32) shapeCasts_S1024x20_S32x8x80

/-- The context words' parities as floats, one per entry, broadcast over sixteen lanes. -/
def V7 (d : Dev nD) : Buf (Elt F) (v7Loc d) :=
  broadcastInDim S32x640x16 ![0, 1, 2] bcast_S32x640x1_S32x640x16_0_1_2
    (shapeCast S32x640x1 (sitofp .f32 (andi (m (a0Loc d)) ones : IVec S1024x20 32) : FVec F S1024x20 .f32) shapeCasts_S1024x20_S32x640x1)

/-- The embedding table with its rows paired. -/
def V8 (d : Dev nD) : Buf (Elt F) (v8Loc d) :=
  shapeCast S50000x128 (m (a1Loc d)) shapeCasts_S100000x64_S50000x128

end Cert.Proof.KB

end
-- ==== Proof.RowsPartB.lean ====
/-
  How the hidden array's rows split among the thirty-two vector subcores.

  The subcore with coordinates (c, i) — SparseCore c of two, subcore i of sixteen — writes the thirty-two rows
  starting at row 64 i + 32 c of the hidden array, all sixty-four columns: the rows r with r / 32 = 2 i + c.
  As (c, i) ranges over the thirty-two subcores, 2 i + c ranges over 0 … 31 once each, so these row blocks are
  pairwise disjoint and together are the whole array.
-/
import proofs.«204096_g51513837748514_cont_sun_m_306_14_alg».proof.Proof.IfaceB
import Idealize.ShloMosaic.Lib.ValueIdx

noncomputable section

namespace Cert.Proof.KB

open Cert.Kernel Cert.Kernel.Gen

open Idealize.ShloMosaic Idealize.ShloMosaic.ValueIdx

/-- The grid coordinates of the subcore (c, s). -/
def coordsV (c : Fin (grid0.bound 0)) (s : Fin (grid0.bound 1)) : grid0.Coords :=
  fun | 0 => c | 1 => s | ⟨_ + 2, h⟩ => absurd h (Nat.not_lt.2 (Nat.le_add_left _ _))

/-- The hidden array, whole, as a vector subcore names it. -/
abbrev oV : Memref sig .scVector .hbm S1024x64 .f32 := Memref.whole main_v9_scv

/-- The block of thirty-two rows the subcore at grid coordinates `L` writes. -/
abbrev oRowK (L : grid0.Coords) : Memref sig .scVector .hbm S32x64 .f32 :=
  (oV).slice (Rect.unit (s := S1024x64) (k0_off107 L) S32x64.size (k0_off107_inb L)) (fun _ => rfl)

/-- The indices of the hidden array the subcore (c, i) writes. -/
def rowsOf (c : Fin 2) (i : Fin 16) : Finset S1024x64.Idx := (oRowK (coordsV c i)).view.set

/-- They are the rows r with r / 32 = 2 i + c, every column. -/
theorem mem_rowsOf (c : Fin 2) (i : Fin 16) (j : S1024x64.Idx) : j ∈ rowsOf c i ↔ (j 0).val / 32 = 2 * i.val + c.val := by
  have key : (∀ a : Fin 2, (![64 * i.val + 32 * c.val, 0] : Fin 2 → ℕ) a ≤ (j a).val
      ∧ (j a).val < (![64 * i.val + 32 * c.val, 0] : Fin 2 → ℕ) a + (![32, 64] : Fin 2 → ℕ) a)
      ↔ (j 0).val / 32 = 2 * i.val + c.val := by
    rw [Fin.forall_fin_two]
    simp only [Matrix.cons_val_zero, Matrix.cons_val_one]
    have h1 := idx2_lt1 j
    have h0 := idx2_lt0 j
    constructor
    · rintro ⟨⟨ha, hb⟩, -⟩; omega
    · intro h; exact ⟨⟨by omega, by omega⟩, ⟨by omega, by omega⟩⟩
  unfold rowsOf
  show j ∈ ((View.whole (main_v9_scv : Ref sig .scVector)).slice
      (Rect.unit (s := S1024x64) (k0_off107 (coordsV c i)) S32x64.size (k0_off107_inb (coordsV c i)))).set ↔ _
  rw [View.set_slice_whole, Rect.mem_set_unit, k0_off107_eq]
  exact key

/-- Two different subcores write disjoint row blocks. -/
theorem rowsOf_disjoint : ∀ t ∈ (Finset.univ : Finset (Fin 2 × Fin 16)), ∀ t' ∈ (Finset.univ : Finset (Fin 2 × Fin 16)),
    t ≠ t' → Disjoint (rowsOf t.1 t.2) (rowsOf t'.1 t'.2) := by
  intro t _ t' _ hne
  refine Finset.disjoint_left.2 fun j hj hj' => hne ?_
  have e := (mem_rowsOf t.1 t.2 j).1 hj
  have e' := (mem_rowsOf t'.1 t'.2 j).1 hj'
  have hc := t.1.isLt
  have hc' := t'.1.isLt
  exact Prod.ext (Fin.ext (by omega)) (Fin.ext (by omega))

/-- Together the row blocks are the whole hidden array. -/
theorem rowsOf_cover : (Finset.univ : Finset (Fin 2 × Fin 16)).biUnion (fun t => rowsOf t.1 t.2) = Finset.univ := by
  ext j
  simp only [Finset.mem_biUnion, Finset.mem_univ, true_and, iff_true]
  have h0 := idx2_lt0 j
  refine ⟨(⟨(j 0).val / 32 % 2, Nat.mod_lt _ (by norm_num)⟩, ⟨(j 0).val / 64, by omega⟩), ?_⟩
  rw [mem_rowsOf]
  show (j 0).val / 32 = 2 * ((j 0).val / 64) + (j 0).val / 32 % 2
  omega

end Cert.Proof.KB

end
-- ==== Proof.TileB.lean ====
/-
  One vector subcore's task, run once at a symbolic tile.

  The task copies its block of halved context words and of parities into its own memory, then works through eight
  chunks of eighty words: the rows of the paired table the chunk's words name are gathered into one of two slots
  (chunk k into slot k mod 2, on that slot's own semaphore; the next chunk's gather is started before the current
  one is waited for, and touches only the other slot), and while a chunk's rows rest in its slot the task reads them,
  mixes the two halves of each row by the word's parity, sums twenty at a time and scales by the named constant,
  writing four rows of its output scratch per chunk. At the end the thirty-two rows are copied out to the tile's rows
  of the hidden array. Every word a gather reads is below 50000 (the halved table's height): that is the one fact
  about the data the run needs, and it enters as a hypothesis.
-/
import proofs.«204096_g51513837748514_cont_sun_m_306_14_alg».proof.Proof.IfaceB
import proofs.«204096_g51513837748514_cont_sun_m_306_14_alg».proof.Proof.RowsPartB
import proofs.«204096_g51513837748514_cont_sun_m_306_14_alg».proof.Proof.Gen.Kernel.Skeleton
import Idealize.ShloMosaic.Lib.SparseCore.Ops

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The kernel's memrefs, as the body table passes them -/

abbrev tV : Memref sig .scVector .hbm S50000x128 .f32 := Memref.whole main_v8_scv
abbrev iV : Memref sig .scVector .hbm S32x8x80 .i32 := Memref.whole main_v2_scv
abbrev pV : Memref sig .scVector .hbm S32x640x16 .f32 := Memref.whole main_v7_scv
abbrev sIdx : Memref sig .scVector .vmem S8x80 .i32 := Memref.whole cc0_scratch0
abbrev sRows : Memref sig .scVector .vmem S2x80x128 .f32 := Memref.whole cc0_scratch1
abbrev sPar : Memref sig .scVector .vmem S640x16 .f32 := Memref.whole cc0_scratch2
abbrev sHid : Memref sig .scVector .vmem S32x64 .f32 := Memref.whole cc0_scratch3

section Tile

variable (d : Dev nD) (L : grid0.Coords)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

abbrev cG0 (d : Dev nD) (L : grid0.Coords) : GSem nD τ sig := (thr d L, .dma cc0_scratch4.sem)
abbrev cG1 (d : Dev nD) (L : grid0.Coords) : GSem nD τ sig := (thr d L, .dma cc0_scratch5.sem)
abbrev cA (d : Dev nD) (L : grid0.Coords) : GSem nD τ sig := (thr d L, .dma cc0_scoped0.sem)
abbrev cB (d : Dev nD) (L : grid0.Coords) : GSem nD τ sig := (thr d L, .dma cc0_scoped1.sem)
abbrev cC (d : Dev nD) (L : grid0.Coords) : GSem nD τ sig := (thr d L, .dma cc0_scoped2.sem)

omit [FloatOps F] in
theorem cell_ne {s t : DmaSem sig} (h : s ≠ t) : ((thr d L, SemLoc.dma s) : GSem nD τ sig) ≠ (thr d L, SemLoc.dma t) :=
  fun e => h (SemLoc.dma.inj (Prod.mk.inj e).2)

omit [FloatOps F] in
theorem cell_mem (s : DmaSem sig) (hs : (SemLoc.dma s : SemLoc sig).isScoped .scVector = true) :
    ((thr d L, SemLoc.dma s) : GSem nD τ sig) ∈ ownCells (thr d L) := (mem_ownCells (g := (thr d L, SemLoc.dma s))).mpr ⟨rfl, hs⟩

omit [FloatOps F] in
/-- The tile's own semaphores: the two gather semaphores, the three copies' semaphores, and the rest. -/
theorem ownSems0_V :
    (ownSems0 (thr d L) : sProp 𝕄)
      = iprop(semVal (cG0 d L) 0 ∗ semVal (cG1 d L) 0 ∗ semVal (cA d L) 0 ∗ semVal (cB d L) 0 ∗ semVal (cC d L) 0
          ∗ bigSep ((((((ownCells (thr d L)).erase (cG0 d L)).erase (cG1 d L)).erase (cA d L)).erase (cB d L)).erase (cC d L)) fun g => semVal g 0) := by
  unfold SparseCore.Cfg.ownSems0
  rw [SparseCore.bigSep_erase' (cell_mem d L cc0_scratch4.sem (by decide)),
    SparseCore.bigSep_erase' (Finset.mem_erase.mpr ⟨cell_ne d L (by decide), cell_mem d L cc0_scratch5.sem (by decide)⟩),
    SparseCore.bigSep_erase' (Finset.mem_erase.mpr ⟨cell_ne d L (by decide), Finset.mem_erase.mpr ⟨cell_ne d L (by decide), cell_mem d L cc0_scoped0.sem (by decide)⟩⟩),
    SparseCore.bigSep_erase' (Finset.mem_erase.mpr ⟨cell_ne d L (by decide), Finset.mem_erase.mpr ⟨cell_ne d L (by decide),
      Finset.mem_erase.mpr ⟨cell_ne d L (by decide), cell_mem d L cc0_scoped1.sem (by decide)⟩⟩⟩),
    SparseCore.bigSep_erase' (Finset.mem_erase.mpr ⟨cell_ne d L (by decide), Finset.mem_erase.mpr ⟨cell_ne d L (by decide),
      Finset.mem_erase.mpr ⟨cell_ne d L (by decide), Finset.mem_erase.mpr ⟨cell_ne d L (by decide), cell_mem d L cc0_scoped2.sem (by decide)⟩⟩⟩⟩)]

omit [FloatOps F] in
theorem ref_ne {a b : Ref sig .scVector} (h : a ≠ b) :
    (Proc.scVector (cV L) (jV L)).devRef a ≠ ((Proc.scVector (cV L) (jV L)).devRef b : DevRef τ sig) :=
  fun e => h (Proc.devRef_injective _ e)

omit [FloatOps F] in
theorem ref_mem (a : Ref sig .scVector) (h : ((Proc.scVector (cV L) (jV L)).devRef a : DevRef τ sig).owner = Owner.proc (Proc.scVector (cV L) (jV L))) :
    ((Proc.scVector (cV L) (jV L)).devRef a : DevRef τ sig) ∈ ownRefs (τ := τ) (Proc.scVector (cV L) (jV L)) :=
  SparseCore.Cfg.mem_ownRefs_of_owner h

omit [FloatOps F] in
/-- The tile's own buffers: the four scratches, each at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f)) := by
  unfold SparseCore.Cfg.ownBufs
  refine (SparseCore.bigSep_erase' (ref_mem L cc0_scratch0 rfl)).trans ?_
  rw [SparseCore.bigSep_erase' (Finset.mem_erase.mpr ⟨ref_ne L (by decide), ref_mem L cc0_scratch1 rfl⟩),
    SparseCore.bigSep_erase' (Finset.mem_erase.mpr ⟨ref_ne L (by decide), Finset.mem_erase.mpr ⟨ref_ne L (by decide), ref_mem L cc0_scratch2 rfl⟩⟩),
    SparseCore.bigSep_erase' (Finset.mem_erase.mpr ⟨ref_ne L (by decide), Finset.mem_erase.mpr ⟨ref_ne L (by decide),
      Finset.mem_erase.mpr ⟨ref_ne L (by decide), ref_mem L cc0_scratch3 rfl⟩⟩⟩)]

abbrev pts2 (q : PosShare TreeShare) (f : Buf (Elt F) ((iV).view.loc (thr d L))) : sProp 𝕄 := (iV).view.loc (thr d L) ↦{q} f
abbrev pts7 (q : PosShare TreeShare) (f : Buf (Elt F) ((pV).view.loc (thr d L))) : sProp 𝕄 := (pV).view.loc (thr d L) ↦{q} f
abbrev pts8 (q : PosShare TreeShare) (f : Buf (Elt F) ((tV).view.loc (thr d L))) : sProp 𝕄 := (tV).view.loc (thr d L) ↦{q} f
abbrev pts9 (f : Buf (Elt F) ((oRowK L).view.loc (thr d L))) : sProp 𝕄 := (oRowK L).view.loc (thr d L) ↦[(oRowK L).view.set]{fullShare} f

omit [FloatOps F] in
theorem wok_refl (W : Waits sig (HIx 1)) : ∀ p ∈ W, p ∈ W ∨ p.2 = none := fun _ hp => .inl hp
omit [FloatOps F] in
theorem wok_insert {W' W : Waits sig (HIx 1)} (sm : SemLoc sig) (h : ∀ p ∈ W', p ∈ W ∨ p.2 = none) :
    ∀ p ∈ insert (sm, (default : HIx 1)) W', p ∈ W ∨ p.2 = none := by
  intro p hp
  rcases Finset.mem_insert.mp hp with hp | hp
  · exact .inr (hp ▸ rfl)
  · exact h p hp

set_option maxHeartbeats 64000000 in
set_option sl_exec.unrollTrips 4 in
theorem tile_body (hF : (K (F := F)).Facts) (q2 q7 q8a q8b : PosShare TreeShare)
    (f2 : Buf (Elt F) ((iV).view.loc (thr d L))) (f7 : Buf (Elt F) ((pV).view.loc (thr d L))) (f8 : Buf (Elt F) ((tV).view.loc (thr d L)))
    (f9 : Buf (Elt F) ((oRowK L).view.loc (thr d L)))
    (hin : ∀ j, (f2 j).toNat < 50000)
    (O : CellTallies nD τ sig (HIx 1)) (W : Waits sig (HIx 1)) (hO : ∀ g, O g none = 0) :
    iprop(levAts (K (F := F)).L (K (F := F)).lev ∗ emp
        ∗ (pts2 d L q2 f2 ∗ pts7 d L q7 f7 ∗ pts8 d L q8a f8 ∗ pts8 d L q8b f8 ∗ pts9 d L f9)
        ∗ scopedBufs (thr d L) ∗ scopedSems0 (thr d L) ∗ owes (thr d L) O W)
      ⊢ wp frame (wpE (defs₀ (F := F)) 𝒱₀ (thr d L) none) Set.univ
          (cc0__sc_hidden L tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop((pts2 d L q2 f2 ∗ pts7 d L q7 f7 ∗ pts8 d L q8a f8 ∗ pts8 d L q8b f8 ∗ ∃ f, pts9 d L f)
            ∗ scopedBufs (thr d L) ∗ scopedSems0 (thr d L)
            ∗ ∃ W', ⌜∀ p ∈ W', p ∈ W ∨ p.2 = none⌝ ∗ owes (thr d L) O W') := by
  simp only [cc0__sc_hidden_eq_skeleton]; unfold cc0__sc_hidden_skel
  rw [(K (F := F)).scopedBufs_V hF d (cV L) (jV L), SparseCore.Cfg.scopedSems0_V (Val := Elt F) d (cV L) (jV L), ownSems0_V, ownBufs_V]
  iintro ⟨#Hlv, -, ⟨H2, H7, H8a, H8b, H9⟩, ⟨⟨%fs0, Hs0⟩, ⟨%fs1, Hs1⟩, ⟨%fs2, Hs2⟩, ⟨%fs3, Hs3⟩, Hbufs⟩, ⟨HG0, HG1, HA, HB, HC, Hsems⟩, HO⟩
  ihave Hmw := (show levAts (K (F := F)).L (K (F := F)).lev ⊢ Transfers.MayWaits (thr d L) (default : HIx 1) O from
    (K (F := F)).mayWaits_none (thr := thr d L) hO) $$ Hlv
  ihave Hs0' := (Entails.of_eq (show (((thr d L).loc cc0_scratch0 ↦{fullShare} fs0 : sProp 𝕄)) = ((sIdx).view.loc (thr d L) ↦{fullShare} fs0) from rfl)) $$ Hs0
  ihave Hs1' := (Entails.of_eq (show (((thr d L).loc cc0_scratch1 ↦{fullShare} fs1 : sProp 𝕄)) = ((sRows).view.loc (thr d L) ↦{fullShare} fs1) from rfl)) $$ Hs1
  ihave Hs2' := (Entails.of_eq (show (((thr d L).loc cc0_scratch2 ↦{fullShare} fs2 : sProp 𝕄)) = ((sPar).view.loc (thr d L) ↦{fullShare} fs2) from rfl)) $$ Hs2
  ihave Hs3' := (Entails.of_eq (show (((thr d L).loc cc0_scratch3 ↦{fullShare} fs3 : sProp 𝕄)) = ((sHid).view.loc (thr d L) ↦{fullShare} fs3) from rfl)) $$ Hs3
  sl_exec
  have hpay : ∀ j, (tile_body.sl.dma0 d L f2 j).toNat < 50000 := fun j => hin _
  have hin_0 : ∀ x : S80.Idx, (View.read (Elt F) ((sIdx.slice (Rect.unit (s := S8x80) ![0, 0] S1x80.size inb_S8x80_S1x80_0_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_1 : ∀ x : S80.Idx, (View.read (Elt F) ((sIdx.slice (Rect.unit (s := S8x80) ![1, 0] S1x80.size inb_S8x80_S1x80_1_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_2 : ∀ x : S80.Idx, (View.read (Elt F) ((sIdx.slice (Rect.unit (s := S8x80) ![2, 0] S1x80.size inb_S8x80_S1x80_2_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_3 : ∀ x : S80.Idx, (View.read (Elt F) ((sIdx.slice (Rect.unit (s := S8x80) ![3, 0] S1x80.size inb_S8x80_S1x80_3_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_4 : ∀ x : S80.Idx, (View.read (Elt F) ((sIdx.slice (Rect.unit (s := S8x80) ![4, 0] S1x80.size inb_S8x80_S1x80_4_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_5 : ∀ x : S80.Idx, (View.read (Elt F) ((sIdx.slice (Rect.unit (s := S8x80) ![5, 0] S1x80.size inb_S8x80_S1x80_5_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_6 : ∀ x : S80.Idx, (View.read (Elt F) ((sIdx.slice (Rect.unit (s := S8x80) ![6, 0] S1x80.size inb_S8x80_S1x80_6_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  have hin_7 : ∀ x : S80.Idx, (View.read (Elt F) ((sIdx.slice (Rect.unit (s := S8x80) ![7, 0] S1x80.size inb_S8x80_S1x80_7_0) (fun _ => rfl)).squeeze S80 squeezes_S1x80_S80).view (View.write (Elt F) sIdx.view fs0 (tile_body.sl.dma0 d L f2) Finset.univ) x).toNat < 50000 := by
    intro x; rw [show View.write (Elt F) sIdx.view fs0 (tile_body.sl.dma0 d L f2) Finset.univ = tile_body.sl.dma0 d L f2 from View.write_whole_univ _ _ _]; exact hpay _
  sl_exec_parts
  sl_step
  isplitl [H2 H7 H8a H8b H9]
  · isplitl [H2]
    · iexact H2
    isplitl [H7]
    · iexact H7
    isplitl [H8a]
    · iexact H8a
    isplitl [H8b]
    · iexact H8b
    · iexists _; iexact H9
  isplitl [Hs0' Hs1' Hs2' Hs3' Hbufs]
  · isplitl [Hs0']
    · iexists _; iexact Hs0'
    isplitl [Hs1']
    · iexists _; iexact Hs1'
    isplitl [Hs2']
    · iexists _; iexact Hs2'
    isplitl [Hs3']
    · iexists _; iexact Hs3'
    · iexact Hbufs
  isplitl [HG0 HG1 HA HB HC Hsems]
  · isplitl [HG0]
    · iexact HG0
    isplitl [HG1]
    · iexact HG1
    isplitl [HA]
    · iexact HA
    isplitl [HB]
    · iexact HB
    isplitl [HC]
    · iexact HC
    · iexact Hsems
  iexists _; isplitr
  swap
  · iexact HO
  ipureintro
  repeat (first | exact wok_refl _ | refine wok_insert _ ?_)

end Tile
end Cert.Proof.KB
end
-- ==== Proof.CallB.lean ====
/-
  The SparseCore call as the TensorCore sees it.

  The three arrays the tiles only read (the halved words, the parities, the paired table) are dealt out as read shares:
  one share per SparseCore, each split again into one per tile; a tile splits its share of the table once more, one
  half per gather slot, since two gathers are in flight at once. The hidden array is dealt by rows: tile (c, i) owns
  rows [64 i + 32 c, 64 i + 32 c + 32) outright and writes them. After the call every share comes back and the
  hidden array is whole again, at contents the frame does not name.
-/
import proofs.«204096_g51513837748514_cont_sun_m_306_14_alg».proof.Proof.IfaceB
import proofs.«204096_g51513837748514_cont_sun_m_306_14_alg».proof.Proof.RowsPartB
import proofs.«204096_g51513837748514_cont_sun_m_306_14_alg».proof.Proof.TileB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The shares -/

/-- SparseCore `c`'s read share of an array the tiles only read. -/
def qc (c : Fin 2) : PosShare TreeShare := Transfers.shareTok fullShare 2 c
/-- Tile `(c, i)`'s. -/
def qt (c : Fin 2) (i : Fin 16) : PosShare TreeShare := Transfers.shareTok (qc c) 16 i

/-- The three read-only arrays at share `q`. -/
def ins (d : Dev nD) (q : PosShare TreeShare) : sProp 𝕄 :=
  iprop((v2Loc d ↦{q} V2 m d) ∗ (v7Loc d ↦{q} V7 m d) ∗ (v8Loc d ↦{q} V8 m d))

/-- What tile `(c, i)` is handed, and hands back: its read shares and its rows of the hidden array at some contents. -/
def goP (d : Dev nD) (c : Fin 2) (i : Fin 16) : sProp 𝕄 :=
  iprop(ins m d (qt c i) ∗ ∃ f, v9Loc d ↦[rowsOf c i]{fullShare} f)

/-- What SparseCore `c` is handed, and hands back. -/
def stP (d : Dev nD) (c : Fin 2) : sProp 𝕄 :=
  iprop(ins m d (qc c) ∗ bigSep Finset.univ fun i : Fin 16 => iprop(∃ f, v9Loc d ↦[rowsOf c i]{fullShare} f))

def P : (K (F := F)).Pay (nD := nD) (Val := Elt F) (Name := ℕ) (U := UU) where
  st := fun q d c => match q with | 0 => stP m d (Fin.cast nCore_zero c)
  dn := fun q d c => match q with | 0 => stP m d (Fin.cast nCore_zero c)
  go := fun q d c i => match q with | 0 => goP m d (Fin.cast nCore_zero c) (Fin.cast nSub_zero i)
  td := fun q d c i => match q with | 0 => goP m d (Fin.cast nCore_zero c) (Fin.cast nSub_zero i)
  x := fun _ _ => iprop(emp)

instance P_storable : (P (F := F) m).IsStorable where
  st q d c := match q with | 0 => by show BI.Storable _ (stP m d _); unfold stP ins; infer_instance
  dn q d c := match q with | 0 => by show BI.Storable _ (stP m d _); unfold stP ins; infer_instance
  go q d c i := match q with | 0 => by show BI.Storable _ (goP m d _ _); unfold goP ins; infer_instance
  td q d c i := match q with | 0 => by show BI.Storable _ (goP m d _ _); unfold goP ins; infer_instance

/-! ## The split of a SparseCore's holdings among its tiles -/

omit [FloatOps F] in
theorem toks16 (ℓ : Loc nD τ sig) (q : PosShare TreeShare) (f : Buf (Elt F) ℓ) :
    (ℓ ↦{q} f : sProp 𝕄) ⊣⊢ iprop((ℓ ↦{Transfers.shareDrop q 16} f) ∗ bigSep Finset.univ (fun i : Fin 16 => ℓ ↦{Transfers.shareTok q 16 i} f)) :=
  Transfers.pointsTo_toks q 16

theorem vecSplit : (K (F := F)).VecSplit' (P m) 0 := by
  intro d c
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => goP m d (Fin.cast nCore_zero c) (Fin.cast nSub_zero i))
          -∗ stP m d (Fin.cast nCore_zero c)))
  generalize Fin.cast nCore_zero c = c'
  rw [show (bigSep Finset.univ fun i : Fin ((K (F := F)).nSub 0) => goP m d c' (Fin.cast nSub_zero i)) = bigSep Finset.univ (fun i : Fin 16 => goP m d c' i) from
    bigSep_congr fun _ _ => congrArg (goP m d c') (Fin.ext rfl)]
  unfold stP goP ins
  rw [bigSep_sep', bigSep_sep', bigSep_sep']
  iintro ⟨⟨H2, H7, H8⟩, H9⟩
  ihave H2' := (toks16 (F := F) (v2Loc d) (qc c') _).1 $$ H2
  ihave H7' := (toks16 (F := F) (v7Loc d) (qc c') _).1 $$ H7
  ihave H8' := (toks16 (F := F) (v8Loc d) (qc c') _).1 $$ H8
  icases H2' with ⟨D2, T2⟩
  icases H7' with ⟨D7, T7⟩
  icases H8' with ⟨D8, T8⟩
  imodintro
  isplitl [T2 T7 T8 H9]
  · isplitl [T2 T7 T8]
    · isplitl [T2]
      · iexact T2
      isplitl [T7]
      · iexact T7
      · iexact T8
    · iexact H9
  iintro ⟨⟨T2, T7, T8⟩, H9⟩
  isplitr [H9]
  · isplitl [D2 T2]
    · iapply (toks16 (F := F) (v2Loc d) (qc c') _).2
      isplitl [D2]
      · iexact D2
      · iexact T2
    isplitl [D7 T7]
    · iapply (toks16 (F := F) (v7Loc d) (qc c') _).2
      isplitl [D7]
      · iexact D7
      · iexact T7
    · iapply (toks16 (F := F) (v8Loc d) (qc c') _).2
      isplitl [D8]
      · iexact D8
      · iexact T8
  · iexact H9

/-! ## The tile's obligation -/

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]
  · iexact HA
  isplitl [HB]
  · iexact HB
  isplitl [HC]
  · iexact HC
  iexists W'; isplitr
  · ipureintro; exact fun p hp => (hW' p hp).imp_right Or.inl
  · iexact HO

theorem defs₀_vector (c : Fin τ.nSC) (s : Fin τ.nSub) :
    defs₀ (F := F) (.scVector c s) 0 ()
      = SparseCore.onTile hcore0 hsub0 (fun c s => cc0__sc_hidden (coordsV c s)
          tV (Memref.isWhole_whole _) iV (Memref.isWhole_whole _) pV (Memref.isWhole_whole _) oV (Memref.isWhole_whole _)
          sIdx (Memref.isWhole_whole _) sRows (Memref.isWhole_whole _) sPar (Memref.isWhole_whole _) sHid (Memref.isWhole_whole _)
          cc0_scratch4 cc0_scratch5 cc0_scoped0 cc0_scoped1 cc0_scoped2) ⟨⟩ c s := rfl

/-- Every halved word is below the paired table's height. -/
def HalfOK : Prop := ∀ (d : Dev nD) (j : S32x8x80.Idx), ((V2 m d) j).toNat < 50000

theorem tile_post (d : Dev nD) (c : Fin 2) (i : Fin 16) {X Y Z : sProp 𝕄} :
    iprop((pts2 d (coordsV c i) (qt c i) (V2 m d) ∗ pts7 d (coordsV c i) (qt c i) (V7 m d) ∗ pts8 d (coordsV c i) (qt c i).left (V8 m d)
        ∗ pts8 d (coordsV c i) (qt c i).right (V8 m d) ∗ ∃ f, pts9 d (coordsV c i) f) ∗ X ∗ Y ∗ Z)
      ⊢ iprop(goP m d c i ∗ X ∗ Y ∗ Z) := by
  unfold goP ins
  iintro ⟨⟨H2, H7, H8a, H8b, ⟨%f, H9⟩⟩, Hsb, Hss, HO⟩
  isplitl [H2 H7 H8a H8b H9]
  · isplitl [H2 H7 H8a H8b]
    · isplitl [H2]
      · iexact H2
      isplitl [H7]
      · iexact H7
      · iapply (pointsTo_share (PosShare.mem_left_op_right (qt c i))).2
        isplitl [H8a]
        · iexact H8a
        · iexact H8b
    · iexists f; iexact H9
  isplitl [Hsb]
  · iexact Hsb
  isplitl [Hss]
  · iexact Hss
  · iexact HO

/-- The task of tile `(c, i)`, in the payloads' own words. -/
theorem tile_P (hF : (K (F := F)).Facts) (hh : HalfOK m) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0__sc_hidden (coordsV c i) tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop(goP m d c i ∗ scopedBufs (thr d (coordsV c i)) ∗ scopedSems0 (thr d (coordsV c i))
            ∗ ∃ W', ⌜∀ p ∈ W', p ∈ W ∨ p.2 = none⌝ ∗ owes (thr d (coordsV c i)) O W') := by
  unfold goP ins
  iintro ⟨Hlv, -, ⟨⟨H2, H7, H8⟩, ⟨%f9, H9⟩⟩, Hsb, Hss, HO⟩
  ihave H8' := (pointsTo_share (PosShare.mem_left_op_right (qt c i))).1 $$ H8
  icases H8' with ⟨H8a, H8b⟩
  iapply (BIBase.Entails.trans (tile_body d (coordsV c i) hF (qt c i) (qt c i) (qt c i).left (qt c i).right (V2 m d) (V7 m d) (V8 m d) f9 (hh d) O W hO)
    (wp_mono frame _ _ fun _ => tile_post m d c i)) $$ [Hlv H2 H7 H8a H8b H9 Hsb Hss HO]
  · isplitl [Hlv]
    · iexact Hlv
    isplitr
    · iempintro
    isplitl [H2 H7 H8a H8b H9]
    · isplitl [H2]
      · iexact H2
      isplitl [H7]
      · iexact H7
      isplitl [H8a]
      · iexact H8a
      isplitl [H8b]
      · iexact H8b
      · iexact H9
    isplitl [Hsb]
    · iexact Hsb
    isplitl [Hss]
    · iexact Hss
    · iexact HO

theorem tileObl (hF : (K (F := F)).Facts) (hh : HalfOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_P m hF hh d (Fin.cast nCore_zero c) (Fin.cast nSub_zero i) O W hO).trans (wp_mono frame _ _ fun _ => obl_post)

/-! ## The hidden array dealt by rows -/

omit [FloatOps F] in
theorem v9_split (d : Dev nD) (f : Buf (Elt F) (v9Loc d)) :
    (v9Loc d ↦{fullShare} f : sProp 𝕄) = bigSep Finset.univ fun c : Fin 2 => bigSep Finset.univ fun i : Fin 16 => v9Loc d ↦[rowsOf c i]{fullShare} f := by
  have h : (v9Loc d ↦[(Finset.univ : Finset (Fin 2 × Fin 16)).biUnion (fun t => rowsOf t.1 t.2)]{fullShare} f : sProp 𝕄)
      = bigSep (Finset.univ : Finset (Fin 2 × Fin 16)) fun t => v9Loc d ↦[rowsOf t.1 t.2]{fullShare} f :=
    pointsTo_biUnion (ℓ := v9Loc d) (q := fullShare) (f := f) Finset.univ (fun t : Fin 2 × Fin 16 => rowsOf t.1 t.2) rowsOf_disjoint
  rw [rowsOf_cover] at h
  rw [← SparseCore.bigSep_product (Finset.univ : Finset (Fin 2)) (Finset.univ : Finset (Fin 16)) (fun t : Fin 2 × Fin 16 => (v9Loc d ↦[rowsOf t.1 t.2]{fullShare} f : sProp 𝕄)),
    Finset.univ_product_univ, ← h]

theorem v9_join (d : Dev nD) :
    (bigSep Finset.univ fun c : Fin 2 => bigSep Finset.univ fun i : Fin 16 => iprop(∃ f, v9Loc d ↦[rowsOf c i]{fullShare} f))
      ⊢ (iprop(∃ f, v9Loc d ↦{fullShare} f) : sProp 𝕄) := by
  rw [← SparseCore.bigSep_product (Finset.univ : Finset (Fin 2)) (Finset.univ : Finset (Fin 16))
    (fun t : Fin 2 × Fin 16 => (iprop(∃ f, v9Loc d ↦[rowsOf t.1 t.2]{fullShare} f) : sProp 𝕄)), Finset.univ_product_univ]
  refine (bigSep_exists_pi Finset.univ (fun (t : Fin 2 × Fin 16) (f : Buf (Elt F) (v9Loc d)) => (v9Loc d ↦[rowsOf t.1 t.2]{fullShare} f : sProp 𝕄))).trans ?_
  iintro ⟨%fs, H⟩
  ihave H' := (pointsTo_biUnion_join Finset.univ (fun t : Fin 2 × Fin 16 => rowsOf t.1 t.2) fs (fs (0, 0)) rowsOf_disjoint) $$ H
  icases H' with ⟨%g, -, Hg⟩
  rw [rowsOf_cover]
  iexists g; iexact Hg

omit [FloatOps F] in
theorem toks2 (ℓ : Loc nD τ sig) (f : Buf (Elt F) ℓ) :
    (ℓ ↦{fullShare} f : sProp 𝕄) ⊣⊢ iprop((ℓ ↦{Transfers.shareDrop fullShare 2} f) ∗ bigSep Finset.univ (fun c : Fin 2 => ℓ ↦{qc c} f)) :=
  Transfers.pointsTo_toks fullShare 2

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
theorem rows_ex (d : Dev nD) (f9 : Buf (Elt F) (v9Loc d)) :
    (bigSep Finset.univ fun c : Fin 2 => bigSep Finset.univ fun i : Fin 16 => (v9Loc d ↦[rowsOf c i]{fullShare} f9 : sProp 𝕄))
      ⊢ bigSep Finset.univ fun c : Fin 2 => bigSep Finset.univ fun i : Fin 16 => iprop(∃ f, v9Loc d ↦[rowsOf c i]{fullShare} f) :=
  bigSep_mono fun c _ => bigSep_mono fun i _ => exists_intro (Φ := fun f => (v9Loc d ↦[rowsOf c i]{fullShare} f : sProp 𝕄)) f9

/-- The cores' holdings from the shares and the hidden array whole. -/
theorem st_intro (d : Dev nD) (f9 : Buf (Elt F) (v9Loc d)) :
    iprop((bigSep Finset.univ fun c : Fin 2 => v2Loc d ↦{qc c} V2 m d) ∗ (bigSep Finset.univ fun c : Fin 2 => v7Loc d ↦{qc c} V7 m d)
        ∗ (bigSep Finset.univ fun c : Fin 2 => v8Loc d ↦{qc c} V8 m d) ∗ (v9Loc d ↦{fullShare} f9))
      ⊢ (bigSep Finset.univ fun c : Fin ((K (F := F)).nCore 0) => (P (F := F) m).st 0 d c : sProp 𝕄) := by
  show _ ⊢ bigSep Finset.univ fun c : Fin ((K (F := F)).nCore 0) => stP m d (Fin.cast nCore_zero c)
  rw [bigSep_cores (F := F) (stP m d), v9_split]
  unfold stP ins
  rw [bigSep_sep', bigSep_sep', bigSep_sep']
  iintro ⟨T2, T7, T8, H9⟩
  isplitl [T2 T7 T8]
  · isplitl [T2]
    · iexact T2
    isplitl [T7]
    · iexact T7
    · iexact T8
  · iapply (rows_ex (F := F) d f9)
    iexact H9

/-- and back. -/
theorem dn_elim (d : Dev nD) :
    (bigSep Finset.univ fun c : Fin ((K (F := F)).nCore 0) => (P (F := F) m).dn 0 d c : sProp 𝕄)
      ⊢ iprop((bigSep Finset.univ fun c : Fin 2 => v2Loc d ↦{qc c} V2 m d) ∗ (bigSep Finset.univ fun c : Fin 2 => v7Loc d ↦{qc c} V7 m d)
        ∗ (bigSep Finset.univ fun c : Fin 2 => v8Loc d ↦{qc c} V8 m d) ∗ ∃ g, v9Loc d ↦{fullShare} g) := by
  show (bigSep Finset.univ fun c : Fin ((K (F := F)).nCore 0) => stP m d (Fin.cast nCore_zero c)) ⊢ _
  rw [bigSep_cores (F := F) (stP m d)]
  unfold stP ins
  rw [bigSep_sep', bigSep_sep', bigSep_sep']
  iintro ⟨⟨T2, T7, T8⟩, H9⟩
  isplitl [T2]
  · iexact T2
  isplitl [T7]
  · iexact T7
  isplitl [T8]
  · iexact T8
  · iapply (v9_join (F := F) d); iexact H9

/-! ## The call -/

/-- The TensorCore at the SparseCore call: the three read-only arrays go out as shares and come back, the hidden
    array goes out by rows and comes back whole at some contents. -/
theorem wp_sc_call (κ : GSem nD τ sig → ℕ) (d : Dev nD) (Φ : PUnit → sProp 𝕄) :
    iprop((K (F := F)).ctx EH (P m) κ ∗ (K (F := F)).tcSt EH d 0 ∗ (v8Loc d ↦{fullShare} V8 m d) ∗ (v2Loc d ↦{fullShare} V2 m d) ∗ (v7Loc d ↦{fullShare} V7 m d)
        ∗ (∃ f, v9Loc d ↦{fullShare} f)
        ∗ (((K (F := F)).tcSt EH d 1 ∗ (∃ f, v8Loc d ↦{fullShare} f) ∗ (∃ f, v2Loc d ↦{fullShare} f) ∗ (∃ f, v7Loc d ↦{fullShare} f)
            ∗ (∃ f, ⌜True⌝ ∗ v9Loc d ↦{fullShare} f)) -∗ Φ ⟨⟩))
      ⊢ wp frame (wpE ((K (F := F)).defs (D (F := F))) 𝒱 (SparseCore.T d) none) Set.univ (sc.run d 0) Φ := by
  iintro ⟨#Hctx, Hst, H8, H2, H7, ⟨%f9, H9⟩, Hk⟩
  ihave H8' := (toks2 (F := F) (v8Loc d) _).1 $$ H8
  ihave H2' := (toks2 (F := F) (v2Loc d) _).1 $$ H2
  ihave H7' := (toks2 (F := F) (v7Loc d) _).1 $$ H7
  icases H8' with ⟨D8, T8⟩
  icases H2' with ⟨D2, T2⟩
  icases H7' with ⟨D7, T7⟩
  iapply ((K (F := F)).wp_run (D (F := F)) 𝒱 (EH := EH) (P := P m) κ d 0) $$ [Hst T8 T2 T7 H9 D8 D2 D7 Hk]
  isplitr
  · iexact Hctx
  isplitl [Hst]
  · iexact Hst
  isplitl [T8 T2 T7 H9]
  · iapply (st_intro (F := F) m d f9)
    isplitl [T2]
    · iexact T2
    isplitl [T7]
    · iexact T7
    isplitl [T8]
    · iexact T8
    · iexact H9
  iintro ⟨Hst, Hdn⟩
  ihave Hdn' := (dn_elim (F := F) m d) $$ Hdn
  icases Hdn' with ⟨T2, T7, T8, ⟨%g, Hg⟩⟩
  iapply Hk
  isplitl [Hst]
  · iexact Hst
  isplitl [D8 T8]
  · iexists _
    iapply (toks2 (F := F) (v8Loc d) _).2
    isplitl [D8]
    · iexact D8
    · iexact T8
  isplitl [D2 T2]
  · iexists _
    iapply (toks2 (F := F) (v2Loc d) _).2
    isplitl [D2]
    · iexact D2
    · iexact T2
  isplitl [D7 T7]
  · iexists _
    iapply (toks2 (F := F) (v7Loc d) _).2
    isplitl [D7]
    · iexact D7
    · iexact T7
  · iexists g
    isplitr
    · ipureintro; trivial
    · iexact Hg

end Cert.Proof.KB

end
-- ==== Proof.HalfOKB.lean ====
/-
  The halved context words name rows of the paired table.

  Under the precondition a context word w is a signed word with 0 ≤ w ≤ 99999. Its arithmetic shift right by one
  is then w / 2 read unsigned, which is below 50000, the paired table's height. The array of halved words is a
  re-laying of the word array (same elements in row-major order), so the bound holds at every one of its indices.
-/
import proofs.«204096_g51513837748514_cont_sun_m_306_14_alg».proof.Proof.IfaceB
import proofs.«204096_g51513837748514_cont_sun_m_306_14_alg».proof.Proof.PreFacts

noncomputable section

namespace Cert.Proof.KB

open Cert.Kernel Cert.Kernel.Gen

open Idealize.ShloMosaic

variable {F : FTy → Type} [FloatOps F]

/-- The arithmetic shift right by one of a nonnegative word is half its unsigned value. -/
theorem toNat_shrsi_one (u : ArithUnit) (w : BitVec 32) (h0 : 0 ≤ w.toInt) : (IntOp.shrsi u w 1#32).toNat = w.toNat / 2 := by
  have hm : w.msb = false := by
    rw [BitVec.msb_eq_false_iff_two_mul_lt]; exact BitVec.toInt_pos_iff.1 h0
  unfold IntOp.shrsi
  rw [if_pos (by decide)]
  show (w.sshiftRight (1#32).toNat).toNat = _
  rw [BitVec.sshiftRight_eq_of_msb_false hm, BitVec.toNat_ushiftRight]
  show w.toNat >>> 1 = _
  rw [Nat.shiftRight_eq_div_pow]

/-- Every halved context word is below the paired table's height. -/
theorem halfOK (m : (ℓ : Loc nD τ sig) → Buf (Elt F) ℓ)
    (hpre : ∀ c : Dev nD, Cert.Pre_input_domain.fn (F := F) (m (a0Loc c)) (m (a1Loc c)) (m (a2Loc c)) (m (a3Loc c)) = fun _ => 1#1) :
    ∀ (d : Dev nD) (j : S32x8x80.Idx), ((V2 m d) j).toNat < 50000 := by
  intro d j
  have hr := Cert.PreFacts.idx_toInt _ _ _ _ (hpre d)
  have hlt := Cert.PreFacts.idx_lt _ _ _ _ (hpre d)
  show (IntOp.shrsi .host (m (a0Loc d) (Shape.reshapeEquiv shapeCasts_S1024x20_S32x8x80 j)) 1#32).toNat < 50000
  rw [toNat_shrsi_one _ _ (hr _).1]
  have := hlt (Shape.reshapeEquiv shapeCasts_S1024x20_S32x8x80 j)
  omega

end Cert.Proof.KB

end
-- ==== Proof.MainB.lean ====
/-
  The kernel program's run: the launch theorem for SparseCore programs applied to this program.

  The vector subcores' task is one theorem for every tile; a SparseCore's holdings split among its tiles by shares
  and by rows; @main on the TensorCore meets the SparseCore call with the call's rule and runs its host operations
  and its two TensorCore kernel regions; the launch element funds the handshakes' cells and the two pipelines'
  staging cells. What is read off the final memory: the four argument arrays are what they were.
-/
import proofs.«204096_g51513837748514_cont_sun_m_306_14_alg».proof.Proof.CallB
import proofs.«204096_g51513837748514_cont_sun_m_306_14_alg».proof.Proof.HalfOKB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The launch element -/

/-- The launch element: the handshakes' rounds, the pipelines' rounds at `uP`, the transfers' counters at their unit. -/
def u₀ (uP : UP) : UU := (initOf (K (F := F)).hsCells (K (F := F)).hsToks, (uP, 1))

omit [FloatOps F] in
theorem bigSep_emp' {I : Type} (s : Finset I) : (bigSep s fun _ => iprop(emp)) = (iprop(emp) : sProp 𝕄) := bigSep_emp_const s

theorem hu₀ (G : Dev nD → sProp 𝕄) (uP : UP)
    (hfund : (BI.own ((EP (F := F)) uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ bigSep Finset.univ G
        ∗ bigSep Finset.univ fun thr : Thread nD τ => bigSep Finset.univ fun q : Fin 1 => (P (F := F) m).x q thr) := by
  unfold u₀
  iintro Hu
  ihave H := (ownU_pair _ _) $$ Hu
  icases H with ⟨HH, HR⟩
  ihave H2 := (own_pair_emb (embR : Emb (UP × Counters) 𝕄) uP (1 : Counters)) $$ HR
  icases H2 with ⟨HP, -⟩
  imod (show (BI.own (((Emb.inl : Emb UP (UP × Counters)).trans (embR : Emb (UP × Counters) 𝕄)) uP) : sProp 𝕄) ⊢ |={Set.univ}=> bigSep Finset.univ G from hfund) $$ HP with HG
  imodintro
  isplitl [HH]
  · iexact HH
  isplitl [HG]
  · iexact HG
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## What @main leaves, and how the final memory reads it -/

/-- The four argument arrays whole at their launch contents, and whatever else @main's proof leaves (`R`). -/
abbrev FIN (R : Dev nD → sProp 𝕄) (d : Dev nD) : sProp 𝕄 :=
  iprop((a0Loc d ↦{fullShare} m (a0Loc d)) ∗ (a1Loc d ↦{fullShare} m (a1Loc d)) ∗ (a2Loc d ↦{fullShare} m (a2Loc d)) ∗ (a3Loc d ↦{fullShare} m (a3Loc d)) ∗ R d)

def fq (d : Dev nD) (s' : Phys nD τ sig (Elt F)) : Prop :=
  s'.mem.mem (a0Loc d) = m (a0Loc d) ∧ s'.mem.mem (a1Loc d) = m (a1Loc d) ∧ s'.mem.mem (a2Loc d) = m (a2Loc d) ∧ s'.mem.mem (a3Loc d) = m (a3Loc d)

theorem hfin (R : Dev nD → sProp 𝕄) (d : Dev nD) (s' : Phys nD τ sig (Elt F)) : iprop(FIN m R d ∗ SI s') ⊢ (⌜fq m d s'⌝ : sProp 𝕄) := by
  iintro ⟨⟨H0, H1, H2, H3, -⟩, HSI⟩
  icombine HSI H0 gives %h0
  icombine HSI H1 gives %h1
  icombine HSI H2 gives %h2
  icombine HSI H3 gives %h3
  ipureintro
  exact ⟨funext fun i => h0 i (Finset.mem_univ i), funext fun i => h1 i (Finset.mem_univ i), funext fun i => h2 i (Finset.mem_univ i), funext fun i => h3 i (Finset.mem_univ i)⟩

def QC : PUnit × MemSt nD τ sig (Elt F) → Prop := fun r => ∀ c : Dev nD,
  r.2.mem (a0Loc c) = m (a0Loc c) ∧ r.2.mem (a1Loc c) = m (a1Loc c) ∧ r.2.mem (a2Loc c) = m (a2Loc c) ∧ r.2.mem (a3Loc c) = m (a3Loc c)

/-! ## The run -/

theorem run_main [∀ e, Nonempty (Elt F e)] (hh : HalfOK m) (G R : Dev nD → sProp 𝕄) (uP : UP)
    (hfund : (BI.own ((EP (F := F)) uP) : sProp 𝕄) ⊢ |={Set.univ}=> bigSep Finset.univ G)
    (hmain : ∀ (κ : GSem nD τ sig → ℕ) (d : Dev nD),
      iprop((K (F := F)).ctx EH (P m) κ ∗ (K (F := F)).tcSt EH d 0 ∗ (K (F := F)).tcRes m ρ d ∗ G d)
        ⊢ wp frame (wpE ((K (F := F)).defs (D (F := F))) 𝒱 (SparseCore.T d) none) Set.univ (main d)
            fun _ => iprop((K (F := F)).tcSt EH d 1 ∗ FIN m R d)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hh)
    (fun q _ => match q with | 0 => SparseCore.Cfg.VecSplit.of_plain (vecSplit m))
    m ρ main G (FIN m R) (u₀ (F := F) uP) (sep_elim_left.trans (hu₀ m G uP hfund)) hmain (fq m) (hfin m R) (QC m) (fun _ h => h)

end Cert.Proof.KB

end
-- ==== Proof.TcDataB.lean ====
/-
  The two matrix products of @main on the TensorCore, as the pipeline library's relational proof data.

  Each product is a grid of points; at a point the body reads three staged blocks — rows of the hidden array, rows
  of the weights, a stretch of the bias — and stores their product plus the bias into the staged block of the
  result. A block of the weights, the bias or the result may run past the hundred thousand columns: what the
  staging buffers hold past the array's end is chosen by nobody, so what the body stores is stated for SOME
  contents there, and what is claimed of the result's block is claimed for every such choice.
-/
import proofs.«204096_g51513837748514_cont_sun_m_306_14_alg».proof.Proof.IfaceB
import proofs.«204096_g51513837748514_cont_sun_m_306_14_alg».proof.Proof.Gen.Kernel.Launch
import proofs.«204096_g51513837748514_cont_sun_m_306_14_alg».proof.Proof.Gen.Kernel.Points
import proofs.«204096_g51513837748514_cont_sun_m_306_14_alg».proof.Proof.Gen.Kernel.Skeleton
import Idealize.ShloMosaic.Lib.Pipeline.FrameBody
import Idealize.ShloMosaic.Lib.Pipeline.Regions
import Idealize.ShloMosaic.Lib.Tactic

set_option maxRecDepth 16384

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [∀ e, Nonempty (Elt F e)]

local notation "𝕄" => MT nD τ sig (HIx 1) (Elt F) ℕ UU ℕ

/-- No pipeline has a prefetched table. -/
abbrev adm : (p : Fin 2) → (pcfgs (F := F) p).Adm := fun p => (cfgs p).toPCfg_adm

section Data

-- the TensorCore's buffer contents when a product is entered
variable (V : (c : Dev nD) → (b : Ref sig .tc) → Buf (Elt F) ((c : Thread nD τ).loc b))

/-! ## The first product: columns [0, 98304), twelve column blocks by four row blocks -/

/-- Window `w`'s block at point `t`, its part inside the array, read off the array as the product finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S256x64 := Rect.unit (s := S256x64) ![0, 0] S256x64.size inb_S256x64_S256x64_0_0
abbrev r1_1 : Rect S8192x64 := Rect.unit (s := S8192x64) ![0, 0] S8192x64.size inb_S8192x64_S8192x64_0_0
abbrev r1_2 : Rect S1x8192 := Rect.unit (s := S1x8192) ![0, 0] S1x8192.size inb_S1x8192_S1x8192_0_0
abbrev r1_3 : Rect S256x8192 := Rect.unit (s := S256x8192) ![0, 0] S256x8192.size inb_S256x8192_S256x8192_0_0

/-- What the body stores in the result's staging buffer, from what the three input buffers hold. -/
def out1 (x0 : Vec F S256x64 .f32) (x1 : Vec F S8192x64 .f32) (x2 : Vec F S1x8192 .f32) : Vec F S256x8192 .f32 :=
  View.canon [⟨r1_3, k1_pay1 (View.ld x0 r1_0) (View.ld x1 r1_1) (View.ld x2 r1_2)⟩]

theorem cover1 (p0 : Vec F S256x8192 .f32) (y : S256x8192.Idx) :
    ∃ pc ∈ ([⟨r1_3, p0⟩] : List (View.Piece (Elt F) S256x8192 .f32)), y ∈ pc.1.set :=
  View.cover_of_tiled [⟨r1_3, p0⟩] S256x8192.size (by rfl) y

set_option maxHeartbeats 1000000 in
/-- The body on whole staging memrefs: the three inputs are read and left as they were, the result's buffer ends
    at `out1` of them. -/
theorem sound_kernel1 (c : Dev nD) (E : Set ℕ) (i : grid1.Coords)
    (arg2 : Memref sig .tc .vmem S256x64 .f32) (harg2 : arg2.IsWhole) (arg3 : Memref sig .tc .vmem S8192x64 .f32) (harg3 : arg3.IsWhole)
    (arg4 : Memref sig .tc .vmem S1x8192 .f32) (harg4 : arg4.IsWhole) (arg5 : Memref sig .tc .vmem S256x8192 .f32) (harg5 : arg5.IsWhole)
    (x0 : Vec F S256x64 .f32) (x1 : Vec F S8192x64 .f32) (x2 : Vec F S1x8192 .f32) (Kk : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out1 x0 x1 x2)) -∗ Kk ⟨⟩))
      ⊢ wp frame (wpE (defs₀ (F := F)) Variants.none c none) E (cc1__mm_body i arg2 harg2 arg3 harg3 arg4 harg4 arg5 harg5) Kk := by
  simp only [cc1__mm_body_eq_skeleton]; unfold cc1__mm_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1 _)

/-! ### The relational proof data -/

/-- The pairs a wait of the TensorCore's may have recorded by the time a product is entered: those at levels up to
    the end of the SparseCore call's band. The products' own waits, at the kernels' index, are among them. -/
def recd (c : Dev nD) : Set (SemLoc sig × HIx 1) := {p | (K (F := F)).lev ((T c : Thread nD τ), p.1) p.2 ≤ 8}

/-- The first product's proof data on core `c`: the arrays as it finds them; the three inputs' staging buffers
    left as found; the result's buffer at `out1` of the three inputs' blocks, each filled out past the array's
    end by contents not chosen; the invariant the scoped buffers no window stages; nothing owed. -/
def rdat1 (c : Dev nD) : RDat τ (Elt F) (HIx 1) ℕ UU ℕ cfg1 c where
  A w := V c (Pipeline.arrRef spec1 w)
  after w t := match w with
    | ⟨0, _⟩ => fun Y X => X = Y
    | ⟨1, _⟩ => fun Y X => X = Y
    | ⟨2, _⟩ => fun Y X => X = Y
    | ⟨3, _⟩ => fun _ X => ∃ d0 d1 d2, X = out1 (win1_0.fill (grid1.coords t) d0 (blk1 V c 0 t))
        (win1_1.fill (grid1.coords t) d1 (blk1 V c 1 t)) (win1_2.fill (grid1.coords t) d2 (blk1 V c 2 t))
  Φ _ := Pipeline.scopedRest spec1 c
  q _ := fullShare
  owed _ := 0
  recorded _ := recd (F := F) c

theorem rdat1_A (c : Dev nD) (w : Fin cfg1.W) : (rdat1 V c).A w = V c (Pipeline.arrRef spec1 w) := by dsimp only [rdat1]

/-- An input's staging buffer holds, whenever the body runs, its block filled out by some contents. -/
theorem finds1_0 (c : Dev nD) (t : Fin cfg1.N) (Y) (h : (rdat1 V c).Finds 0 t Y) : ∃ d, Y = win1_0.fill (grid1.coords t) d (blk1 V c 0 t) :=
  (rdat1 V c).finds_in_eq_fetched 0 rfl (fun _ _ _ => rfl) (fun _ _ _ h => h) t Y h
theorem finds1_1 (c : Dev nD) (t : Fin cfg1.N) (Y) (h : (rdat1 V c).Finds 1 t Y) : ∃ d, Y = win1_1.fill (grid1.coords t) d (blk1 V c 1 t) :=
  (rdat1 V c).finds_in_eq_fetched 1 rfl (fun t t' h => by
    funext a; show Pipeline.Clip.of (cc1_transform_1 (grid1.coords t) a) _ _ = Pipeline.Clip.of (cc1_transform_1 (grid1.coords t') a) _ _
    rw [show cc1_transform_1 (grid1.coords t) = cc1_transform_1 (grid1.coords t') from h]) (fun _ _ _ h => h) t Y h
theorem finds1_2 (c : Dev nD) (t : Fin cfg1.N) (Y) (h : (rdat1 V c).Finds 2 t Y) : ∃ d, Y = win1_2.fill (grid1.coords t) d (blk1 V c 2 t) :=
  (rdat1 V c).finds_in_eq_fetched 2 rfl (fun t t' h => by
    funext a; show Pipeline.Clip.of (cc1_transform_2 (grid1.coords t) a) _ _ = Pipeline.Clip.of (cc1_transform_2 (grid1.coords t') a) _ _
    rw [show cc1_transform_2 (grid1.coords t) = cc1_transform_2 (grid1.coords t') from h]) (fun _ _ _ h => h) t Y h

/-- The library's body obligation for the first product. -/
theorem body_obligation1 (c : Dev nD) : (rdat1 V c).BodyObligation (defs₀ (F := F)) Variants.none (none : HIx 1) Set.univ := fun t Y hY => by
  obtain ⟨d0, h0⟩ := finds1_0 V c t (Y 0) (hY 0)
  obtain ⟨d1, h1⟩ := finds1_1 V c t (Y 1) (hY 1)
  obtain ⟨d2, h2⟩ := finds1_2 V c t (Y 2) (hY 2)
  rw [bigSep_W1, bigSep_W1]
  show _ ⊢ wp frame (wpE (defs₀ (F := F)) Variants.none c none) Set.univ (bodyAt1 t) _
  unfold bodyAt1
  rw [show (rdat1 V c).Φ t.succ = (rdat1 V c).Φ t.castSucc from rfl,
    show (rdat1 V c).owesAt (none : HIx 1) t.succ = (rdat1 V c).owesAt (none : HIx 1) t.castSucc from rfl]
  iintro ⟨HΦ, Ho, H0, H1, H2, H3⟩
  iapply (sound_kernel1 c Set.univ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; dsimp only [rdat1]
    iexact H0
  isplitl [H1]
  · iexists (Y 1); isplitr; · ipureintro; dsimp only [rdat1]
    iexact H1
  isplitl [H2]
  · iexists (Y 2); isplitr; · ipureintro; dsimp only [rdat1]
    iexact H2
  iexists _; isplitr
  swap; · iexact H3
  ipureintro; dsimp only [rdat1]
  exact ⟨d0, d1, d2, by rw [← h0, ← h1, ← h2]⟩

/-! ## The second product: columns [98304, 100352) in one point, its blocks cut at column 100000 -/

/-- Window `w`'s block at the one point, its part inside the array, read off the array as the product finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x64 := Rect.unit (s := S1024x64) ![0, 0] S1024x64.size inb_S1024x64_S1024x64_0_0
abbrev r2_1 : Rect S2048x64 := Rect.unit (s := S2048x64) ![0, 0] S2048x64.size inb_S2048x64_S2048x64_0_0
abbrev r2_2 : Rect S1x2048 := Rect.unit (s := S1x2048) ![0, 0] S1x2048.size inb_S1x2048_S1x2048_0_0
abbrev r2_3 : Rect S1024x2048 := Rect.unit (s := S1024x2048) ![0, 0] S1024x2048.size inb_S1024x2048_S1024x2048_0_0

/-- What the body stores in the result's staging buffer, from what the three input buffers hold. -/
def out2 (x0 : Vec F S1024x64 .f32) (x1 : Vec F S2048x64 .f32) (x2 : Vec F S1x2048 .f32) : Vec F S1024x2048 .f32 :=
  View.canon [⟨r2_3, k2_pay1 (View.ld x0 r2_0) (View.ld x1 r2_1) (View.ld x2 r2_2)⟩]

theorem cover2 (p0 : Vec F S1024x2048 .f32) (y : S1024x2048.Idx) :
    ∃ pc ∈ ([⟨r2_3, p0⟩] : List (View.Piece (Elt F) S1024x2048 .f32)), y ∈ pc.1.set :=
  View.cover_of_tiled [⟨r2_3, p0⟩] S1024x2048.size (by rfl) y

set_option maxHeartbeats 1000000 in
/-- The body on whole staging memrefs: the three inputs are read and left as they were, the result's buffer ends
    at `out2` of them; the result's array itself, which the body is also handed, is not touched. -/
theorem sound_kernel2 (c : Dev nD) (E : Set ℕ) (i : grid2.Coords)
    (arg1 : Memref sig .tc .vmem S1024x64 .f32) (harg1 : arg1.IsWhole) (arg2 : Memref sig .tc .vmem S2048x64 .f32) (harg2 : arg2.IsWhole)
    (arg3 : Memref sig .tc .vmem S1x2048 .f32) (harg3 : arg3.IsWhole) (arg4 : Memref sig .tc .hbm S1024x100000 .f32) (harg4 : arg4.IsWhole)
    (arg5 : Memref sig .tc .vmem S1024x2048 .f32) (harg5 : arg5.IsWhole)
    (x0 : Vec F S1024x64 .f32) (x1 : Vec F S2048x64 .f32) (x2 : Vec F S1x2048 .f32) (Kk : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg5 fullShare (out2 x0 x1 x2)) -∗ Kk ⟨⟩))
      ⊢ wp frame (wpE (defs₀ (F := F)) Variants.none c none) E (cc2__tail_body i arg1 harg1 arg2 harg2 arg3 harg3 arg4 harg4 arg5 harg5) Kk := by
  simp only [cc2__tail_body_eq_skeleton]; unfold cc2__tail_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2 _)

/-- The second product's proof data on core `c`, as the first's. -/
def rdat2 (c : Dev nD) : RDat τ (Elt F) (HIx 1) ℕ UU ℕ cfg2 c where
  A w := V c (Pipeline.arrRef spec2 w)
  after w t := match w with
    | ⟨0, _⟩ => fun Y X => X = Y
    | ⟨1, _⟩ => fun Y X => X = Y
    | ⟨2, _⟩ => fun Y X => X = Y
    | ⟨3, _⟩ => fun _ X => ∃ d0 d1 d2, X = out2 (win2_0.fill (grid2.coords t) d0 (blk2 V c 0 t))
        (win2_1.fill (grid2.coords t) d1 (blk2 V c 1 t)) (win2_2.fill (grid2.coords t) d2 (blk2 V c 2 t))
  Φ _ := Pipeline.scopedRest spec2 c
  q _ := fullShare
  owed _ := 0
  recorded _ := recd (F := F) c

theorem rdat2_A (c : Dev nD) (w : Fin cfg2.W) : (rdat2 V c).A w = V c (Pipeline.arrRef spec2 w) := by dsimp only [rdat2]

theorem finds2_0 (c : Dev nD) (t : Fin cfg2.N) (Y) (h : (rdat2 V c).Finds 0 t Y) : ∃ d, Y = win2_0.fill (grid2.coords t) d (blk2 V c 0 t) :=
  (rdat2 V c).finds_in_eq_fetched 0 rfl (fun _ _ _ => rfl) (fun _ _ _ h => h) t Y h
theorem finds2_1 (c : Dev nD) (t : Fin cfg2.N) (Y) (h : (rdat2 V c).Finds 1 t Y) : ∃ d, Y = win2_1.fill (grid2.coords t) d (blk2 V c 1 t) :=
  (rdat2 V c).finds_in_eq_fetched 1 rfl (fun t t' h => by
    funext a; show Pipeline.Clip.of (cc2_transform_1 (grid2.coords t) a) _ _ = Pipeline.Clip.of (cc2_transform_1 (grid2.coords t') a) _ _
    rw [show cc2_transform_1 (grid2.coords t) = cc2_transform_1 (grid2.coords t') from h]) (fun _ _ _ h => h) t Y h
theorem finds2_2 (c : Dev nD) (t : Fin cfg2.N) (Y) (h : (rdat2 V c).Finds 2 t Y) : ∃ d, Y = win2_2.fill (grid2.coords t) d (blk2 V c 2 t) :=
  (rdat2 V c).finds_in_eq_fetched 2 rfl (fun t t' h => by
    funext a; show Pipeline.Clip.of (cc2_transform_2 (grid2.coords t) a) _ _ = Pipeline.Clip.of (cc2_transform_2 (grid2.coords t') a) _ _
    rw [show cc2_transform_2 (grid2.coords t) = cc2_transform_2 (grid2.coords t') from h]) (fun _ _ _ h => h) t Y h

/-- The library's body obligation for the second product. -/
theorem body_obligation2 (c : Dev nD) : (rdat2 V c).BodyObligation (defs₀ (F := F)) Variants.none (none : HIx 1) Set.univ := fun t Y hY => by
  obtain ⟨d0, h0⟩ := finds2_0 V c t (Y 0) (hY 0)
  obtain ⟨d1, h1⟩ := finds2_1 V c t (Y 1) (hY 1)
  obtain ⟨d2, h2⟩ := finds2_2 V c t (Y 2) (hY 2)
  rw [bigSep_W2, bigSep_W2]
  show _ ⊢ wp frame (wpE (defs₀ (F := F)) Variants.none c none) Set.univ (bodyAt2 t) _
  unfold bodyAt2
  rw [show (rdat2 V c).Φ t.succ = (rdat2 V c).Φ t.castSucc from rfl,
    show (rdat2 V c).owesAt (none : HIx 1) t.succ = (rdat2 V c).owesAt (none : HIx 1) t.castSucc from rfl]
  iintro ⟨HΦ, Ho, H0, H1, H2, H3⟩
  iapply (sound_kernel2 c Set.univ _ _ _ _ _ _ _ _ _ _ _ (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists (Y 0); isplitr; · ipureintro; dsimp only [rdat2]
    iexact H0
  isplitl [H1]
  · iexists (Y 1); isplitr; · ipureintro; dsimp only [rdat2]
    iexact H1
  isplitl [H2]
  · iexists (Y 2); isplitr; · ipureintro; dsimp only [rdat2]
    iexact H2
  iexists _; isplitr
  swap; · iexact H3
  ipureintro; dsimp only [rdat2]
  exact ⟨d0, d1, d2, by rw [← h0, ← h1, ← h2]⟩

end Data

end Cert.Proof.KB.Tc

end
-- ==== Proof.TcRegionB.lean ====
/-
  The two matrix products as regions of @main: what each is entered from and what it leaves.

  A product is entered holding every unscoped buffer of the TensorCore at known contents, the generator register,
  and the TensorCore owing nothing with every recorded wait at a level up to the SparseCore call's. It leaves the
  same, the result's array alone changed: to contents the product's write-backs may leave.
-/
import proofs.«204096_g51513837748514_cont_sun_m_306_14_alg».proof.Proof.TcDataB

set_option maxRecDepth 16384

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [∀ e, Nonempty (Elt F e)]

local notation "𝕄" => MT nD τ sig (HIx 1) (Elt F) ℕ UU ℕ

variable (ρ : Dev nD → PrngReg)
-- the TensorCore's buffer contents when the first product is entered, and when the second is
variable (V1 V2 : (c : Dev nD) → (b : Ref sig .tc) → Buf (Elt F) ((c : Thread nD τ).loc b))

/-- Both products' proof data, each at its own entry contents. -/
def rdats : (p : Fin 2) → (c : Dev nD) → RDat τ (Elt F) (HIx 1) ℕ UU ℕ (Pipeline.pin (pcfgs (F := F)) adm p) c
  | ⟨0, _⟩ => fun c => rdat1 V1 c
  | ⟨1, _⟩ => fun c => rdat2 V2 c

/-- The levels are the SparseCore launch's. -/
abbrev Lk : GSem nD τ sig → Finset (HIx 1) := (K (F := F)).L
abbrev lvk : GSem nD τ sig → HIx 1 → ℕ := (K (F := F)).lev

/-- The TensorCore owes nothing, and every pair its waits have recorded sits at a level up to the call's. -/
def Ow (c : Dev nD) : sProp 𝕄 :=
  iprop(∃ W, ⌜(K (F := F)).WBelow (T c) W 8⌝ ∗ owes (T c : Thread nD τ) (0 : CellTallies nD τ sig (HIx 1)) W)

theorem Ow_within (c : Dev nD) (B : Set (SemLoc sig × HIx 1)) (hB : recd (F := F) c ⊆ B) :
    Ow (F := F) c ⊢ (Pipeline.owesWithin c (0 : CellTallies nD τ sig (HIx 1)) B : sProp 𝕄) := by
  unfold Ow Pipeline.owesWithin
  iintro ⟨%W, %hW, HO⟩; iexists W; isplitr
  · ipureintro; exact fun p hp => hB (hW p (Finset.mem_coe.mp hp))
  iexact HO

theorem within_Ow (c : Dev nD) (cfg : Cfg sig Λ₀) :
    (Pipeline.owesWithin c (0 : CellTallies nD τ sig (HIx 1)) (recd (F := F) c ∪ cfg.waitPairs (none : HIx 1)) : sProp 𝕄) ⊢ Ow (F := F) c := by
  unfold Ow Pipeline.owesWithin
  iintro ⟨%W, %hW, HO⟩; iexists W; isplitr
  · ipureintro; intro p hp
    rcases hW (Finset.mem_coe.mpr hp) with h | ⟨w, s, rfl⟩
    · exact h
    · exact Nat.zero_le _
  iexact HO

/-! ## The first product -/

/-- A window's array, whole at the full share, as the pipeline holds it and as @main does. -/
theorem arr_pts1 (c : Dev nD) (w : Fin cfg1.W) (G : Buf (Elt F) ((cfg1.win w).arr.view.loc (c.tc : Thread nD τ))) :
    ((cfg1.win w).arr.view.loc (c.tc : Thread nD τ) ↦[(cfg1.win w).arr.view.set]{(rdat1 V1 c).share w} G : sProp 𝕄)
      = (((c.tc : Thread nD τ).loc (Pipeline.arrRef spec1 w)) ↦{fullShare} G) := by
  rw [show (cfg1.win w).arr.view.set = Finset.univ from (launch1.arr_whole w).set_eq_univ, (rdat1 V1 c).share_full (fun _ => rfl) w]

/-- The buffers that are no window's array do not see a change of the result's array. -/
theorem unscopedRest_update1 (c : Dev nD) (g : Buf (Elt F) ((c : Thread nD τ).loc main_v11)) :
    (Pipeline.unscopedRest spec1 c (Function.update (V1 c) main_v11 g) : sProp 𝕄) = Pipeline.unscopedRest spec1 c (V1 c) := by
  unfold Pipeline.unscopedRest
  exact bigSep_congr fun b hb => by
    rw [Function.update_of_ne (fun e => (Finset.mem_sdiff.mp hb).2 (Finset.mem_image.mpr ⟨3, Finset.mem_univ _, e.symm⟩))]

/-- What the first product may leave in the result's array. -/
abbrev Left1 (c : Dev nD) (g : Buf (Elt F) ((c : Thread nD τ).loc main_v11)) : Prop := (rdat1 V1 c).ArrAt 3 cfg1.N g

set_option backward.isDefEq.respectTransparency.types false in
def reg1 : Pipeline.RDat.RegionSeg (pcfgs (F := F)) adm (rdats V1 V2) (none : HIx 1) defs₀ 𝒱₀ (Lk (F := F)) (lvk (F := F)) 0 where
  win := launch1.win.to₀
  block_pos := launch1.block_pos
  stage_whole := launch1.stage_whole
  K := PEmpty
  osem k := k.elim
  ho := Pipeline.OwnSemFacts.none _
  hbody c := body_obligation1 V1 c
  hwaits := Pipeline.RDat.hwaits_of_owed_zero _ _ _ _ (Lk (F := F)) (lvk (F := F)) 0 fun _ _ => rfl
  pre c := iprop(unscopedBufs c (V1 c) ∗ prngReg c (ρ c) ∗ Ow (F := F) c)
  post c := iprop(∃ g, ⌜Left1 V1 c g⌝ ∗ unscopedBufs c (Function.update (V1 c) main_v11 g) ∗ prngReg c (ρ c) ∗ Ow (F := F) c)
  X c := iprop(emp)
  Y c := iprop(emp)
  Z c := iprop(Pipeline.unscopedRest spec1 c (V1 c) ∗ prngReg c (ρ c))
  hentry c := by
    rw [Pipeline.ownSems0_none]
    have hsplit := Pipeline.RDat.arrays_of_unscopedBufs (p := 0) (pcfgs (F := F)) adm (rdats V1 V2) launch1.win launch1.arr_whole c
      ((rdats V1 V2 0 c).share_full fun _ => rfl) (V1 c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Ow_within (F := F) c _ (fun p hp => Or.inl hp)); iexact HO
    isplitr; · iempintro
    isplitl [Hrest]; · iexact Hrest
    iexact Hp
  hin c := by
    rw [show (rdats V1 V2 0 c).Φ 0 = Pipeline.scopedRest spec1 c from rfl]
    iintro ⟨-, -, Hr⟩; iexact Hr
  hout c := by
    rw [Pipeline.ownSems0_none, show (rdats V1 V2 0 c).Φ (Fin.last _) = Pipeline.scopedRest spec1 c from rfl]
    iintro Hr
    isplitr; · iempintro
    isplitr; · iempintro
    iexact Hr
  hexit c := by
    rw [show (rdats V1 V2 0 c).arraysAt (Pipeline.pin (pcfgs (F := F)) adm 0).N = (rdat1 V1 c).arraysAt cfg1.N from rfl]
    unfold Pipeline.RDat.arraysAt
    rw [bigSep_W1]
    iintro ⟨⟨⟨%F0, %h0, H0⟩, ⟨%F1, %h1, H1⟩, ⟨%F2, %h2, H2⟩, ⟨%F3, %h3, H3⟩⟩, HO, -, Hrest, Hp⟩
    rw [(rdat1 V1 c).ArrAt_in 0 rfl] at h0
    rw [(rdat1 V1 c).ArrAt_in 1 rfl] at h1
    rw [(rdat1 V1 c).ArrAt_in 2 rfl] at h2
    subst h0; subst h1; subst h2
    imodintro
    iexists F3
    isplitr; · ipureintro; exact h3
    isplitl [H0 H1 H2 H3 Hrest]
    · rw [Pipeline.unscopedBufs_split (Pipeline.pin (pcfgs (F := F)) adm) 0 launch1.win.arr_unscoped launch1.win.arr_inj c _, bigSep_W1]
      isplitr [Hrest]
      · isplitl [H0]
        · iapply (Entails.of_eq (arr_pts1 V1 c 0 _)) $$ H0
        isplitl [H1]
        · iapply (Entails.of_eq (arr_pts1 V1 c 1 _)) $$ H1
        isplitl [H2]
        · iapply (Entails.of_eq (arr_pts1 V1 c 2 _)) $$ H2
        · iapply (Entails.of_eq (arr_pts1 V1 c 3 _)) $$ H3
      · iapply (Entails.of_eq (unscopedRest_update1 V1 c F3).symm) $$ Hrest
    isplitl [Hp]; · iexact Hp
    iapply (within_Ow (F := F) c cfg1); iexact HO

/-! ## The second product -/

/-- A window's array, whole at the full share, as the pipeline holds it and as @main does. -/
theorem arr_pts2 (c : Dev nD) (w : Fin cfg2.W) (G : Buf (Elt F) ((cfg2.win w).arr.view.loc (c.tc : Thread nD τ))) :
    ((cfg2.win w).arr.view.loc (c.tc : Thread nD τ) ↦[(cfg2.win w).arr.view.set]{(rdat2 V2 c).share w} G : sProp 𝕄)
      = (((c.tc : Thread nD τ).loc (Pipeline.arrRef spec2 w)) ↦{fullShare} G) := by
  rw [show (cfg2.win w).arr.view.set = Finset.univ from (launch2.arr_whole w).set_eq_univ, (rdat2 V2 c).share_full (fun _ => rfl) w]

/-- The buffers that are no window's array do not see a change of the result's array. -/
theorem unscopedRest_update2 (c : Dev nD) (g : Buf (Elt F) ((c : Thread nD τ).loc main_v12)) :
    (Pipeline.unscopedRest spec2 c (Function.update (V2 c) main_v12 g) : sProp 𝕄) = Pipeline.unscopedRest spec2 c (V2 c) := by
  unfold Pipeline.unscopedRest
  exact bigSep_congr fun b hb => by
    rw [Function.update_of_ne (fun e => (Finset.mem_sdiff.mp hb).2 (Finset.mem_image.mpr ⟨3, Finset.mem_univ _, e.symm⟩))]

/-- What the second product may leave in the result's array. -/
abbrev Left2 (c : Dev nD) (g : Buf (Elt F) ((c : Thread nD τ).loc main_v12)) : Prop := (rdat2 V2 c).ArrAt 3 cfg2.N g

set_option backward.isDefEq.respectTransparency.types false in
def reg2 : Pipeline.RDat.RegionSeg (pcfgs (F := F)) adm (rdats V1 V2) (none : HIx 1) defs₀ 𝒱₀ (Lk (F := F)) (lvk (F := F)) 1 where
  win := launch2.win.to₀
  block_pos := launch2.block_pos
  stage_whole := launch2.stage_whole
  K := PEmpty
  osem k := k.elim
  ho := Pipeline.OwnSemFacts.none _
  hbody c := body_obligation2 V2 c
  hwaits := Pipeline.RDat.hwaits_of_owed_zero _ _ _ _ (Lk (F := F)) (lvk (F := F)) 1 fun _ _ => rfl
  pre c := iprop(unscopedBufs c (V2 c) ∗ prngReg c (ρ c) ∗ Ow (F := F) c)
  post c := iprop(∃ g, ⌜Left2 V2 c g⌝ ∗ unscopedBufs c (Function.update (V2 c) main_v12 g) ∗ prngReg c (ρ c) ∗ Ow (F := F) c)
  X c := iprop(emp)
  Y c := iprop(emp)
  Z c := iprop(Pipeline.unscopedRest spec2 c (V2 c) ∗ prngReg c (ρ c))
  hentry c := by
    rw [Pipeline.ownSems0_none]
    have hsplit := Pipeline.RDat.arrays_of_unscopedBufs (p := 1) (pcfgs (F := F)) adm (rdats V1 V2) launch2.win launch2.arr_whole c
      ((rdats V1 V2 1 c).share_full fun _ => rfl) (V2 c) fun _ => rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iapply (Ow_within (F := F) c _ (fun p hp => Or.inl hp)); iexact HO
    isplitr; · iempintro
    isplitl [Hrest]; · iexact Hrest
    iexact Hp
  hin c := by
    rw [show (rdats V1 V2 1 c).Φ 0 = Pipeline.scopedRest spec2 c from rfl]
    iintro ⟨-, -, Hr⟩; iexact Hr
  hout c := by
    rw [Pipeline.ownSems0_none, show (rdats V1 V2 1 c).Φ (Fin.last _) = Pipeline.scopedRest spec2 c from rfl]
    iintro Hr
    isplitr; · iempintro
    isplitr; · iempintro
    iexact Hr
  hexit c := by
    rw [show (rdats V1 V2 1 c).arraysAt (Pipeline.pin (pcfgs (F := F)) adm 1).N = (rdat2 V2 c).arraysAt cfg2.N from rfl]
    unfold Pipeline.RDat.arraysAt
    rw [bigSep_W2]
    iintro ⟨⟨⟨%F0, %h0, H0⟩, ⟨%F1, %h1, H1⟩, ⟨%F2, %h2, H2⟩, ⟨%F3, %h3, H3⟩⟩, HO, -, Hrest, Hp⟩
    rw [(rdat2 V2 c).ArrAt_in 0 rfl] at h0
    rw [(rdat2 V2 c).ArrAt_in 1 rfl] at h1
    rw [(rdat2 V2 c).ArrAt_in 2 rfl] at h2
    subst h0; subst h1; subst h2
    imodintro
    iexists F3
    isplitr; · ipureintro; exact h3
    isplitl [H0 H1 H2 H3 Hrest]
    · rw [Pipeline.unscopedBufs_split (Pipeline.pin (pcfgs (F := F)) adm) 1 launch2.win.arr_unscoped launch2.win.arr_inj c _, bigSep_W2]
      isplitr [Hrest]
      · isplitl [H0]
        · iapply (Entails.of_eq (arr_pts2 V2 c 0 _)) $$ H0
        isplitl [H1]
        · iapply (Entails.of_eq (arr_pts2 V2 c 1 _)) $$ H1
        isplitl [H2]
        · iapply (Entails.of_eq (arr_pts2 V2 c 2 _)) $$ H2
        · iapply (Entails.of_eq (arr_pts2 V2 c 3 _)) $$ H3
      · iapply (Entails.of_eq (unscopedRest_update2 V2 c F3).symm) $$ Hrest
    isplitl [Hp]; · iexact Hp
    iapply (within_Ow (F := F) c cfg2); iexact HO

end Cert.Proof.KB.Tc

end
-- ==== Proof.TcEntryB.lean ====
/-
  Entering a matrix product from @main: the product's call, a call of the TensorCore program's own signature lifted
  into the SparseCore program's, run by the pipeline library's region rule.
-/
import proofs.«204096_g51513837748514_cont_sun_m_306_14_alg».proof.Proof.TcRegionB

set_option maxRecDepth 16384

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F] [∀ e, Nonempty (Elt F e)]

local notation "𝕄" => MT nD τ sig (HIx 1) (Elt F) ℕ UU ℕ

variable (ρ : Dev nD → PrngReg)
variable (V1 V2 : (c : Dev nD) → (b : Ref sig .tc) → Buf (Elt F) ((c : Thread nD τ).loc b))

/-- A product's call in the SparseCore program's signature is the call in the TensorCore program's, lifted. -/
theorem lift_entry (p : Fin 2) : (Prog.lift (.customCall (SparseCore.inner (Pipeline.entry p)) ()) : Prog (TpuEff nD τ sig (Elt F) (SparseCore.Sig (ΛP (F := F)) 1) .tc) PUnit)
    = SparseCore.liftProg (.op (.customCall (Pipeline.entry p) ()) fun x => .ret x) := rfl

set_option maxHeartbeats 400000 in
set_option backward.isDefEq.respectTransparency.types false in
theorem wp_region1_pipe (d : Dev nD) {Φ : PUnit → sProp 𝕄} :
    iprop((iprop(boundary (d.tc : Thread nD τ) ∗ (reg1 ρ V1 V2).post d) -∗ wp frame (wpE (D (F := F)) 𝒱 (d.tc : Thread nD τ) none) Set.univ (.ret ⟨⟩) Φ)
        ∗ boundary (d.tc : Thread nD τ) ∗ (reg1 ρ V1 V2).pre d ∗ levAts (Lk (F := F)) (lvk (F := F))
        ∗ Pipeline.cellsGhost (Pipeline.pin (pcfgs (F := F)) adm) EP 0 d ∗ Pipeline.toksInit (Pipeline.pin (pcfgs (F := F)) adm) EP 0 d)
      ⊢ wp frame (wpE (D (F := F)) 𝒱 (d.tc : Thread nD τ) none) Set.univ (.op (.customCall (Pipeline.entry 0) ()) fun x => .ret x) Φ :=
  Pipeline.RDat.RegionSeg.wp (pcfgs (F := F)) adm (rdats V1 V2) (none : HIx 1) cellOf_inj EP defs₀ 𝒱₀ (Lk (F := F)) (lvk (F := F))
    (reg1 ρ V1 V2) d none (fun _ h => nomatch h) (fun x => .ret x) Φ

set_option maxHeartbeats 400000 in
/-- The first product inside @main: from the region boundary, what it is entered from, the level facts and its
    pipeline's staging cells' ghost state, its call runs to the boundary and what it leaves. -/
theorem wp_region1 (d : Dev nD) {Φ : PUnit → sProp 𝕄} :
    iprop(boundary (d.tc : Thread nD τ) ∗ (reg1 ρ V1 V2).pre d ∗ levAts (Lk (F := F)) (lvk (F := F))
        ∗ Pipeline.cellsGhost (Pipeline.pin (pcfgs (F := F)) adm) EP 0 d ∗ Pipeline.toksInit (Pipeline.pin (pcfgs (F := F)) adm) EP 0 d
        ∗ (iprop(boundary (d.tc : Thread nD τ) ∗ (reg1 ρ V1 V2).post d) -∗ Φ ⟨⟩))
      ⊢ wp frame (wpE ((K (F := F)).defs D) 𝒱 (d.tc : Thread nD τ) none) Set.univ
          (Prog.lift (.customCall (SparseCore.inner (Pipeline.entry 0)) ())) Φ := by
  rw [lift_entry]
  iintro ⟨Hb, Hpre, Hlev, Hg, Ht, Hk⟩
  iapply ((K (F := F)).wp_liftProg D 𝒱 (d.tc : Thread nD τ) Set.univ none _ Φ)
  iapply (wp_region1_pipe ρ V1 V2 d)
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht
set_option maxHeartbeats 400000 in
set_option backward.isDefEq.respectTransparency.types false in
theorem wp_region2_pipe (d : Dev nD) {Φ : PUnit → sProp 𝕄} :
    iprop((iprop(boundary (d.tc : Thread nD τ) ∗ (reg2 ρ V1 V2).post d) -∗ wp frame (wpE (D (F := F)) 𝒱 (d.tc : Thread nD τ) none) Set.univ (.ret ⟨⟩) Φ)
        ∗ boundary (d.tc : Thread nD τ) ∗ (reg2 ρ V1 V2).pre d ∗ levAts (Lk (F := F)) (lvk (F := F))
        ∗ Pipeline.cellsGhost (Pipeline.pin (pcfgs (F := F)) adm) EP 1 d ∗ Pipeline.toksInit (Pipeline.pin (pcfgs (F := F)) adm) EP 1 d)
      ⊢ wp frame (wpE (D (F := F)) 𝒱 (d.tc : Thread nD τ) none) Set.univ (.op (.customCall (Pipeline.entry 1) ()) fun x => .ret x) Φ :=
  Pipeline.RDat.RegionSeg.wp (pcfgs (F := F)) adm (rdats V1 V2) (none : HIx 1) cellOf_inj EP defs₀ 𝒱₀ (Lk (F := F)) (lvk (F := F))
    (reg2 ρ V1 V2) d none (fun _ h => nomatch h) (fun x => .ret x) Φ

set_option maxHeartbeats 400000 in
/-- The second product inside @main: from the region boundary, what it is entered from, the level facts and its
    pipeline's staging cells' ghost state, its call runs to the boundary and what it leaves. -/
theorem wp_region2 (d : Dev nD) {Φ : PUnit → sProp 𝕄} :
    iprop(boundary (d.tc : Thread nD τ) ∗ (reg2 ρ V1 V2).pre d ∗ levAts (Lk (F := F)) (lvk (F := F))
        ∗ Pipeline.cellsGhost (Pipeline.pin (pcfgs (F := F)) adm) EP 1 d ∗ Pipeline.toksInit (Pipeline.pin (pcfgs (F := F)) adm) EP 1 d
        ∗ (iprop(boundary (d.tc : Thread nD τ) ∗ (reg2 ρ V1 V2).post d) -∗ Φ ⟨⟩))
      ⊢ wp frame (wpE ((K (F := F)).defs D) 𝒱 (d.tc : Thread nD τ) none) Set.univ
          (Prog.lift (.customCall (SparseCore.inner (Pipeline.entry 1)) ())) Φ := by
  rw [lift_entry]
  iintro ⟨Hb, Hpre, Hlev, Hg, Ht, Hk⟩
  iapply ((K (F := F)).wp_liftProg D 𝒱 (d.tc : Thread nD τ) Set.univ none _ Φ)
  iapply (wp_region2_pipe ρ V1 V2 d)
  isplitl [Hk]
  · iintro H; rw [wp_ret]; imodintro; iapply Hk; iexact H
  isplitl [Hb]; · iexact Hb
  isplitl [Hpre]; · iexact Hpre
  isplitl [Hlev]; · iexact Hlev
  isplitl [Hg]; · iexact Hg
  iexact Ht

end Cert.Proof.KB.Tc

end
-- ==== Proof.TcMainB.lean ====
/-
  @main on the TensorCore: eleven host operations that lay the context words and the table out for the SparseCores,
  the SparseCore call, the bias reshaped, the first matrix product, the result copied into the buffer the second
  product writes, the second product. The four argument arrays end as they were launched: no host operation writes
  one, the SparseCore call is handed none, and each product reads the weights through an input window and never
  the others.
-/
import proofs.«204096_g51513837748514_cont_sun_m_306_14_alg».proof.Proof.TcEntryB
import Idealize.ShloMosaic.Lib.StableHlo.Run

set_option maxRecDepth 16384

noncomputable section

namespace Cert.Proof.KB.Tc

open Cert.Kernel Cert.Kernel.Gen
open Cert.Proof.KB

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.StableHlo (held held_sub_split held_congr)

variable {F : FTy → Type} [FloatOps F] [∀ e, Nonempty (Elt F e)]

local notation "𝕄" => MT nD τ sig (HIx 1) (Elt F) ℕ UU ℕ

/-! ## The pipelines' ghost state -/

/-- What @main's proof starts from beyond the launch's deal: both products' staging cells' ghost state and the
    duty tokens of their transfers. -/
def G (d : Dev nD) : sProp 𝕄 :=
  bigSep Finset.univ fun p : Fin 2 => iprop(Pipeline.cellsGhost (Pipeline.pin (pcfgs (F := F)) adm) EP p d
    ∗ Pipeline.toksInit (Pipeline.pin (pcfgs (F := F)) adm) EP p d)

/-- The pipeline library's launch element: every staging cell's owner at round 0, a token per transfer. -/
def uP : UP := initOf (Pipeline.cells cfgs cellOf_inj) (Pipeline.launchToks cfgs cellOf_inj)

theorem hfund : (BI.own ((EP (F := F)) uP) : sProp 𝕄) ⊢ |={Set.univ}=> bigSep Finset.univ (G (F := F)) := by
  unfold G uP
  iintro Hu
  imod (Pipeline.fund_ghost (Pipeline.pin (pcfgs (F := F)) adm) (EP (F := F)) cellOf_inj) $$ Hu with ⟨Hg, Ht⟩
  imodintro
  simp only [bigSep_sep']
  isplitl [Hg]; · iexact Hg
  iexact Ht

/-! ## @main as a chain of stretches, calls and products -/

/-- The eleven operations before the SparseCore call. -/
abbrev ops0 : List (HloOp τ sig (Elt F)) :=
  [ StableHlo.nullary main_c (constantI S_ 32 1#32),
    StableHlo.unary main_c main_v0 (broadcastInDim S1024x20 ![] bcast_S_S1024x20 : (⟨S_, .i32⟩ : BufTy).Contents (Elt F) → (⟨S1024x20, .i32⟩ : BufTy).Contents (Elt F)),
    StableHlo.binary main_arg0 main_v0 main_v1 (Host.shrsi : (⟨S1024x20, .i32⟩ : BufTy).Contents (Elt F) → (⟨S1024x20, .i32⟩ : BufTy).Contents (Elt F) → (⟨S1024x20, .i32⟩ : BufTy).Contents (Elt F)),
    StableHlo.reshape main_v1 main_v2 rfl shapeCasts_S1024x20_S32x8x80,
    StableHlo.nullary main_c_0 (constantI S_ 32 1#32),
    StableHlo.unary main_c_0 main_v3 (broadcastInDim S1024x20 ![] bcast_S_S1024x20 : (⟨S_, .i32⟩ : BufTy).Contents (Elt F) → (⟨S1024x20, .i32⟩ : BufTy).Contents (Elt F)),
    StableHlo.binary main_arg0 main_v3 main_v4 (andi : (⟨S1024x20, .i32⟩ : BufTy).Contents (Elt F) → (⟨S1024x20, .i32⟩ : BufTy).Contents (Elt F) → (⟨S1024x20, .i32⟩ : BufTy).Contents (Elt F)),
    StableHlo.unary main_v4 main_v5 (sitofp .f32 : (⟨S1024x20, .i32⟩ : BufTy).Contents (Elt F) → (⟨S1024x20, .f32⟩ : BufTy).Contents (Elt F)),
    StableHlo.reshape main_v5 main_v6 rfl shapeCasts_S1024x20_S32x640x1,
    StableHlo.unary main_v6 main_v7 (broadcastInDim S32x640x16 ![0, 1, 2] bcast_S32x640x1_S32x640x16_0_1_2 : (⟨S32x640x1, .f32⟩ : BufTy).Contents (Elt F) → (⟨S32x640x16, .f32⟩ : BufTy).Contents (Elt F)),
    StableHlo.reshape main_arg1 main_v8 rfl shapeCasts_S100000x64_S50000x128 ]
/-- The bias reshaped. -/
abbrev ops1 : List (HloOp τ sig (Elt F)) := [ StableHlo.reshape main_arg3 main_v10 rfl shapeCasts_S100000_S1x100000 ]
/-- The first product's result copied into the second's buffer. -/
abbrev ops2 : List (HloOp τ sig (Elt F)) := [ StableHlo.unary main_v11 main_v12 id ]

theorem main_chain (d : Dev nD) : main (F := F) d = (Pipeline.chain
    [ StableHlo.seq ops0,
      sc.run d 0,
      StableHlo.seq ops1,
      Prog.lift (.customCall (SparseCore.inner (Pipeline.entry 0)) ()),
      StableHlo.seq ops2,
      Prog.lift (.customCall (SparseCore.inner (Pipeline.entry 1)) ()) ] :
      Prog (TpuEff nD τ sig (Elt F) (SparseCore.Sig (ΛP (F := F)) 1) .tc) PUnit) := by
  chain_rfl

theorem ops0_sub : ∀ op ∈ (ops0 : List (HloOp τ sig (Elt F))), op.bufs ⊆ Pipeline.ucRefs τ sig := fun op h =>
  Pipeline.sub_ucRefs op ((List.forall_iff_forall_mem.mp (show (ops0 : List (HloOp τ sig (Elt F))).Forall fun op => op.bufs ⊆ StableHlo.tcRefs τ sig by
    simp only [List.Forall, StableHlo.nullary_bufs_sub, StableHlo.unary_bufs_sub, StableHlo.binary_bufs_sub, StableHlo.reshape_bufs_sub, and_self])) op h)
theorem ops1_sub : ∀ op ∈ (ops1 : List (HloOp τ sig (Elt F))), op.bufs ⊆ Pipeline.ucRefs τ sig := fun op h =>
  Pipeline.sub_ucRefs op ((List.forall_iff_forall_mem.mp (show (ops1 : List (HloOp τ sig (Elt F))).Forall fun op => op.bufs ⊆ StableHlo.tcRefs τ sig by
    simp only [List.Forall, StableHlo.reshape_bufs_sub])) op h)
theorem ops2_sub : ∀ op ∈ (ops2 : List (HloOp τ sig (Elt F))), op.bufs ⊆ Pipeline.ucRefs τ sig := fun op h =>
  Pipeline.sub_ucRefs op ((List.forall_iff_forall_mem.mp (show (ops2 : List (HloOp τ sig (Elt F))).Forall fun op => op.bufs ⊆ StableHlo.tcRefs τ sig by
    simp only [List.Forall, StableHlo.unary_bufs_sub])) op h)
theorem ops0_fresh : ∀ op ∈ (ops0 : List (HloOp τ sig (Elt F))), op.fresh = ∅ :=
  List.forall_iff_forall_mem.mp (by simp only [List.Forall]; repeat' constructor)
theorem ops1_fresh : ∀ op ∈ (ops1 : List (HloOp τ sig (Elt F))), op.fresh = ∅ :=
  List.forall_iff_forall_mem.mp (by simp only [List.Forall]; rfl)
theorem ops2_fresh : ∀ op ∈ (ops2 : List (HloOp τ sig (Elt F))), op.fresh = ∅ :=
  List.forall_iff_forall_mem.mp (by simp only [List.Forall]; rfl)

/-! ## The buffers' contents along @main -/

section Main

variable (m : (ℓ : Loc nD τ sig) → Buf (Elt F) ℓ) (ρ : Dev nD → PrngReg)
variable (P : (K (F := F)).Pay (nD := nD) (Val := Elt F) (Name := ℕ) (U := UU))

/-- The TensorCore's unscoped buffers. -/
abbrev UC : Finset (DevRef τ sig) := Pipeline.ucRefs τ sig
abbrev dr (b : Ref sig .tc) : DevRef τ sig := Proc.devRef .tc b

/-- At launch, and after the eleven operations. -/
abbrev W0 (d : Dev nD) : Valuation τ sig (Elt F) := fun b => m (d, b)
abbrev W1 (d : Dev nD) : Valuation τ sig (Elt F) := StableHlo.after ops0 (W0 m d)

/-- The four buffers the SparseCore call is handed. -/
abbrev T4 : Finset (DevRef τ sig) := {dr main_v8, dr main_v2, dr main_v7, dr main_v9}

/-- After the call: those four at what it returns. -/
def W2 (d : Dev nD) (f8 : Buf (Elt F) (v8Loc d)) (f2 : Buf (Elt F) (v2Loc d)) (f7 : Buf (Elt F) (v7Loc d)) (f9 : Buf (Elt F) (v9Loc d)) :
    Valuation τ sig (Elt F) :=
  Function.update (Function.update (Function.update (Function.update (W1 m d) (dr main_v8) f8) (dr main_v2) f2) (dr main_v7) f7) (dr main_v9) f9

theorem held_T4 (d : Dev nD) (W : Valuation τ sig (Elt F)) :
    (held (T d) T4 W : sProp 𝕄) = iprop((v8Loc d ↦{fullShare} W (dr main_v8)) ∗ (v2Loc d ↦{fullShare} W (dr main_v2))
      ∗ (v7Loc d ↦{fullShare} W (dr main_v7)) ∗ (v9Loc d ↦{fullShare} W (dr main_v9))) := by
  unfold held T4
  rw [SparseCore.bigSep_insert' (by decide), SparseCore.bigSep_insert' (by decide), SparseCore.bigSep_insert' (by decide), bigSep_singleton]

theorem T4_sub : (T4 : Finset (DevRef τ sig)) ⊆ UC := by decide

theorem W2_v8 (d : Dev nD) (f8 f2 f7 f9) : W2 m d f8 f2 f7 f9 (dr main_v8) = f8 := by
  unfold W2; rw [Function.update_of_ne (by decide), Function.update_of_ne (by decide), Function.update_of_ne (by decide), Function.update_self]
theorem W2_v2 (d : Dev nD) (f8 f2 f7 f9) : W2 m d f8 f2 f7 f9 (dr main_v2) = f2 := by
  unfold W2; rw [Function.update_of_ne (by decide), Function.update_of_ne (by decide), Function.update_self]
theorem W2_v7 (d : Dev nD) (f8 f2 f7 f9) : W2 m d f8 f2 f7 f9 (dr main_v7) = f7 := by
  unfold W2; rw [Function.update_of_ne (by decide), Function.update_self]
theorem W2_v9 (d : Dev nD) (f8 f2 f7 f9) : W2 m d f8 f2 f7 f9 (dr main_v9) = f9 := by
  unfold W2; rw [Function.update_self]
theorem W2_of_not_mem (d : Dev nD) (f8 f2 f7 f9) (b : DevRef τ sig) (hb : b ∉ (T4 : Finset (DevRef τ sig))) : W2 m d f8 f2 f7 f9 b = W1 m d b := by
  unfold W2
  rw [Function.update_of_ne (fun e => hb (by rw [e]; decide)), Function.update_of_ne (fun e => hb (by rw [e]; decide)),
    Function.update_of_ne (fun e => hb (by rw [e]; decide)), Function.update_of_ne (fun e => hb (by rw [e]; decide))]

/-- The four buffers back from the call and the rest untouched are every unscoped buffer at the updated contents. -/
theorem held_W2 (d : Dev nD) (f8 f2 f7 f9) :
    iprop((v8Loc d ↦{fullShare} f8) ∗ (v2Loc d ↦{fullShare} f2) ∗ (v7Loc d ↦{fullShare} f7) ∗ (v9Loc d ↦{fullShare} f9)
        ∗ held (T d) (UC \ T4) (W1 m d))
      ⊢ (held (T d) UC (W2 m d f8 f2 f7 f9) : sProp 𝕄) := by
  rw [held_sub_split (T d) T4_sub (W2 m d f8 f2 f7 f9), held_T4, W2_v8, W2_v2, W2_v7, W2_v9,
    held_congr (T d) (V := W2 m d f8 f2 f7 f9) (V' := W1 m d) fun b hb => W2_of_not_mem m d f8 f2 f7 f9 b (Finset.mem_sdiff.mp hb).2]
  iintro ⟨H8, H2, H7, H9, Hr⟩
  isplitr [Hr]
  · isplitl [H8]; · iexact H8
    isplitl [H2]; · iexact H2
    isplitl [H7]; · iexact H7
    iexact H9
  iexact Hr

/-- What the SparseCores are handed is what the interface names. -/
theorem W1_v8 (d : Dev nD) : W1 m d (dr main_v8) = V8 m d := by
  unfold V8; show StableHlo.after ops0 (W0 m d) (Proc.devRef .tc main_v8) = _; after_results; rfl
theorem W1_v2 (d : Dev nD) : W1 m d (dr main_v2) = V2 m d := by
  unfold V2 ones; show StableHlo.after ops0 (W0 m d) (Proc.devRef .tc main_v2) = _; after_results; rfl
theorem W1_v7 (d : Dev nD) : W1 m d (dr main_v7) = V7 m d := by
  unfold V7 ones; show StableHlo.after ops0 (W0 m d) (Proc.devRef .tc main_v7) = _; after_results; rfl

/-! ### Through the products -/

/-- Every unscoped buffer at contents `W` with one array's replaced, read at the TensorCore's references. -/
theorem update_ref (W : Valuation τ sig (Elt F)) (x : Ref sig .tc) (d : Dev nD) (g : Buf (Elt F) ((d : Thread nD τ).loc x)) :
    Function.update (fun b : Ref sig .tc => (W b : Buf (Elt F) ((d : Thread nD τ).loc b))) x g
      = fun b : Ref sig .tc => (Function.update W (dr x) g (dr b) : Buf (Elt F) ((d : Thread nD τ).loc b)) := by
  funext b
  by_cases h : b = x
  · subst h; rw [Function.update_self, Function.update_self]
  · rw [Function.update_of_ne h, Function.update_of_ne (StableHlo.devRef_ne_of_ne h)]

/-- No operation of a stretch writes the reference. -/
macro "not_written" : tactic => `(tactic| (
  refine List.forall_iff_forall_mem.mp ?_
  simp only [List.Forall, StableHlo.nullary_writes, StableHlo.unary_writes, StableHlo.binary_writes, StableHlo.reshape_writes, Finset.mem_singleton]
  repeat' apply And.intro
  all_goals exact StableHlo.devRef_ne_of_ne (by decide)))

/-- An argument array holds its launch contents after all of @main: no stretch writes it, the SparseCore call is not
    handed it, neither product's result lands in it. -/
theorem kept (d : Dev nD) (x : Ref sig .tc) (f8 f2 f7 f9) (g1 : Buf (Elt F) ((d : Thread nD τ).loc main_v11)) (g2 : Buf (Elt F) ((d : Thread nD τ).loc main_v12))
    (h0 : ∀ op ∈ (ops0 : List (HloOp τ sig (Elt F))), dr x ∉ op.writes) (h1 : ∀ op ∈ (ops1 : List (HloOp τ sig (Elt F))), dr x ∉ op.writes)
    (h2 : ∀ op ∈ (ops2 : List (HloOp τ sig (Elt F))), dr x ∉ op.writes)
    (h4 : dr x ∉ (T4 : Finset (DevRef τ sig))) (h11 : x ≠ main_v11) (h12 : x ≠ main_v12) :
    Function.update (StableHlo.after ops2 (Function.update (StableHlo.after ops1 (W2 m d f8 f2 f7 f9)) (dr main_v11) g1)) (dr main_v12) g2 (dr x)
      = m ((T d : Thread nD τ).loc x) := by
  rw [Function.update_of_ne (StableHlo.devRef_ne_of_ne h12), StableHlo.after_of_forall_not_mem _ _ h2,
    Function.update_of_ne (StableHlo.devRef_ne_of_ne h11), StableHlo.after_of_forall_not_mem _ _ h1, W2_of_not_mem m d f8 f2 f7 f9 _ h4]
  show StableHlo.after ops0 (W0 m d) (dr x) = _
  rw [StableHlo.after_of_forall_not_mem _ _ h0]

/-- The buffers @main's claim reads at the end: the four arguments and the result. -/
abbrev T5 : Finset (DevRef τ sig) := {dr main_arg0, dr main_arg1, dr main_arg2, dr main_arg3, dr main_v12}

theorem held_T5 (d : Dev nD) (W : Valuation τ sig (Elt F)) :
    (held (T d) T5 W : sProp 𝕄) = iprop((a0Loc d ↦{fullShare} W (dr main_arg0)) ∗ (a1Loc d ↦{fullShare} W (dr main_arg1))
      ∗ (a2Loc d ↦{fullShare} W (dr main_arg2)) ∗ (a3Loc d ↦{fullShare} W (dr main_arg3)) ∗ ((T d : Thread nD τ).loc main_v12 ↦{fullShare} W (dr main_v12))) := by
  unfold held T5
  rw [SparseCore.bigSep_insert' (by decide), SparseCore.bigSep_insert' (by decide), SparseCore.bigSep_insert' (by decide),
    SparseCore.bigSep_insert' (by decide), bigSep_singleton]

theorem T5_sub : (T5 : Finset (DevRef τ sig)) ⊆ UC := by decide

/-- After the call the TensorCore owes nothing: its state before the next call opens to that and closes again. -/
theorem tcSt_open (d : Dev nD) :
    (K (F := F)).tcSt EH d 1 ⊢ (iprop(Ow (F := F) d ∗ (Ow (F := F) d -∗ (K (F := F)).tcSt EH d 1)) : sProp 𝕄) := by
  unfold SparseCore.Cfg.tcSt Ow
  rw [(K (F := F)).Otc_end d (le_refl 1), Nat.mul_one]
  iintro ⟨HO, Hr⟩
  isplitl [HO]; · iexact HO
  iintro HO
  isplitl [HO]; · iexact HO
  iexact Hr

/-- What @main leaves beyond the arguments: the result's buffer, at what the two products' write-backs left. -/
def Rq (d : Dev nD) : sProp 𝕄 := iprop(∃ g, (T d : Thread nD τ).loc main_v12 ↦{fullShare} g)

theorem reg1_pre (V1 V2 : (c : Dev nD) → (b : Ref sig .tc) → Buf (Elt F) ((c : Thread nD τ).loc b)) (d : Dev nD) :
    (reg1 ρ V1 V2).pre d = iprop(unscopedBufs d (V1 d) ∗ prngReg d (ρ d) ∗ Ow (F := F) d) := rfl
theorem reg1_post (V1 V2 : (c : Dev nD) → (b : Ref sig .tc) → Buf (Elt F) ((c : Thread nD τ).loc b)) (d : Dev nD) :
    (reg1 ρ V1 V2).post d = iprop(∃ g, ⌜Left1 V1 d g⌝ ∗ unscopedBufs d (Function.update (V1 d) main_v11 g) ∗ prngReg d (ρ d) ∗ Ow (F := F) d) := rfl
theorem reg2_pre (V1 V2 : (c : Dev nD) → (b : Ref sig .tc) → Buf (Elt F) ((c : Thread nD τ).loc b)) (d : Dev nD) :
    (reg2 ρ V1 V2).pre d = iprop(unscopedBufs d (V2 d) ∗ prngReg d (ρ d) ∗ Ow (F := F) d) := rfl
theorem reg2_post (V1 V2 : (c : Dev nD) → (b : Ref sig .tc) → Buf (Elt F) ((c : Thread nD τ).loc b)) (d : Dev nD) :
    (reg2 ρ V1 V2).post d = iprop(∃ g, ⌜Left2 V2 d g⌝ ∗ unscopedBufs d (Function.update (V2 d) main_v12 g) ∗ prngReg d (ρ d) ∗ Ow (F := F) d) := rfl

/-! ## @main -/

set_option maxHeartbeats 1600000 in
/-- @main on device `d`'s TensorCore, given the SparseCore call's rule: the stretches by the host operations' rule
    over every unscoped buffer, the call from the three arrays it reads and the one it writes, each product by its
    entry; the TensorCore ends owing nothing, the arguments as launched, the result at some contents. -/
theorem hmain
    (hsc : ∀ (κ : GSem nD τ sig → ℕ) (d : Dev nD) (Φ : PUnit → sProp 𝕄),
      iprop((K (F := F)).ctx EH P κ ∗ (K (F := F)).tcSt EH d 0 ∗ (v8Loc d ↦{fullShare} V8 m d) ∗ (v2Loc d ↦{fullShare} V2 m d)
          ∗ (v7Loc d ↦{fullShare} V7 m d) ∗ (∃ f, v9Loc d ↦{fullShare} f)
          ∗ (((K (F := F)).tcSt EH d 1 ∗ (∃ f, v8Loc d ↦{fullShare} f) ∗ (∃ f, v2Loc d ↦{fullShare} f) ∗ (∃ f, v7Loc d ↦{fullShare} f)
              ∗ (∃ f, ⌜True⌝ ∗ v9Loc d ↦{fullShare} f)) -∗ Φ ⟨⟩))
        ⊢ wp frame (wpE ((K (F := F)).defs (D (F := F))) 𝒱 (T d) none) Set.univ (sc.run d 0) Φ)
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (T d) none) Set.univ (main d) fun _ =>
          iprop((K (F := F)).tcSt EH d 1 ∗ (a0Loc d ↦{fullShare} m (a0Loc d)) ∗ (a1Loc d ↦{fullShare} m (a1Loc d))
            ∗ (a2Loc d ↦{fullShare} m (a2Loc d)) ∗ (a3Loc d ↦{fullShare} m (a3Loc d)) ∗ Rq (F := F) d) := by
  unfold SparseCore.Cfg.tcRes G
  rw [main_chain]
  simp only [Pipeline.chain_cons, Pipeline.chain_nil]
  rw [show (unscopedBufs d (fun b => m ((T d : Thread nD τ).loc b)) : sProp 𝕄) = held (d.tc : Thread nD τ) UC (W0 m d)
      from Pipeline.unscopedBufs_held d (W0 m d),
    show (Finset.univ : Finset (Fin 2)) = {0, 1} from by decide, SparseCore.bigSep_insert' (by decide), bigSep_singleton]
  iintro ⟨#Hctx, Hst, ⟨Hb, Hh, -, Hp⟩, ⟨Hg0, Ht0⟩, ⟨Hg1, Ht1⟩⟩
  ihave #Hlev := (SparseCore.Cfg.ctx_levAts κ) $$ Hctx
  -- the eleven operations
  iapply (StableHlo.wp_seq (defs := (K (F := F)).defs (D (F := F))) 𝒱 none Set.univ d UC _ ops0 ops0_sub ops0_fresh (W0 m d)) $$ [Hb Hh]
  · isplitl [Hb] <;> iassumption
  iintro ⟨Hb, Hh⟩
  -- the SparseCore call, from the four buffers it is handed
  rw [wp_bind]
  ihave Hs := (Entails.of_eq (held_sub_split (T d : Thread nD τ) T4_sub (W1 m d))) $$ Hh
  icases Hs with ⟨H4, Hrest⟩
  ihave H4' := (Entails.of_eq (held_T4 d (W1 m d))) $$ H4
  icases H4' with ⟨H8, H2, H7, H9⟩
  rw [W1_v8, W1_v2, W1_v7]
  iapply (hsc κ d _)
  isplitr; · iexact Hctx
  isplitl [Hst]; · iexact Hst
  isplitl [H8]; · iexact H8
  isplitl [H2]; · iexact H2
  isplitl [H7]; · iexact H7
  isplitl [H9]; · iexists _; iexact H9
  iintro ⟨Hst, ⟨%f8, H8⟩, ⟨%f2, H2⟩, ⟨%f7, H7⟩, ⟨%f9, -, H9⟩⟩
  ihave Hh := (held_W2 m d f8 f2 f7 f9) $$ [H8 H2 H7 H9 Hrest]
  · isplitl [H8]; · iexact H8
    isplitl [H2]; · iexact H2
    isplitl [H7]; · iexact H7
    isplitl [H9]; · iexact H9
    iexact Hrest
  -- the bias reshaped
  iapply (StableHlo.wp_seq (defs := (K (F := F)).defs (D (F := F))) 𝒱 none Set.univ d UC _ ops1 ops1_sub ops1_fresh (W2 m d f8 f2 f7 f9)) $$ [Hb Hh]
  · isplitl [Hb] <;> iassumption
  iintro ⟨Hb, Hh⟩
  -- the first product
  rw [wp_bind]
  ihave Hopen := (tcSt_open (F := F) d) $$ Hst
  icases Hopen with ⟨HOw, Hclose⟩
  iapply (wp_region1 ρ (fun _ b => StableHlo.after ops1 (W2 m d f8 f2 f7 f9) b) (fun _ b => StableHlo.after ops1 (W2 m d f8 f2 f7 f9) b) d)
  rw [reg1_pre, reg1_post]
  isplitl [Hb]; · iexact Hb
  isplitl [Hh Hp HOw]
  · isplitl [Hh]
    · iapply (Entails.of_eq (Pipeline.unscopedBufs_held d (StableHlo.after ops1 (W2 m d f8 f2 f7 f9))).symm) $$ Hh
    isplitl [Hp]; · iexact Hp
    iexact HOw
  isplitr; · iexact Hlev
  isplitl [Hg0]; · iexact Hg0
  isplitl [Ht0]; · iexact Ht0
  iintro ⟨Hb, %g1, -, Hub, Hp, HOw⟩
  rw [update_ref (StableHlo.after ops1 (W2 m d f8 f2 f7 f9)) main_v11 d g1]
  ihave Hh := (Entails.of_eq (Pipeline.unscopedBufs_held d (Function.update (StableHlo.after ops1 (W2 m d f8 f2 f7 f9)) (dr main_v11) g1))) $$ Hub
  -- the result copied
  iapply (StableHlo.wp_seq (defs := (K (F := F)).defs (D (F := F))) 𝒱 none Set.univ d UC _ ops2 ops2_sub ops2_fresh
    (Function.update (StableHlo.after ops1 (W2 m d f8 f2 f7 f9)) (dr main_v11) g1)) $$ [Hb Hh]
  · isplitl [Hb] <;> iassumption
  iintro ⟨Hb, Hh⟩
  -- the second product
  rw [wp_bind]
  iapply (wp_region2 ρ (fun _ b => StableHlo.after ops2 (Function.update (StableHlo.after ops1 (W2 m d f8 f2 f7 f9)) (dr main_v11) g1) b)
    (fun _ b => StableHlo.after ops2 (Function.update (StableHlo.after ops1 (W2 m d f8 f2 f7 f9)) (dr main_v11) g1) b) d)
  rw [reg2_pre, reg2_post]
  isplitl [Hb]; · iexact Hb
  isplitl [Hh Hp HOw]
  · isplitl [Hh]
    · iapply (Entails.of_eq (Pipeline.unscopedBufs_held d (StableHlo.after ops2 (Function.update (StableHlo.after ops1 (W2 m d f8 f2 f7 f9)) (dr main_v11) g1))).symm) $$ Hh
    isplitl [Hp]; · iexact Hp
    iexact HOw
  isplitr; · iexact Hlev
  isplitl [Hg1]; · iexact Hg1
  isplitl [Ht1]; · iexact Ht1
  iintro ⟨Hb, %g2, -, Hub, Hp, HOw⟩
  rw [update_ref (StableHlo.after ops2 (Function.update (StableHlo.after ops1 (W2 m d f8 f2 f7 f9)) (dr main_v11) g1)) main_v12 d g2]
  ihave Hh := (Entails.of_eq (Pipeline.unscopedBufs_held d
    (Function.update (StableHlo.after ops2 (Function.update (StableHlo.after ops1 (W2 m d f8 f2 f7 f9)) (dr main_v11) g1)) (dr main_v12) g2))) $$ Hub
  -- the return: the arguments and the result read off the buffers
  ihave Hs := (Entails.of_eq (held_sub_split (T d : Thread nD τ) T5_sub _)) $$ Hh
  icases Hs with ⟨H5, -⟩
  ihave H5' := (Entails.of_eq (held_T5 d _)) $$ H5
  icases H5' with ⟨Ha0, Ha1, Ha2, Ha3, Hv12⟩
  rw [kept m d main_arg0 f8 f2 f7 f9 g1 g2 (by not_written) (by not_written) (by not_written) (by decide) (by decide) (by decide),
    kept m d main_arg1 f8 f2 f7 f9 g1 g2 (by not_written) (by not_written) (by not_written) (by decide) (by decide) (by decide),
    kept m d main_arg2 f8 f2 f7 f9 g1 g2 (by not_written) (by not_written) (by not_written) (by decide) (by decide) (by decide),
    kept m d main_arg3 f8 f2 f7 f9 g1 g2 (by not_written) (by not_written) (by not_written) (by decide) (by decide) (by decide)]
  rw [wp_pure]; imodintro
  isplitl [HOw Hclose]; · iapply Hclose; iexact HOw
  isplitl [Ha0]; · iexact Ha0
  isplitl [Ha1]; · iexact Ha1
  isplitl [Ha2]; · iexact Ha2
  isplitl [Ha3]; · iexact Ha3
  unfold Rq; iexists _; iexact Hv12

end Main

end Cert.Proof.KB.Tc

end
-- ==== Proof.FramesB.lean ====
/-
  The kernel program runs to the end with its argument arrays unchanged, whatever the float instance: the
  SparseCore launch theorem at the tiles' task, the call's rule and @main on the TensorCore. The one fact about the
  data the run needs — every halved context word names a row of the paired table — comes from the precondition.
-/
import proofs.«204096_g51513837748514_cont_sun_m_306_14_alg».proof.Proof.MainB
import proofs.«204096_g51513837748514_cont_sun_m_306_14_alg».proof.Proof.TcMainB

noncomputable section

namespace Cert.Proof.KB

open Cert.Kernel Cert.Kernel.Gen

open Idealize.ShloMosaic
open Idealize.SL Idealize.SL.Sem

variable {F : FTy → Type} [FloatOps F] [∀ e, Nonempty (Elt F e)]

theorem run (m : (ℓ : Loc nD τ sig) → Buf (Elt F) ℓ) (ρ : Dev nD → PrngReg)
    (hpre : ∀ c : Dev nD, Cert.Pre_input_domain.fn (F := F) (m (a0Loc c)) (m (a1Loc c)) (m (a2Loc c)) (m (a3Loc c)) = fun _ => 1#1) :
    θ_run (Cert.Kernel.defs (F := F)) (Cert.Kernel.threads (F := F)) ⟨m, fun _ => 0, ρ⟩ (QC m) :=
  run_main m ρ (halfOK m hpre) Tc.G Tc.Rq Tc.uP Tc.hfund
    (fun κ d => Tc.hmain m ρ (P m) (fun κ d Φ => wp_sc_call m κ d Φ) κ d)

end Cert.Proof.KB

end
-- ==== Proof.RefRun.lean ====
/-
  The reference program's run.

  The reference is a straight line of thirty-three host operations once its two outlined functions are opened at
  their call sites: twenty-three compute the embedding lookup (the wrap of negative words, the range mask, the
  gather of whole table rows and the fill outside the range), ten the mean over the twenty context
  positions, the product with the transposed weights and the bias. This module lists them, shows the
  program is that list, and names what the result buffer holds at the end as one pure term of the four
  argument arrays, stage by stage.
-/
import proofs.«204096_g51513837748514_cont_sun_m_306_14_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The stages, as pure functions of the argument arrays -/

/-- The context words with a negative word moved up by the table's height. -/
def wrapped (a0 : IVec S1024x20 32) : IVec S1024x20 32 :=
  select (cmpi .slt a0 (broadcastInDim S1024x20 ![] bcast_S_S1024x20 (constantI S_ 32 0#32)))
    (addi a0 (broadcastInDim S1024x20 ![] bcast_S_S1024x20 (constantI S_ 32 100000#32))) a0

/-- The same words with a trailing unit axis: the gather's start indices. -/
def starts (a0 : IVec S1024x20 32) : IVec S1024x20x1 32 :=
  broadcastInDim S1024x20x1 ![0, 1] bcast_S1024x20_S1024x20x1_0_1 (wrapped a0)

/-- Per context position: is the (wrapped) word a row of the table, 0 ≤ word ≤ 99999 as signed words? -/
def inRange (a0 : IVec S1024x20 32) : IVec S1024x20 1 :=
  Host.reduce IntOp.andi
    (andi (cmpi .sge (starts a0) (broadcastInDim S1024x20x1 ![] bcast_S_S1024x20x1 (constantI S_ 32 0#32)))
      (cmpi .sle (starts a0)
        (broadcastInDim S1024x20x1 ![0, 1, 2] bcast_S1x1x1_S1024x20x1_0_1_2
          (broadcastInDim S1x1x1 ![2] bcast_S1_S1x1x1_2 (constantI S1 32 99999#32)))))
    (constantI S_ 1 1#1) reducesTo_S1024x20x1_S1024x20_d2 h_S_

/-- The looked-up rows: the table's row at each in-range word, the fill word elsewhere. -/
def taken (a0 : IVec S1024x20 32) (a1 : FVec F S100000x64 .f32) : FVec F S1024x20x64 .f32 :=
  select (broadcastInDim S1024x20x64 ![0, 1] bcast_S1024x20_S1024x20x64_0_1 (inRange a0))
    (Host.gather gather_S100000x64_S1024x20x1_S1024x20x64_2_0_n_n_0_2_164 a1 (starts a0))
    (broadcastInDim S1024x20x64 ![] bcast_S_S1024x20x64 (constant S_ .f32 0x7FC00000#32))

/-- The sum of a batch row's twenty looked-up rows, coordinate by coordinate. -/
def summed (a0 : IVec S1024x20 32) (a1 : FVec F S100000x64 .f32) : FVec F S1024x64 .f32 :=
  Host.reduceAdd (taken a0 a1) (constant S_ .f32 0x00000000#32) reducesTo_S1024x20x64_S1024x64_d1 h_S_

/-- That sum divided by twenty. -/
def mean (a0 : IVec S1024x20 32) (a1 : FVec F S100000x64 .f32) : FVec F S1024x64 .f32 :=
  Host.divf (summed a0 a1) (broadcastInDim S1024x64 ![] bcast_S_S1024x64 (constant S_ .f32 0x41A00000#32))

/-- The means against every row of the weights, plus that row's bias. -/
def result (a0 : IVec S1024x20 32) (a1 a2 : FVec F S100000x64 .f32) (a3 : FVec F S100000 .f32) : FVec F S1024x100000 .f32 :=
  addf
    (Host.dotGeneral dot_S1024x64_S64x100000_S1024x100000_1_0_0_1_n_n none (mean a0 a1)
      (transpose S64x100000 [1, 0] a2 transposes_S100000x64_S64x100000_1_0))
    (broadcastInDim S1024x100000 ![0, 1] bcast_S1x100000_S1024x100000_0_1
      (broadcastInDim S1x100000 ![1] bcast_S100000_S1x100000_1 a3))

/-! ## The program as a list of operations -/

/-- The thirty-three operations in order, the two calls opened: the lookup's run into the call's own buffers. -/
abbrev ops : List (HloOp τ sig (Elt F)) :=
  [ TRef.nullary main_call0.c (constantI S_ 32 0#32),
    TRef.unary main_call0.c main_call0.v0 (broadcastInDim S1024x20 ![] bcast_S_S1024x20),
    TRef.binary (.of main_arg0) main_call0.v0 main_call0.v1 (cmpi .slt),
    TRef.nullary main_call0.c_0 (constantI S_ 32 100000#32),
    TRef.unary main_call0.c_0 main_call0.v2 (broadcastInDim S1024x20 ![] bcast_S_S1024x20),
    TRef.binary (.of main_arg0) main_call0.v2 main_call0.v3 addi,
    TRef.ternary main_call0.v1 main_call0.v3 (.of main_arg0) main_call0.call0.v0 select,
    TRef.unary main_call0.call0.v0 main_call0.v5 (broadcastInDim S1024x20x1 ![0, 1] bcast_S1024x20_S1024x20x1_0_1),
    TRef.nullary main_call0.c_1 (constantI S1 32 99999#32),
    TRef.nullary main_call0.c_2 (constantI S_ 32 0#32),
    TRef.unary main_call0.c_2 main_call0.v6 (broadcastInDim S1024x20x1 ![] bcast_S_S1024x20x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S1024x20x1 ![0, 1, 2] bcast_S1x1x1_S1024x20x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S1024x20x1_S1024x20_d2 h_S_),
    TRef.binary (.of main_arg1) main_call0.v5 main_call0.v13 (fun x i => Host.gather gather_S100000x64_S1024x20x1_S1024x20x64_2_0_n_n_0_2_164 x i),
    TRef.unary main_call0.v12 main_call0.v14 (broadcastInDim S1024x20x64 ![0, 1] bcast_S1024x20_S1024x20x64_0_1),
    TRef.nullary main_call0.cst (constant S_ .f32 0x7FC00000#32),
    TRef.unary main_call0.cst main_call0.v15 (broadcastInDim S1024x20x64 ![] bcast_S_S1024x20x64),
    TRef.ternary main_call0.v14 main_call0.v13 main_call0.v15 main_call0.v16 select,
    nullary main_cst (constant S_ .f32 0x00000000#32),
    binary main_v0 main_cst main_v1 ((fun x v => Host.reduceAdd x v reducesTo_S1024x20x64_S1024x64_d1 h_S_) : (⟨S1024x20x64, .f32⟩ : BufTy).Contents (Elt F) → (⟨S_, .f32⟩ : BufTy).Contents (Elt F) → (⟨S1024x64, .f32⟩ : BufTy).Contents (Elt F)),
    nullary main_cst_0 (constant S_ .f32 0x41A00000#32),
    unary main_cst_0 main_v2 (broadcastInDim S1024x64 ![] bcast_S_S1024x64 : (⟨S_, .f32⟩ : BufTy).Contents (Elt F) → (⟨S1024x64, .f32⟩ : BufTy).Contents (Elt F)),
    binary main_v1 main_v2 main_v3 (Host.divf : (⟨S1024x64, .f32⟩ : BufTy).Contents (Elt F) → (⟨S1024x64, .f32⟩ : BufTy).Contents (Elt F) → (⟨S1024x64, .f32⟩ : BufTy).Contents (Elt F)),
    unary main_arg2 main_v4 ((transpose S64x100000 [1, 0] · transposes_S100000x64_S64x100000_1_0) : (⟨S100000x64, .f32⟩ : BufTy).Contents (Elt F) → (⟨S64x100000, .f32⟩ : BufTy).Contents (Elt F)),
    binary main_v3 main_v4 main_v5 ((fun l r => Host.dotGeneral dot_S1024x64_S64x100000_S1024x100000_1_0_0_1_n_n none l r) : (⟨S1024x64, .f32⟩ : BufTy).Contents (Elt F) → (⟨S64x100000, .f32⟩ : BufTy).Contents (Elt F) → (⟨S1024x100000, .f32⟩ : BufTy).Contents (Elt F)),
    unary main_arg3 main_v6 (broadcastInDim S1x100000 ![1] bcast_S100000_S1x100000_1 : (⟨S100000, .f32⟩ : BufTy).Contents (Elt F) → (⟨S1x100000, .f32⟩ : BufTy).Contents (Elt F)),
    unary main_v6 main_v7 (broadcastInDim S1024x100000 ![0, 1] bcast_S1x100000_S1024x100000_0_1 : (⟨S1x100000, .f32⟩ : BufTy).Contents (Elt F) → (⟨S1024x100000, .f32⟩ : BufTy).Contents (Elt F)),
    binary main_v5 main_v7 main_v8 (addf : (⟨S1024x100000, .f32⟩ : BufTy).Contents (Elt F) → (⟨S1024x100000, .f32⟩ : BufTy).Contents (Elt F) → (⟨S1024x100000, .f32⟩ : BufTy).Contents (Elt F)) ]

-- the chain of binds is re-associated once per statement
set_option maxRecDepth 2048 in
/-- The program is that straight line: the two functions opened at their calls, the call records at their
    fields, sequencing re-associated. -/
theorem main_eq (c : Dev nD) : main (F := F) c = seq ops := by
  simp only [main, fn_take.body, fn_where.body, seq, bind_assoc, pure_bind]

/-- No buffer of the program is scoped … -/
theorem scopedRefs_eq : (Finset.univ.filter fun b : Ref sig .tc => b.isScoped) = ∅ := by decide
/-- … and it has no semaphore. -/
theorem scopedSems_eq : (Finset.univ.filter fun sm : SemLoc sig => sm.isScoped .tc) = ∅ := by decide

/-- Every operation touches buffers of the program only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..,
    nullary_bufs_sub .., binary_bufs_sub .., nullary_bufs_sub .., unary_bufs_sub .., binary_bufs_sub .., unary_bufs_sub ..,
    binary_bufs_sub .., unary_bufs_sub .., unary_bufs_sub .., binary_bufs_sub ..⟩

attribute [local irreducible] Host.reduce Host.gather Host.reduceAdd Host.divf transpose broadcastInDim in
set_option maxRecDepth 8192 in
set_option maxHeartbeats 400000 in
/-- What the result buffer holds after the line: the stages composed. The fold is unrolled, each operation's
    result read at its own buffer and passed over at every other, and the typed references' transports are the
    identity at these literal buffers; the reductions, the gather and the layout operations stay folded
    meanwhile (the equation never looks inside them). -/
theorem out_eq (V : Valuation τ sig (Elt F)) :
    after ops V (main_v8 : DevRef τ sig)
      = result (F := F) (V (main_arg0 : DevRef τ sig)) (V (main_arg1 : DevRef τ sig)) (V (main_arg2 : DevRef τ sig))
          (V (main_arg3 : DevRef τ sig)) := by
  simp only [after_cons, after_nil]
  rfl

/-- No operation writes an argument's buffer. -/
theorem arg0_eq (V : Valuation τ sig (Elt F)) : after ops V (main_arg0 : DevRef τ sig) = V (main_arg0 : DevRef τ sig) := by
  simp only [after_cons, after_nil]
  rfl
theorem arg1_eq (V : Valuation τ sig (Elt F)) : after ops V (main_arg1 : DevRef τ sig) = V (main_arg1 : DevRef τ sig) := by
  simp only [after_cons, after_nil]
  rfl
theorem arg2_eq (V : Valuation τ sig (Elt F)) : after ops V (main_arg2 : DevRef τ sig) = V (main_arg2 : DevRef τ sig) := by
  simp only [after_cons, after_nil]
  rfl
theorem arg3_eq (V : Valuation τ sig (Elt F)) : after ops V (main_arg3 : DevRef τ sig) = V (main_arg3 : DevRef τ sig) := by
  simp only [after_cons, after_nil]
  rfl

/-- On every device, for any float values, from any memory with zero counters: every weakly fair execution of the
    program terminates with the result buffer at the stages' composed term of the four argument arrays, and
    the argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v8)
        = result (F := F) (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v8).trans (out_eq _), (h c main_arg0).trans (arg0_eq _),
      (h c main_arg1).trans (arg1_eq _), (h c main_arg2).trans (arg2_eq _), (h c main_arg3).trans (arg3_eq _)⟩)
    (run_seq scopedRefs_eq scopedSems_eq defs main (fun _ => ops) main_eq (fun _ => ops_sub) m ρ)

end Cert.ReferenceIdeal.RefRun

end
-- ==== Proof.Spec.lean ====
/-
  The function both programs compute, stated once over the argument arrays and over no program.

  A batch row `b` names twenty rows of the embedding table by its context words; the hidden vector of `b` is
  their mean, coordinate by coordinate, and the output is the hidden vector against every row of the linear
  layer's weights plus that row's bias:
    out b v = ∑ k, (∑ c, emb (row b c) k) · (1/20) · w v k + bias v
  over the extended reals. A context word is read as a natural number folded into the table's height (under the
  precondition every word is below the height, so the fold changes nothing).
-/
import Idealize.ShloMosaic.PureOps.Ideal
import Idealize.ShloMosaic.Lib.ValueIdx

noncomputable section

namespace Cert.Spec

open Idealize.ShloMosaic Idealize.ShloMosaic.ValueIdx

abbrev SIdx : Shape := ⟨2, ![1024, 20]⟩
abbrev STab : Shape := ⟨2, ![100000, 64]⟩
abbrev SBias : Shape := ⟨1, ![100000]⟩
abbrev SHid : Shape := ⟨2, ![1024, 64]⟩
abbrev SOut : Shape := ⟨2, ![1024, 100000]⟩

/-- The table row the context word at `(b, c)` names. -/
def row (idx : IVec SIdx 32) (b : Fin 1024) (c : Fin 20) : Fin 100000 :=
  ⟨(idx (ix2 b c)).toNat % 100000, Nat.mod_lt _ (by norm_num)⟩

/-- Coordinate `k` of batch row `b`'s hidden vector: the mean of its twenty embedding rows. -/
def hidden (idx : IVec SIdx 32) (emb : FVec Ideal STab .f32) (b : Fin 1024) (k : Fin 64) : EReal :=
  (∑ c : Fin 20, emb (ix2 (row idx b c) k)) * ((1 / 20 : ℝ) : EReal)

/-- The hidden vectors as one array. -/
def hiddenArr (idx : IVec SIdx 32) (emb : FVec Ideal STab .f32) : FVec Ideal SHid .f32 :=
  fun j => hidden idx emb (j 0) (j 1)

/-- The linear layer applied to an array of hidden vectors. -/
def linear (h : FVec Ideal SHid .f32) (w : FVec Ideal STab .f32) (bias : FVec Ideal SBias .f32) : FVec Ideal SOut .f32 :=
  fun j => (∑ k : Fin 64, h (ix2 (j 0) k) * w (ix2 (j 1) k)) + bias (ix1 (j 1))

/-- The whole function. -/
def out (idx : IVec SIdx 32) (emb w : FVec Ideal STab .f32) (bias : FVec Ideal SBias .f32) : FVec Ideal SOut .f32 :=
  linear (hiddenArr idx emb) w bias

theorem out_apply (idx : IVec SIdx 32) (emb w : FVec Ideal STab .f32) (bias : FVec Ideal SBias .f32) (b : Fin 1024) (v : Fin 100000) :
    out idx emb w bias (ix2 b v) = (∑ k : Fin 64, hidden idx emb b k * w (ix2 v k)) + bias (ix1 v) := rfl

end Cert.Spec

end
-- ==== Proof.RefValue.lean ====
/-
  The reference's result IS the specification, index by index.

  Under the precondition every context word w is a signed word with 0 ≤ w ≤ 99999. Then, reading the reference's
  stages at an index:
    * the wrap of negative words keeps w (the test "w < 0" is zero);
    * the range mask is one everywhere (an all-reduction by `and` of ones), so the fill is never taken;
    * the gather reads the table's row min(w, 99999) = w, whole: result (b, c, k) is the table at (w, k);
    * the host sum over axis 1 from the zero word is the plain sum over the twenty context positions;
    * dividing by the word of 20.0 is multiplying by the real 1/20, on every extended real;
    * the product with the transposed weights is the sum over the sixty-four coordinates k of
      mean (b, k) · weights (v, k);
    * the two broadcasts lay the bias along every batch row.
  That is the specification's formula, and its row function agrees with w because w is below the height.
-/
import proofs.«204096_g51513837748514_cont_sun_m_306_14_alg».proof.Proof.RefRun
import proofs.«204096_g51513837748514_cont_sun_m_306_14_alg».proof.Proof.PreFacts
import proofs.«204096_g51513837748514_cont_sun_m_306_14_alg».proof.Proof.Spec
import Idealize.ShloMosaic.PureOps.Ideal.Laws
import Idealize.ShloMosaic.Lib.ReduceAll
import Idealize.ShloMosaic.Lib.ValueIdx

noncomputable section

namespace Cert.ReferenceIdeal.RefValue

open Idealize.ShloMosaic Idealize.ShloMosaic.ValueIdx Idealize.SL.Sem
open Cert.ReferenceIdeal Cert.ReferenceIdeal.Gen Cert.ReferenceIdeal.RefRun

/-! ## The words: wrap and range mask -/

/-- A left fold by `and` from one over ones is one. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_one f l fun n hn => h n (List.mem_cons_of_mem _ hn)

/-- A reduction by `and` from one of an array of ones is one at every index. -/
theorem reduce_andi_one {s t u : Shape} {axes : List (Fin s.rank)} (x : s.Idx → BitVec 1) (init : u.Idx → BitVec 1)
    (h : s.ReducesTo axes t) (hu : 0 < u.numel) (j : t.Idx) (hinit : init (Shape.Idx.first hu) = 1#1)
    (hx : ∀ i, x i = 1#1) : Host.reduce IntOp.andi x init h hu j = 1#1 := by
  rw [Host.reduce_eq_foldl, hinit]
  exact foldl_andi_one x _ fun n _ => hx n

/-- A nonnegative word is not wrapped. -/
theorem wrapped_apply (a0 : IVec S1024x20 32) (j : S1024x20.Idx) (h0 : 0 ≤ (a0 j).toInt) : wrapped a0 j = a0 j := by
  show Scalar.select (IntOp.cmpi .slt (a0 j) 0#32) (IntOp.addi (a0 j) 100000#32) (a0 j) = a0 j
  have hc : IntOp.cmpi .slt (a0 j) 0#32 = 0#1 := eq_zero_of_ne_one fun h => by
    have := IntOp.cmpi_slt.1 h
    rw [show (0#32 : BitVec 32).toInt = 0 from by decide] at this
    omega
  rw [hc, select_zero]

/-- The start index at (b, c, 0) is the wrapped word at (b, c). -/
theorem starts_apply (a0 : IVec S1024x20 32) (b : Fin 1024) (c : Fin 20) (z : Fin 1) :
    starts a0 (ix3 b c z) = wrapped a0 (ix2 b c) := by
  unfold starts broadcastInDim
  congr 1
  funext a
  match a with
  | ⟨0, _⟩ => exact Fin.ext rfl
  | ⟨1, _⟩ => exact Fin.ext rfl

/-- With every word in range the mask is one everywhere. -/
theorem inRange_apply (a0 : IVec S1024x20 32) (hr : ∀ j, 0 ≤ (a0 j).toInt ∧ (a0 j).toInt ≤ 99999) (j : S1024x20.Idx) :
    inRange a0 j = 1#1 := by
  unfold inRange
  refine reduce_andi_one _ _ _ _ j rfl fun i => ?_
  obtain ⟨b, c, z, rfl⟩ : ∃ (b : Fin 1024) (c : Fin 20) (z : Fin 1), i = ix3 b c z := ⟨i 0, i 1, i 2, eq_ix3 i⟩
  show IntOp.andi (IntOp.cmpi .sge (starts a0 (ix3 b c z)) 0#32) (IntOp.cmpi .sle (starts a0 (ix3 b c z)) 99999#32) = 1#1
  rw [starts_apply, wrapped_apply a0 _ (hr _).1]
  refine IntOp.andi_eq_one.2 ⟨IntOp.cmpi_sge.2 ?_, IntOp.cmpi_sle.2 ?_⟩
  · rw [show (0#32 : BitVec 32).toInt = 0 from by decide]; exact (hr _).1
  · rw [show (99999#32 : BitVec 32).toInt = 99999 from by decide]; exact (hr _).2

/-- For a word in range, the clamped signed reading is the unsigned one folded into the height. -/
theorem clamp_eq (w : BitVec 32) (h0 : 0 ≤ w.toInt) (h1 : w.toInt ≤ 99999) : min w.toInt.toNat 99999 = w.toNat % 100000 := by
  have hlt := w.isLt
  have hT : w.toInt = (w.toNat : Int) := by
    rw [BitVec.toInt_eq_toNat_cond] at h0 ⊢
    split <;> rename_i hc
    · rfl
    · rw [if_neg hc] at h0; omega
  rw [hT] at h1 ⊢
  omega

/-! ## The gather of whole rows -/

/-- The gather read at (b, c, k): the table at the row the start index (b, c, 0) names, read signed and clamped into
    the table, and at column k. -/
theorem gather_apply (a1 : FVec Ideal S100000x64 .f32) (idx : IVec S1024x20x1 32) (b : Fin 1024) (c : Fin 20) (k : Fin 64) :
    Host.gather gather_S100000x64_S1024x20x1_S1024x20x64_2_0_n_n_0_2_164 a1 idx (ix3 b c k)
      = a1 (ix2 (⟨min (idx (ix3 b c (0 : Fin 1))).toInt.toNat 99999, by omega⟩ : Fin 100000) k) := by
  unfold Host.gather
  congr 1
  funext a
  refine Fin.ext ?_
  match a with
  | ⟨0, _⟩ =>
    show GatherDims.start _ (ix3 b c k) idx 0 + GatherDims.batchCoord _ (ix3 b c k) 0 + GatherDims.offCoord _ (ix3 b c k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S100000x64_S1024x20x1_S1024x20x64_2_0_n_n_0_2_164).startIndexMap from List.mem_singleton.mpr rfl)]
    have hsi : (gather_S100000x64_S1024x20x1_S1024x20x64_2_0_n_n_0_2_164).siIdx (ix3 b c k) ⟨List.idxOf (0 : Fin 2) (gather_S100000x64_S1024x20x1_S1024x20x64_2_0_n_n_0_2_164).startIndexMap,
        List.idxOf_lt_length_iff.2 (List.mem_singleton.mpr rfl)⟩ = ix3 b c (0 : Fin 1) := by
      funext d; refine Fin.ext ?_
      match d with
      | ⟨0, _⟩ => rfl
      | ⟨1, _⟩ => rfl
      | ⟨2, _⟩ => rfl
    rw [hsi]
    rfl
  | ⟨1, _⟩ =>
    show GatherDims.start _ (ix3 b c k) idx 1 + GatherDims.batchCoord _ (ix3 b c k) 1 + GatherDims.offCoord _ (ix3 b c k) 1 = _
    rw [GatherDims.batchCoord_eq_zero _ _ _ List.not_mem_nil]
    unfold GatherDims.start
    rw [dif_neg (show (1 : Fin 2) ∉ (gather_S100000x64_S1024x20x1_S1024x20x64_2_0_n_n_0_2_164).startIndexMap from by decide)]
    simp only [Nat.add_zero, Nat.zero_add]
    rfl

/-- The looked-up rows at (b, c, k): the table at the specification's row for (b, c), column k. -/
theorem taken_apply (a0 : IVec S1024x20 32) (a1 : FVec Ideal S100000x64 .f32)
    (hr : ∀ j, 0 ≤ (a0 j).toInt ∧ (a0 j).toInt ≤ 99999) (b : Fin 1024) (c : Fin 20) (k : Fin 64) :
    taken (F := Ideal) a0 a1 (ix3 b c k) = a1 (ix2 (Cert.Spec.row a0 b c) k) := by
  have hmask : broadcastInDim S1024x20x64 ![0, 1] bcast_S1024x20_S1024x20x64_0_1 (inRange a0) (ix3 b c k) = inRange a0 (ix2 b c) := by
    unfold broadcastInDim
    congr 1
    funext a
    match a with
    | ⟨0, _⟩ => exact Fin.ext rfl
    | ⟨1, _⟩ => exact Fin.ext rfl
  unfold taken
  rw [select_apply, hmask, inRange_apply a0 hr, select_one, gather_apply]
  refine congrArg (fun r : Fin 100000 => a1 (ix2 r k)) (Fin.ext ?_)
  show min (starts a0 (ix3 b c (0 : Fin 1))).toInt.toNat 99999 = (a0 (ix2 b c)).toNat % 100000
  rw [starts_apply, wrapped_apply a0 _ (hr _).1]
  exact clamp_eq _ (hr _).1 (hr _).2

/-! ## The mean -/

/-- The shape fact of the sum over the context positions, in the form that names the inserted index. -/
theorem reducesCtx : S1024x20x64.Reduces [1] S1024x64 := by decide

/-- The host sum over axis 1 from the zero word, at (b, k): the sum over the twenty context positions. -/
theorem reduceAdd_apply (x : FVec Ideal S1024x20x64 .f32) (b : Fin 1024) (k : Fin 64) :
    Host.reduceAdd (F := Ideal) x (constant S_ .f32 0x00000000#32) reducesTo_S1024x20x64_S1024x64_d1 h_S_ (ix2 b k)
      = ∑ c : Fin 20, x (ix3 b c k) := by
  show Ideal.hostReduceAdd reducesTo_S1024x20x64_S1024x64_d1 x (Ideal.ofBits .f32 0x00000000#32) (ix2 b k) = _
  rw [Ideal.hostReduceAdd_single reducesTo_S1024x20x64_S1024x64_d1 reducesCtx, Ideal.ofBits_zero_f32, zero_add]
  refine Finset.sum_congr rfl fun c _ => ?_
  congr 1
  funext a
  match a with
  | ⟨0, _⟩ => exact Fin.ext rfl
  | ⟨1, _⟩ => exact Fin.ext rfl
  | ⟨2, _⟩ => exact Fin.ext rfl

/-- Dividing by the splat of 20.0 is multiplying by 1/20, at every extended real. -/
theorem div20_apply (x : FVec Ideal S1024x64 .f32) (j : S1024x64.Idx) :
    Host.divf (F := Ideal) x (broadcastInDim S1024x64 ![] bcast_S_S1024x64 (constant S_ .f32 0x41A00000#32)) j
      = x j * ((1 / 20 : ℝ) : EReal) := by
  show Ideal.div (x j) (Ideal.ofBits .f32 0x41A00000#32) = _
  rw [Cert.PreFacts.ofBits_twenty, Ideal.div_coe (by norm_num)]

/-- The mean at (b, k) is the specification's hidden coordinate. -/
theorem mean_apply (a0 : IVec S1024x20 32) (a1 : FVec Ideal S100000x64 .f32)
    (hr : ∀ j, 0 ≤ (a0 j).toInt ∧ (a0 j).toInt ≤ 99999) (b : Fin 1024) (k : Fin 64) :
    mean (F := Ideal) a0 a1 (ix2 b k) = Cert.Spec.hidden a0 a1 b k := by
  unfold mean summed Cert.Spec.hidden
  rw [div20_apply, reduceAdd_apply]
  exact congrArg (· * ((1 / 20 : ℝ) : EReal)) (Finset.sum_congr rfl fun c _ => taken_apply a0 a1 hr b c k)

/-! ## The linear layer -/

/-- The product at (b, v): the sum over the sixty-four contracted coordinates. -/
theorem dot_apply (l : FVec Ideal S1024x64 .f32) (r : FVec Ideal S64x100000 .f32) (b : Fin 1024) (v : Fin 100000) :
    Host.dotGeneral (F := Ideal) dot_S1024x64_S64x100000_S1024x100000_1_0_0_1_n_n none l r (ix2 b v)
      = ∑ k : Fin 64, l (ix2 b k) * r (ix2 k v) := by
  show FloatOps.dotGeneral dot_S1024x64_S64x100000_S1024x100000_1_0_0_1_n_n none .single l r (ix2 b v) = _
  rw [Ideal.dotGeneral_apply]
  rw [← Equiv.sum_comp (contrEquiv1 dot_S1024x64_S64x100000_S1024x100000_1_0_0_1_n_n 64 rfl rfl).symm]
  refine Finset.sum_congr rfl fun k _ => ?_
  have hl : dot_S1024x64_S64x100000_S1024x100000_1_0_0_1_n_n.lhsIdx (ix2 b v)
      ((contrEquiv1 dot_S1024x64_S64x100000_S1024x100000_1_0_0_1_n_n 64 rfl rfl).symm k) = ix2 b k := by
    funext a
    match a with
    | ⟨0, _⟩ => exact Fin.ext rfl
    | ⟨1, _⟩ =>
      refine Fin.ext ?_
      exact (DotDims.lhsIdx_val_of_single _ rfl _ _).trans (contrEquiv1_symm_val _ 64 rfl rfl k)
  have hr : dot_S1024x64_S64x100000_S1024x100000_1_0_0_1_n_n.rhsIdx (ix2 b v)
      ((contrEquiv1 dot_S1024x64_S64x100000_S1024x100000_1_0_0_1_n_n 64 rfl rfl).symm k) = ix2 k v := by
    funext a
    match a with
    | ⟨0, _⟩ =>
      refine Fin.ext ?_
      exact (DotDims.rhsIdx_val_of_single _ rfl _ _).trans (contrEquiv1_symm_val _ 64 rfl rfl k)
    | ⟨1, _⟩ => exact Fin.ext rfl
  rw [hl, hr]

/-- The transposed weights at (k, v) are the weights at (v, k). -/
theorem transpose_apply (a2 : FVec Ideal S100000x64 .f32) (k : Fin 64) (v : Fin 100000) :
    transpose S64x100000 [1, 0] a2 transposes_S100000x64_S64x100000_1_0 (ix2 k v) = a2 (ix2 v k) := by
  unfold transpose
  congr 1
  funext a
  match a with
  | ⟨0, _⟩ => exact Fin.ext rfl
  | ⟨1, _⟩ => exact Fin.ext rfl

/-- The twice-broadcast bias at (b, v) is the bias at v. -/
theorem bias_apply (a3 : FVec Ideal S100000 .f32) (b : Fin 1024) (v : Fin 100000) :
    broadcastInDim S1024x100000 ![0, 1] bcast_S1x100000_S1024x100000_0_1
      (broadcastInDim S1x100000 ![1] bcast_S100000_S1x100000_1 a3) (ix2 b v) = a3 (ix1 v) := by
  unfold broadcastInDim
  congr 1
  funext a
  match a with
  | ⟨0, _⟩ => exact Fin.ext rfl

/-! ## The result -/

/-- The reference's composed term at (b, v) is the specification's formula there. -/
theorem result_apply (a0 : IVec S1024x20 32) (a1 a2 : FVec Ideal S100000x64 .f32) (a3 : FVec Ideal S100000 .f32)
    (hr : ∀ j, 0 ≤ (a0 j).toInt ∧ (a0 j).toInt ≤ 99999) (b : Fin 1024) (v : Fin 100000) :
    result (F := Ideal) a0 a1 a2 a3 (ix2 b v) = Cert.Spec.out a0 a1 a2 a3 (ix2 b v) := by
  rw [Cert.Spec.out_apply]
  unfold result
  rw [addf_apply, dot_apply, bias_apply]
  refine congrArg (· + a3 (ix1 v)) (Finset.sum_congr rfl fun k _ => ?_)
  rw [transpose_apply, mean_apply a0 a1 hr]

/-- So the two are one array. -/
theorem result_eq (a0 : IVec S1024x20 32) (a1 a2 : FVec Ideal S100000x64 .f32) (a3 : FVec Ideal S100000 .f32)
    (hr : ∀ j, 0 ≤ (a0 j).toInt ∧ (a0 j).toInt ≤ 99999) :
    result (F := Ideal) a0 a1 a2 a3 = Cert.Spec.out a0 a1 a2 a3 := by
  funext j
  obtain ⟨b, v, rfl⟩ : ∃ (b : Fin 1024) (v : Fin 100000), j = ix2 b v := ⟨j 0, j 1, eq_ix2 j⟩
  exact result_apply a0 a1 a2 a3 hr b v

/-- Under the precondition (stated on every device, as the claim states it): every weakly fair execution of the
    reference terminates with its result buffer at the specification of the four argument arrays, and the argument
    arrays unchanged. -/
theorem run (m : (ℓ : Loc nD τ sig) → Buf (Elt Ideal) ℓ) (ρ : Dev nD → PrngReg)
    (hpre : ∀ c : Dev nD, Cert.Pre_input_domain.fn (F := Ideal) (m ((c.tc : Thread nD τ).loc main_arg0))
      (m ((c.tc : Thread nD τ).loc main_arg1)) (m ((c.tc : Thread nD τ).loc main_arg2)) (m ((c.tc : Thread nD τ).loc main_arg3))
        = fun _ => 1#1) :
    θ_run (defs (F := Ideal)) (onTc (τ := τ) (main (F := Ideal))) ⟨m, fun _ => 0, ρ⟩ fun r => ∀ c : Dev nD,
      r.2.mem ((c.tc : Thread nD τ).loc main_v8)
        = Cert.Spec.out (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨(h c).1.trans (result_eq _ _ _ _ (Cert.PreFacts.idx_toInt _ _ _ _ (hpre c))), (h c).2⟩)
    (RefRun.run (F := Ideal) m ρ)

end Cert.ReferenceIdeal.RefValue

end
-- ==== Proof.CallV.lean ====
/-
  The SparseCore call with the hidden array's contents kept.

  As the frame's call, except that a tile hands its rows of the hidden array back at contents that agree, on those
  rows, with ONE whole-array function `HG d` (what the tiles compute, index by index); the rows of all thirty-two
  tiles cover the array, so after the call the hidden array holds `HG d`.
-/
import proofs.«204096_g51513837748514_cont_sun_m_306_14_alg».proof.Proof.Call

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

variable (m : (ℓ : Loc nD τ sig) → Buf (Elt F) ℓ) (ρ : Dev nD → PrngReg)
variable (HG : (d : Dev nD) → Buf (Elt F) (v9Loc d))

/-- Tile `(c, i)`'s rows of the hidden array at contents that are `HG d` there. -/
def rowsAt (d : Dev nD) (c : Fin 2) (i : Fin 16) : sProp 𝕄 :=
  iprop(∃ f, ⌜∀ j ∈ rowsOf c i, f j = HG d j⌝ ∗ v9Loc d ↦[rowsOf c i]{fullShare} f)

def tdPV (d : Dev nD) (c : Fin 2) (i : Fin 16) : sProp 𝕄 := iprop(ins m d (qt c i) ∗ rowsAt HG d c i)
def dnPV (d : Dev nD) (c : Fin 2) : sProp 𝕄 := iprop(ins m d (qc c) ∗ bigSep Finset.univ fun i : Fin 16 => rowsAt HG d c i)

def PV : (K (F := F)).Pay (nD := nD) (Val := Elt F) (Name := ℕ) (U := UU) where
  st := fun q d c => match q with | 0 => stP m d (Fin.cast nCore_zero c)
  dn := fun q d c => match q with | 0 => dnPV m HG d (Fin.cast nCore_zero c)
  go := fun q d c i => match q with | 0 => goP m d (Fin.cast nCore_zero c) (Fin.cast nSub_zero i)
  td := fun q d c i => match q with | 0 => tdPV m HG d (Fin.cast nCore_zero c) (Fin.cast nSub_zero i)
  x := fun _ _ => iprop(emp)

instance PV_storable : (PV (F := F) m HG).IsStorable where
  st q d c := match q with | 0 => by show BI.Storable _ (stP m d _); unfold stP ins; infer_instance
  dn q d c := match q with | 0 => by show BI.Storable _ (dnPV m HG d _); unfold dnPV rowsAt ins; infer_instance
  go q d c i := match q with | 0 => by show BI.Storable _ (goP m d _ _); unfold goP ins; infer_instance
  td q d c i := match q with | 0 => by show BI.Storable _ (tdPV m HG d _ _); unfold tdPV rowsAt ins; infer_instance

theorem vecSplitV : (K (F := F)).VecSplit' (PV m HG) 0 := by
  intro d c
  show stP m d (Fin.cast nCore_zero c) ⊢ |={Set.univ}=> iprop(
      (bigSep Finset.univ fun i : Fin ((K (F := F)).nSub 0) => goP m d (Fin.cast nCore_zero c) (Fin.cast nSub_zero i))
      ∗ ((bigSep Finset.univ fun i : Fin ((K (F := F)).nSub 0) => tdPV m HG d (Fin.cast nCore_zero c) (Fin.cast nSub_zero i))
          -∗ dnPV m HG d (Fin.cast nCore_zero c)))
  generalize Fin.cast nCore_zero c = c'
  rw [show (bigSep Finset.univ fun i : Fin ((K (F := F)).nSub 0) => goP m d c' (Fin.cast nSub_zero i)) = bigSep Finset.univ (fun i : Fin 16 => goP m d c' i) from
    bigSep_congr fun _ _ => congrArg (goP m d c') (Fin.ext rfl),
    show (bigSep Finset.univ fun i : Fin ((K (F := F)).nSub 0) => tdPV m HG d c' (Fin.cast nSub_zero i)) = bigSep Finset.univ (fun i : Fin 16 => tdPV m HG d c' i) from
    bigSep_congr fun _ _ => congrArg (tdPV m HG d c') (Fin.ext rfl)]
  unfold stP goP tdPV dnPV ins
  rw [bigSep_sep', bigSep_sep', bigSep_sep', bigSep_sep', bigSep_sep', bigSep_sep']
  iintro ⟨⟨H2, H7, H8⟩, H9⟩
  ihave H2' := (toks16 (F := F) (v2Loc d) (qc c') _).1 $$ H2
  ihave H7' := (toks16 (F := F) (v7Loc d) (qc c') _).1 $$ H7
  ihave H8' := (toks16 (F := F) (v8Loc d) (qc c') _).1 $$ H8
  icases H2' with ⟨D2, T2⟩
  icases H7' with ⟨D7, T7⟩
  icases H8' with ⟨D8, T8⟩
  imodintro
  isplitl [T2 T7 T8 H9]
  · isplitl [T2 T7 T8]
    · isplitl [T2]
      · iexact T2
      isplitl [T7]
      · iexact T7
      · iexact T8
    · iexact H9
  iintro ⟨⟨T2, T7, T8⟩, H9⟩
  isplitr [H9]
  · isplitl [D2 T2]
    · iapply (toks16 (F := F) (v2Loc d) (qc c') _).2
      isplitl [D2]
      · iexact D2
      · iexact T2
    isplitl [D7 T7]
    · iapply (toks16 (F := F) (v7Loc d) (qc c') _).2
      isplitl [D7]
      · iexact D7
      · iexact T7
    · iapply (toks16 (F := F) (v8Loc d) (qc c') _).2
      isplitl [D8]
      · iexact D8
      · iexact T8
  · iexact H9

/-- A tile's rows at contents that are `HG d` there are its rows at `HG d`. -/
theorem rowsAt_elim (d : Dev nD) (c : Fin 2) (i : Fin 16) :
    rowsAt HG d c i ⊢ (v9Loc d ↦[rowsOf c i]{fullShare} HG d : sProp 𝕄) := by
  unfold rowsAt
  iintro ⟨%f, %hf, H⟩
  ihave H' := (Entails.of_eq (pointsTo_congr (ℓ := v9Loc d) (q := fullShare) (I := rowsOf c i) hf)) $$ H
  iexact H'

theorem rowsAt_all (d : Dev nD) :
    (bigSep Finset.univ fun c : Fin 2 => bigSep Finset.univ fun i : Fin 16 => rowsAt HG d c i)
      ⊢ (bigSep Finset.univ fun c : Fin 2 => bigSep Finset.univ fun i : Fin 16 => (v9Loc d ↦[rowsOf c i]{fullShare} HG d : sProp 𝕄)) :=
  bigSep_mono fun c _ => bigSep_mono fun i _ => rowsAt_elim (F := F) HG d c i

theorem dnV_elim (d : Dev nD) :
    (bigSep Finset.univ fun c : Fin ((K (F := F)).nCore 0) => (PV (F := F) m HG).dn 0 d c : sProp 𝕄)
      ⊢ iprop((bigSep Finset.univ fun c : Fin 2 => v2Loc d ↦{qc c} V2 m d) ∗ (bigSep Finset.univ fun c : Fin 2 => v7Loc d ↦{qc c} V7 m d)
        ∗ (bigSep Finset.univ fun c : Fin 2 => v8Loc d ↦{qc c} V8 m d) ∗ (v9Loc d ↦{fullShare} HG d)) := by
  show (bigSep Finset.univ fun c : Fin ((K (F := F)).nCore 0) => dnPV m HG d (Fin.cast nCore_zero c)) ⊢ _
  rw [bigSep_cores (F := F) (dnPV m HG d), v9_split]
  unfold dnPV ins
  rw [bigSep_sep', bigSep_sep', bigSep_sep']
  iintro ⟨⟨T2, T7, T8⟩, H9⟩
  isplitl [T2]
  · iexact T2
  isplitl [T7]
  · iexact T7
  isplitl [T8]
  · iexact T8
  · iapply (rowsAt_all (F := F) HG d)
    iexact H9

/-- The TensorCore at the SparseCore call, the hidden array coming back at `HG d`. -/
theorem wp_sc_callV (htile : (K (F := F)).TileObl (D (F := F)) 𝒱 (PV m HG) v₀ 0) (κ : GSem nD τ sig → ℕ) (d : Dev nD) (Φ : PUnit → sProp 𝕄) :
    iprop((K (F := F)).ctx EH (PV m HG) κ ∗ (K (F := F)).tcSt EH d 0 ∗ (v8Loc d ↦{fullShare} V8 m d) ∗ (v2Loc d ↦{fullShare} V2 m d) ∗ (v7Loc d ↦{fullShare} V7 m d)
        ∗ (∃ f, v9Loc d ↦{fullShare} f)
        ∗ (((K (F := F)).tcSt EH d 1 ∗ (∃ f, v8Loc d ↦{fullShare} f) ∗ (∃ f, v2Loc d ↦{fullShare} f) ∗ (∃ f, v7Loc d ↦{fullShare} f)
            ∗ (∃ f, ⌜f = HG d⌝ ∗ v9Loc d ↦{fullShare} f)) -∗ Φ ⟨⟩))
      ⊢ wp frame (wpE ((K (F := F)).defs (D (F := F))) 𝒱 (SparseCore.T d) none) Set.univ (sc.run d 0) Φ := by
  iintro ⟨#Hctx, Hst, H8, H2, H7, ⟨%f9, H9⟩, Hk⟩
  ihave H8' := (toks2 (F := F) (v8Loc d) _).1 $$ H8
  ihave H2' := (toks2 (F := F) (v2Loc d) _).1 $$ H2
  ihave H7' := (toks2 (F := F) (v7Loc d) _).1 $$ H7
  icases H8' with ⟨D8, T8⟩
  icases H2' with ⟨D2, T2⟩
  icases H7' with ⟨D7, T7⟩
  iapply ((K (F := F)).wp_run (D (F := F)) 𝒱 (EH := EH) (P := PV m HG) κ d 0) $$ [Hst T8 T2 T7 H9 D8 D2 D7 Hk]
  isplitr
  · iexact Hctx
  isplitl [Hst]
  · iexact Hst
  isplitl [T8 T2 T7 H9]
  · iapply (st_intro (F := F) m d f9)
    isplitl [T2]
    · iexact T2
    isplitl [T7]
    · iexact T7
    isplitl [T8]
    · iexact T8
    · iexact H9
  iintro ⟨Hst, Hdn⟩
  ihave Hdn' := (dnV_elim (F := F) m HG d) $$ Hdn
  icases Hdn' with ⟨T2, T7, T8, Hg⟩
  iapply Hk
  isplitl [Hst]
  · iexact Hst
  isplitl [D8 T8]
  · iexists _
    iapply (toks2 (F := F) (v8Loc d) _).2
    isplitl [D8]
    · iexact D8
    · iexact T8
  isplitl [D2 T2]
  · iexists _
    iapply (toks2 (F := F) (v2Loc d) _).2
    isplitl [D2]
    · iexact D2
    · iexact T2
  isplitl [D7 T7]
  · iexists _
    iapply (toks2 (F := F) (v7Loc d) _).2
    isplitl [D7]
    · iexact D7
    · iexact T7
  · iexists (HG d)
    isplitr
    · ipureintro; rfl
    · iexact Hg

end Cert.Proof.KI

end
-- ==== Proof.TcBlocks.lean ====
/-
  The blocks the two matrix products store, at the exact values.

  At the exact values an entry of a product into a zero accumulator is the sum, over the sixty-four coordinates, of
  the products of its own row of the hidden array and its own row of the weights; so the part of a stored block
  that lies inside the array does not see what the staging buffers hold past the array's end: it is that block of
  the linear layer. And an array written back block by block holds, at an entry some block covers, what that block
  brought, and elsewhere what it held at entry.
-/
import proofs.«204096_g51513837748514_cont_sun_m_306_14_alg».proof.Proof.TcData
import proofs.«204096_g51513837748514_cont_sun_m_306_14_alg».proof.Proof.Spec
import Idealize.ShloMosaic.PureOps.Ideal.Laws
import Idealize.ShloMosaic.Lib.ValueIdx
import Idealize.ShloMosaic.Lib.Pipeline.Value

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open Idealize.ShloMosaic.Pipeline (RDat Cfg Window cellOf)

/-! ## A product against the transposed weights, read at an index -/

set_option maxHeartbeats 400000 in
/-- An m×k array against an n×k array contracted on their last axes, into a zero accumulator: at `(a, b)` the sum over
    the contracted coordinate of the products of row `a` of the one and row `b` of the other. -/
theorem matmul_tr_apply {m k n : Nat} {φ₁ φ₂ : FTy}
    (w : DotDims.WF ⟨2, ![m, k]⟩ ⟨2, ![n, k]⟩ ⟨2, ![m, n]⟩ [1] [1] [0] [0] [] [])
    (prec : Option ContractPrecision) (A : FVec Ideal ⟨2, ![m, k]⟩ φ₁) (B : FVec Ideal ⟨2, ![n, k]⟩ φ₂) (a : Fin m) (b : Fin n) :
    FloatOps.matmul (⟨[1], [1], [0], [0], [], [], w⟩ : DotDims ⟨2, ![m, k]⟩ ⟨2, ![n, k]⟩ ⟨2, ![m, n]⟩) prec A B
        (constant ⟨2, ![m, n]⟩ .f32 0x00000000#32) (ix2 a b)
      = ∑ c : Fin k, A (ix2 a c) * B (ix2 b c) := by
  rw [Ideal.matmul_constant_zero_apply,
    ← Equiv.sum_comp (contrEquiv1 (⟨[1], [1], [0], [0], [], [], w⟩ : DotDims ⟨2, ![m, k]⟩ ⟨2, ![n, k]⟩ ⟨2, ![m, n]⟩) k rfl rfl).symm]
  refine Finset.sum_congr rfl fun c _ => ?_
  have c2 := contrEquiv1_symm_val (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

set_option maxHeartbeats 400000 in
/-- The first product's stored value at an entry of the block. -/
theorem k1_pay1_apply (x0 : Vec Ideal S256x64 .f32) (x1 : Vec Ideal S8192x64 .f32) (x2 : Vec Ideal S1x8192 .f32) (p : Fin 256) (q : Fin 8192) :
    k1_pay1 (F := Ideal) x0 x1 x2 (ix2 p q) = (∑ c : Fin 64, x0 (ix2 p c) * x1 (ix2 q c)) + x2 (ix2 (0 : Fin 1) q) := by
  unfold k1_pay1
  rw [addf_apply, shapeCast_self, shapeCast_self]
  refine congrArg₂ (· + ·) (matmul_tr_apply dot_S256x64_S8192x64_S256x8192_1_1_0_0_n_n_wf none x0 x1 p q) ?_
  exact broadcastTo_apply x2 _ (ix2 p q) (ix2 (0 : Fin 1) q) (fun a => by
    match a with
    | ⟨0, _⟩ => rfl
    | ⟨1, _⟩ => rfl)

set_option maxHeartbeats 400000 in
/-- The second product's. -/
theorem k2_pay1_apply (x0 : Vec Ideal S1024x64 .f32) (x1 : Vec Ideal S2048x64 .f32) (x2 : Vec Ideal S1x2048 .f32) (p : Fin 1024) (q : Fin 2048) :
    k2_pay1 (F := Ideal) x0 x1 x2 (ix2 p q) = (∑ c : Fin 64, x0 (ix2 p c) * x1 (ix2 q c)) + x2 (ix2 (0 : Fin 1) q) := by
  unfold k2_pay1
  rw [addf_apply, shapeCast_self, shapeCast_self]
  refine congrArg₂ (· + ·) (matmul_tr_apply dot_S1024x64_S2048x64_S1024x2048_1_1_0_0_n_n_wf none x0 x1 p q) ?_
  exact broadcastTo_apply x2 _ (ix2 p q) (ix2 (0 : Fin 1) q) (fun a => by
    match a with
    | ⟨0, _⟩ => rfl
    | ⟨1, _⟩ => rfl)

/-! ## What an array may hold after the write-backs, entry by entry -/

section ArrAtRel

variable {F : FTy → Type} {cfg : Cfg sig Λ₀} {c : Dev nD} (rd : RDat τ (Elt F) (HIx 1) ℕ UU ℕ cfg c) (w : Fin cfg.W)

/-- An entry no write-back's block holds stays at its entry contents. -/
theorem ArrAt_of_not_mem :
    ∀ (n : Nat), n ≤ cfg.N → ∀ (A' : Buf (Elt F) ((cfg.win w).arr.view.loc (c.tc : Thread nD τ))), rd.ArrAt w n A' →
      ∀ (i : ((cfg.win w).arr.view.loc (c.tc : Thread nD τ)).2.ty.Idx), (∀ t : Fin cfg.N, t.val < n → (cfg.win w).flush t = true → i ∉ ((cfg.win w).blk t).view.set) → A' i = rd.A w i
  | 0, _, A', h, i, _ => by
    have e : A' = rd.A w := h
    rw [e]
  | n + 1, hn', A', h, i, hno => by
    have hn : n < cfg.N := hn'
    rw [show n + 1 = (⟨n, hn⟩ : Fin cfg.N).val + 1 from rfl, rd.ArrAt_succ w ⟨n, hn⟩] at h
    by_cases hf : (cfg.win w).flush ⟨n, hn⟩ = true
    · rw [if_pos hf] at h
      obtain ⟨G₀, X, hG₀, hX, rfl⟩ := h
      rw [View.write_of_not_mem _ _ _ (by rw [View.setOn_univ]; exact hno ⟨n, hn⟩ (Nat.lt_succ_self n) hf)]
      exact ArrAt_of_not_mem n (Nat.le_of_lt hn) G₀ hG₀ i fun t ht hft => hno t (Nat.lt_succ_of_lt ht) hft
    · rw [if_neg hf] at h
      exact ArrAt_of_not_mem n (Nat.le_of_lt hn) A' h i fun t ht hft => hno t (Nat.lt_succ_of_lt ht) hft

/-- If whatever a write-back lands is its block of one array `G`, an entry some write-back's block holds reads `G`. -/
theorem ArrAt_of_mem (G : Buf (Elt F) ((cfg.win w).arr.view.loc (c.tc : Thread nD τ)))
    (hG : ∀ t X, (cfg.win w).flush t = true → rd.Leaves w t X →
      (cfg.win w).cut (cfg.grid.coords t) X = ((cfg.win w).blk t).view.read (Elt F) G) :
    ∀ (n : Nat), n ≤ cfg.N → ∀ (A' : Buf (Elt F) ((cfg.win w).arr.view.loc (c.tc : Thread nD τ))), rd.ArrAt w n A' →
      ∀ (t : Fin cfg.N) (i : ((cfg.win w).arr.view.loc (c.tc : Thread nD τ)).2.ty.Idx), t.val < n → (cfg.win w).flush t = true → i ∈ ((cfg.win w).blk t).view.set → A' i = G i
  | 0, _, _, _, _, _, ht, _, _ => absurd ht (Nat.not_lt_zero _)
  | n + 1, hn', A', h, t, i, ht, hft, hit => by
    have hn : n < cfg.N := hn'
    rw [show n + 1 = (⟨n, hn⟩ : Fin cfg.N).val + 1 from rfl, rd.ArrAt_succ w ⟨n, hn⟩] at h
    by_cases hf : (cfg.win w).flush ⟨n, hn⟩ = true
    · rw [if_pos hf] at h
      obtain ⟨G₀, X, hG₀, hX, rfl⟩ := h
      rw [hG _ X hf hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hit)
        exact ArrAt_of_mem G hG n (Nat.le_of_lt hn) G₀ hG₀ t i (by omega) hft hit
    · rw [if_neg hf] at h
      have htn : t.val ≠ n := fun e => hf (by have : t = ⟨n, hn⟩ := Fin.ext e; exact this ▸ hft)
      exact ArrAt_of_mem G hG n (Nat.le_of_lt hn) A' h t i (by omega) hft hit

end ArrAtRel

/-! ## The blocks -/

theorem hz2 : (![0, 0] : Fin 2 → Nat) = fun _ => 0 := funext fun a => by fin_cases a <;> rfl

/-- What the body stores is the payload of its one store. -/
theorem out1_eq (x0 : Vec Ideal S256x64 .f32) (x1 : Vec Ideal S8192x64 .f32) (x2 : Vec Ideal S1x8192 .f32) :
    out1 (F := Ideal) x0 x1 x2 = k1_pay1 x0 x1 x2 := by
  unfold out1; rw [View.canon_unit_zero hz2, View.ld_unit_zero (S := S256x64) hz2, View.ld_unit_zero (S := S8192x64) hz2, View.ld_unit_zero (S := S1x8192) hz2]
theorem out2_eq (x0 : Vec Ideal S1024x64 .f32) (x1 : Vec Ideal S2048x64 .f32) (x2 : Vec Ideal S1x2048 .f32) :
    out2 (F := Ideal) x0 x1 x2 = k2_pay1 x0 x1 x2 := by
  unfold out2; rw [View.canon_unit_zero hz2, View.ld_unit_zero (S := S1024x64) hz2, View.ld_unit_zero (S := S2048x64) hz2, View.ld_unit_zero (S := S1x2048) hz2]

/-- A staging buffer filled by a transfer holds, on the part the transfer moves, what the transfer brought. -/
theorem fill_of_lt {G : Pipeline.Grid} (w : Window sig G) {α : Type} (i : G.Coords) (d : w.block.Idx → α) (g : (w.xblock i).Idx → α)
    (j : w.block.Idx) (h : ∀ a, (j a).val < w.xsize i a) : w.fill i d g j = g fun a => ⟨(j a).val, h a⟩ := by
  unfold Window.fill; rw [dif_pos ((w.moved_iff i j).mpr h)]

/-- A coordinate of a transfer's part of a block is below the part's extent. -/
theorem xidx_lt {G : Pipeline.Grid} (w : Window sig G) (i : G.Coords) (j : (w.xblock i).Idx) (a : Fin w.shape.rank) :
    (j a).val < w.xsize i a := (j a).isLt

section Blocks

variable (V : (c : Dev nD) → (b : Ref sig .tc) → Buf (Elt Ideal) ((c : Thread nD τ).loc b))

theorem blk1_0 (c : Dev nD) (t : Fin cfg1.N) (y : (win1_0.xblock (grid1.coords t)).Idx) :
    blk1 V c 0 t y = (V c main_v9 : S1024x64.Idx → Elt Ideal .f32) ((win1_0.rect t).emb y) := rfl
theorem blk1_1 (c : Dev nD) (t : Fin cfg1.N) (y : (win1_1.xblock (grid1.coords t)).Idx) :
    blk1 V c 1 t y = (V c main_arg2 : S100000x64.Idx → Elt Ideal .f32) ((win1_1.rect t).emb y) := rfl
theorem blk1_2 (c : Dev nD) (t : Fin cfg1.N) (y : (win1_2.xblock (grid1.coords t)).Idx) :
    blk1 V c 2 t y = (V c main_v10 : S1x100000.Idx → Elt Ideal .f32) ((win1_2.rect t).emb y) := rfl
theorem read1_3 (t : Fin cfg1.N) (G : S1024x100000.Idx → Elt Ideal .f32) (y : (win1_3.xblock (grid1.coords t)).Idx) :
    ((cfg1.win 3).blk t).view.read (Elt Ideal) G y = G ((win1_3.rect t).emb y) := rfl

/-- The first product's schedule, decided over its forty-eight points: the column block is the point's quotient by
    four, the row block its remainder; no block of it is cut. -/
theorem sched1 : ∀ t : Fin grid1.N,
    win1_3.index t 0 = t.val % 4 ∧ win1_3.index t 1 = t.val / 4 ∧ win1_0.index t 0 = t.val % 4 ∧ win1_0.index t 1 = 0
    ∧ win1_1.index t 0 = t.val / 4 ∧ win1_1.index t 1 = 0 ∧ win1_2.index t 0 = 0 ∧ win1_2.index t 1 = t.val / 4
    ∧ win1_3.xsize (grid1.coords t) 0 = 256 ∧ win1_3.xsize (grid1.coords t) 1 = 8192
    ∧ win1_1.xsize (grid1.coords t) 0 = 8192 ∧ win1_1.xsize (grid1.coords t) 1 = 64
    ∧ win1_2.xsize (grid1.coords t) 0 = 1 ∧ win1_2.xsize (grid1.coords t) 1 = 8192 := by decide +kernel

set_option maxHeartbeats 800000 in
/-- The part inside the array of what the first product's body stores at a point is that block of the linear layer,
    whatever the staging buffers held past the array's end. -/
theorem cut_out1 (c : Dev nD) (t : Fin cfg1.N) (d0 : S256x64.Idx → Elt Ideal .f32) (d1 : S8192x64.Idx → Elt Ideal .f32) (d2 : S1x8192.Idx → Elt Ideal .f32)
    (f : FVec Ideal Spec.SHid .f32) (wt : FVec Ideal Spec.STab .f32) (bias : FVec Ideal Spec.SBias .f32)
    (hf : (V c main_v9 : S1024x64.Idx → Elt Ideal .f32) = f) (hw : (V c main_arg2 : S100000x64.Idx → Elt Ideal .f32) = wt)
    (hb : ∀ q : Fin 100000, (V c main_v10 : S1x100000.Idx → Elt Ideal .f32) (ix2 (0 : Fin 1) q) = bias (ix1 q)) :
    (cfg1.win 3).cut (cfg1.grid.coords t) (out1 (win1_0.fill (grid1.coords t) d0 (blk1 V c 0 t))
        (win1_1.fill (grid1.coords t) d1 (blk1 V c 1 t)) (win1_2.fill (grid1.coords t) d2 (blk1 V c 2 t)))
      = ((cfg1.win 3).blk t).view.read (Elt Ideal) (Spec.linear f wt bias : S1024x100000.Idx → Elt Ideal .f32) := by
  obtain ⟨h30, h31, h00, h01, h10, h11, h20, h21, x30, x31, x10, x11, x20, x21⟩ := sched1 t
  funext jx
  have hp : (jx 0).val < 256 := x30 ▸ (jx 0).isLt
  have hq : (jx 1).val < 8192 := x31 ▸ (jx 1).isLt
  have e : (cfg1.win 3).xinj (cfg1.grid.coords t) jx = ix2 (⟨(jx 0).val, hp⟩ : Fin 256) (⟨(jx 1).val, hq⟩ : Fin 8192) :=
    funext fun a => Fin.ext (by match a with | ⟨0, _⟩ => rfl | ⟨1, _⟩ => rfl)
  rw [read1_3]
  show out1 _ _ _ ((cfg1.win 3).xinj (cfg1.grid.coords t) jx) = _
  rw [out1_eq, e, k1_pay1_apply]
  show _ = (∑ k : Fin 64, f (ix2 (((win1_3.rect t).emb jx) 0) k) * wt (ix2 (((win1_3.rect t).emb jx) 1) k)) + bias (ix1 (((win1_3.rect t).emb jx) 1))
  refine congrArg₂ (· + ·) (Finset.sum_congr rfl fun k _ => congrArg₂ (· * ·) ?_ ?_) ?_
  · rw [fill_of_lt win1_0 (grid1.coords t) d0 _ (ix2 (⟨(jx 0).val, hp⟩ : Fin 256) k) (fun a => by
      match a with | ⟨0, _⟩ => exact hp | ⟨1, _⟩ => exact k.isLt), blk1_0, hf]
    refine congrArg f (funext fun a => Fin.ext ?_)
    match a with
    | ⟨0, _⟩ =>
      rw [Rect.emb_apply]
      show win1_0.index t 0 * 256 + 1 * (jx 0).val = (((win1_3.rect t).emb jx) 0).val
      rw [Rect.emb_apply]
      show _ = win1_3.index t 0 * 256 + 1 * (jx 0).val
      rw [h00, h30]
    | ⟨1, _⟩ =>
      rw [Rect.emb_apply]
      show win1_0.index t 1 * 64 + 1 * k.val = k.val
      rw [h01]; omega
  · rw [fill_of_lt win1_1 (grid1.coords t) d1 _ (ix2 (⟨(jx 1).val, hq⟩ : Fin 8192) k) (fun a => by
      match a with
      | ⟨0, _⟩ => show (jx 1).val < win1_1.xsize (grid1.coords t) 0; rw [x10]; exact hq
      | ⟨1, _⟩ => show k.val < win1_1.xsize (grid1.coords t) 1; rw [x11]; exact k.isLt), blk1_1, hw]
    refine congrArg wt (funext fun a => Fin.ext ?_)
    match a with
    | ⟨0, _⟩ =>
      rw [Rect.emb_apply]
      show win1_1.index t 0 * 8192 + 1 * (jx 1).val = (((win1_3.rect t).emb jx) 1).val
      rw [Rect.emb_apply]
      show _ = win1_3.index t 1 * 8192 + 1 * (jx 1).val
      rw [h10, h31]
    | ⟨1, _⟩ =>
      rw [Rect.emb_apply]
      show win1_1.index t 1 * 64 + 1 * k.val = k.val
      rw [h11]; omega
  · rw [fill_of_lt win1_2 (grid1.coords t) d2 _ (ix2 (0 : Fin 1) (⟨(jx 1).val, hq⟩ : Fin 8192)) (fun a => by
      match a with
      | ⟨0, _⟩ => show 0 < win1_2.xsize (grid1.coords t) 0; rw [x20]; exact Nat.one_pos
      | ⟨1, _⟩ => show (jx 1).val < win1_2.xsize (grid1.coords t) 1; rw [x21]; exact hq), blk1_2]
    have hq' : win1_2.index t 1 * 8192 + 1 * (jx 1).val < 100000 := by rw [h21]; have := t.isLt; have hN : cfg1.N = 48 := N_1; omega
    rw [show ((win1_2.rect t).emb fun a => ⟨((ix2 (0 : Fin 1) (⟨(jx 1).val, hq⟩ : Fin 8192)) a).val, _⟩)
        = ix2 (0 : Fin 1) (⟨win1_2.index t 1 * 8192 + 1 * (jx 1).val, hq'⟩ : Fin 100000) from funext fun a => Fin.ext (by
      match a with
      | ⟨0, _⟩ => rw [Rect.emb_apply]; show win1_2.index t 0 * 1 + 1 * 0 = 0; rw [h20]
      | ⟨1, _⟩ => rw [Rect.emb_apply]; rfl), hb]
    refine congrArg bias (funext fun a => Fin.ext ?_)
    match a with
    | ⟨0, _⟩ =>
      show win1_2.index t 1 * 8192 + 1 * (jx 1).val = (((win1_3.rect t).emb jx) 1).val
      rw [Rect.emb_apply]
      show _ = win1_3.index t 1 * 8192 + 1 * (jx 1).val
      rw [h21, h31]

/-- The second product's one point: row block 0, column block 48, the column blocks cut to their first 1696. -/
theorem sched2 : ∀ t : Fin grid2.N,
    win2_3.index t 0 = 0 ∧ win2_3.index t 1 = 48 ∧ win2_0.index t 0 = 0 ∧ win2_0.index t 1 = 0
    ∧ win2_1.index t 0 = 48 ∧ win2_1.index t 1 = 0 ∧ win2_2.index t 0 = 0 ∧ win2_2.index t 1 = 48
    ∧ win2_3.xsize (grid2.coords t) 0 = 1024 ∧ win2_3.xsize (grid2.coords t) 1 = 1696
    ∧ win2_1.xsize (grid2.coords t) 0 = 1696 ∧ win2_1.xsize (grid2.coords t) 1 = 64
    ∧ win2_2.xsize (grid2.coords t) 0 = 1 ∧ win2_2.xsize (grid2.coords t) 1 = 1696 := by decide +kernel

theorem blk2_0 (c : Dev nD) (t : Fin cfg2.N) (y : (win2_0.xblock (grid2.coords t)).Idx) :
    blk2 V c 0 t y = (V c main_v9 : S1024x64.Idx → Elt Ideal .f32) ((win2_0.rect t).emb y) := rfl
theorem blk2_1 (c : Dev nD) (t : Fin cfg2.N) (y : (win2_1.xblock (grid2.coords t)).Idx) :
    blk2 V c 1 t y = (V c main_arg2 : S100000x64.Idx → Elt Ideal .f32) ((win2_1.rect t).emb y) := rfl
theorem blk2_2 (c : Dev nD) (t : Fin cfg2.N) (y : (win2_2.xblock (grid2.coords t)).Idx) :
    blk2 V c 2 t y = (V c main_v10 : S1x100000.Idx → Elt Ideal .f32) ((win2_2.rect t).emb y) := rfl
theorem read2_3 (t : Fin cfg2.N) (G : S1024x100000.Idx → Elt Ideal .f32) (y : (win2_3.xblock (grid2.coords t)).Idx) :
    ((cfg2.win 3).blk t).view.read (Elt Ideal) G y = G ((win2_3.rect t).emb y) := rfl

set_option maxRecDepth 1000000 in
set_option maxHeartbeats 1600000 in
/-- The part inside the array of what the second product's body stores at a point is that block of the linear layer,
    whatever the staging buffers held past the array's end. -/
theorem cut_out2 (c : Dev nD) (t : Fin cfg2.N) (d0 : S1024x64.Idx → Elt Ideal .f32) (d1 : S2048x64.Idx → Elt Ideal .f32) (d2 : S1x2048.Idx → Elt Ideal .f32)
    (f : FVec Ideal Spec.SHid .f32) (wt : FVec Ideal Spec.STab .f32) (bias : FVec Ideal Spec.SBias .f32)
    (hf : (V c main_v9 : S1024x64.Idx → Elt Ideal .f32) = f) (hw : (V c main_arg2 : S100000x64.Idx → Elt Ideal .f32) = wt)
    (hb : ∀ q : Fin 100000, (V c main_v10 : S1x100000.Idx → Elt Ideal .f32) (ix2 (0 : Fin 1) q) = bias (ix1 q)) :
    (cfg2.win 3).cut (cfg2.grid.coords t) (out2 (win2_0.fill (grid2.coords t) d0 (blk2 V c 0 t))
        (win2_1.fill (grid2.coords t) d1 (blk2 V c 1 t)) (win2_2.fill (grid2.coords t) d2 (blk2 V c 2 t)))
      = ((cfg2.win 3).blk t).view.read (Elt Ideal) (Spec.linear f wt bias : S1024x100000.Idx → Elt Ideal .f32) := by
  obtain ⟨h30, h31, h00, h01, h10, h11, h20, h21, x30, x31, x10, x11, x20, x21⟩ := sched2 t
  funext jx
  have hp := xidx_lt win2_3 (grid2.coords t) jx 0
  rw [x30] at hp
  have hq0 := xidx_lt win2_3 (grid2.coords t) jx 1
  rw [x31] at hq0
  have hq : (jx 1).val < 2048 := by omega
  have e : (cfg2.win 3).xinj (cfg2.grid.coords t) jx = ix2 (⟨(jx 0).val, hp⟩ : Fin 1024) (⟨(jx 1).val, hq⟩ : Fin 2048) :=
    funext fun a => Fin.ext (by match a with | ⟨0, _⟩ => rfl | ⟨1, _⟩ => rfl)
  rw [read2_3]
  show out2 _ _ _ ((cfg2.win 3).xinj (cfg2.grid.coords t) jx) = _
  rw [out2_eq, e, k2_pay1_apply]
  show _ = (∑ k : Fin 64, f (ix2 (((win2_3.rect t).emb jx) 0) k) * wt (ix2 (((win2_3.rect t).emb jx) 1) k)) + bias (ix1 (((win2_3.rect t).emb jx) 1))
  refine congrArg₂ (· + ·) (Finset.sum_congr rfl fun k _ => congrArg₂ (· * ·) ?_ ?_) ?_
  · rw [fill_of_lt win2_0 (grid2.coords t) d0 _ (ix2 (⟨(jx 0).val, hp⟩ : Fin 1024) k) (fun a => by
      match a with | ⟨0, _⟩ => exact hp | ⟨1, _⟩ => exact k.isLt), blk2_0, hf]
    refine congrArg f (funext fun a => Fin.ext ?_)
    match a with
    | ⟨0, _⟩ =>
      rw [Rect.emb_apply]
      show win2_0.index t 0 * 1024 + 1 * (jx 0).val = (((win2_3.rect t).emb jx) 0).val
      rw [Rect.emb_apply]
      show _ = win2_3.index t 0 * 1024 + 1 * (jx 0).val
      rw [h00, h30]
    | ⟨1, _⟩ =>
      rw [Rect.emb_apply]
      show win2_0.index t 1 * 64 + 1 * k.val = k.val
      rw [h01]; omega
  · rw [fill_of_lt win2_1 (grid2.coords t) d1 _ (ix2 (⟨(jx 1).val, hq⟩ : Fin 2048) k) (fun a => by
      match a with
      | ⟨0, _⟩ => show (jx 1).val < win2_1.xsize (grid2.coords t) 0; rw [x10]; exact hq0
      | ⟨1, _⟩ => show k.val < win2_1.xsize (grid2.coords t) 1; rw [x11]; exact k.isLt), blk2_1, hw]
    refine congrArg wt (funext fun a => Fin.ext ?_)
    match a with
    | ⟨0, _⟩ =>
      rw [Rect.emb_apply]
      show win2_1.index t 0 * 2048 + 1 * (jx 1).val = (((win2_3.rect t).emb jx) 1).val
      rw [Rect.emb_apply]
      show _ = win2_3.index t 1 * 2048 + 1 * (jx 1).val
      rw [h10, h31]
    | ⟨1, _⟩ =>
      rw [Rect.emb_apply]
      show win2_1.index t 1 * 64 + 1 * k.val = k.val
      rw [h11]; omega
  · rw [fill_of_lt win2_2 (grid2.coords t) d2 _ (ix2 (0 : Fin 1) (⟨(jx 1).val, hq⟩ : Fin 2048)) (fun a => by
      match a with
      | ⟨0, _⟩ => show 0 < win2_2.xsize (grid2.coords t) 0; rw [x20]; exact Nat.one_pos
      | ⟨1, _⟩ => show (jx 1).val < win2_2.xsize (grid2.coords t) 1; rw [x21]; exact hq0), blk2_2]
    have hq' : win2_2.index t 1 * 2048 + 1 * (jx 1).val < 100000 := by rw [h21]; omega
    rw [show ((win2_2.rect t).emb fun a => ⟨((ix2 (0 : Fin 1) (⟨(jx 1).val, hq⟩ : Fin 2048)) a).val, _⟩)
        = ix2 (0 : Fin 1) (⟨win2_2.index t 1 * 2048 + 1 * (jx 1).val, hq'⟩ : Fin 100000) from funext fun a => Fin.ext (by
      match a with
      | ⟨0, _⟩ => rw [Rect.emb_apply]; show win2_2.index t 0 * 1 + 1 * 0 = 0; rw [h20]
      | ⟨1, _⟩ => rw [Rect.emb_apply]; rfl), hb]
    refine congrArg bias (funext fun a => Fin.ext ?_)
    match a with
    | ⟨0, _⟩ =>
      show win2_2.index t 1 * 2048 + 1 * (jx 1).val = (((win2_3.rect t).emb jx) 1).val
      rw [Rect.emb_apply]
      show _ = win2_3.index t 1 * 2048 + 1 * (jx 1).val
      rw [h21, h31]

end Blocks

end Cert.Proof.KI.Tc

end
-- ==== Proof.TcValue.lean ====
/-
  What the two matrix products leave in the result's array, at the exact values: the linear layer of the hidden
  array. The first product lands columns [0, 98304), the second columns [98304, 100000) over them and nothing
  else; every entry either lands is the layer's entry there, so together they are the layer.
-/
import proofs.«204096_g51513837748514_cont_sun_m_306_14_alg».proof.Proof.TcBlocks

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic Idealize.ShloMosaic.ValueIdx
open Idealize.ShloMosaic.SparseCore (T)
open Idealize.ShloMosaic.SparseCore.Cfg (HIx)
open Idealize.SL Idealize.SL.RA Idealize.SL.BI
open Idealize.ShloMosaic.Pipeline (RDat Cfg Window cellOf)

/-! ## The result's array -/

/-- The entries of the result a point of the first product writes back: its 256 rows by 8192 columns. -/
theorem mem_blk1 (t : Fin cfg1.N) (i : S1024x100000.Idx) :
    i ∈ ((cfg1.win 3).blk t).view.set ↔ (t.val % 4 * 256 ≤ (i 0).val ∧ (i 0).val < t.val % 4 * 256 + 256)
      ∧ (t.val / 4 * 8192 ≤ (i 1).val ∧ (i 1).val < t.val / 4 * 8192 + 8192) := by
  obtain ⟨h30, h31, -, -, -, -, -, -, x30, x31, -⟩ := sched1 t
  show i ∈ ((View.whole main_v11).slice (win1_3.rect t)).set ↔ _
  rw [View.set_slice_whole, Rect.mem_set_unit]
  constructor
  · intro h
    have h0 : win1_3.index t 0 * 256 ≤ (i 0).val ∧ (i 0).val < win1_3.index t 0 * 256 + win1_3.xsize (grid1.coords t) 0 := h 0
    have h1 : win1_3.index t 1 * 8192 ≤ (i 1).val ∧ (i 1).val < win1_3.index t 1 * 8192 + win1_3.xsize (grid1.coords t) 1 := h 1
    rw [h30, x30] at h0; rw [h31, x31] at h1
    exact ⟨h0, h1⟩
  · rintro ⟨h0, h1⟩ a
    match a with
    | ⟨0, _⟩ =>
      show win1_3.index t 0 * 256 ≤ (i 0).val ∧ (i 0).val < win1_3.index t 0 * 256 + win1_3.xsize (grid1.coords t) 0
      rw [h30, x30]; exact h0
    | ⟨1, _⟩ =>
      show win1_3.index t 1 * 8192 ≤ (i 1).val ∧ (i 1).val < win1_3.index t 1 * 8192 + win1_3.xsize (grid1.coords t) 1
      rw [h31, x31]; exact h1

/-- The entries the second product's one point writes back: every row, columns [98304, 100000). -/
theorem mem_blk2 (t : Fin cfg2.N) (i : S1024x100000.Idx) :
    i ∈ ((cfg2.win 3).blk t).view.set ↔ 98304 ≤ (i 1).val := by
  obtain ⟨h30, h31, -, -, -, -, -, -, x30, x31, -⟩ := sched2 t
  show i ∈ ((View.whole main_v12).slice (win2_3.rect t)).set ↔ _
  rw [View.set_slice_whole, Rect.mem_set_unit]
  have hi0 := (i 0).isLt
  have hi1 := (i 1).isLt
  constructor
  · intro h
    have h1 : win2_3.index t 1 * 2048 ≤ (i 1).val ∧ (i 1).val < win2_3.index t 1 * 2048 + win2_3.xsize (grid2.coords t) 1 := h 1
    rw [h31] at h1; omega
  · intro h a
    match a with
    | ⟨0, _⟩ =>
      show win2_3.index t 0 * 1024 ≤ (i 0).val ∧ (i 0).val < win2_3.index t 0 * 1024 + win2_3.xsize (grid2.coords t) 0
      rw [h30, x30]; exact ⟨by omega, by show (i 0).val < 0 * 1024 + 1024; have : (i 0).val < 1024 := hi0; omega⟩
    | ⟨1, _⟩ =>
      show win2_3.index t 1 * 2048 ≤ (i 1).val ∧ (i 1).val < win2_3.index t 1 * 2048 + win2_3.xsize (grid2.coords t) 1
      rw [h31, x31]; exact ⟨by omega, by have : (i 1).val < 100000 := hi1; omega⟩

set_option maxHeartbeats 800000 in
/-- Whatever the first product's write-backs leave, overwritten by whatever the second's leave, is the linear layer of
    the hidden array: the first lands columns [0, 98304), the second columns [98304, 100000), each entry the layer's. -/
theorem linear_of_left (V1 V2 : (c : Dev nD) → (b : Ref sig .tc) → Buf (Elt Ideal) ((c : Thread nD τ).loc b)) (d : Dev nD)
    (f : FVec Ideal Spec.SHid .f32) (wt : FVec Ideal Spec.STab .f32) (bias : FVec Ideal Spec.SBias .f32)
    (g1 : S1024x100000.Idx → Elt Ideal .f32) (g : S1024x100000.Idx → Elt Ideal .f32)
    (hf1 : (V1 d main_v9 : S1024x64.Idx → Elt Ideal .f32) = f) (hw1 : (V1 d main_arg2 : S100000x64.Idx → Elt Ideal .f32) = wt)
    (hb1 : ∀ q : Fin 100000, (V1 d main_v10 : S1x100000.Idx → Elt Ideal .f32) (ix2 (0 : Fin 1) q) = bias (ix1 q))
    (hL1 : (rdat1 V1 d).ArrAt 3 cfg1.N g1)
    (hf2 : (V2 d main_v9 : S1024x64.Idx → Elt Ideal .f32) = f) (hw2 : (V2 d main_arg2 : S100000x64.Idx → Elt Ideal .f32) = wt)
    (hb2 : ∀ q : Fin 100000, (V2 d main_v10 : S1x100000.Idx → Elt Ideal .f32) (ix2 (0 : Fin 1) q) = bias (ix1 q))
    (h12 : (V2 d main_v12 : S1024x100000.Idx → Elt Ideal .f32) = g1)
    (hL2 : (rdat2 V2 d).ArrAt 3 cfg2.N g) :
    g = (Spec.linear f wt bias : S1024x100000.Idx → Elt Ideal .f32) := by
  have hG1 : ∀ t X, (cfg1.win 3).flush t = true → (rdat1 V1 d).Leaves 3 t X →
      (cfg1.win 3).cut (cfg1.grid.coords t) X = ((cfg1.win 3).blk t).view.read (Elt Ideal) (Spec.linear f wt bias : S1024x100000.Idx → Elt Ideal .f32) :=
    fun t X _ ⟨Y, _, hA⟩ => by
      dsimp only [rdat1] at hA
      obtain ⟨d0, d1, d2, rfl⟩ := hA
      exact cut_out1 V1 d t d0 d1 d2 f wt bias hf1 hw1 hb1
  have hG2 : ∀ t X, (cfg2.win 3).flush t = true → (rdat2 V2 d).Leaves 3 t X →
      (cfg2.win 3).cut (cfg2.grid.coords t) X = ((cfg2.win 3).blk t).view.read (Elt Ideal) (Spec.linear f wt bias : S1024x100000.Idx → Elt Ideal .f32) :=
    fun t X _ ⟨Y, _, hA⟩ => by
      dsimp only [rdat2] at hA
      obtain ⟨d0, d1, d2, rfl⟩ := hA
      exact cut_out2 V2 d t d0 d1 d2 f wt bias hf2 hw2 hb2
  funext i
  have hi0 : (i 0).val < 1024 := (i 0).isLt
  have hi1 : (i 1).val < 100000 := (i 1).isLt
  by_cases hc : 98304 ≤ (i 1).val
  · exact ArrAt_of_mem (rdat2 V2 d) 3 _ hG2 cfg2.N le_rfl g hL2 t2_0 i t2_0.isLt
      (flush2_3 _) ((mem_blk2 t2_0 i).mpr hc)
  · have e2 := ArrAt_of_not_mem (rdat2 V2 d) 3 cfg2.N le_rfl g hL2 i (fun t _ _ hmem => hc ((mem_blk2 t i).mp hmem))
    rw [e2, rdat2_A]
    show (V2 d main_v12 : S1024x100000.Idx → Elt Ideal .f32) i = _
    rw [h12]
    have hN : cfg1.N = 48 := N_1
    have ht : (i 1).val / 8192 * 4 + (i 0).val / 256 < cfg1.N := by rw [hN]; omega
    exact ArrAt_of_mem (rdat1 V1 d) 3 _ hG1 cfg1.N le_rfl g1 hL1 ⟨(i 1).val / 8192 * 4 + (i 0).val / 256, ht⟩ i ht
      (flush1_3 _) ((mem_blk1 _ i).mpr (by
        show ((((i 1).val / 8192 * 4 + (i 0).val / 256) % 4 * 256 ≤ (i 0).val ∧ (i 0).val < ((i 1).val / 8192 * 4 + (i 0).val / 256) % 4 * 256 + 256)
          ∧ (((i 1).val / 8192 * 4 + (i 0).val / 256) / 4 * 8192 ≤ (i 1).val ∧ (i 1).val < ((i 1).val / 8192 * 4 + (i 0).val / 256) / 4 * 8192 + 8192))
        omega))

/-! ## What the result may hold, for any float values -/

section Rel

variable {F : FTy → Type} [FloatOps F] [Named F] [∀ e, Nonempty (Elt F e)]
variable (m : (ℓ : Loc nD τ sig) → Buf (Elt F) ℓ)

/-- The bias as the products read it: one row of a hundred thousand. -/
def bias10 (d : Dev nD) : Buf (Elt F) ((T d : Thread nD τ).loc main_v10) :=
  shapeCast S1x100000 (m (a3Loc d)) shapeCasts_S100000_S1x100000

/-- What @main's two products may leave in the result, given the hidden array `f`: what the second's write-backs may
    leave over what the first's may leave, each entered with the hidden array, the weights and the bias row in its
    three input windows. -/
def OutRel (d : Dev nD) (f : Buf (Elt F) (v9Loc d)) (g : Buf (Elt F) ((T d : Thread nD τ).loc main_v12)) : Prop :=
  ∃ (V1 V2 : (c : Dev nD) → (b : Ref sig .tc) → Buf (Elt F) ((c : Thread nD τ).loc b)) (g1 : Buf (Elt F) ((T d : Thread nD τ).loc main_v11)),
    V1 d main_v9 = f ∧ V1 d main_arg2 = m (a2Loc d) ∧ V1 d main_v10 = bias10 m d ∧ (rdat1 V1 d).ArrAt 3 cfg1.N g1
    ∧ V2 d main_v9 = f ∧ V2 d main_arg2 = m (a2Loc d) ∧ V2 d main_v10 = bias10 m d ∧ V2 d main_v12 = g1
    ∧ (rdat2 V2 d).ArrAt 3 cfg2.N g

end Rel

/-! ## At the exact values: the linear layer -/

/-- The bias row at a column is the bias there. -/
theorem bias10_apply (m : (ℓ : Loc nD τ sig) → Buf (Elt Ideal) ℓ) (d : Dev nD) (q : Fin 100000) :
    (bias10 m d : S1x100000.Idx → Elt Ideal .f32) (ix2 (0 : Fin 1) q) = (m (a3Loc d) : S100000.Idx → Elt Ideal .f32) (ix1 q) := by
  unfold bias10
  exact shapeCast_apply _ _ (ix2 (0 : Fin 1) q) (ix1 q) (by
    rw [Shape.rowMajor_val_one, Shape.rowMajor_val_two]
    show q.val = 0 * 100000 + q.val
    omega)

/-- At the exact values, whatever the two products leave is the linear layer of the hidden array they were handed. -/
theorem OutRel_ideal (m : (ℓ : Loc nD τ sig) → Buf (Elt Ideal) ℓ) (d : Dev nD) (f : Buf (Elt Ideal) (v9Loc d))
    (g : Buf (Elt Ideal) ((T d : Thread nD τ).loc main_v12)) (h : OutRel (F := Ideal) m d f g) :
    g = Cert.Spec.linear f (m (a2Loc d)) (m (a3Loc d)) := by
  obtain ⟨V1, V2, g1, hf1, hw1, hb1, hL1, hf2, hw2, hb2, h12, hL2⟩ := h
  exact linear_of_left V1 V2 d f (m (a2Loc d)) (m (a3Loc d)) g1 g hf1 hw1 (fun q => by rw [hb1]; exact bias10_apply m d q) hL1
    hf2 hw2 (fun q => by rw [hb2]; exact bias10_apply m d q) h12 hL2

end Cert.Proof.KI.Tc

end
-- ==== Proof.TcMainV.lean ====
/-
  @main on the TensorCore again, now with what it leaves in the result: if the SparseCore call returns a hidden array
  of which a property is known, the two products leave, in the result's buffer, contents related to that array as
  their write-backs relate them.
-/
import proofs.«204096_g51513837748514_cont_sun_m_306_14_alg».proof.Proof.TcMain
import proofs.«204096_g51513837748514_cont_sun_m_306_14_alg».proof.Proof.TcValue

set_option maxRecDepth 16384

noncomputable section

namespace Cert.Proof.KI.Tc

open Cert.KernelIdeal Cert.KernelIdeal.Gen
open Cert.Proof.KI

open Idealize.ShloMosaic Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Idealize.ShloMosaic.StableHlo (held held_sub_split held_congr)

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (ρ : Dev nD → PrngReg)
variable (P : (K (F := F)).Pay (nD := nD) (Val := Elt F) (Name := ℕ) (U := UU))
variable (Hid : (d : Dev nD) → Buf (Elt F) (v9Loc d) → Prop)

/-- The bias's reshape and the result's copy, read off the buffers they are applied to. -/
theorem after_ops1_v10 (W : Valuation τ sig (Elt F)) :
    StableHlo.after ops1 W (dr main_v10) = shapeCast S1x100000 (W (dr main_arg3)) shapeCasts_S100000_S1x100000 := by
  after_results; rfl
theorem after_ops2_v12 (W : Valuation τ sig (Elt F)) : StableHlo.after ops2 W (dr main_v12) = W (dr main_v11) := by
  after_results; rfl

/-- A buffer the SparseCore call is not handed and no operation before it writes holds its launch contents after it. -/
theorem W2_launch (d : Dev nD) (x : Ref sig .tc) (f8 f2 f7 f9)
    (h0 : ∀ op ∈ (ops0 : List (HloOp τ sig (Elt F))), dr x ∉ op.writes) (h4 : dr x ∉ (T4 : Finset (DevRef τ sig))) :
    W2 m d f8 f2 f7 f9 (dr x) = m ((T d : Thread nD τ).loc x) := by
  rw [W2_of_not_mem m d f8 f2 f7 f9 _ h4]
  show StableHlo.after ops0 (W0 m d) (dr x) = _
  rw [StableHlo.after_of_forall_not_mem _ _ h0]

/-- What the first product is entered with, and the second, in their three input windows and the second's result. -/
theorem outRel_intro (d : Dev nD) (f8 f2 f7 f9) (g1 : Buf (Elt F) ((d : Thread nD τ).loc main_v11)) (g2 : Buf (Elt F) ((d : Thread nD τ).loc main_v12))
    (h1 : Left1 (fun _ b => StableHlo.after ops1 (W2 m d f8 f2 f7 f9) b) d g1)
    (h2 : Left2 (fun _ b => StableHlo.after ops2 (Function.update (StableHlo.after ops1 (W2 m d f8 f2 f7 f9)) (dr main_v11) g1) b) d g2) :
    OutRel m d f9 g2 := by
  refine ⟨fun _ b => StableHlo.after ops1 (W2 m d f8 f2 f7 f9) b,
    fun _ b => StableHlo.after ops2 (Function.update (StableHlo.after ops1 (W2 m d f8 f2 f7 f9)) (dr main_v11) g1) b, g1, ?_, ?_, ?_, h1, ?_, ?_, ?_, ?_, h2⟩
  · show StableHlo.after ops1 (W2 m d f8 f2 f7 f9) (dr main_v9) = f9
    rw [StableHlo.after_of_forall_not_mem _ _ (by not_written), W2_v9]
  · show StableHlo.after ops1 (W2 m d f8 f2 f7 f9) (dr main_arg2) = m (a2Loc d)
    rw [StableHlo.after_of_forall_not_mem _ _ (by not_written), W2_launch m d main_arg2 f8 f2 f7 f9 (by not_written) (by decide)]
  · show StableHlo.after ops1 (W2 m d f8 f2 f7 f9) (dr main_v10) = bias10 m d
    rw [after_ops1_v10, W2_launch m d main_arg3 f8 f2 f7 f9 (by not_written) (by decide)]; rfl
  · show StableHlo.after ops2 (Function.update (StableHlo.after ops1 (W2 m d f8 f2 f7 f9)) (dr main_v11) g1) (dr main_v9) = f9
    rw [StableHlo.after_of_forall_not_mem _ _ (by not_written), Function.update_of_ne (by decide),
      StableHlo.after_of_forall_not_mem _ _ (by not_written), W2_v9]
  · show StableHlo.after ops2 (Function.update (StableHlo.after ops1 (W2 m d f8 f2 f7 f9)) (dr main_v11) g1) (dr main_arg2) = m (a2Loc d)
    rw [StableHlo.after_of_forall_not_mem _ _ (by not_written), Function.update_of_ne (by decide),
      StableHlo.after_of_forall_not_mem _ _ (by not_written), W2_launch m d main_arg2 f8 f2 f7 f9 (by not_written) (by decide)]
  · show StableHlo.after ops2 (Function.update (StableHlo.after ops1 (W2 m d f8 f2 f7 f9)) (dr main_v11) g1) (dr main_v10) = bias10 m d
    rw [StableHlo.after_of_forall_not_mem _ _ (by not_written), Function.update_of_ne (by decide),
      after_ops1_v10, W2_launch m d main_arg3 f8 f2 f7 f9 (by not_written) (by decide)]; rfl
  · show StableHlo.after ops2 (Function.update (StableHlo.after ops1 (W2 m d f8 f2 f7 f9)) (dr main_v11) g1) (dr main_v12) = g1
    rw [after_ops2_v12, Function.update_self]

/-! ## @main, with the result -/

set_option maxHeartbeats 1600000 in
/-- @main on device `d`'s TensorCore, given the SparseCore call's rule: the stretches by the host operations' rule
    over every unscoped buffer, the call from the three arrays it reads and the one it writes, each product by its
    entry; the TensorCore ends owing nothing, the arguments as launched, the result at contents the products' write-backs
    relate to the hidden array the call returned. -/
theorem hmainV
    (hsc : ∀ (κ : GSem nD τ sig → ℕ) (d : Dev nD) (Φ : PUnit → sProp 𝕄),
      iprop((K (F := F)).ctx EH P κ ∗ (K (F := F)).tcSt EH d 0 ∗ (v8Loc d ↦{fullShare} V8 m d) ∗ (v2Loc d ↦{fullShare} V2 m d)
          ∗ (v7Loc d ↦{fullShare} V7 m d) ∗ (∃ f, v9Loc d ↦{fullShare} f)
          ∗ (((K (F := F)).tcSt EH d 1 ∗ (∃ f, v8Loc d ↦{fullShare} f) ∗ (∃ f, v2Loc d ↦{fullShare} f) ∗ (∃ f, v7Loc d ↦{fullShare} f)
              ∗ (∃ f, ⌜Hid d f⌝ ∗ v9Loc d ↦{fullShare} f)) -∗ Φ ⟨⟩))
        ⊢ wp frame (wpE ((K (F := F)).defs (D (F := F))) 𝒱 (T d) none) Set.univ (sc.run d 0) Φ)
    (κ : GSem nD τ sig → ℕ) (d : Dev nD) :
    iprop((K (F := F)).ctx EH P κ ∗ (K (F := F)).tcSt EH d 0 ∗ (K (F := F)).tcRes m ρ d ∗ G (F := F) d)
      ⊢ wp frame (wpE ((K (F := F)).defs (D (F := F))) 𝒱 (T d) none) Set.univ (main d) fun _ =>
          iprop((K (F := F)).tcSt EH d 1 ∗ (a0Loc d ↦{fullShare} m (a0Loc d)) ∗ (a1Loc d ↦{fullShare} m (a1Loc d))
            ∗ (a2Loc d ↦{fullShare} m (a2Loc d)) ∗ (a3Loc d ↦{fullShare} m (a3Loc d))
            ∗ ∃ f g, ⌜Hid d f ∧ OutRel m d f g⌝ ∗ ((T d : Thread nD τ).loc main_v12 ↦{fullShare} g)) := by
  unfold SparseCore.Cfg.tcRes G
  rw [main_chain]
  simp only [Pipeline.chain_cons, Pipeline.chain_nil]
  rw [show (unscopedBufs d (fun b => m ((T d : Thread nD τ).loc b)) : sProp 𝕄) = held (d.tc : Thread nD τ) UC (W0 m d)
      from Pipeline.unscopedBufs_held d (W0 m d),
    show (Finset.univ : Finset (Fin 2)) = {0, 1} from by decide, SparseCore.bigSep_insert' (by decide), bigSep_singleton]
  iintro ⟨#Hctx, Hst, ⟨Hb, Hh, -, Hp⟩, ⟨Hg0, Ht0⟩, ⟨Hg1, Ht1⟩⟩
  ihave #Hlev := (SparseCore.Cfg.ctx_levAts κ) $$ Hctx
  -- the eleven operations
  iapply (StableHlo.wp_seq (defs := (K (F := F)).defs (D (F := F))) 𝒱 none Set.univ d UC _ ops0 ops0_sub ops0_fresh (W0 m d)) $$ [Hb Hh]
  · isplitl [Hb] <;> iassumption
  iintro ⟨Hb, Hh⟩
  -- the SparseCore call, from the four buffers it is handed
  rw [wp_bind]
  ihave Hs := (Entails.of_eq (held_sub_split (T d : Thread nD τ) T4_sub (W1 m d))) $$ Hh
  icases Hs with ⟨H4, Hrest⟩
  ihave H4' := (Entails.of_eq (held_T4 d (W1 m d))) $$ H4
  icases H4' with ⟨H8, H2, H7, H9⟩
  rw [W1_v8, W1_v2, W1_v7]
  iapply (hsc κ d _)
  isplitr; · iexact Hctx
  isplitl [Hst]; · iexact Hst
  isplitl [H8]; · iexact H8
  isplitl [H2]; · iexact H2
  isplitl [H7]; · iexact H7
  isplitl [H9]; · iexists _; iexact H9
  iintro ⟨Hst, ⟨%f8, H8⟩, ⟨%f2, H2⟩, ⟨%f7, H7⟩, ⟨%f9, %hH, H9⟩⟩
  ihave Hh := (held_W2 m d f8 f2 f7 f9) $$ [H8 H2 H7 H9 Hrest]
  · isplitl [H8]; · iexact H8
    isplitl [H2]; · iexact H2
    isplitl [H7]; · iexact H7
    isplitl [H9]; · iexact H9
    iexact Hrest
  -- the bias reshaped
  iapply (StableHlo.wp_seq (defs := (K (F := F)).defs (D (F := F))) 𝒱 none Set.univ d UC _ ops1 ops1_sub ops1_fresh (W2 m d f8 f2 f7 f9)) $$ [Hb Hh]
  · isplitl [Hb] <;> iassumption
  iintro ⟨Hb, Hh⟩
  -- the first product
  rw [wp_bind]
  ihave Hopen := (tcSt_open (F := F) d) $$ Hst
  icases Hopen with ⟨HOw, Hclose⟩
  iapply (wp_region1 ρ (fun _ b => StableHlo.after ops1 (W2 m d f8 f2 f7 f9) b) (fun _ b => StableHlo.after ops1 (W2 m d f8 f2 f7 f9) b) d)
  rw [reg1_pre, reg1_post]
  isplitl [Hb]; · iexact Hb
  isplitl [Hh Hp HOw]
  · isplitl [Hh]
    · iapply (Entails.of_eq (Pipeline.unscopedBufs_held d (StableHlo.after ops1 (W2 m d f8 f2 f7 f9))).symm) $$ Hh
    isplitl [Hp]; · iexact Hp
    iexact HOw
  isplitr; · iexact Hlev
  isplitl [Hg0]; · iexact Hg0
  isplitl [Ht0]; · iexact Ht0
  iintro ⟨Hb, %g1, %hg1, Hub, Hp, HOw⟩
  rw [update_ref (StableHlo.after ops1 (W2 m d f8 f2 f7 f9)) main_v11 d g1]
  ihave Hh := (Entails.of_eq (Pipeline.unscopedBufs_held d (Function.update (StableHlo.after ops1 (W2 m d f8 f2 f7 f9)) (dr main_v11) g1))) $$ Hub
  -- the result copied
  iapply (StableHlo.wp_seq (defs := (K (F := F)).defs (D (F := F))) 𝒱 none Set.univ d UC _ ops2 ops2_sub ops2_fresh
    (Function.update (StableHlo.after ops1 (W2 m d f8 f2 f7 f9)) (dr main_v11) g1)) $$ [Hb Hh]
  · isplitl [Hb] <;> iassumption
  iintro ⟨Hb, Hh⟩
  -- the second product
  rw [wp_bind]
  iapply (wp_region2 ρ (fun _ b => StableHlo.after ops2 (Function.update (StableHlo.after ops1 (W2 m d f8 f2 f7 f9)) (dr main_v11) g1) b)
    (fun _ b => StableHlo.after ops2 (Function.update (StableHlo.after ops1 (W2 m d f8 f2 f7 f9)) (dr main_v11) g1) b) d)
  rw [reg2_pre, reg2_post]
  isplitl [Hb]; · iexact Hb
  isplitl [Hh Hp HOw]
  · isplitl [Hh]
    · iapply (Entails.of_eq (Pipeline.unscopedBufs_held d (StableHlo.after ops2 (Function.update (StableHlo.after ops1 (W2 m d f8 f2 f7 f9)) (dr main_v11) g1))).symm) $$ Hh
    isplitl [Hp]; · iexact Hp
    iexact HOw
  isplitr; · iexact Hlev
  isplitl [Hg1]; · iexact Hg1
  isplitl [Ht1]; · iexact Ht1
  iintro ⟨Hb, %g2, %hg2, Hub, Hp, HOw⟩
  rw [update_ref (StableHlo.after ops2 (Function.update (StableHlo.after ops1 (W2 m d f8 f2 f7 f9)) (dr main_v11) g1)) main_v12 d g2]
  ihave Hh := (Entails.of_eq (Pipeline.unscopedBufs_held d
    (Function.update (StableHlo.after ops2 (Function.update (StableHlo.after ops1 (W2 m d f8 f2 f7 f9)) (dr main_v11) g1)) (dr main_v12) g2))) $$ Hub
  -- the return: the arguments and the result read off the buffers
  ihave Hs := (Entails.of_eq (held_sub_split (T d : Thread nD τ) T5_sub _)) $$ Hh
  icases Hs with ⟨H5, -⟩
  ihave H5' := (Entails.of_eq (held_T5 d _)) $$ H5
  icases H5' with ⟨Ha0, Ha1, Ha2, Ha3, Hv12⟩
  rw [kept m d main_arg0 f8 f2 f7 f9 g1 g2 (by not_written) (by not_written) (by not_written) (by decide) (by decide) (by decide),
    kept m d main_arg1 f8 f2 f7 f9 g1 g2 (by not_written) (by not_written) (by not_written) (by decide) (by decide) (by decide),
    kept m d main_arg2 f8 f2 f7 f9 g1 g2 (by not_written) (by not_written) (by not_written) (by decide) (by decide) (by decide),
    kept m d main_arg3 f8 f2 f7 f9 g1 g2 (by not_written) (by not_written) (by not_written) (by decide) (by decide) (by decide)]
  rw [wp_pure]; imodintro
  isplitl [HOw Hclose]; · iapply Hclose; iexact HOw
  isplitl [Ha0]; · iexact Ha0
  isplitl [Ha1]; · iexact Ha1
  isplitl [Ha2]; · iexact Ha2
  isplitl [Ha3]; · iexact Ha3
  rw [Function.update_self]
  iexists f9; iexists g2
  isplitr; · ipureintro; exact ⟨hH, outRel_intro m d f8 f2 f7 f9 g1 g2 hg1 hg2⟩
  iexact Hv12

end Cert.Proof.KI.Tc

end
-- ==== Proof.MainV.lean ====
/-
  The kernel program's run with its result kept: as the frame's run, with the hidden array named after the
  SparseCore call and the result array related to it by the two TensorCore regions' write-backs.
-/
import proofs.«204096_g51513837748514_cont_sun_m_306_14_alg».proof.Proof.CallV
import proofs.«204096_g51513837748514_cont_sun_m_306_14_alg».proof.Proof.Main
import proofs.«204096_g51513837748514_cont_sun_m_306_14_alg».proof.Proof.TcMainV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F] [∀ e, Nonempty (Elt F e)]

local notation "𝕄" => MT nD τ sig (HIx 1) (Elt F) ℕ UU ℕ

variable (m : (ℓ : Loc nD τ sig) → Buf (Elt F) ℓ) (ρ : Dev nD → PrngReg)
variable (HG : (d : Dev nD) → Buf (Elt F) (v9Loc d))

abbrev v12Loc (d : Dev nD) : Loc nD τ sig := (SparseCore.T d).loc main_v12

theorem hu₀V (G : Dev nD → sProp 𝕄) (uP : UP)
    (hfund : (BI.own ((EP (F := F)) uP) : sProp 𝕄) ⊢ |={Set.univ}=> bigSep Finset.univ G) :
    (ownU (u₀ (F := F) uP) : sProp 𝕄)
      ⊢ |={Set.univ}=> iprop(BI.own (EH (initOf (K (F := F)).hsCells (K (F := F)).hsToks)) ∗ bigSep Finset.univ G
        ∗ bigSep Finset.univ fun thr : Thread nD τ => bigSep Finset.univ fun q : Fin 1 => (PV (F := F) m HG).x q thr) :=
  hu₀ m G uP hfund

/-- What @main leaves beside the arguments: the result array at contents the two regions may have written from the
    hidden array `HG d`. -/
def RV (d : Dev nD) : sProp 𝕄 :=
  iprop(∃ f g, ⌜f = HG d ∧ Tc.OutRel m d f g⌝ ∗ (v12Loc d ↦{fullShare} g))

def fqV (d : Dev nD) (s' : Phys nD τ sig (Elt F)) : Prop :=
  (∃ g, Tc.OutRel m d (HG d) g ∧ s'.mem.mem (v12Loc d) = g)
    ∧ s'.mem.mem (a0Loc d) = m (a0Loc d) ∧ s'.mem.mem (a1Loc d) = m (a1Loc d) ∧ s'.mem.mem (a2Loc d) = m (a2Loc d) ∧ s'.mem.mem (a3Loc d) = m (a3Loc d)

theorem hfinV (d : Dev nD) (s' : Phys nD τ sig (Elt F)) : iprop(FIN m (RV m HG) d ∗ SI s') ⊢ (⌜fqV m HG d s'⌝ : sProp 𝕄) := by
  unfold RV
  iintro ⟨⟨H0, H1, H2, H3, ⟨%f, %g, %hfg, Hg⟩⟩, HSI⟩
  icombine HSI H0 gives %h0
  icombine HSI H1 gives %h1
  icombine HSI H2 gives %h2
  icombine HSI H3 gives %h3
  icombine HSI Hg gives %hg
  ipureintro
  exact ⟨⟨g, hfg.1 ▸ hfg.2, funext fun i => hg i (Finset.mem_univ i)⟩, funext fun i => h0 i (Finset.mem_univ i), funext fun i => h1 i (Finset.mem_univ i),
    funext fun i => h2 i (Finset.mem_univ i), funext fun i => h3 i (Finset.mem_univ i)⟩

def QCV : PUnit × MemSt nD τ sig (Elt F) → Prop := fun r => ∀ c : Dev nD,
  (∃ g, Tc.OutRel m c (HG c) g ∧ r.2.mem (v12Loc c) = g)
    ∧ r.2.mem (a0Loc c) = m (a0Loc c) ∧ r.2.mem (a1Loc c) = m (a1Loc c) ∧ r.2.mem (a2Loc c) = m (a2Loc c) ∧ r.2.mem (a3Loc c) = m (a3Loc c)

theorem run_mainV (htile : (K (F := F)).TileObl (D (F := F)) 𝒱 (PV m HG) v₀ 0) :
    θ_run (Cert.KernelIdeal.defs (F := F)) (Cert.KernelIdeal.threads (F := F)) ⟨m, fun _ => 0, ρ⟩ (QCV m HG) :=
  SparseCore.Cfg.θ_run_sc (K := K (F := F)) (D := D (F := F)) (𝒱 := 𝒱) (EH := EH) (P := PV m HG) facts v₀
    (fun q hq => match q with | 0 => nomatch hq)
    (fun q _ => match q with | 0 => htile)
    (fun q _ => match q with | 0 => SparseCore.Cfg.VecSplit.of_plain (vecSplitV m HG))
    m ρ main Tc.G (FIN m (RV m HG)) (u₀ (F := F) Tc.uP) (sep_elim_left.trans (hu₀V m HG Tc.G Tc.uP Tc.hfund))
    (fun κ d => Tc.hmainV m ρ (PV m HG) (fun d f => f = HG d) (fun κ d Φ => wp_sc_callV m HG htile κ d Φ) κ d)
    (fqV m HG) (hfinV m HG) (QCV m HG) (fun _ h => h)

end Cert.Proof.KI

end
-- ==== Proof.HidTerm.lean ====
/-
  The SparseCore kernel's arithmetic as one scalar function, and what it computes.

  A vector subcore w of the thirty-two writes rows 32 w + r of the hidden array, r = 0 … 31. For row r it reads, for
  each of the twenty context positions c in order, entry 20 (r mod 4) + c of chunk r / 4 of its block of halved
  context words; the halved word h names row h of the paired table, whose columns 0 … 63 are row 2h of the embedding
  table and whose columns 64 … 127 are row 2h + 1; with p the word's parity as a float the summand at column col is
    x0 + p · (x1 − x0),   x0 = paired (h, col),   x1 = paired (h, 64 + col),
  which is the embedding table at (2h + parity, col) — at the word's own row — whenever x0 and x1 are real numbers.
  The twenty summands are added in order from zero and the sum is multiplied by the named constant 1/20: the mean of
  the twenty embedding rows, the specification's hidden coordinate.
-/
import proofs.«204096_g51513837748514_cont_sun_m_306_14_alg».proof.Proof.Iface
import proofs.«204096_g51513837748514_cont_sun_m_306_14_alg».proof.Proof.PreFacts
import proofs.«204096_g51513837748514_cont_sun_m_306_14_alg».proof.Proof.HalfOK
import proofs.«204096_g51513837748514_cont_sun_m_306_14_alg».proof.Proof.Spec
import Idealize.ShloMosaic.Lib.ValueIdx
import Idealize.ShloMosaic.Lib.Pipeline.Value
import Idealize.ShloMosaic.PureOps.IdealRules
import Idealize.ShloMosaic.PureOps.Ideal.Laws

noncomputable section

namespace Cert.Proof.KI

open Cert.KernelIdeal Cert.KernelIdeal.Gen

open Idealize.ShloMosaic Idealize.ShloMosaic.ValueIdx

variable {F : FTy → Type} [FloatOps F] [Named F]

/-! ## The term -/

/-- The chunk of a subcore's block that holds its row r: four batch rows to a chunk. -/
abbrev chunkOf (r : Fin 32) : Fin 8 := ⟨r.val / 4, by omega⟩
/-- The entry of that chunk for row r and context position c: twenty entries to a batch row. -/
abbrev entryOf (r : Fin 32) (c : Fin 20) : Fin 80 := ⟨20 * (r.val % 4) + c.val, by omega⟩
/-- The same entry counted through the subcore's whole block of 640 (the parity array's second axis). -/
abbrev parRow (r : Fin 32) (c : Fin 20) : Fin 640 := ⟨80 * (r.val / 4) + (20 * (r.val % 4) + c.val), by omega⟩
/-- A column's lane within its group of sixteen. -/
abbrev laneOf (col : Fin 64) : Fin 16 := ⟨col.val % 16, Nat.mod_lt _ (by norm_num)⟩
/-- Column col of the paired table's left half … -/
abbrev lowCol (col : Fin 64) : Fin 128 := ⟨col.val, by omega⟩
/-- … and of its right half. -/
abbrev highCol (col : Fin 64) : Fin 128 := ⟨64 + col.val, by omega⟩

/-- The summand of subcore w's row r at column col for context position c: x0 + p · (x1 − x0), over the halved words
    `f2` (each a row of the paired table, `h2`), the parities `f7` and the paired table `f8`. -/
def hidStep (f2 : IVec S32x8x80 32) (f7 : FVec F S32x640x16 .f32) (f8 : FVec F S50000x128 .f32)
    (h2 : ∀ j, (f2 j).toNat < 50000) (w r : Fin 32) (col : Fin 64) (c : Fin 20) : F .f32 :=
  FloatOps.addf (f8 (ix2 (⟨(f2 (ix3 w (chunkOf r) (entryOf r c))).toNat, h2 _⟩ : Fin 50000) (lowCol col)))
    (FloatOps.mulf (f7 (ix3 w (parRow r c) (laneOf col)))
      (FloatOps.subf (f8 (ix2 (⟨(f2 (ix3 w (chunkOf r) (entryOf r c))).toNat, h2 _⟩ : Fin 50000) (highCol col)))
        (f8 (ix2 (⟨(f2 (ix3 w (chunkOf r) (entryOf r c))).toNat, h2 _⟩ : Fin 50000) (lowCol col)))))

/-- Twenty summands added in order, from the zero word. -/
def hidAcc (t : Fin 20 → F .f32) : F .f32 :=
  (List.finRange 20).foldl (fun acc c => FloatOps.addf acc (t c)) (FloatOps.ofBits .f32 0x00000000#32)

/-- The same written out. -/
theorem hidAcc_eq (t : Fin 20 → F .f32) :
    hidAcc t = FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.ofBits .f32 0x00000000#32) (t 0)) (t 1)) (t 2)) (t 3)) (t 4)) (t 5)) (t 6)) (t 7)) (t 8)) (t 9)) (t 10)) (t 11)) (t 12)) (t 13)) (t 14)) (t 15)) (t 16)) (t 17)) (t 18)) (t 19) := rfl

/-- What subcore w stores at row r, column col of its block of the hidden array: the twenty summands' sum times the
    named constant. -/
def hidTerm (f2 : IVec S32x8x80 32) (f7 : FVec F S32x640x16 .f32) (f8 : FVec F S50000x128 .f32)
    (h2 : ∀ j, (f2 j).toNat < 50000) (w r : Fin 32) (col : Fin 64) : F .f32 :=
  FloatOps.mulf (hidAcc (hidStep f2 f7 f8 h2 w r col)) (Named.named Cert.KernelIdeal.κ "inv_20" (φ := .f32) 0x3D4CCCCD#32)

/-! ## The three arrays at the indices the term reads -/

section Arrays

variable (m : (ℓ : Loc nD τ sig) → Buf (Elt F) ℓ) (d : Dev nD)

/-- The batch row subcore w's row r is. -/
abbrev batchRow (w r : Fin 32) : Fin 1024 := ⟨32 * w.val + r.val, by omega⟩

/-- The halved word the term reads for (r, c) is the arithmetic shift of the context word at batch row 32 w + r,
    context position c: the re-laid array holds the same elements in row-major order. -/
theorem V2_apply (w r : Fin 32) (c : Fin 20) :
    (V2 m d) (ix3 w (chunkOf r) (entryOf r c)) = IntOp.shrsi .host ((m (a0Loc d)) (ix2 (batchRow w r) c)) 1#32 := by
  have e1 : (S1024x20.rowMajor (ix2 (batchRow w r) c)).val = (32 * w.val + r.val) * 20 + c.val := Shape.rowMajor_val_two _
  have e2 : (S32x8x80.rowMajor (ix3 w (chunkOf r) (entryOf r c))).val = (w.val * 8 + r.val / 4) * 80 + (20 * (r.val % 4) + c.val) :=
    Shape.rowMajor_val_three _
  show shapeCast S32x8x80 (Host.shrsi (m (a0Loc d)) ones : IVec S1024x20 32) shapeCasts_S1024x20_S32x8x80 (ix3 w (chunkOf r) (entryOf r c)) = _
  refine (shapeCast_apply _ _ _ (ix2 (batchRow w r) c) ?_).trans rfl
  rw [e1, e2]; omega

/-- The parity the term reads for (r, c), at any lane, is the same context word's low bit as a float. -/
theorem V7_apply (w r : Fin 32) (c : Fin 20) (l : Fin 16) :
    (V7 m d) (ix3 w (parRow r c) l) = FloatOps.sitofp .f32 (IntOp.andi ((m (a0Loc d)) (ix2 (batchRow w r) c)) 1#32) := by
  have e1 : (S1024x20.rowMajor (ix2 (batchRow w r) c)).val = (32 * w.val + r.val) * 20 + c.val := Shape.rowMajor_val_two _
  have e2 : (S32x640x1.rowMajor (ix3 w (parRow r c) (0 : Fin 1))).val
      = (w.val * 640 + (80 * (r.val / 4) + (20 * (r.val % 4) + c.val))) * 1 + 0 := Shape.rowMajor_val_three _
  have hb : (V7 m d) (ix3 w (parRow r c) l)
      = shapeCast S32x640x1 (sitofp .f32 (andi (m (a0Loc d)) ones : IVec S1024x20 32) : FVec F S1024x20 .f32) shapeCasts_S1024x20_S32x640x1
          (ix3 w (parRow r c) (0 : Fin 1)) := by
    unfold V7 broadcastInDim
    congr 1
    funext a
    match a with
    | ⟨0, _⟩ => exact Fin.ext rfl
    | ⟨1, _⟩ => exact Fin.ext rfl
    | ⟨2, _⟩ => exact Fin.ext rfl
  rw [hb]
  refine (shapeCast_apply _ _ _ (ix2 (batchRow w r) c) ?_).trans rfl
  rw [e1, e2]; omega

/-- Row H of the paired table is rows 2H and 2H + 1 of the embedding table side by side: the left half … -/
theorem V8_low (H : Fin 50000) (col : Fin 64) :
    (V8 m d) (ix2 H (lowCol col)) = (m (a1Loc d)) (ix2 (⟨2 * H.val, by omega⟩ : Fin 100000) col) := by
  have e1 : (S100000x64.rowMajor (ix2 (⟨2 * H.val, by omega⟩ : Fin 100000) col)).val = (2 * H.val) * 64 + col.val := Shape.rowMajor_val_two _
  have e2 : (S50000x128.rowMajor (ix2 H (lowCol col))).val = H.val * 128 + col.val := Shape.rowMajor_val_two _
  show shapeCast S50000x128 (m (a1Loc d)) shapeCasts_S100000x64_S50000x128 (ix2 H (lowCol col)) = _
  refine shapeCast_apply _ _ _ (ix2 (⟨2 * H.val, by omega⟩ : Fin 100000) col) ?_
  rw [e1, e2]; omega

/-- … and the right half. -/
theorem V8_high (H : Fin 50000) (col : Fin 64) :
    (V8 m d) (ix2 H (highCol col)) = (m (a1Loc d)) (ix2 (⟨2 * H.val + 1, by omega⟩ : Fin 100000) col) := by
  have e1 : (S100000x64.rowMajor (ix2 (⟨2 * H.val + 1, by omega⟩ : Fin 100000) col)).val = (2 * H.val + 1) * 64 + col.val := Shape.rowMajor_val_two _
  have e2 : (S50000x128.rowMajor (ix2 H (highCol col))).val = H.val * 128 + (64 + col.val) := Shape.rowMajor_val_two _
  show shapeCast S50000x128 (m (a1Loc d)) shapeCasts_S100000x64_S50000x128 (ix2 H (highCol col)) = _
  refine shapeCast_apply _ _ _ (ix2 (⟨2 * H.val + 1, by omega⟩ : Fin 100000) col) ?_
  rw [e1, e2]; omega

end Arrays

/-- The summand with the paired-table row named. -/
theorem hidStep_of (f2 : IVec S32x8x80 32) (f7 : FVec F S32x640x16 .f32) (f8 : FVec F S50000x128 .f32)
    (h2 : ∀ j, (f2 j).toNat < 50000) (w r : Fin 32) (col : Fin 64) (c : Fin 20) (H : Fin 50000)
    (hH : (f2 (ix3 w (chunkOf r) (entryOf r c))).toNat = H.val) :
    hidStep f2 f7 f8 h2 w r col c
      = FloatOps.addf (f8 (ix2 H (lowCol col)))
          (FloatOps.mulf (f7 (ix3 w (parRow r c) (laneOf col))) (FloatOps.subf (f8 (ix2 H (highCol col))) (f8 (ix2 H (lowCol col))))) := by
  have e : (⟨(f2 (ix3 w (chunkOf r) (entryOf r c))).toNat, h2 _⟩ : Fin 50000) = H := Fin.ext hH
  unfold hidStep
  rw [e]

/-! ## At the extended reals -/

/-- A real sum's coercion is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Between two real numbers, x + p · (y − x) with p zero or one picks x or y. -/
theorem sel_real (x y : ℝ) (n : ℕ) (hn : n < 2) :
    (x : EReal) + ((n : ℝ) : EReal) * ((y : EReal) - (x : EReal)) = if n = 0 then (x : EReal) else (y : EReal) := by
  rw [← EReal.coe_sub, ← EReal.coe_mul, ← EReal.coe_add]
  interval_cases n
  · simp
  · simp

/-- The low bit of a word, read signed, is its unsigned value modulo two. -/
theorem toInt_and1 (w : BitVec 32) : (IntOp.andi w 1#32).toInt = ((w.toNat % 2 : ℕ) : ℤ) := by
  have h : (IntOp.andi w 1#32).toNat = w.toNat % 2 := by
    show (w &&& 1#32).toNat = _
    rw [BitVec.toNat_and]
    show w.toNat &&& 1 = _
    exact Nat.and_one_is_mod _
  rw [BitVec.toInt_eq_toNat_of_lt (by rw [h]; omega), h]

/-- A left fold by addition is the start plus the list's sum. -/
theorem foldl_add_eq {ι : Type} (t : ι → EReal) : ∀ (l : List ι) (z : EReal), l.foldl (fun acc c => acc + t c) z = z + (l.map t).sum
  | [], z => by simp
  | a :: l, z => by
    rw [List.foldl_cons, foldl_add_eq t l, List.map_cons, List.sum_cons, add_assoc]

/-- Added in order from zero, twenty extended reals are their sum. -/
theorem hidAcc_ideal (t : Fin 20 → EReal) : hidAcc (F := Ideal) t = ∑ c : Fin 20, t c := by
  show (List.finRange 20).foldl (fun acc c => acc + t c) (Ideal.ofBits .f32 0x00000000#32) = _
  rw [foldl_add_eq, Ideal.ofBits_zero_f32, zero_add, Fin.sum_univ_def]

/-- The named constant is the real 1/20. -/
theorem inv_20 : Named.named (F := Ideal) Cert.KernelIdeal.κ "inv_20" (φ := .f32) 0x3D4CCCCD#32 = ((1 / 20 : ℝ) : EReal) :=
  IdealRules.named_const.ideal_named_scalar _ _ _ _ rfl

section Spec

variable (m : (ℓ : Loc nD τ sig) → Buf (Elt Ideal) ℓ)
  (hpre : ∀ c : Dev nD, Cert.Pre_input_domain.fn (F := Ideal) (m (a0Loc c)) (m (a1Loc c)) (m (a2Loc c)) (m (a3Loc c)) = fun _ => 1#1)

include hpre in
/-- One summand is the embedding table at the context word's own row. -/
theorem hidStep_spec (d : Dev nD) (w r : Fin 32) (col : Fin 64) (c : Fin 20) :
    hidStep (F := Ideal) (V2 m d) (V7 m d) (V8 m d) (halfOK m hpre d) w r col c
      = (m (a1Loc d)) (ix2 (Cert.Spec.row (m (a0Loc d)) (batchRow w r) c) col) := by
  have hr := Cert.PreFacts.idx_toInt _ _ _ _ (hpre d) (ix2 (batchRow w r) c)
  have hlt := Cert.PreFacts.idx_lt _ _ _ _ (hpre d) (ix2 (batchRow w r) c)
  have hreal := Cert.PreFacts.emb_real _ _ _ _ (hpre d)
  generalize hW : (m (a0Loc d)) (ix2 (batchRow w r) c) = W at hr hlt
  have hH : ((V2 m d) (ix3 w (chunkOf r) (entryOf r c))).toNat = (⟨W.toNat / 2, by omega⟩ : Fin 50000).val := by
    rw [V2_apply, hW, toNat_shrsi_one _ _ hr.1]
  rw [hidStep_of _ _ _ _ w r col c ⟨W.toNat / 2, by omega⟩ hH, V7_apply, V8_low, V8_high, hW]
  obtain ⟨x, hx⟩ := hreal (ix2 (⟨2 * (W.toNat / 2), by omega⟩ : Fin 100000) col)
  obtain ⟨y, hy⟩ := hreal (ix2 (⟨2 * (W.toNat / 2) + 1, by omega⟩ : Fin 100000) col)
  have hp : FloatOps.sitofp (F := Ideal) .f32 (IntOp.andi W 1#32) = (((W.toNat % 2 : ℕ) : ℝ) : EReal) := by
    show (((IntOp.andi W 1#32).toInt : ℝ) : EReal) = _
    rw [toInt_and1, Int.cast_natCast]
  have hrow : Cert.Spec.row (m (a0Loc d)) (batchRow w r) c = (⟨W.toNat, hlt⟩ : Fin 100000) := by
    refine Fin.ext ?_
    show ((m (a0Loc d)) (ix2 (batchRow w r) c)).toNat % 100000 = W.toNat
    rw [hW, Nat.mod_eq_of_lt hlt]
  rw [hx, hy, hp]
  show (x : EReal) + (((W.toNat % 2 : ℕ) : ℝ) : EReal) * ((y : EReal) - (x : EReal)) = _
  rw [hrow, sel_real x y _ (Nat.mod_lt _ (by norm_num))]
  rcases Nat.mod_two_eq_zero_or_one W.toNat with h0 | h1
  · rw [if_pos h0, ← hx]
    exact congrArg (fun q : Fin 100000 => (m (a1Loc d)) (ix2 q col)) (Fin.ext (by show 2 * (W.toNat / 2) = W.toNat; omega))
  · rw [if_neg (by omega), ← hy]
    exact congrArg (fun q : Fin 100000 => (m (a1Loc d)) (ix2 q col)) (Fin.ext (by show 2 * (W.toNat / 2) + 1 = W.toNat; omega))

include hpre in
/-- What the kernel's arithmetic stores at row 32 w + r, column col is the specification's hidden coordinate there. -/
theorem hidTerm_spec (d : Dev nD) (w r : Fin 32) (col : Fin 64) :
    hidTerm (F := Ideal) (V2 m d) (V7 m d) (V8 m d) (halfOK m hpre d) w r col
      = Cert.Spec.hidden (m (a0Loc d)) (m (a1Loc d)) (batchRow w r) col := by
  unfold hidTerm Cert.Spec.hidden
  rw [hidAcc_ideal, inv_20]
  exact congrArg (· * ((1 / 20 : ℝ) : EReal)) (Finset.sum_congr rfl fun c _ => hidStep_spec m hpre d w r col c)

end Spec

end Cert.Proof.KI

end
-- ==== Proof.ValueKI.lean ====
/-
  The kernel program's result, at the exact reals: the hidden array the tiles leave is the mean of the gathered rows,
  and the two TensorCore regions' write-backs of it are the linear layer applied to it — together the specification.
-/
import proofs.«204096_g51513837748514_cont_sun_m_306_14_alg».proof.Proof.MainV
import proofs.«204096_g51513837748514_cont_sun_m_306_14_alg».proof.Proof.HidTerm

noncomputable section

namespace Cert.Proof.KI

open Cert.KernelIdeal Cert.KernelIdeal.Gen

open Idealize.ShloMosaic Idealize.ShloMosaic.ValueIdx
open Idealize.SL Idealize.SL.Sem

variable {F : FTy → Type} [FloatOps F] [Named F]

/-- What the tiles leave in the hidden array, entry by entry: row `32 w + r` is tile `w`'s row `r`. -/
def HGof (m : (ℓ : Loc nD τ sig) → Buf (Elt F) ℓ) (hh : HalfOK m) (d : Dev nD) : Buf (Elt F) (v9Loc d) :=
  fun j => hidTerm (V2 m d) (V7 m d) (V8 m d) (hh d) ⟨(j 0).val / 32, by have := idx2_lt0 j; omega⟩ ⟨(j 0).val % 32, Nat.mod_lt _ (by norm_num)⟩
    ⟨(j 1).val, idx2_lt1 j⟩

theorem HGof_spec (m : (ℓ : Loc nD τ sig) → Buf (Elt Ideal) ℓ)
    (hpre : ∀ c : Dev nD, Cert.Pre_input_domain.fn (F := Ideal) (m (a0Loc c)) (m (a1Loc c)) (m (a2Loc c)) (m (a3Loc c)) = fun _ => 1#1) (d : Dev nD) :
    HGof (F := Ideal) m (halfOK m hpre) d = Cert.Spec.hiddenArr (m (a0Loc d)) (m (a1Loc d)) := by
  funext j
  unfold HGof
  rw [hidTerm_spec m hpre d]
  unfold Cert.Spec.hiddenArr
  congr 1
  · exact Fin.ext (Nat.div_add_mod (j 0).val 32)

theorem runV (m : (ℓ : Loc nD τ sig) → Buf (Elt Ideal) ℓ) (ρ : Dev nD → PrngReg)
    (hpre : ∀ c : Dev nD, Cert.Pre_input_domain.fn (F := Ideal) (m (a0Loc c)) (m (a1Loc c)) (m (a2Loc c)) (m (a3Loc c)) = fun _ => 1#1)
    (htile : (K (F := Ideal)).TileObl (D (F := Ideal)) 𝒱 (PV m (HGof m (halfOK m hpre))) v₀ 0) :
    θ_run (Cert.KernelIdeal.defs (F := Ideal)) (Cert.KernelIdeal.threads (F := Ideal)) ⟨m, fun _ => 0, ρ⟩ (fun r => ∀ c : Dev nD,
      r.2.mem (v12Loc c) = Cert.Spec.out (m (a0Loc c)) (m (a1Loc c)) (m (a2Loc c)) (m (a3Loc c))
      ∧ r.2.mem (a0Loc c) = m (a0Loc c) ∧ r.2.mem (a1Loc c) = m (a1Loc c) ∧ r.2.mem (a2Loc c) = m (a2Loc c) ∧ r.2.mem (a3Loc c) = m (a3Loc c)) :=
  (θ_run (Cert.KernelIdeal.defs (F := Ideal)) _ _).mono (fun _ h c => by
      obtain ⟨⟨g, hg, hm⟩, hargs⟩ := h c
      refine ⟨?_, hargs⟩
      rw [hm, Tc.OutRel_ideal m c _ g hg, HGof_spec m hpre c]
      rfl)
    (run_mainV (F := Ideal) m ρ (HGof m (halfOK m hpre)) htile)

end Cert.Proof.KI

end
-- ==== Proof.TileV.lean ====
/-
  One vector subcore's task once more, this time keeping what it leaves behind: the same run as the frame's, stated
  over explicit starting contents of the tile's four scratch buffers, with the final contents of the tile's rows of
  the hidden array (and of the scratches) kept as named terms, so that what those rows hold can be read off later,
  index by index, without running the body again.
-/
import proofs.«204096_g51513837748514_cont_sun_m_306_14_alg».proof.Proof.Tile

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section TileV

variable (d : Dev nD) (L : grid0.Coords)

abbrev ptsS0 (f : Buf (Elt F) ((sIdx).view.loc (thr d L))) : sProp 𝕄 := (sIdx).view.loc (thr d L) ↦{fullShare} f
abbrev ptsS1 (f : Buf (Elt F) ((sRows).view.loc (thr d L))) : sProp 𝕄 := (sRows).view.loc (thr d L) ↦{fullShare} f
abbrev ptsS2 (f : Buf (Elt F) ((sPar).view.loc (thr d L))) : sProp 𝕄 := (sPar).view.loc (thr d L) ↦{fullShare} f
abbrev ptsS3 (f : Buf (Elt F) ((sHid).view.loc (thr d L))) : sProp 𝕄 := (sHid).view.loc (thr d L) ↦{fullShare} f

/-- The run with everything it leaves named. -/
structure TileRun (q2 q7 q8a q8b : PosShare TreeShare)
    (f2 : Buf (Elt F) ((iV).view.loc (thr d L))) (f7 : Buf (Elt F) ((pV).view.loc (thr d L))) (f8 : Buf (Elt F) ((tV).view.loc (thr d L)))
    (f9 : Buf (Elt F) ((oRowK L).view.loc (thr d L)))
    (fs0 : Buf (Elt F) ((sIdx).view.loc (thr d L))) (fs1 : Buf (Elt F) ((sRows).view.loc (thr d L)))
    (fs2 : Buf (Elt F) ((sPar).view.loc (thr d L))) (fs3 : Buf (Elt F) ((sHid).view.loc (thr d L)))
    (O : CellTallies nD τ sig (HIx 1)) (W : Waits sig (HIx 1)) where
  out : Buf (Elt F) ((oRowK L).view.loc (thr d L))
  s0 : Buf (Elt F) ((sIdx).view.loc (thr d L))
  s1 : Buf (Elt F) ((sRows).view.loc (thr d L))
  s2 : Buf (Elt F) ((sPar).view.loc (thr d L))
  s3 : Buf (Elt F) ((sHid).view.loc (thr d L))
  W' : Waits sig (HIx 1)
  run : iprop(levAts (K (F := F)).L (K (F := F)).lev
        ∗ (pts2 d L q2 f2 ∗ pts7 d L q7 f7 ∗ pts8 d L q8a f8 ∗ pts8 d L q8b f8 ∗ pts9 d L f9)
        ∗ (ptsS0 d L fs0 ∗ ptsS1 d L fs1 ∗ ptsS2 d L fs2 ∗ ptsS3 d L fs3)
        ∗ (semVal (cG0 d L) 0 ∗ semVal (cG1 d L) 0 ∗ semVal (cA d L) 0 ∗ semVal (cB d L) 0 ∗ semVal (cC d L) 0)
        ∗ owes (thr d L) O W)
      ⊢ wp frame (wpE (defs₀ (F := F)) 𝒱₀ (thr d L) none) Set.univ
          (cc0__sc_hidden L tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop((pts2 d L q2 f2 ∗ pts7 d L q7 f7 ∗ pts8 d L q8a f8 ∗ pts8 d L q8b f8 ∗ pts9 d L out)
            ∗ (ptsS0 d L s0 ∗ ptsS1 d L s1 ∗ ptsS2 d L s2 ∗ ptsS3 d L s3)
            ∗ (semVal (cG0 d L) 0 ∗ semVal (cG1 d L) 0 ∗ semVal (cA d L) 0 ∗ semVal (cB d L) 0 ∗ semVal (cC d L) 0)
            ∗ ⌜∀ p ∈ W', p ∈ W ∨ p.2 = none⌝ ∗ owes (thr d L) O W')

omit [Named F] in
/-- Row 0 of the copied block of halved words holds words below the paired table's height. -/
theorem hinRow0 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![0, 0] S1x80.size inb_S8x80_S1x80_0_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 1 of the copied block of halved words holds words below the paired table's height. -/
theorem hinRow1 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![1, 0] S1x80.size inb_S8x80_S1x80_1_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 2 of the copied block of halved words holds words below the paired table's height. -/
theorem hinRow2 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![2, 0] S1x80.size inb_S8x80_S1x80_2_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 3 of the copied block of halved words holds words below the paired table's height. -/
theorem hinRow3 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![3, 0] S1x80.size inb_S8x80_S1x80_3_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 4 of the copied block of halved words holds words below the paired table's height. -/
theorem hinRow4 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![4, 0] S1x80.size inb_S8x80_S1x80_4_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 5 of the copied block of halved words holds words below the paired table's height. -/
theorem hinRow5 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![5, 0] S1x80.size inb_S8x80_S1x80_5_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 6 of the copied block of halved words holds words below the paired table's height. -/
theorem hinRow6 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![6, 0] S1x80.size inb_S8x80_S1x80_6_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

omit [Named F] in
/-- Row 7 of the copied block of halved words holds words below the paired table's height. -/
theorem hinRow7 (f2 : Buf (Elt F) ((iV).view.loc (thr d L))) (fs0 : Buf (Elt F) ((sIdx).view.loc (thr d L)))
    (hin : ∀ j, (f2 j).toNat < 50000) :
    ∀ x : S80.Idx, (View.read (Elt F) ((sIdx.slice (Rect.unit (s := S8x80) ![7, 0] S1x80.size inb_S8x80_S1x80_7_0) (fun _ => rfl)).squeeze S80 squeezes_S1x80_S80).view (View.write (Elt F) sIdx.view fs0 (tile_body.sl.dma0 d L f2) Finset.univ) x).toNat < 50000 := by
  intro x
  rw [show View.write (Elt F) sIdx.view fs0 (tile_body.sl.dma0 d L f2) Finset.univ = tile_body.sl.dma0 d L f2 from View.write_whole_univ _ _ _]
  exact hin _

set_option maxHeartbeats 64000000 in
set_option sl_exec.unrollTrips 4 in
/-- The run, its data read off the final context: the eight in-range facts enter as hypotheses of the definition, so
    that what the run leaves is a term over the definition's own arguments. -/
def tileRun (q2 q7 q8a q8b : PosShare TreeShare)
    (f2 : Buf (Elt F) ((iV).view.loc (thr d L))) (f7 : Buf (Elt F) ((pV).view.loc (thr d L))) (f8 : Buf (Elt F) ((tV).view.loc (thr d L)))
    (f9 : Buf (Elt F) ((oRowK L).view.loc (thr d L)))
    (fs0 : Buf (Elt F) ((sIdx).view.loc (thr d L))) (fs1 : Buf (Elt F) ((sRows).view.loc (thr d L)))
    (fs2 : Buf (Elt F) ((sPar).view.loc (thr d L))) (fs3 : Buf (Elt F) ((sHid).view.loc (thr d L)))
    (hin_0 : ∀ x : S80.Idx, (View.read (Elt F) ((sIdx.slice (Rect.unit (s := S8x80) ![0, 0] S1x80.size inb_S8x80_S1x80_0_0) (fun _ => rfl)).squeeze S80 squeezes_S1x80_S80).view (View.write (Elt F) sIdx.view fs0 (tile_body.sl.dma0 d L f2) Finset.univ) x).toNat < 50000)
    (hin_1 : ∀ x : S80.Idx, (View.read (Elt F) ((sIdx.slice (Rect.unit (s := S8x80) ![1, 0] S1x80.size inb_S8x80_S1x80_1_0) (fun _ => rfl)).squeeze S80 squeezes_S1x80_S80).view (View.write (Elt F) sIdx.view fs0 (tile_body.sl.dma0 d L f2) Finset.univ) x).toNat < 50000)
    (hin_2 : ∀ x : S80.Idx, (View.read (Elt F) ((sIdx.slice (Rect.unit (s := S8x80) ![2, 0] S1x80.size inb_S8x80_S1x80_2_0) (fun _ => rfl)).squeeze S80 squeezes_S1x80_S80).view (View.write (Elt F) sIdx.view fs0 (tile_body.sl.dma0 d L f2) Finset.univ) x).toNat < 50000)
    (hin_3 : ∀ x : S80.Idx, (View.read (Elt F) ((sIdx.slice (Rect.unit (s := S8x80) ![3, 0] S1x80.size inb_S8x80_S1x80_3_0) (fun _ => rfl)).squeeze S80 squeezes_S1x80_S80).view (View.write (Elt F) sIdx.view fs0 (tile_body.sl.dma0 d L f2) Finset.univ) x).toNat < 50000)
    (hin_4 : ∀ x : S80.Idx, (View.read (Elt F) ((sIdx.slice (Rect.unit (s := S8x80) ![4, 0] S1x80.size inb_S8x80_S1x80_4_0) (fun _ => rfl)).squeeze S80 squeezes_S1x80_S80).view (View.write (Elt F) sIdx.view fs0 (tile_body.sl.dma0 d L f2) Finset.univ) x).toNat < 50000)
    (hin_5 : ∀ x : S80.Idx, (View.read (Elt F) ((sIdx.slice (Rect.unit (s := S8x80) ![5, 0] S1x80.size inb_S8x80_S1x80_5_0) (fun _ => rfl)).squeeze S80 squeezes_S1x80_S80).view (View.write (Elt F) sIdx.view fs0 (tile_body.sl.dma0 d L f2) Finset.univ) x).toNat < 50000)
    (hin_6 : ∀ x : S80.Idx, (View.read (Elt F) ((sIdx.slice (Rect.unit (s := S8x80) ![6, 0] S1x80.size inb_S8x80_S1x80_6_0) (fun _ => rfl)).squeeze S80 squeezes_S1x80_S80).view (View.write (Elt F) sIdx.view fs0 (tile_body.sl.dma0 d L f2) Finset.univ) x).toNat < 50000)
    (hin_7 : ∀ x : S80.Idx, (View.read (Elt F) ((sIdx.slice (Rect.unit (s := S8x80) ![7, 0] S1x80.size inb_S8x80_S1x80_7_0) (fun _ => rfl)).squeeze S80 squeezes_S1x80_S80).view (View.write (Elt F) sIdx.view fs0 (tile_body.sl.dma0 d L f2) Finset.univ) x).toNat < 50000)
    (O : CellTallies nD τ sig (HIx 1)) (W : Waits sig (HIx 1)) (hO : ∀ g, O g none = 0) :
    TileRun d L q2 q7 q8a q8b f2 f7 f8 f9 fs0 fs1 fs2 fs3 O W :=
  ⟨_, _, _, _, _, _, by
    simp only [cc0__sc_hidden_eq_skeleton]; unfold cc0__sc_hidden_skel
    iintro ⟨#Hlv, ⟨H2, H7, H8a, H8b, H9⟩, ⟨Hs0', Hs1', Hs2', Hs3'⟩, ⟨HG0, HG1, HA, HB, HC⟩, HO⟩
    ihave Hmw := (show levAts (K (F := F)).L (K (F := F)).lev ⊢ Transfers.MayWaits (thr d L) (default : HIx 1) O from
      (K (F := F)).mayWaits_none (thr := thr d L) hO) $$ Hlv
    sl_exec
    sl_exec_parts
    sl_step
    isplitl [H2 H7 H8a H8b H9]
    · isplitl [H2]
      · iexact H2
      isplitl [H7]
      · iexact H7
      isplitl [H8a]
      · iexact H8a
      isplitl [H8b]
      · iexact H8b
      · iexact H9
    isplitl [Hs0' Hs1' Hs2' Hs3']
    · isplitl [Hs0']
      · iexact Hs0'
      isplitl [Hs1']
      · iexact Hs1'
      isplitl [Hs2']
      · iexact Hs2'
      · iexact Hs3'
    isplitl [HG0 HG1 HA HB HC]
    · isplitl [HG0]
      · iexact HG0
      isplitl [HG1]
      · iexact HG1
      isplitl [HA]
      · iexact HA
      isplitl [HB]
      · iexact HB
      · iexact HC
    isplitr
    swap
    · iexact HO
    ipureintro
    repeat (first | exact wok_refl _ | refine wok_insert _ ?_)⟩

end TileV

end Cert.Proof.KI

end
-- ==== Proof.TileOblV.lean ====
/-
  The tile's obligation with its rows' contents kept: the named run of one tile, framed by the rest of the tile's
  scoped storage, with what it leaves in the tile's rows of the hidden array identified, on those rows, with the one
  whole-array function the call's payloads speak of.
-/
import proofs.«204096_g51513837748514_cont_sun_m_306_14_alg».proof.Proof.TileV
import proofs.«204096_g51513837748514_cont_sun_m_306_14_alg».proof.Proof.CallV

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

section TileOV

variable (d : Dev nD) (L : grid0.Coords)

/-- The rest of the tile's scoped storage, untouched by the task. -/
abbrev restV : sProp 𝕄 :=
  iprop((bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f))
    ∗ bigSep ((((((ownCells (thr d L)).erase (cG0 d L)).erase (cG1 d L)).erase (cA d L)).erase (cB d L)).erase (cC d L)) fun g => semVal g 0)

/-- What the named run leaves. -/
abbrev runPost (q2 q7 q8a q8b : PosShare TreeShare)
    (f2 : Buf (Elt F) ((iV).view.loc (thr d L))) (f7 : Buf (Elt F) ((pV).view.loc (thr d L))) (f8 : Buf (Elt F) ((tV).view.loc (thr d L)))
    (out : Buf (Elt F) ((oRowK L).view.loc (thr d L)))
    (s0 : Buf (Elt F) ((sIdx).view.loc (thr d L))) (s1 : Buf (Elt F) ((sRows).view.loc (thr d L)))
    (s2 : Buf (Elt F) ((sPar).view.loc (thr d L))) (s3 : Buf (Elt F) ((sHid).view.loc (thr d L)))
    (O : CellTallies nD τ sig (HIx 1)) (W W' : Waits sig (HIx 1)) : sProp 𝕄 :=
  iprop((pts2 d L q2 f2 ∗ pts7 d L q7 f7 ∗ pts8 d L q8a f8 ∗ pts8 d L q8b f8 ∗ pts9 d L out)
            ∗ (ptsS0 d L s0 ∗ ptsS1 d L s1 ∗ ptsS2 d L s2 ∗ ptsS3 d L s3)
            ∗ (semVal (cG0 d L) 0 ∗ semVal (cG1 d L) 0 ∗ semVal (cA d L) 0 ∗ semVal (cB d L) 0 ∗ semVal (cC d L) 0)
            ∗ ⌜∀ p ∈ W', p ∈ W ∨ p.2 = none⌝ ∗ owes (thr d L) O W')

omit [FloatOps F] [Named F] in
/-- From what the run leaves and the rest, the obligation's post. -/
theorem closeV (q2 q7 q8a q8b : PosShare TreeShare)
    (f2 : Buf (Elt F) ((iV).view.loc (thr d L))) (f7 : Buf (Elt F) ((pV).view.loc (thr d L))) (f8 : Buf (Elt F) ((tV).view.loc (thr d L)))
    (out TG : Buf (Elt F) ((oRowK L).view.loc (thr d L)))
    (s0 : Buf (Elt F) ((sIdx).view.loc (thr d L))) (s1 : Buf (Elt F) ((sRows).view.loc (thr d L)))
    (s2 : Buf (Elt F) ((sPar).view.loc (thr d L))) (s3 : Buf (Elt F) ((sHid).view.loc (thr d L)))
    (O : CellTallies nD τ sig (HIx 1)) (W W' : Waits sig (HIx 1)) (hout : ∀ j ∈ (oRowK L).view.set, out j = TG j) :
    iprop(runPost d L q2 q7 q8a q8b f2 f7 f8 out s0 s1 s2 s3 O W W' ∗ restV d L)
      ⊢ iprop((pts2 d L q2 f2 ∗ pts7 d L q7 f7 ∗ pts8 d L q8a f8 ∗ pts8 d L q8b f8 ∗ ∃ f, ⌜∀ j ∈ (oRowK L).view.set, f j = TG j⌝ ∗ pts9 d L f)
          ∗ ((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ bigSep (((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2)).erase
              ((Proc.scVector (cV L) (jV L)).devRef cc0_scratch3))
              fun b => iprop(∃ f, ((d, b) : Loc nD τ sig) ↦{fullShare} f))
          ∗ (semVal (cG0 d L) 0 ∗ semVal (cG1 d L) 0 ∗ semVal (cA d L) 0 ∗ semVal (cB d L) 0 ∗ semVal (cC d L) 0
            ∗ bigSep ((((((ownCells (thr d L)).erase (cG0 d L)).erase (cG1 d L)).erase (cA d L)).erase (cB d L)).erase (cC d L)) fun g => semVal g 0)
          ∗ ∃ W'', ⌜∀ p ∈ W'', p ∈ W ∨ p.2 = none⌝ ∗ owes (thr d L) O W'') := by
  iintro ⟨⟨⟨H2, H7, H8a, H8b, H9⟩, ⟨Hs0, Hs1, Hs2, Hs3⟩, ⟨HG0, HG1, HA, HB, HC⟩, %hW, HO⟩, ⟨Hbufs, Hsems⟩⟩
  isplitl [H2 H7 H8a H8b H9]
  · isplitl [H2]
    · iexact H2
    isplitl [H7]
    · iexact H7
    isplitl [H8a]
    · iexact H8a
    isplitl [H8b]
    · iexact H8b
    · iexists out
      isplitr
      · ipureintro; exact hout
      · iexact H9
  isplitl [Hs0 Hs1 Hs2 Hs3 Hbufs]
  · isplitl [Hs0]
    · iexists _; iexact Hs0
    isplitl [Hs1]
    · iexists _; iexact Hs1
    isplitl [Hs2]
    · iexists _; iexact Hs2
    isplitl [Hs3]
    · iexists _; iexact Hs3
    · iexact Hbufs
  isplitl [HG0 HG1 HA HB HC Hsems]
  · isplitl [HG0]
    · iexact HG0
    isplitl [HG1]
    · iexact HG1
    isplitl [HA]
    · iexact HA
    isplitl [HB]
    · iexact HB
    isplitl [HC]
    · iexact HC
    · iexact Hsems
  iexists W'
  isplitr
  · ipureintro; exact hW
  · iexact HO

/-- One tile's task from a named run of it: the rows' final contents agree with `TG` on the tile's rows whenever the
    run's do. -/
theorem tile_body_of_run (hF : (K (F := F)).Facts) (q2 q7 q8a q8b : PosShare TreeShare)
    (f2 : Buf (Elt F) ((iV).view.loc (thr d L))) (f7 : Buf (Elt F) ((pV).view.loc (thr d L))) (f8 : Buf (Elt F) ((tV).view.loc (thr d L)))
    (f9 TG : Buf (Elt F) ((oRowK L).view.loc (thr d L)))
    (O : CellTallies nD τ sig (HIx 1)) (W : Waits sig (HIx 1))
    (R0 : ∀ fs0 fs1 fs2 fs3, TileRun d L q2 q7 q8a q8b f2 f7 f8 f9 fs0 fs1 fs2 fs3 O W)
    (hout : ∀ fs0 fs1 fs2 fs3, ∀ j ∈ (oRowK L).view.set, (R0 fs0 fs1 fs2 fs3).out j = TG j) :
    iprop(levAts (K (F := F)).L (K (F := F)).lev ∗ emp
        ∗ (pts2 d L q2 f2 ∗ pts7 d L q7 f7 ∗ pts8 d L q8a f8 ∗ pts8 d L q8b f8 ∗ pts9 d L f9)
        ∗ scopedBufs (thr d L) ∗ scopedSems0 (thr d L) ∗ owes (thr d L) O W)
      ⊢ wp frame (wpE (defs₀ (F := F)) 𝒱₀ (thr d L) none) Set.univ
          (cc0__sc_hidden L tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop((pts2 d L q2 f2 ∗ pts7 d L q7 f7 ∗ pts8 d L q8a f8 ∗ pts8 d L q8b f8 ∗ ∃ f, ⌜∀ j ∈ (oRowK L).view.set, f j = TG j⌝ ∗ pts9 d L f)
            ∗ scopedBufs (thr d L) ∗ scopedSems0 (thr d L)
            ∗ ∃ W', ⌜∀ p ∈ W', p ∈ W ∨ p.2 = none⌝ ∗ owes (thr d L) O W') := by
  rw [(K (F := F)).scopedBufs_V hF d (cV L) (jV L), SparseCore.Cfg.scopedSems0_V (Val := Elt F) d (cV L) (jV L), ownSems0_V, ownBufs_V]
  iintro ⟨Hlv, -, Hpts, ⟨⟨%fs0, Hs0⟩, ⟨%fs1, Hs1⟩, ⟨%fs2, Hs2⟩, ⟨%fs3, Hs3⟩, Hbufs⟩, ⟨HG0, HG1, HA, HB, HC, Hsems⟩, HO⟩
  iapply (wp_mono frame (wpE (defs₀ (F := F)) 𝒱₀ (thr d L) none) Set.univ (fun _ =>
    closeV d L q2 q7 q8a q8b f2 f7 f8 (R0 fs0 fs1 fs2 fs3).out TG (R0 fs0 fs1 fs2 fs3).s0 (R0 fs0 fs1 fs2 fs3).s1 (R0 fs0 fs1 fs2 fs3).s2 (R0 fs0 fs1 fs2 fs3).s3
      O W (R0 fs0 fs1 fs2 fs3).W' (hout fs0 fs1 fs2 fs3)))
  iapply (wp_frame_r frame (wpE (defs₀ (F := F)) 𝒱₀ (thr d L) none) Set.univ
    (Q := fun _ => runPost d L q2 q7 q8a q8b f2 f7 f8 (R0 fs0 fs1 fs2 fs3).out (R0 fs0 fs1 fs2 fs3).s0 (R0 fs0 fs1 fs2 fs3).s1 (R0 fs0 fs1 fs2 fs3).s2 (R0 fs0 fs1 fs2 fs3).s3
      O W (R0 fs0 fs1 fs2 fs3).W')
    (R := restV d L))
  isplitr [Hbufs Hsems]
  · iapply (R0 fs0 fs1 fs2 fs3).run
    isplitl [Hlv]
    · iexact Hlv
    isplitl [Hpts]
    · iexact Hpts
    isplitl [Hs0 Hs1 Hs2 Hs3]
    · isplitl [Hs0]
      · iexact Hs0
      isplitl [Hs1]
      · iexact Hs1
      isplitl [Hs2]
      · iexact Hs2
      · iexact Hs3
    isplitl [HG0 HG1 HA HB HC]
    · isplitl [HG0]
      · iexact HG0
      isplitl [HG1]
      · iexact HG1
      isplitl [HA]
      · iexact HA
      isplitl [HB]
      · iexact HB
      · iexact HC
    · iexact HO
  · isplitl [Hbufs]
    · iexact Hbufs
    · iexact Hsems

end TileOV

/-! ## In the payloads' words -/

variable (m : (ℓ : Loc nD τ sig) → Buf (Elt F) ℓ) (HG : (d : Dev nD) → Buf (Elt F) (v9Loc d))

theorem tile_postV (d : Dev nD) (c : Fin 2) (i : Fin 16) {X Y Z : sProp 𝕄} :
    iprop((pts2 d (coordsV c i) (qt c i) (V2 m d) ∗ pts7 d (coordsV c i) (qt c i) (V7 m d) ∗ pts8 d (coordsV c i) (qt c i).left (V8 m d)
        ∗ pts8 d (coordsV c i) (qt c i).right (V8 m d) ∗ ∃ f, ⌜∀ j ∈ (oRowK (coordsV c i)).view.set, f j = HG d j⌝ ∗ pts9 d (coordsV c i) f) ∗ X ∗ Y ∗ Z)
      ⊢ iprop(tdPV m HG d c i ∗ X ∗ Y ∗ Z) := by
  unfold tdPV rowsAt ins
  iintro ⟨⟨H2, H7, H8a, H8b, ⟨%f, %hf, H9⟩⟩, Hsb, Hss, HO⟩
  isplitl [H2 H7 H8a H8b H9]
  · isplitl [H2 H7 H8a H8b]
    · isplitl [H2]
      · iexact H2
      isplitl [H7]
      · iexact H7
      · iapply (pointsTo_share (PosShare.mem_left_op_right (qt c i))).2
        isplitl [H8a]
        · iexact H8a
        · iexact H8b
    · iexists f
      isplitr
      · ipureintro; exact hf
      · iexact H9
  isplitl [Hsb]
  · iexact Hsb
  isplitl [Hss]
  · iexact Hss
  · iexact HO

/-- What the named run leaves in tile `(c, i)`'s rows is `HG d` there, whatever the scratches held. -/
def OutIs (hh : HalfOK m) : Prop :=
  ∀ (d : Dev nD) (c : Fin 2) (i : Fin 16) (O : CellTallies nD τ sig (HIx 1)) (W : Waits sig (HIx 1)) (hO : ∀ g, O g none = 0)
    (f9 : Buf (Elt F) ((oRowK (coordsV c i)).view.loc (thr d (coordsV c i)))) fs0 fs1 fs2 fs3, ∀ j ∈ rowsOf c i,
    (tileRun d (coordsV c i) (qt c i) (qt c i) (qt c i).left (qt c i).right (V2 m d) (V7 m d) (V8 m d) f9 fs0 fs1 fs2 fs3
      (hinRow0 d (coordsV c i) (V2 m d) fs0 (hh d)) (hinRow1 d (coordsV c i) (V2 m d) fs0 (hh d)) (hinRow2 d (coordsV c i) (V2 m d) fs0 (hh d)) (hinRow3 d (coordsV c i) (V2 m d) fs0 (hh d)) (hinRow4 d (coordsV c i) (V2 m d) fs0 (hh d)) (hinRow5 d (coordsV c i) (V2 m d) fs0 (hh d)) (hinRow6 d (coordsV c i) (V2 m d) fs0 (hh d)) (hinRow7 d (coordsV c i) (V2 m d) fs0 (hh d)) O W hO).out j = HG d j

theorem tile_PV (hF : (K (F := F)).Facts) (hh : HalfOK m) (hout : OutIs m HG hh) (d : Dev nD) (c : Fin 2) (i : Fin 16)
    (O : CellTallies nD τ sig (HIx 1)) (W : Waits sig (HIx 1)) (hO : ∀ g, O g none = 0) :
    iprop(levAts (K (F := F)).L (K (F := F)).lev ∗ emp ∗ goP m d c i
        ∗ scopedBufs (thr d (coordsV c i)) ∗ scopedSems0 (thr d (coordsV c i)) ∗ owes (thr d (coordsV c i)) O W)
      ⊢ wp frame (wpE (defs₀ (F := F)) 𝒱₀ (thr d (coordsV c i)) none) Set.univ
          (cc0__sc_hidden (coordsV c i) tV (Memref.isWhole_whole _) iV (Memref.isWhole_whole _) pV (Memref.isWhole_whole _) oV (Memref.isWhole_whole _)
            sIdx (Memref.isWhole_whole _) sRows (Memref.isWhole_whole _) sPar (Memref.isWhole_whole _) sHid (Memref.isWhole_whole _)
            cc0_scratch4 cc0_scratch5 cc0_scoped0 cc0_scoped1 cc0_scoped2)
          fun _ => iprop(tdPV m HG d c i ∗ scopedBufs (thr d (coordsV c i)) ∗ scopedSems0 (thr d (coordsV c i))
            ∗ ∃ W', ⌜∀ p ∈ W', p ∈ W ∨ p.2 = none⌝ ∗ owes (thr d (coordsV c i)) O W') := by
  unfold goP ins
  iintro ⟨Hlv, -, ⟨⟨H2, H7, H8⟩, ⟨%f9, H9⟩⟩, Hsb, Hss, HO⟩
  ihave H8' := (pointsTo_share (PosShare.mem_left_op_right (qt c i))).1 $$ H8
  icases H8' with ⟨H8a, H8b⟩
  iapply (BIBase.Entails.trans (tile_body_of_run d (coordsV c i) hF (qt c i) (qt c i) (qt c i).left (qt c i).right (V2 m d) (V7 m d) (V8 m d) f9 (HG d) O W
      (fun fs0 fs1 fs2 fs3 => tileRun d (coordsV c i) (qt c i) (qt c i) (qt c i).left (qt c i).right (V2 m d) (V7 m d) (V8 m d) f9 fs0 fs1 fs2 fs3
        (hinRow0 d (coordsV c i) (V2 m d) fs0 (hh d)) (hinRow1 d (coordsV c i) (V2 m d) fs0 (hh d)) (hinRow2 d (coordsV c i) (V2 m d) fs0 (hh d)) (hinRow3 d (coordsV c i) (V2 m d) fs0 (hh d)) (hinRow4 d (coordsV c i) (V2 m d) fs0 (hh d)) (hinRow5 d (coordsV c i) (V2 m d) fs0 (hh d)) (hinRow6 d (coordsV c i) (V2 m d) fs0 (hh d)) (hinRow7 d (coordsV c i) (V2 m d) fs0 (hh d)) O W hO)
      (fun fs0 fs1 fs2 fs3 => hout d c i O W hO f9 fs0 fs1 fs2 fs3))
    (wp_mono frame _ _ fun _ => tile_postV m HG d c i)) $$ [Hlv H2 H7 H8a H8b H9 Hsb Hss HO]
  · isplitl [Hlv]
    · iexact Hlv
    isplitr
    · iempintro
    isplitl [H2 H7 H8a H8b H9]
    · isplitl [H2]
      · iexact H2
      isplitl [H7]
      · iexact H7
      isplitl [H8a]
      · iexact H8a
      isplitl [H8b]
      · iexact H8b
      · iexact H9
    isplitl [Hsb]
    · iexact Hsb
    isplitl [Hss]
    · iexact Hss
    · iexact HO

theorem tileOblV (hF : (K (F := F)).Facts) (hh : HalfOK m) (hout : OutIs m HG hh) : (K (F := F)).TileObl (D (F := F)) 𝒱 (PV m HG) v₀ 0 := by
  intro d c i O W hO _ _
  simp only [show (PV m HG).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_PV m HG hF hh hout d (Fin.cast nCore_zero c) (Fin.cast nSub_zero i) O W hO).trans (wp_mono frame _ _ fun _ => obl_post)

end Cert.Proof.KI

end
-- ==== Proof.TileReads.lean ====
/-
  What the tile's loads read, one lemma per kind of load.

  The tile's scratches are filled by copies and gathers; a load then reads one entry of what a copy or a gather
  brought. Each lemma follows an entry back through the squeezes and slices to the array it came from: a squeeze
  keeps the row-major position, a slice adds its offset.
-/
import proofs.«204096_g51513837748514_cont_sun_m_306_14_alg».proof.Proof.Tile
import Idealize.ShloMosaic.Lib.ValueIdx
import Idealize.ShloMosaic.Lib.Pipeline.Value

noncomputable section

namespace Cert.Proof.KI

open Cert.KernelIdeal Cert.KernelIdeal.Gen
open Idealize.ShloMosaic Idealize.ShloMosaic.ValueIdx
open Idealize.ShloMosaic.SparseCore (S V T)

variable {F : FTy → Type} [FloatOps F] [Named F]

/-- The number of the vector subcore at grid coordinates L among the thirty-two: 2 · subcore + core. -/
def wOf (L : grid0.Coords) : Fin 32 := ⟨2 * (L 1).val + (L 0).val, by
  have h0 : (L 0).val < 2 := (L 0).isLt
  have h1 : (L 1).val < 16 := (L 1).isLt
  omega⟩

/-! ## Squeezes at an index: the entry with the same row-major position -/

theorem sq_1_2 {n : Nat} (h : (⟨1, ![n]⟩ : Shape).numel = (⟨2, ![1, n]⟩ : Shape).numel) (e : Fin n) :
    Shape.reshapeEquiv h (ix1 e) = ix2 (0 : Fin 1) e :=
  Shape.reshapeEquiv_eq_of_rowMajor h (by
    rw [Shape.rowMajor_val_two, Shape.rowMajor_val_one]; show (0 : ℕ) * n + e.val = e.val; omega)

theorem sq_2_3 {a b : Nat} (h : (⟨2, ![a, b]⟩ : Shape).numel = (⟨3, ![1, a, b]⟩ : Shape).numel) (k : Fin a) (e : Fin b) :
    Shape.reshapeEquiv h (ix2 k e) = ix3 (0 : Fin 1) k e :=
  Shape.reshapeEquiv_eq_of_rowMajor h (by
    rw [Shape.rowMajor_val_three, Shape.rowMajor_val_two]; show ((0 : ℕ) * a + k.val) * b + e.val = k.val * b + e.val; rw [Nat.zero_mul, Nat.zero_add])

section Reads

variable (d : Dev nD) (L : grid0.Coords)

set_option maxHeartbeats 400000 in
/-- (A) A word of row k of the copied block of halved words is the halved word (w, k, e) of the whole array. -/
theorem sIdx_read (f2 : Buf (Elt F) ((iV).view.loc (thr d L))) (fs0 : Buf (Elt F) ((sIdx).view.loc (thr d L)))
    (k : Fin 8) (e : Fin 80) (hinb : ∀ a, (![k.val, 0] : Fin 2 → Nat) a + S1x80.size a ≤ S8x80.size a) :
    View.read (Elt F) ((sIdx.slice (Rect.unit (s := S8x80) ![k.val, 0] S1x80.size hinb) (fun _ => rfl)).squeeze S80 squeezes_S1x80_S80).view
        (View.write (Elt F) sIdx.view fs0 (tile_body.sl.dma0 d L f2) Finset.univ) (ix1 e)
      = f2 (ix3 (wOf L) k e) := by
  rw [show View.write (Elt F) sIdx.view fs0 (tile_body.sl.dma0 d L f2) Finset.univ = tile_body.sl.dma0 d L f2 from View.write_whole_univ _ _ _]
  rw [View.read_apply]
  unfold tile_body.sl.dma0
  have e1 : (((sIdx.slice (Rect.unit (s := S8x80) ![k.val, 0] S1x80.size hinb) (fun _ => rfl)).squeeze S80 squeezes_S1x80_S80).view.emb (ix1 e) : S8x80.Idx)
      = ix2 k e := by
    show (Rect.unit (s := S8x80) ![k.val, 0] S1x80.size hinb).emb (Shape.reshapeEquiv _ (ix1 e)) = ix2 k e
    rw [sq_1_2]
    funext a; apply Fin.ext; rw [Rect.emb_apply]
    match a with
    | ⟨0, _⟩ => show k.val + 1 * 0 = k.val; omega
    | ⟨1, _⟩ => show 0 + 1 * e.val = e.val; omega
  rw [e1]
  show f2 ((Rect.unit (s := S32x8x80) (k0_off1 L) S1x8x80.size _).emb (Shape.reshapeEquiv _ (ix2 k e))) = _
  rw [sq_2_3]
  refine congrArg f2 (funext fun a => Fin.ext ?_)
  rw [Rect.emb_apply, Rect.off_unit, Rect.stride_unit]
  have hoff := k0_off1_eq L
  have h0 : k0_off1 L 0 = 2 * (L 1).val + (L 0).val := by rw [hoff]; rfl
  have h1 : k0_off1 L 1 = 0 := by rw [hoff]; rfl
  have h2 : k0_off1 L 2 = 0 := by rw [hoff]; rfl
  match a with
  | ⟨0, _⟩ => show k0_off1 L 0 + 1 * 0 = 2 * (L 1).val + (L 0).val; omega
  | ⟨1, _⟩ => show k0_off1 L 1 + 1 * k.val = k.val; omega
  | ⟨2, _⟩ => show k0_off1 L 2 + 1 * e.val = e.val; omega

/-- The row-major position of a rank-one index is its coordinate. -/
theorem rowMajor_symm_1 {n : Nat} (j : Fin (⟨1, ![n]⟩ : Shape).numel) (e : Fin n) (h : j.val = e.val) :
    (⟨1, ![n]⟩ : Shape).rowMajor.symm j = ix1 e := by
  rw [Equiv.symm_apply_eq]; apply Fin.ext; rw [Shape.rowMajor_val_one]; exact h

/-- The paired table's entry a gathered row's entry comes from: the named row, the same column. -/
theorem gather_idx (r : Fin (S80x128.size gathers_S50000x128_S80x128.axis') → Fin (S50000x128.size gathers_S50000x128_S80x128.axis))
    (e : Fin 80) (c : Fin 128) :
    gathers_S50000x128_S80x128.idx r (ix2 e c) = ix2 (r e) c := by
  funext a; apply Fin.ext
  match a with
  | ⟨0, h⟩ => exact congrArg Fin.val (Shape.Gathers.idx_axis gathers_S50000x128_S80x128 r (ix2 e c))
  | ⟨1, h⟩ => exact Shape.Gathers.idx_of_ne gathers_S50000x128_S80x128 r (ix2 e c) ⟨1, h⟩ (by show (1 : ℕ) ≠ 0; omega)

set_option maxHeartbeats 800000 in
/-- (B) The gather of chunk k delivers, at (e, c), the paired table at the row the halved word (w, k, e) names. -/
theorem gather_read (f2 : Buf (Elt F) ((iV).view.loc (thr d L))) (f8 : Buf (Elt F) ((tV).view.loc (thr d L)))
    (fs0 : Buf (Elt F) ((sIdx).view.loc (thr d L))) (hin : ∀ j, (f2 j).toNat < 50000)
    (k : Fin 8) (hinb : ∀ a, (![k.val, 0] : Fin 2 → Nat) a + S1x80.size a ≤ S8x80.size a)
    (hu : ∀ a, (Rect.unit (s := S8x80) ![k.val, 0] S1x80.size hinb).stride a = 1)
    (hsl : ∀ a, (Rect.unit (s := S50000x128) ![0, 0] S50000x128.size inb_S50000x128_S50000x128_0_0).stride a = 1)
    (hn : S80.numel = S80x128.size gathers_S50000x128_S80x128.axis')
    (hk : ∀ x : S80.Idx, (View.read (Elt F) ((sIdx.slice (Rect.unit (s := S8x80) ![k.val, 0] S1x80.size hinb) hu).squeeze S80 squeezes_S1x80_S80).view
        (View.write (Elt F) sIdx.view fs0 (tile_body.sl.dma0 d L f2) Finset.univ) x).toNat < S50000x128.size gathers_S50000x128_S80x128.axis)
    (e : Fin 80) (c : Fin 128) :
    SparseCore.gatherPayload gathers_S50000x128_S80x128
        (View.read (Elt F) (tV.slice (Rect.unit (s := S50000x128) ![0, 0] S50000x128.size inb_S50000x128_S50000x128_0_0) hsl).view f8)
        (SparseCore.rows (View.read (Elt F) ((sIdx.slice (Rect.unit (s := S8x80) ![k.val, 0] S1x80.size hinb) hu).squeeze S80 squeezes_S1x80_S80).view
          (View.write (Elt F) sIdx.view fs0 (tile_body.sl.dma0 d L f2) Finset.univ)) hn hk)
        (ix2 e c)
      = f8 (ix2 (⟨(f2 (ix3 (wOf L) k e)).toNat, hin _⟩ : Fin 50000) c) := by
  unfold SparseCore.gatherPayload
  rw [View.read_apply, gather_idx]
  show f8 ((Rect.unit (s := S50000x128) ![0, 0] S50000x128.size inb_S50000x128_S50000x128_0_0).emb (ix2 (SparseCore.rows _ hn hk e) c)) = _
  refine congrArg f8 (funext fun a => Fin.ext ?_)
  rw [Rect.emb_apply, Rect.off_unit, Rect.stride_unit]
  match a with
  | ⟨0, _⟩ =>
    show 0 + 1 * (SparseCore.rows _ hn hk e).val = (f2 (ix3 (wOf L) k e)).toNat
    unfold SparseCore.rows
    show 0 + 1 * (View.read (Elt F) ((sIdx.slice (Rect.unit (s := S8x80) ![k.val, 0] S1x80.size hinb) hu).squeeze S80 squeezes_S1x80_S80).view
        (View.write (Elt F) sIdx.view fs0 (tile_body.sl.dma0 d L f2) Finset.univ) (S80.rowMajor.symm (Fin.cast hn.symm e))).toNat = _
    exact (Nat.zero_add _).trans ((Nat.one_mul _).trans (congrArg BitVec.toNat
      ((congrArg (View.read (Elt F) ((sIdx.slice (Rect.unit (s := S8x80) ![k.val, 0] S1x80.size hinb) hu).squeeze S80 squeezes_S1x80_S80).view
          (View.write (Elt F) sIdx.view fs0 (tile_body.sl.dma0 d L f2) Finset.univ)) (rowMajor_symm_1 (Fin.cast hn.symm e) e rfl)).trans
        (sIdx_read d L f2 fs0 k e hinb))))
  | ⟨1, _⟩ => show 0 + 1 * c.val = c.val; omega

/-- An entry of the rows scratch as a slot's squeezed view places it. -/
theorem slot_emb (s : Fin 2) (hinb' : ∀ a, (![s.val, 0, 0] : Fin 3 → Nat) a + S1x80x128.size a ≤ S2x80x128.size a)
    (hu : ∀ a, (Rect.unit (s := S2x80x128) ![s.val, 0, 0] S1x80x128.size hinb').stride a = 1) (e : Fin 80) (c : Fin 128) :
    (((sRows.slice (Rect.unit (s := S2x80x128) ![s.val, 0, 0] S1x80x128.size hinb') hu).squeeze S80x128 squeezes_S1x80x128_S80x128).view.emb (ix2 e c) : S2x80x128.Idx)
      = ix3 s e c := by
  show (Rect.unit (s := S2x80x128) ![s.val, 0, 0] S1x80x128.size hinb').emb (Shape.reshapeEquiv _ (ix2 e c)) = ix3 s e c
  rw [sq_2_3]
  funext a; apply Fin.ext; rw [Rect.emb_apply]
  match a with
  | ⟨0, _⟩ => show s.val + 1 * 0 = s.val; omega
  | ⟨1, _⟩ => show 0 + 1 * e.val = e.val; omega
  | ⟨2, _⟩ => show 0 + 1 * c.val = c.val; omega

/-- The entry a load of sixteen lanes reads at lane `l`. -/
theorem lanes_idx (s : Fin 2) (e : Fin 80) (c0 : Nat) (hc : c0 + 16 ≤ 128)
    (hinb : ∀ a, (![s.val, e.val, c0] : Fin 3 → Nat) a + S1x1x16.size a ≤ S2x80x128.size a) (l : Fin 16) :
    (sRows.view.emb ((Rect.unit (s := S2x80x128) ![s.val, e.val, c0] S1x1x16.size hinb).toLoadRect.idx (ix3 (0 : Fin 1) (0 : Fin 1) l)) : S2x80x128.Idx)
      = ix3 s e (⟨c0 + l.val, by omega⟩ : Fin 128) := by
  show (Rect.unit (s := S2x80x128) ![s.val, e.val, c0] S1x1x16.size hinb).emb (ix3 (0 : Fin 1) (0 : Fin 1) l) = _
  funext a; apply Fin.ext; rw [Rect.emb_apply]
  match a with
  | ⟨0, _⟩ => show s.val + 1 * 0 = s.val; omega
  | ⟨1, _⟩ => show e.val + 1 * 0 = e.val; omega
  | ⟨2, _⟩ => show c0 + 1 * l.val = c0 + l.val; omega

set_option maxHeartbeats 400000 in
/-- (C) A load of sixteen lanes of a row of the rows scratch, after a gather was written into the SAME slot, reads the
    gather's payload … -/
theorem rows_read_hit (g : Buf (Elt F) ((sRows).view.loc (thr d L))) (p : S80x128.Idx → Elt F .f32)
    (s : Fin 2) (e : Fin 80) (c0 : Nat) (hc : c0 + 16 ≤ 128)
    (hinb : ∀ a, (![s.val, e.val, c0] : Fin 3 → Nat) a + S1x1x16.size a ≤ S2x80x128.size a)
    (hinb' : ∀ a, (![s.val, 0, 0] : Fin 3 → Nat) a + S1x80x128.size a ≤ S2x80x128.size a)
    (hu : ∀ a, (Rect.unit (s := S2x80x128) ![s.val, 0, 0] S1x80x128.size hinb').stride a = 1) (l : Fin 16) :
    View.readAt (Elt F) sRows.view (Rect.unit (s := S2x80x128) ![s.val, e.val, c0] S1x1x16.size hinb).toLoadRect
        (View.write (Elt F) ((sRows.slice (Rect.unit (s := S2x80x128) ![s.val, 0, 0] S1x80x128.size hinb') hu).squeeze S80x128 squeezes_S1x80x128_S80x128).view g p Finset.univ)
        (ix3 (0 : Fin 1) (0 : Fin 1) l)
      = p (ix2 e (⟨c0 + l.val, by omega⟩ : Fin 128)) := by
  rw [View.readAt_apply, View.read_apply, lanes_idx s e c0 hc hinb l, ← slot_emb s hinb' hu e ⟨c0 + l.val, by omega⟩,
    View.write_emb_of_mem _ _ (Finset.mem_univ _)]
  rfl

set_option maxHeartbeats 400000 in
/-- … and after a gather into the OTHER slot, what was there before. -/
theorem rows_read_miss (g : Buf (Elt F) ((sRows).view.loc (thr d L))) (p : S80x128.Idx → Elt F .f32)
    (s s' : Fin 2) (hss : s ≠ s') (e : Fin 80) (c0 : Nat) (hc : c0 + 16 ≤ 128)
    (hinb : ∀ a, (![s.val, e.val, c0] : Fin 3 → Nat) a + S1x1x16.size a ≤ S2x80x128.size a)
    (hinb' : ∀ a, (![s'.val, 0, 0] : Fin 3 → Nat) a + S1x80x128.size a ≤ S2x80x128.size a)
    (hu : ∀ a, (Rect.unit (s := S2x80x128) ![s'.val, 0, 0] S1x80x128.size hinb').stride a = 1) (l : Fin 16) :
    View.readAt (Elt F) sRows.view (Rect.unit (s := S2x80x128) ![s.val, e.val, c0] S1x1x16.size hinb).toLoadRect
        (View.write (Elt F) ((sRows.slice (Rect.unit (s := S2x80x128) ![s'.val, 0, 0] S1x80x128.size hinb') hu).squeeze S80x128 squeezes_S1x80x128_S80x128).view g p Finset.univ)
        (ix3 (0 : Fin 1) (0 : Fin 1) l)
      = View.readAt (Elt F) sRows.view (Rect.unit (s := S2x80x128) ![s.val, e.val, c0] S1x1x16.size hinb).toLoadRect g (ix3 (0 : Fin 1) (0 : Fin 1) l) := by
  rw [View.readAt_apply, View.readAt_apply, View.read_apply, View.read_apply, lanes_idx s e c0 hc hinb l]
  rw [View.write_of_not_mem _ _ _ (by
    rw [View.setOn_univ]
    show ix3 s e (⟨c0 + l.val, by omega⟩ : Fin 128) ∉ (((View.whole cc0_scratch1).slice (Rect.unit (s := S2x80x128) ![s'.val, 0, 0] S1x80x128.size hinb')).reshape S80x128 squeezes_S1x80x128_S80x128.numel_eq).set
    rw [View.set_reshape, View.set_slice_whole, Rect.mem_set_unit]
    intro h
    have h0 : s'.val ≤ s.val ∧ s.val < s'.val + 1 := h 0
    exact hss (Fin.ext (by omega)))]

set_option maxHeartbeats 400000 in
/-- (D) A load of a row of the copied block of parities reads the parity (w, q, lane) of the whole array. -/
theorem par_read (f7 : Buf (Elt F) ((pV).view.loc (thr d L))) (fs2 : Buf (Elt F) ((sPar).view.loc (thr d L)))
    (q : Fin 640) (hinb : ∀ a, (![q.val, 0] : Fin 2 → Nat) a + S1x16.size a ≤ S640x16.size a) (l : Fin 16) :
    View.readAt (Elt F) sPar.view (Rect.unit (s := S640x16) ![q.val, 0] S1x16.size hinb).toLoadRect
        (View.write (Elt F) sPar.view fs2 (tile_body.sl.dma0_1 d L f7) Finset.univ) (ix2 (0 : Fin 1) l)
      = f7 (ix3 (wOf L) q l) := by
  rw [show View.write (Elt F) sPar.view fs2 (tile_body.sl.dma0_1 d L f7) Finset.univ = tile_body.sl.dma0_1 d L f7 from View.write_whole_univ _ _ _]
  rw [View.readAt_apply, View.read_apply]
  unfold tile_body.sl.dma0_1
  have e1 : (sPar.view.emb ((Rect.unit (s := S640x16) ![q.val, 0] S1x16.size hinb).toLoadRect.idx (ix2 (0 : Fin 1) l)) : S640x16.Idx) = ix2 q l := by
    show (Rect.unit (s := S640x16) ![q.val, 0] S1x16.size hinb).emb (ix2 (0 : Fin 1) l) = ix2 q l
    funext a; apply Fin.ext; rw [Rect.emb_apply]
    match a with
    | ⟨0, _⟩ => show q.val + 1 * 0 = q.val; omega
    | ⟨1, _⟩ => show 0 + 1 * l.val = l.val; omega
  rw [e1]
  show f7 ((Rect.unit (s := S32x640x16) (k0_off2 L) S1x640x16.size _).emb (Shape.reshapeEquiv _ (ix2 q l))) = _
  rw [sq_2_3]
  refine congrArg f7 (funext fun a => Fin.ext ?_)
  rw [Rect.emb_apply, Rect.off_unit, Rect.stride_unit]
  have hoff := k0_off2_eq L
  have h0 : k0_off2 L 0 = 2 * (L 1).val + (L 0).val := by rw [hoff]; rfl
  have h1 : k0_off2 L 1 = 0 := by rw [hoff]; rfl
  have h2 : k0_off2 L 2 = 0 := by rw [hoff]; rfl
  match a with
  | ⟨0, _⟩ => show k0_off2 L 0 + 1 * 0 = 2 * (L 1).val + (L 0).val; omega
  | ⟨1, _⟩ => show k0_off2 L 1 + 1 * q.val = q.val; omega
  | ⟨2, _⟩ => show k0_off2 L 2 + 1 * l.val = l.val; omega

/-! ## The same with the coordinates as numbers, as the run spells them -/

/-- (B) The gather of chunk k delivers, at (e, c), the paired table at the row the halved word (w, k, e) names. -/
theorem gather_readN (f2 : Buf (Elt F) ((iV).view.loc (thr d L))) (f8 : Buf (Elt F) ((tV).view.loc (thr d L)))
    (fs0 : Buf (Elt F) ((sIdx).view.loc (thr d L))) (hin : ∀ j, (f2 j).toNat < 50000)
    (k : Nat) (hk8 : k < 8) (hinb : ∀ a, (![k, 0] : Fin 2 → Nat) a + S1x80.size a ≤ S8x80.size a)
    (hu : ∀ a, (Rect.unit (s := S8x80) ![k, 0] S1x80.size hinb).stride a = 1)
    (hsl : ∀ a, (Rect.unit (s := S50000x128) ![0, 0] S50000x128.size inb_S50000x128_S50000x128_0_0).stride a = 1)
    (hn : S80.numel = S80x128.size gathers_S50000x128_S80x128.axis')
    (hk : ∀ x : S80.Idx, (View.read (Elt F) ((sIdx.slice (Rect.unit (s := S8x80) ![k, 0] S1x80.size hinb) hu : Memref sig .scVector .vmem S1x80 .i32).squeeze S80 squeezes_S1x80_S80).view
        (View.write (Elt F) sIdx.view fs0 (tile_body.sl.dma0 d L f2) Finset.univ) x).toNat < S50000x128.size gathers_S50000x128_S80x128.axis)
    (e : Fin 80) (c : Fin 128) :
    SparseCore.gatherPayload gathers_S50000x128_S80x128
        (View.read (Elt F) (tV.slice (Rect.unit (s := S50000x128) ![0, 0] S50000x128.size inb_S50000x128_S50000x128_0_0) hsl : Memref sig .scVector .hbm S50000x128 .f32).view f8)
        (SparseCore.rows (View.read (Elt F) ((sIdx.slice (Rect.unit (s := S8x80) ![k, 0] S1x80.size hinb) hu : Memref sig .scVector .vmem S1x80 .i32).squeeze S80 squeezes_S1x80_S80).view
          (View.write (Elt F) sIdx.view fs0 (tile_body.sl.dma0 d L f2) Finset.univ)) hn hk)
        (ix2 e c)
      = f8 (ix2 (⟨(f2 (ix3 (wOf L) (⟨k, hk8⟩ : Fin 8) e)).toNat, hin _⟩ : Fin 50000) c) := by
  exact gather_read d L f2 f8 fs0 hin ⟨k, hk8⟩ hinb hu hsl hn hk e c

/-- (C) A load of sixteen lanes of a row of the rows scratch, after a gather was written into the SAME slot, reads the
    gather's payload … -/
theorem rows_read_hitN (g : Buf (Elt F) ((sRows).view.loc (thr d L))) (p : S80x128.Idx → Elt F .f32)
    (s e c0 : Nat) (hs : s < 2) (he : e < 80) (hc : c0 + 16 ≤ 128)
    (hinb : ∀ a, (![s, e, c0] : Fin 3 → Nat) a + S1x1x16.size a ≤ S2x80x128.size a)
    (hinb' : ∀ a, (![s, 0, 0] : Fin 3 → Nat) a + S1x80x128.size a ≤ S2x80x128.size a)
    (hu : ∀ a, (Rect.unit (s := S2x80x128) ![s, 0, 0] S1x80x128.size hinb').stride a = 1) (l : Fin 16) :
    View.readAt (Elt F) sRows.view (Rect.unit (s := S2x80x128) ![s, e, c0] S1x1x16.size hinb).toLoadRect
        (View.write (Elt F) ((sRows.slice (Rect.unit (s := S2x80x128) ![s, 0, 0] S1x80x128.size hinb') hu : Memref sig .scVector .vmem S1x80x128 .f32).squeeze S80x128 squeezes_S1x80x128_S80x128).view g p Finset.univ)
        (ix3 (0 : Fin 1) (0 : Fin 1) l)
      = p (ix2 (⟨e, he⟩ : Fin 80) (⟨c0 + l.val, by omega⟩ : Fin 128)) := by
  exact rows_read_hit d L g p ⟨s, hs⟩ ⟨e, he⟩ c0 hc hinb hinb' hu l

/-- … and after a gather into the OTHER slot, what was there before. -/
theorem rows_read_missN (g : Buf (Elt F) ((sRows).view.loc (thr d L))) (p : S80x128.Idx → Elt F .f32)
    (s s' e c0 : Nat) (hs : s < 2) (hs' : s' < 2) (hss : s ≠ s') (he : e < 80) (hc : c0 + 16 ≤ 128)
    (hinb : ∀ a, (![s, e, c0] : Fin 3 → Nat) a + S1x1x16.size a ≤ S2x80x128.size a)
    (hinb' : ∀ a, (![s', 0, 0] : Fin 3 → Nat) a + S1x80x128.size a ≤ S2x80x128.size a)
    (hu : ∀ a, (Rect.unit (s := S2x80x128) ![s', 0, 0] S1x80x128.size hinb').stride a = 1) (l : Fin 16) :
    View.readAt (Elt F) sRows.view (Rect.unit (s := S2x80x128) ![s, e, c0] S1x1x16.size hinb).toLoadRect
        (View.write (Elt F) ((sRows.slice (Rect.unit (s := S2x80x128) ![s', 0, 0] S1x80x128.size hinb') hu : Memref sig .scVector .vmem S1x80x128 .f32).squeeze S80x128 squeezes_S1x80x128_S80x128).view g p Finset.univ)
        (ix3 (0 : Fin 1) (0 : Fin 1) l)
      = View.readAt (Elt F) sRows.view (Rect.unit (s := S2x80x128) ![s, e, c0] S1x1x16.size hinb).toLoadRect g (ix3 (0 : Fin 1) (0 : Fin 1) l) := by
  exact rows_read_miss d L g p ⟨s, hs⟩ ⟨s', hs'⟩ (fun h => hss (congrArg Fin.val h)) ⟨e, he⟩ c0 hc hinb hinb' hu l

/-- (D) A load of a row of the copied block of parities reads the parity (w, q, lane) of the whole array. -/
theorem par_readN (f7 : Buf (Elt F) ((pV).view.loc (thr d L))) (fs2 : Buf (Elt F) ((sPar).view.loc (thr d L)))
    (q : Nat) (hq : q < 640) (hinb : ∀ a, (![q, 0] : Fin 2 → Nat) a + S1x16.size a ≤ S640x16.size a) (l : Fin 16) :
    View.readAt (Elt F) sPar.view (Rect.unit (s := S640x16) ![q, 0] S1x16.size hinb).toLoadRect
        (View.write (Elt F) sPar.view fs2 (tile_body.sl.dma0_1 d L f7) Finset.univ) (ix2 (0 : Fin 1) l)
      = f7 (ix3 (wOf L) (⟨q, hq⟩ : Fin 640) l) := by
  exact par_read d L f7 fs2 ⟨q, hq⟩ hinb l

end Reads

end Cert.Proof.KI

end
-- ==== Proof.PieceTerm.lean ====
/-
  One piece of the tile's output scratch as a term, and the statement that every piece the run wrote is that term.

  The run writes the tile's thirty-two rows of sixty-four columns as 128 pieces of one row by sixteen lanes: the piece
  of chunk k, batch row bl of the chunk and lane group dg holds, at lane l, the twenty summands of row 4 k + bl at
  column 16 dg + l added in order from zero, times the named constant.
-/
import proofs.«204096_g51513837748514_cont_sun_m_306_14_alg».proof.Proof.TileV
import proofs.«204096_g51513837748514_cont_sun_m_306_14_alg».proof.Proof.TileReads
import proofs.«204096_g51513837748514_cont_sun_m_306_14_alg».proof.Proof.HidTerm

noncomputable section

namespace Cert.Proof.KI

open Cert.KernelIdeal Cert.KernelIdeal.Gen
open Idealize.ShloMosaic Idealize.ShloMosaic.ValueIdx
open Idealize.ShloMosaic.SparseCore (S V T)

variable {F : FTy → Type} [FloatOps F] [Named F]

/-! ## Lanes -/

section Lanes
variable {α : Type}

theorem lane_S16_of_S1x1x16 (v : S1x1x16.Idx → α) (h : S1x1x16.ShapeCasts S16) (l : Fin 16) :
    shapeCast S16 v h (ix1 l) = v (ix3 (0 : Fin 1) (0 : Fin 1) l) := by
  refine shapeCast_apply _ _ _ _ ?_
  rw [Shape.rowMajor_val_three, Shape.rowMajor_val_one]
  show ((0 : ℕ) * 1 + 0) * 16 + l.val = l.val
  omega

theorem lane_S16_of_S1x16 (v : S1x16.Idx → α) (h : S1x16.ShapeCasts S16) (l : Fin 16) :
    shapeCast S16 v h (ix1 l) = v (ix2 (0 : Fin 1) l) := by
  refine shapeCast_apply _ _ _ _ ?_
  rw [Shape.rowMajor_val_two, Shape.rowMajor_val_one]
  show (0 : ℕ) * 16 + l.val = l.val
  omega

theorem lane_S1x16_of_S16 (v : S16.Idx → α) (h : S16.ShapeCasts S1x16) (l : Fin 16) :
    shapeCast S1x16 v h (ix2 (0 : Fin 1) l) = v (ix1 l) := by
  refine shapeCast_apply _ _ _ _ ?_
  rw [Shape.rowMajor_val_two, Shape.rowMajor_val_one]
  show l.val = (0 : ℕ) * 16 + l.val
  omega

end Lanes

open Lean Elab Tactic Meta in
/-- Unfold, in the goal, the run's value names (the computed values, the named constant, the gathers' payloads) and the
    printed payload functions to their bodies, repeatedly. -/
elab "unfold_run_values" : tactic => do
  let g ← getMainGoal
  let t ← instantiateMVars (← g.getType)
  let isV (n : Name) : Bool :=
    match n with
    | .str (.str _ "sl") s => s.startsWith "v" || s.startsWith "cst" || s.startsWith "gather"
    | .str _ s => s.startsWith "k0_pay"
    | _ => false
  let t' ← Meta.deltaExpand t isV
  let t' ← Core.betaReduce t'
  let t' ← Meta.zetaReduce t'
  replaceMainGoal [← g.replaceTargetDefEq t']

/-! ## One piece's term, with the piece's coordinates as numbers -/

/-- The summand for context position c of the piece at chunk k, batch row bl of the chunk, lane group dg, at lane l. -/
def pieceStep (f2 : IVec S32x8x80 32) (f7 : FVec F S32x640x16 .f32) (f8 : FVec F S50000x128 .f32)
    (h2 : ∀ j, (f2 j).toNat < 50000) (w : Fin 32) (k bl dg : Nat) (hk : k < 8) (hbl : bl < 4) (hdg : dg < 4) (l : Fin 16)
    (c : Nat) (hc : c < 20) : F .f32 :=
  FloatOps.addf (f8 (ix2 (⟨(f2 (ix3 w (⟨k, hk⟩ : Fin 8) (⟨20 * bl + c, by omega⟩ : Fin 80))).toNat, h2 _⟩ : Fin 50000) (⟨16 * dg + l.val, by omega⟩ : Fin 128)))
    (FloatOps.mulf (f7 (ix3 w (⟨80 * k + 20 * bl + c, by omega⟩ : Fin 640) l))
      (FloatOps.subf (f8 (ix2 (⟨(f2 (ix3 w (⟨k, hk⟩ : Fin 8) (⟨20 * bl + c, by omega⟩ : Fin 80))).toNat, h2 _⟩ : Fin 50000) (⟨64 + 16 * dg + l.val, by omega⟩ : Fin 128)))
        (f8 (ix2 (⟨(f2 (ix3 w (⟨k, hk⟩ : Fin 8) (⟨20 * bl + c, by omega⟩ : Fin 80))).toNat, h2 _⟩ : Fin 50000) (⟨16 * dg + l.val, by omega⟩ : Fin 128)))))

/-- The piece's value at lane l: the twenty summands added in order from zero, times the named constant. -/
def pieceTerm (f2 : IVec S32x8x80 32) (f7 : FVec F S32x640x16 .f32) (f8 : FVec F S50000x128 .f32)
    (h2 : ∀ j, (f2 j).toNat < 50000) (w : Fin 32) (k bl dg : Nat) (hk : k < 8) (hbl : bl < 4) (hdg : dg < 4) (l : Fin 16) : F .f32 :=
  FloatOps.mulf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.addf (FloatOps.ofBits .f32 0x00000000#32) (pieceStep f2 f7 f8 h2 w k bl dg hk hbl hdg l 0 (by omega))) (pieceStep f2 f7 f8 h2 w k bl dg hk hbl hdg l 1 (by omega))) (pieceStep f2 f7 f8 h2 w k bl dg hk hbl hdg l 2 (by omega))) (pieceStep f2 f7 f8 h2 w k bl dg hk hbl hdg l 3 (by omega))) (pieceStep f2 f7 f8 h2 w k bl dg hk hbl hdg l 4 (by omega))) (pieceStep f2 f7 f8 h2 w k bl dg hk hbl hdg l 5 (by omega))) (pieceStep f2 f7 f8 h2 w k bl dg hk hbl hdg l 6 (by omega))) (pieceStep f2 f7 f8 h2 w k bl dg hk hbl hdg l 7 (by omega))) (pieceStep f2 f7 f8 h2 w k bl dg hk hbl hdg l 8 (by omega))) (pieceStep f2 f7 f8 h2 w k bl dg hk hbl hdg l 9 (by omega))) (pieceStep f2 f7 f8 h2 w k bl dg hk hbl hdg l 10 (by omega))) (pieceStep f2 f7 f8 h2 w k bl dg hk hbl hdg l 11 (by omega))) (pieceStep f2 f7 f8 h2 w k bl dg hk hbl hdg l 12 (by omega))) (pieceStep f2 f7 f8 h2 w k bl dg hk hbl hdg l 13 (by omega))) (pieceStep f2 f7 f8 h2 w k bl dg hk hbl hdg l 14 (by omega))) (pieceStep f2 f7 f8 h2 w k bl dg hk hbl hdg l 15 (by omega))) (pieceStep f2 f7 f8 h2 w k bl dg hk hbl hdg l 16 (by omega))) (pieceStep f2 f7 f8 h2 w k bl dg hk hbl hdg l 17 (by omega))) (pieceStep f2 f7 f8 h2 w k bl dg hk hbl hdg l 18 (by omega))) (pieceStep f2 f7 f8 h2 w k bl dg hk hbl hdg l 19 (by omega)))
    (Named.named Cert.KernelIdeal.κ "inv_20" (φ := .f32) 0x3D4CCCCD#32)

/-- The tile's thirty-two rows as one function of the row and column within the tile. -/
def tileG (f2 : IVec S32x8x80 32) (f7 : FVec F S32x640x16 .f32) (f8 : FVec F S50000x128 .f32)
    (h2 : ∀ j, (f2 j).toNat < 50000) (w : Fin 32) : S32x64.Idx → F .f32 :=
  fun j => hidTerm f2 f7 f8 h2 w (⟨(j 0).val, idx2_lt0 j⟩ : Fin 32) (⟨(j 1).val, idx2_lt1 j⟩ : Fin 64)

section Pieces
variable (d : Dev nD) (L : grid0.Coords)

/-- Every piece the run wrote into the output scratch is the tile's function on the piece's rectangle. -/
def PiecesOk (f2 : Buf (Elt F) ((iV).view.loc (thr d L))) (f7 : Buf (Elt F) ((pV).view.loc (thr d L))) (f8 : Buf (Elt F) ((tV).view.loc (thr d L)))
    (fs0 : Buf (Elt F) ((sIdx).view.loc (thr d L))) (fs1 : Buf (Elt F) ((sRows).view.loc (thr d L)))
    (fs2 : Buf (Elt F) ((sPar).view.loc (thr d L))) (hin : ∀ j, (f2 j).toNat < 50000) : Prop :=
  ∀ p ∈ tileRun.sl.Hs3'_128 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin),
    ∀ x : p.1.shape.Idx, p.2 x = tileG f2 f7 f8 hin (wOf L) (p.1.emb x)

end Pieces

end Cert.Proof.KI

end
-- ==== Proof.TileOutAsm.lean ====
/-
  What a tile leaves in its rows of the hidden array, entry by entry.

  The tile's last act copies its thirty-two rows of output scratch to its rows of the hidden array; the scratch was
  written in 128 pieces of one row by sixteen lanes, which tile it. So if every piece is the tile's function on its
  rectangle, every entry of the tile's rows is the tile's function there.
-/
import proofs.«204096_g51513837748514_cont_sun_m_306_14_alg».proof.Proof.PieceTerm
import Idealize.ShloMosaic.Lib.Pipeline.FrameBody
import Idealize.ShloMosaic.Lib.Pipeline.Value
import Idealize.ShloMosaic.Lib.Ring
import Idealize.ShloMosaic.Lib.Tactic

noncomputable section

namespace Cert.Proof.KI

open Cert.KernelIdeal Cert.KernelIdeal.Gen
open Idealize.ShloMosaic Idealize.ShloMosaic.ValueIdx Idealize.ShloMosaic.Tactic
open Idealize.ShloMosaic.SparseCore (S V T)
open Idealize.ShloMosaic.SparseCore.Cfg (HIx)

variable {F : FTy → Type} [FloatOps F] [Named F] [∀ e, Nonempty (Elt F e)]

section Out

variable (d : Dev nD) (L : grid0.Coords)

/-- The 128 pieces tile the output scratch: each of its entries lies in one. -/
theorem pieces_cover (f2 : Buf (Elt F) ((iV).view.loc (thr d L))) (f7 : Buf (Elt F) ((pV).view.loc (thr d L))) (f8 : Buf (Elt F) ((tV).view.loc (thr d L)))
    (fs0 : Buf (Elt F) ((sIdx).view.loc (thr d L))) (fs1 : Buf (Elt F) ((sRows).view.loc (thr d L)))
    (fs2 : Buf (Elt F) ((sPar).view.loc (thr d L))) (hin : ∀ j, (f2 j).toNat < 50000) (y : S32x64.Idx) :
    ∃ p ∈ tileRun.sl.Hs3'_128 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin), y ∈ p.1.set :=
  View.cover_of_tiledL (s := S32x64) (tileRun.sl.Hs3'_128 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) S1x16.size (by sl_kernel_rfl) y

set_option maxHeartbeats 1600000 in
/-- What the run leaves at entry `y` of the tile's rows, if every piece is the tile's function on its rectangle. -/
theorem tile_out (q2 q7 q8a q8b : Idealize.SL.RA.PosShare Idealize.SL.RA.TreeShare)
    (f2 : Buf (Elt F) ((iV).view.loc (thr d L))) (f7 : Buf (Elt F) ((pV).view.loc (thr d L))) (f8 : Buf (Elt F) ((tV).view.loc (thr d L)))
    (f9 : Buf (Elt F) ((oRowK L).view.loc (thr d L)))
    (fs0 : Buf (Elt F) ((sIdx).view.loc (thr d L))) (fs1 : Buf (Elt F) ((sRows).view.loc (thr d L)))
    (fs2 : Buf (Elt F) ((sPar).view.loc (thr d L))) (fs3 : Buf (Elt F) ((sHid).view.loc (thr d L)))
    (hin : ∀ j, (f2 j).toNat < 50000)
    (O : CellTallies nD τ sig (HIx 1)) (W : Waits sig (HIx 1)) (hO : ∀ g, O g none = 0)
    (hp : PiecesOk d L f2 f7 f8 fs0 fs1 fs2 hin) (y : S32x64.Idx) :
    (tileRun d L q2 q7 q8a q8b f2 f7 f8 f9 fs0 fs1 fs2 fs3 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin) O W hO).out ((oRowK L).view.emb y)
      = tileG f2 f7 f8 hin (wOf L) y := by
  unfold tileRun
  dsimp only
  have h1 := View.read_writes_apply_eq_canon (oRowK L).view f9 y
    [⟨Rect.whole S32x64, tileRun.sl.dma6016 d L f2 f7 f8 fs0 fs1 fs2 fs3 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)⟩]
    ⟨_, List.mem_cons_self, by rw [Rect.set_whole]; exact Finset.mem_univ _⟩
  rw [View.read_apply] at h1
  refine (show _ = View.canon [⟨Rect.whole S32x64, tileRun.sl.dma6016 d L f2 f7 f8 fs0 fs1 fs2 fs3 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)⟩] y from h1).trans ?_
  rw [View.canon_apply_of_pieces (tileRun.sl.dma6016 d L f2 f7 f8 fs0 fs1 fs2 fs3 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) _
    (fun p hp x => by
      obtain rfl := List.mem_singleton.mp hp
      show _ = tileRun.sl.dma6016 d L f2 f7 f8 fs0 fs1 fs2 fs3 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin) ((Rect.whole S32x64).emb x)
      rw [Rect.emb_whole_apply]) y ⟨_, List.mem_cons_self, by rw [Rect.set_whole]; exact Finset.mem_univ _⟩]
  unfold tileRun.sl.dma6016
  show View.read (Elt F) sHid.view (sHid.view.writes (Elt F) fs3 (tileRun.sl.Hs3'_128 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin))) y = _
  rw [View.read_writes_apply_eq_canon _ _ _ _ (pieces_cover d L f2 f7 f8 fs0 fs1 fs2 hin y)]
  exact View.canon_apply_of_pieces _ _ hp y (pieces_cover d L f2 f7 f8 fs0 fs1 fs2 hin y)

end Out

end Cert.Proof.KI

end
-- ==== Proof.TileOut.lean ====
/-
  Every tile leaves, in its rows of the hidden array, the hidden array's own entries: the tile at SparseCore c,
  subcore i writes rows [64 i + 32 c, 64 i + 32 c + 32), so row r of the hidden array is row r mod 32 of tile
  r / 32 = 2 i + c, and what that tile computes there is what the hidden array's term names there.
-/
import proofs.«204096_g51513837748514_cont_sun_m_306_14_alg».proof.Proof.TileOutAsm
import proofs.«204096_g51513837748514_cont_sun_m_306_14_alg».proof.Proof.TileOblV
import proofs.«204096_g51513837748514_cont_sun_m_306_14_alg».proof.Proof.ValueKI

noncomputable section

namespace Cert.Proof.KI

open Cert.KernelIdeal Cert.KernelIdeal.Gen
open Idealize.ShloMosaic Idealize.ShloMosaic.ValueIdx
open Idealize.ShloMosaic.SparseCore (S V T)
open Idealize.ShloMosaic.SparseCore.Cfg (HIx)

variable {F : FTy → Type} [FloatOps F] [Named F] [∀ e, Nonempty (Elt F e)]

set_option maxHeartbeats 1600000 in
/-- If every piece of every tile's run is the tile's function on its rectangle, what the tiles leave in the hidden
    array is the hidden array's term, entry by entry. -/
theorem outIs_of_pieces (m : (ℓ : Loc nD τ sig) → Buf (Elt F) ℓ) (hh : HalfOK m)
    (hp : ∀ d c i fs0 fs1 fs2, PiecesOk d (coordsV c i) (V2 m d) (V7 m d) (V8 m d) fs0 fs1 fs2 (hh d)) :
    OutIs m (HGof m hh) hh := by
  intro d c i O W hO f9 fs0 fs1 fs2 fs3 j hj
  unfold rowsOf at hj
  obtain ⟨y, -, rfl⟩ := Finset.mem_map.mp hj
  refine (tile_out d (coordsV c i) (qt c i) (qt c i) (qt c i).left (qt c i).right (V2 m d) (V7 m d) (V8 m d) f9 fs0 fs1 fs2 fs3 (hh d) O W hO
    (hp d c i fs0 fs1 fs2) y).trans ?_
  have hy0 : (y 0).val < 32 := idx2_lt0 y
  have hc : c.val < 2 := c.isLt
  have hoff := k0_off107_eq (coordsV c i)
  have h0 : k0_off107 (coordsV c i) 0 = 64 * i.val + 32 * c.val := by rw [hoff]; rfl
  have h1 : k0_off107 (coordsV c i) 1 = 0 := by rw [hoff]; rfl
  have e0 : (((oRowK (coordsV c i)).view.emb y) 0).val = 64 * i.val + 32 * c.val + (y 0).val := by
    show ((Rect.unit (s := S1024x64) (k0_off107 (coordsV c i)) S32x64.size (k0_off107_inb (coordsV c i))).emb y 0).val = _
    rw [Rect.emb_apply, Rect.off_unit, Rect.stride_unit, h0]; omega
  have e1 : (((oRowK (coordsV c i)).view.emb y) 1).val = (y 1).val := by
    show ((Rect.unit (s := S1024x64) (k0_off107 (coordsV c i)) S32x64.size (k0_off107_inb (coordsV c i))).emb y 1).val = _
    rw [Rect.emb_apply, Rect.off_unit, Rect.stride_unit, h1]; omega
  unfold tileG HGof
  congr 1
  · apply Fin.ext
    show 2 * i.val + c.val = (((oRowK (coordsV c i)).view.emb y) 0).val / 32
    rw [e0]; omega
  · apply Fin.ext
    show (y 0).val = (((oRowK (coordsV c i)).view.emb y) 0).val % 32
    rw [e0]; omega
  · apply Fin.ext
    show (y 1).val = (((oRowK (coordsV c i)).view.emb y) 1).val
    rw [e1]

end Cert.Proof.KI

end
-- ==== Proof.Pieces.lean ====
/-
  The 128 pieces of the tile's output scratch, each read at a lane: the run's value there is the piece's term
  (chunk k = row / 4, row in the chunk bl = row mod 4, lane group dg). One statement per piece, one uniform argument:
  the computed values are unfolded to the loads they are made of, each load is read by its kind (a row of the parity
  block; a row of a slot of the gathered rows, through the gather written into the other slot where there is one), and
  the twenty summands are matched position by position.
-/
import proofs.«204096_g51513837748514_cont_sun_m_306_14_alg».proof.Proof.PieceTerm

noncomputable section

namespace Cert.Proof.KI

open Cert.KernelIdeal Cert.KernelIdeal.Gen
open Idealize.ShloMosaic Idealize.ShloMosaic.ValueIdx
open Idealize.ShloMosaic.SparseCore (S V T)

variable {F : FTy → Type} [FloatOps F] [Named F]

variable (d : Dev nD) (L : grid0.Coords)
  (f2 : Buf (Elt F) ((iV).view.loc (thr d L))) (f7 : Buf (Elt F) ((pV).view.loc (thr d L))) (f8 : Buf (Elt F) ((tV).view.loc (thr d L)))
  (fs0 : Buf (Elt F) ((sIdx).view.loc (thr d L))) (fs1 : Buf (Elt F) ((sRows).view.loc (thr d L)))
  (fs2 : Buf (Elt F) ((sPar).view.loc (thr d L))) (hin : ∀ j, (f2 j).toNat < 50000)

set_option maxHeartbeats 2000000 in
theorem piece_0_0 (l : Fin 16) :
    (tileRun.sl.v1159 d L f2 f7 f8 fs0 fs1 fs2 (hinRow0 d L f2 fs0 hin) (hinRow1 d L f2 fs0 hin)) (ix2 (0 : Fin 1) l)
      = pieceTerm f2 f7 f8 hin (wOf L) 0 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_0_1 (l : Fin 16) :
    (tileRun.sl.v1166 d L f2 f7 f8 fs0 fs1 fs2 (hinRow0 d L f2 fs0 hin) (hinRow1 d L f2 fs0 hin)) (ix2 (0 : Fin 1) l)
      = pieceTerm f2 f7 f8 hin (wOf L) 0 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_0_2 (l : Fin 16) :
    (tileRun.sl.v1173 d L f2 f7 f8 fs0 fs1 fs2 (hinRow0 d L f2 fs0 hin) (hinRow1 d L f2 fs0 hin)) (ix2 (0 : Fin 1) l)
      = pieceTerm f2 f7 f8 hin (wOf L) 0 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_0_3 (l : Fin 16) :
    (Gen.k0_pay970 (tileRun.sl.v1152 d L f2 f7 f8 fs0 fs1 fs2 (hinRow0 d L f2 fs0 hin) (hinRow1 d L f2 fs0 hin)) tileRun.sl.v1153) (ix2 (0 : Fin 1) l)
      = pieceTerm f2 f7 f8 hin (wOf L) 0 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_1_0 (l : Fin 16) :
    (tileRun.sl.v1159_1 d L f2 f7 f8 fs0 fs1 fs2 (hinRow0 d L f2 fs0 hin) (hinRow1 d L f2 fs0 hin)) (ix2 (0 : Fin 1) l)
      = pieceTerm f2 f7 f8 hin (wOf L) 0 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_1_1 (l : Fin 16) :
    (tileRun.sl.v1166_1 d L f2 f7 f8 fs0 fs1 fs2 (hinRow0 d L f2 fs0 hin) (hinRow1 d L f2 fs0 hin)) (ix2 (0 : Fin 1) l)
      = pieceTerm f2 f7 f8 hin (wOf L) 0 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_1_2 (l : Fin 16) :
    (tileRun.sl.v1173_1 d L f2 f7 f8 fs0 fs1 fs2 (hinRow0 d L f2 fs0 hin) (hinRow1 d L f2 fs0 hin)) (ix2 (0 : Fin 1) l)
      = pieceTerm f2 f7 f8 hin (wOf L) 0 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_1_3 (l : Fin 16) :
    (Gen.k0_pay970 (tileRun.sl.v1152_1 d L f2 f7 f8 fs0 fs1 fs2 (hinRow0 d L f2 fs0 hin) (hinRow1 d L f2 fs0 hin)) tileRun.sl.v1153) (ix2 (0 : Fin 1) l)
      = pieceTerm f2 f7 f8 hin (wOf L) 0 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_2_0 (l : Fin 16) :
    (tileRun.sl.v1159_2 d L f2 f7 f8 fs0 fs1 fs2 (hinRow0 d L f2 fs0 hin) (hinRow1 d L f2 fs0 hin)) (ix2 (0 : Fin 1) l)
      = pieceTerm f2 f7 f8 hin (wOf L) 0 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_2_1 (l : Fin 16) :
    (tileRun.sl.v1166_2 d L f2 f7 f8 fs0 fs1 fs2 (hinRow0 d L f2 fs0 hin) (hinRow1 d L f2 fs0 hin)) (ix2 (0 : Fin 1) l)
      = pieceTerm f2 f7 f8 hin (wOf L) 0 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_2_2 (l : Fin 16) :
    (tileRun.sl.v1173_2 d L f2 f7 f8 fs0 fs1 fs2 (hinRow0 d L f2 fs0 hin) (hinRow1 d L f2 fs0 hin)) (ix2 (0 : Fin 1) l)
      = pieceTerm f2 f7 f8 hin (wOf L) 0 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_2_3 (l : Fin 16) :
    (Gen.k0_pay970 (tileRun.sl.v1152_2 d L f2 f7 f8 fs0 fs1 fs2 (hinRow0 d L f2 fs0 hin) (hinRow1 d L f2 fs0 hin)) tileRun.sl.v1153) (ix2 (0 : Fin 1) l)
      = pieceTerm f2 f7 f8 hin (wOf L) 0 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_3_0 (l : Fin 16) :
    (tileRun.sl.v1159_3 d L f2 f7 f8 fs0 fs1 fs2 (hinRow0 d L f2 fs0 hin) (hinRow1 d L f2 fs0 hin)) (ix2 (0 : Fin 1) l)
      = pieceTerm f2 f7 f8 hin (wOf L) 0 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_3_1 (l : Fin 16) :
    (tileRun.sl.v1166_3 d L f2 f7 f8 fs0 fs1 fs2 (hinRow0 d L f2 fs0 hin) (hinRow1 d L f2 fs0 hin)) (ix2 (0 : Fin 1) l)
      = pieceTerm f2 f7 f8 hin (wOf L) 0 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_3_2 (l : Fin 16) :
    (tileRun.sl.v1173_3 d L f2 f7 f8 fs0 fs1 fs2 (hinRow0 d L f2 fs0 hin) (hinRow1 d L f2 fs0 hin)) (ix2 (0 : Fin 1) l)
      = pieceTerm f2 f7 f8 hin (wOf L) 0 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_3_3 (l : Fin 16) :
    (Gen.k0_pay970 (tileRun.sl.v1152_3 d L f2 f7 f8 fs0 fs1 fs2 (hinRow0 d L f2 fs0 hin) (hinRow1 d L f2 fs0 hin)) tileRun.sl.v1153) (ix2 (0 : Fin 1) l)
      = pieceTerm f2 f7 f8 hin (wOf L) 0 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_4_0 (l : Fin 16) :
    (tileRun.sl.v1159_4 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_4_1 (l : Fin 16) :
    (tileRun.sl.v1166_4 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_4_2 (l : Fin 16) :
    (tileRun.sl.v1173_4 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_4_3 (l : Fin 16) :
    (Gen.k0_pay971 (tileRun.sl.v1152_4 d L f2 f7 f8 fs0 fs1 fs2 (hinRow0 d L f2 fs0 hin) (hinRow1 d L f2 fs0 hin) (hinRow2 d L f2 fs0 hin)) tileRun.sl.v1153) (ix2 (0 : Fin 1) l)
      = pieceTerm f2 f7 f8 hin (wOf L) 1 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_5_0 (l : Fin 16) :
    (tileRun.sl.v1159_5 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_5_1 (l : Fin 16) :
    (tileRun.sl.v1166_5 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_5_2 (l : Fin 16) :
    (tileRun.sl.v1173_5 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_5_3 (l : Fin 16) :
    (Gen.k0_pay971 (tileRun.sl.v1152_5 d L f2 f7 f8 fs0 fs1 fs2 (hinRow0 d L f2 fs0 hin) (hinRow1 d L f2 fs0 hin) (hinRow2 d L f2 fs0 hin)) tileRun.sl.v1153) (ix2 (0 : Fin 1) l)
      = pieceTerm f2 f7 f8 hin (wOf L) 1 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_6_0 (l : Fin 16) :
    (tileRun.sl.v1159_6 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_6_1 (l : Fin 16) :
    (tileRun.sl.v1166_6 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_6_2 (l : Fin 16) :
    (tileRun.sl.v1173_6 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_6_3 (l : Fin 16) :
    (Gen.k0_pay971 (tileRun.sl.v1152_6 d L f2 f7 f8 fs0 fs1 fs2 (hinRow0 d L f2 fs0 hin) (hinRow1 d L f2 fs0 hin) (hinRow2 d L f2 fs0 hin)) tileRun.sl.v1153) (ix2 (0 : Fin 1) l)
      = pieceTerm f2 f7 f8 hin (wOf L) 1 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_7_0 (l : Fin 16) :
    (tileRun.sl.v1159_7 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_7_1 (l : Fin 16) :
    (tileRun.sl.v1166_7 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_7_2 (l : Fin 16) :
    (tileRun.sl.v1173_7 d L f2 f7 f8 fs0 fs1 fs2 (hinRow0 d L f2 fs0 hin) (hinRow1 d L f2 fs0 hin) (hinRow2 d L f2 fs0 hin)) (ix2 (0 : Fin 1) l)
      = pieceTerm f2 f7 f8 hin (wOf L) 1 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_7_3 (l : Fin 16) :
    (Gen.k0_pay971 (tileRun.sl.v1152_7 d L f2 f7 f8 fs0 fs1 fs2 (hinRow0 d L f2 fs0 hin) (hinRow1 d L f2 fs0 hin) (hinRow2 d L f2 fs0 hin)) tileRun.sl.v1153) (ix2 (0 : Fin 1) l)
      = pieceTerm f2 f7 f8 hin (wOf L) 1 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_8_0 (l : Fin 16) :
    (tileRun.sl.v1159_8 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_8_1 (l : Fin 16) :
    (tileRun.sl.v1166_8 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_8_2 (l : Fin 16) :
    (tileRun.sl.v1173_8 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_8_3 (l : Fin 16) :
    (Gen.k0_pay972 (tileRun.sl.v1152_8 d L f2 f7 f8 fs0 fs1 fs2 (hinRow0 d L f2 fs0 hin) (hinRow1 d L f2 fs0 hin) (hinRow2 d L f2 fs0 hin) (hinRow3 d L f2 fs0 hin)) tileRun.sl.v1153) (ix2 (0 : Fin 1) l)
      = pieceTerm f2 f7 f8 hin (wOf L) 2 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_9_0 (l : Fin 16) :
    (tileRun.sl.v1159_9 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_9_1 (l : Fin 16) :
    (tileRun.sl.v1166_9 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_9_2 (l : Fin 16) :
    (tileRun.sl.v1173_9 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_9_3 (l : Fin 16) :
    (Gen.k0_pay972 (tileRun.sl.v1152_9 d L f2 f7 f8 fs0 fs1 fs2 (hinRow0 d L f2 fs0 hin) (hinRow1 d L f2 fs0 hin) (hinRow2 d L f2 fs0 hin) (hinRow3 d L f2 fs0 hin)) tileRun.sl.v1153) (ix2 (0 : Fin 1) l)
      = pieceTerm f2 f7 f8 hin (wOf L) 2 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_10_0 (l : Fin 16) :
    (tileRun.sl.v1159_10 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_10_1 (l : Fin 16) :
    (tileRun.sl.v1166_10 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_10_2 (l : Fin 16) :
    (tileRun.sl.v1173_10 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_10_3 (l : Fin 16) :
    (Gen.k0_pay972 (tileRun.sl.v1152_10 d L f2 f7 f8 fs0 fs1 fs2 (hinRow0 d L f2 fs0 hin) (hinRow1 d L f2 fs0 hin) (hinRow2 d L f2 fs0 hin) (hinRow3 d L f2 fs0 hin)) tileRun.sl.v1153) (ix2 (0 : Fin 1) l)
      = pieceTerm f2 f7 f8 hin (wOf L) 2 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_11_0 (l : Fin 16) :
    (tileRun.sl.v1159_11 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_11_1 (l : Fin 16) :
    (tileRun.sl.v1166_11 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_11_2 (l : Fin 16) :
    (tileRun.sl.v1173_11 d L f2 f7 f8 fs0 fs1 fs2 (hinRow0 d L f2 fs0 hin) (hinRow1 d L f2 fs0 hin) (hinRow2 d L f2 fs0 hin) (hinRow3 d L f2 fs0 hin)) (ix2 (0 : Fin 1) l)
      = pieceTerm f2 f7 f8 hin (wOf L) 2 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_11_3 (l : Fin 16) :
    (Gen.k0_pay972 (tileRun.sl.v1152_11 d L f2 f7 f8 fs0 fs1 fs2 (hinRow0 d L f2 fs0 hin) (hinRow1 d L f2 fs0 hin) (hinRow2 d L f2 fs0 hin) (hinRow3 d L f2 fs0 hin)) tileRun.sl.v1153) (ix2 (0 : Fin 1) l)
      = pieceTerm f2 f7 f8 hin (wOf L) 2 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_12_0 (l : Fin 16) :
    (tileRun.sl.v1159_12 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_12_1 (l : Fin 16) :
    (tileRun.sl.v1166_12 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_12_2 (l : Fin 16) :
    (tileRun.sl.v1173_12 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_12_3 (l : Fin 16) :
    (Gen.k0_pay973 (tileRun.sl.v1152_12 d L f2 f7 f8 fs0 fs1 fs2 (hinRow0 d L f2 fs0 hin) (hinRow1 d L f2 fs0 hin) (hinRow2 d L f2 fs0 hin) (hinRow3 d L f2 fs0 hin) (hinRow4 d L f2 fs0 hin)) tileRun.sl.v1153) (ix2 (0 : Fin 1) l)
      = pieceTerm f2 f7 f8 hin (wOf L) 3 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_13_0 (l : Fin 16) :
    (tileRun.sl.v1159_13 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_13_1 (l : Fin 16) :
    (tileRun.sl.v1166_13 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_13_2 (l : Fin 16) :
    (tileRun.sl.v1173_13 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_13_3 (l : Fin 16) :
    (Gen.k0_pay973 (tileRun.sl.v1152_13 d L f2 f7 f8 fs0 fs1 fs2 (hinRow0 d L f2 fs0 hin) (hinRow1 d L f2 fs0 hin) (hinRow2 d L f2 fs0 hin) (hinRow3 d L f2 fs0 hin) (hinRow4 d L f2 fs0 hin)) tileRun.sl.v1153) (ix2 (0 : Fin 1) l)
      = pieceTerm f2 f7 f8 hin (wOf L) 3 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_14_0 (l : Fin 16) :
    (tileRun.sl.v1159_14 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_14_1 (l : Fin 16) :
    (tileRun.sl.v1166_14 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_14_2 (l : Fin 16) :
    (tileRun.sl.v1173_14 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_14_3 (l : Fin 16) :
    (Gen.k0_pay973 (tileRun.sl.v1152_14 d L f2 f7 f8 fs0 fs1 fs2 (hinRow0 d L f2 fs0 hin) (hinRow1 d L f2 fs0 hin) (hinRow2 d L f2 fs0 hin) (hinRow3 d L f2 fs0 hin) (hinRow4 d L f2 fs0 hin)) tileRun.sl.v1153) (ix2 (0 : Fin 1) l)
      = pieceTerm f2 f7 f8 hin (wOf L) 3 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_15_0 (l : Fin 16) :
    (tileRun.sl.v1159_15 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_15_1 (l : Fin 16) :
    (tileRun.sl.v1166_15 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_15_2 (l : Fin 16) :
    (tileRun.sl.v1173_15 d L f2 f7 f8 fs0 fs1 fs2 (hinRow0 d L f2 fs0 hin) (hinRow1 d L f2 fs0 hin) (hinRow2 d L f2 fs0 hin) (hinRow3 d L f2 fs0 hin) (hinRow4 d L f2 fs0 hin)) (ix2 (0 : Fin 1) l)
      = pieceTerm f2 f7 f8 hin (wOf L) 3 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_15_3 (l : Fin 16) :
    (Gen.k0_pay973 (tileRun.sl.v1152_15 d L f2 f7 f8 fs0 fs1 fs2 (hinRow0 d L f2 fs0 hin) (hinRow1 d L f2 fs0 hin) (hinRow2 d L f2 fs0 hin) (hinRow3 d L f2 fs0 hin) (hinRow4 d L f2 fs0 hin)) tileRun.sl.v1153) (ix2 (0 : Fin 1) l)
      = pieceTerm f2 f7 f8 hin (wOf L) 3 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_16_0 (l : Fin 16) :
    (tileRun.sl.v1159_16 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_16_1 (l : Fin 16) :
    (tileRun.sl.v1166_16 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_16_2 (l : Fin 16) :
    (tileRun.sl.v1173_16 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_16_3 (l : Fin 16) :
    (Gen.k0_pay974 (tileRun.sl.v1152_16 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) tileRun.sl.v1153) (ix2 (0 : Fin 1) l)
      = pieceTerm f2 f7 f8 hin (wOf L) 4 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_17_0 (l : Fin 16) :
    (tileRun.sl.v1159_17 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_17_1 (l : Fin 16) :
    (tileRun.sl.v1166_17 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_17_2 (l : Fin 16) :
    (tileRun.sl.v1173_17 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_17_3 (l : Fin 16) :
    (Gen.k0_pay974 (tileRun.sl.v1152_17 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) tileRun.sl.v1153) (ix2 (0 : Fin 1) l)
      = pieceTerm f2 f7 f8 hin (wOf L) 4 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_18_0 (l : Fin 16) :
    (tileRun.sl.v1159_18 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_18_1 (l : Fin 16) :
    (tileRun.sl.v1166_18 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_18_2 (l : Fin 16) :
    (tileRun.sl.v1173_18 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_18_3 (l : Fin 16) :
    (Gen.k0_pay974 (tileRun.sl.v1152_18 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) tileRun.sl.v1153) (ix2 (0 : Fin 1) l)
      = pieceTerm f2 f7 f8 hin (wOf L) 4 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_19_0 (l : Fin 16) :
    (tileRun.sl.v1159_19 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_19_1 (l : Fin 16) :
    (tileRun.sl.v1166_19 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_19_2 (l : Fin 16) :
    (tileRun.sl.v1173_19 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) (ix2 (0 : Fin 1) l)
      = pieceTerm f2 f7 f8 hin (wOf L) 4 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_19_3 (l : Fin 16) :
    (Gen.k0_pay974 (tileRun.sl.v1152_19 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin)) tileRun.sl.v1153) (ix2 (0 : Fin 1) l)
      = pieceTerm f2 f7 f8 hin (wOf L) 4 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_20_0 (l : Fin 16) :
    (tileRun.sl.v1159_20 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_20_1 (l : Fin 16) :
    (tileRun.sl.v1166_20 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_20_2 (l : Fin 16) :
    (tileRun.sl.v1173_20 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_20_3 (l : Fin 16) :
    (Gen.k0_pay975 (tileRun.sl.v1152_20 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) tileRun.sl.v1153) (ix2 (0 : Fin 1) l)
      = pieceTerm f2 f7 f8 hin (wOf L) 5 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_21_0 (l : Fin 16) :
    (tileRun.sl.v1159_21 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_21_1 (l : Fin 16) :
    (tileRun.sl.v1166_21 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_21_2 (l : Fin 16) :
    (tileRun.sl.v1173_21 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_21_3 (l : Fin 16) :
    (Gen.k0_pay975 (tileRun.sl.v1152_21 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) tileRun.sl.v1153) (ix2 (0 : Fin 1) l)
      = pieceTerm f2 f7 f8 hin (wOf L) 5 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_22_0 (l : Fin 16) :
    (tileRun.sl.v1159_22 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_22_1 (l : Fin 16) :
    (tileRun.sl.v1166_22 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_22_2 (l : Fin 16) :
    (tileRun.sl.v1173_22 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_22_3 (l : Fin 16) :
    (Gen.k0_pay975 (tileRun.sl.v1152_22 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) tileRun.sl.v1153) (ix2 (0 : Fin 1) l)
      = pieceTerm f2 f7 f8 hin (wOf L) 5 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_23_0 (l : Fin 16) :
    (tileRun.sl.v1159_23 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_23_1 (l : Fin 16) :
    (tileRun.sl.v1166_23 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_23_2 (l : Fin 16) :
    (tileRun.sl.v1173_23 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) (ix2 (0 : Fin 1) l)
      = pieceTerm f2 f7 f8 hin (wOf L) 5 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_23_3 (l : Fin 16) :
    (Gen.k0_pay975 (tileRun.sl.v1152_23 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin)) tileRun.sl.v1153) (ix2 (0 : Fin 1) l)
      = pieceTerm f2 f7 f8 hin (wOf L) 5 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_24_0 (l : Fin 16) :
    (tileRun.sl.v1159_24 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_24_1 (l : Fin 16) :
    (tileRun.sl.v1166_24 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_24_2 (l : Fin 16) :
    (tileRun.sl.v1173_24 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_24_3 (l : Fin 16) :
    (Gen.k0_pay976 (tileRun.sl.v1152_24 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 6 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_25_0 (l : Fin 16) :
    (tileRun.sl.v1159_25 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_25_1 (l : Fin 16) :
    (tileRun.sl.v1166_25 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_25_2 (l : Fin 16) :
    (tileRun.sl.v1173_25 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_25_3 (l : Fin 16) :
    (Gen.k0_pay976 (tileRun.sl.v1152_25 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 6 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_26_0 (l : Fin 16) :
    (tileRun.sl.v1159_26 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_26_1 (l : Fin 16) :
    (tileRun.sl.v1166_26 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_26_2 (l : Fin 16) :
    (tileRun.sl.v1173_26 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_26_3 (l : Fin 16) :
    (Gen.k0_pay976 (tileRun.sl.v1152_26 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 6 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_27_0 (l : Fin 16) :
    (tileRun.sl.v1159_27 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_27_1 (l : Fin 16) :
    (tileRun.sl.v1166_27 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_27_2 (l : Fin 16) :
    (tileRun.sl.v1173_27 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 6 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_27_3 (l : Fin 16) :
    (Gen.k0_pay976 (tileRun.sl.v1152_27 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 6 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) (congrArg₂ FloatOps.mulf (par_readN d L f7 fs2 _ (by omega) _ l) (congrArg₂ FloatOps.subf ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))) ((rows_read_missN d L _ _ _ _ _ _ (by omega) (by omega) (by omega) (by omega) (by omega) _ _ _ l).trans ((rows_read_hitN d L _ _ _ _ _ (by omega) (by omega) (by omega) _ _ _ l).trans (gather_readN d L f2 f8 fs0 hin _ (by omega) _ _ _ _ _ _ _))))))
  rfl

set_option maxHeartbeats 2000000 in
theorem piece_28_0 (l : Fin 16) :
    (tileRun.sl.v1159_28 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 0 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_28_1 (l : Fin 16) :
    (tileRun.sl.v1166_28 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 0 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_28_2 (l : Fin 16) :
    (tileRun.sl.v1173_28 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 0 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_28_3 (l : Fin 16) :
    (Gen.k0_pay1 (tileRun.sl.v1152_28 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 7 0 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_29_0 (l : Fin 16) :
    (tileRun.sl.v1159_29 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 1 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_29_1 (l : Fin 16) :
    (tileRun.sl.v1166_29 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 1 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_29_2 (l : Fin 16) :
    (tileRun.sl.v1173_29 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 1 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_29_3 (l : Fin 16) :
    (Gen.k0_pay1 (tileRun.sl.v1152_29 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 7 1 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_30_0 (l : Fin 16) :
    (tileRun.sl.v1159_30 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 2 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_30_1 (l : Fin 16) :
    (tileRun.sl.v1166_30 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 2 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_30_2 (l : Fin 16) :
    (tileRun.sl.v1173_30 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 2 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_30_3 (l : Fin 16) :
    (Gen.k0_pay1 (tileRun.sl.v1152_30 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 7 2 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_31_0 (l : Fin 16) :
    (tileRun.sl.v1159_31 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 3 0 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_31_1 (l : Fin 16) :
    (tileRun.sl.v1166_31 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 3 1 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_31_2 (l : Fin 16) :
    (tileRun.sl.v1173_31 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) (ix2 (0 : Fin 1) l)
      = pieceTerm f2 f7 f8 hin (wOf L) 7 3 2 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

set_option maxHeartbeats 2000000 in
theorem piece_31_3 (l : Fin 16) :
    (Gen.k0_pay1 (tileRun.sl.v1152_31 d L f2 f7 f8 fs0 fs1 fs2 (hinRow0 d L f2 fs0 hin) (hinRow1 d L f2 fs0 hin) (hinRow2 d L f2 fs0 hin) (hinRow3 d L f2 fs0 hin) (hinRow4 d L f2 fs0 hin) (hinRow5 d L f2 fs0 hin) (hinRow6 d L f2 fs0 hin) (hinRow7 d L f2 fs0 hin)) tileRun.sl.v1153) (ix2 (0 : Fin 1) l)
      = pieceTerm f2 f7 f8 hin (wOf L) 7 3 3 (by omega) (by omega) (by omega) l := by
  unfold_run_values
  simp (config := { proj := false }) only [lane_S1x16_of_S16, lane_S16_of_S1x16, lane_S16_of_S1x1x16, mulf, addf, subf, broadcast]
  unfold pieceTerm pieceStep
  refine congrArg (fun a => FloatOps.mulf a _) ?_
  iterate 20 refine congrArg₂ FloatOps.addf ?_ (congrArg₂ FloatOps.addf ((rows_read_hitN d L _ _ _ _ _ (by omega) (by omega) (by omega) _ _ _ l).trans (gather_readN d L f2 f8 fs0 hin _ (by omega) _ _ _ _ _ _ _)) (congrArg₂ FloatOps.mulf (par_readN d L f7 fs2 _ (by omega) _ l) (congrArg₂ FloatOps.subf ((rows_read_hitN d L _ _ _ _ _ (by omega) (by omega) (by omega) _ _ _ l).trans (gather_readN d L f2 f8 fs0 hin _ (by omega) _ _ _ _ _ _ _)) ((rows_read_hitN d L _ _ _ _ _ (by omega) (by omega) (by omega) _ _ _ l).trans (gather_readN d L f2 f8 fs0 hin _ (by omega) _ _ _ _ _ _ _)))))
  rfl

end Cert.Proof.KI

end
-- ==== Proof.PieceEq.lean ====
/-
  One piece's term is the tile's function on the piece's rectangle: the piece of chunk k, batch row bl of the chunk and
  lane group dg sits at row 4 k + bl, columns 16 dg … 16 dg + 15 of the tile's thirty-two rows, and there the row's
  chunk is k, its entries are 20 bl + c, its parity rows 80 k + 20 bl + c, and column 16 dg + l has lane l.
-/
import proofs.«204096_g51513837748514_cont_sun_m_306_14_alg».proof.Proof.PieceTerm

noncomputable section

namespace Cert.Proof.KI

open Cert.KernelIdeal Cert.KernelIdeal.Gen
open Idealize.ShloMosaic Idealize.ShloMosaic.ValueIdx

variable {F : FTy → Type} [FloatOps F] [Named F]

theorem pieceStep_eq (f2 : IVec S32x8x80 32) (f7 : FVec F S32x640x16 .f32) (f8 : FVec F S50000x128 .f32)
    (h2 : ∀ j, (f2 j).toNat < 50000) (w : Fin 32) (k bl dg : Nat) (hk : k < 8) (hbl : bl < 4) (hdg : dg < 4) (l : Fin 16)
    (c : Nat) (hc : c < 20) :
    pieceStep f2 f7 f8 h2 w k bl dg hk hbl hdg l c hc
      = hidStep f2 f7 f8 h2 w (⟨4 * k + bl, by omega⟩ : Fin 32) (⟨16 * dg + l.val, by omega⟩ : Fin 64) (⟨c, hc⟩ : Fin 20) := by
  have e1 : chunkOf (⟨4 * k + bl, by omega⟩ : Fin 32) = (⟨k, hk⟩ : Fin 8) := Fin.ext (by show (4 * k + bl) / 4 = k; omega)
  have e2 : entryOf (⟨4 * k + bl, by omega⟩ : Fin 32) (⟨c, hc⟩ : Fin 20) = (⟨20 * bl + c, by omega⟩ : Fin 80) :=
    Fin.ext (by show 20 * ((4 * k + bl) % 4) + c = 20 * bl + c; omega)
  have e3 : parRow (⟨4 * k + bl, by omega⟩ : Fin 32) (⟨c, hc⟩ : Fin 20) = (⟨80 * k + 20 * bl + c, by omega⟩ : Fin 640) :=
    Fin.ext (by show 80 * ((4 * k + bl) / 4) + (20 * ((4 * k + bl) % 4) + c) = 80 * k + 20 * bl + c; omega)
  have e4 : laneOf (⟨16 * dg + l.val, by omega⟩ : Fin 64) = l := Fin.ext (by show (16 * dg + l.val) % 16 = l.val; omega)
  have e5 : lowCol (⟨16 * dg + l.val, by omega⟩ : Fin 64) = (⟨16 * dg + l.val, by omega⟩ : Fin 128) := Fin.ext rfl
  have e6 : highCol (⟨16 * dg + l.val, by omega⟩ : Fin 64) = (⟨64 + 16 * dg + l.val, by omega⟩ : Fin 128) :=
    Fin.ext (by show 64 + (16 * dg + l.val) = 64 + 16 * dg + l.val; omega)
  rw [hidStep_of f2 f7 f8 h2 w _ _ _ (⟨(f2 (ix3 w (⟨k, hk⟩ : Fin 8) (⟨20 * bl + c, by omega⟩ : Fin 80))).toNat, h2 _⟩ : Fin 50000) (by rw [e1, e2]),
    e3, e4, e5, e6]
  rfl

theorem pieceTerm_eq (f2 : IVec S32x8x80 32) (f7 : FVec F S32x640x16 .f32) (f8 : FVec F S50000x128 .f32)
    (h2 : ∀ j, (f2 j).toNat < 50000) (w : Fin 32) (k bl dg : Nat) (hk : k < 8) (hbl : bl < 4) (hdg : dg < 4) (l : Fin 16) :
    pieceTerm f2 f7 f8 h2 w k bl dg hk hbl hdg l
      = hidTerm f2 f7 f8 h2 w (⟨4 * k + bl, by omega⟩ : Fin 32) (⟨16 * dg + l.val, by omega⟩ : Fin 64) := by
  unfold pieceTerm hidTerm
  rw [hidAcc_eq]
  simp only [pieceStep_eq]
  rfl

/-- A payload that is the piece's term lane by lane is the tile's function on the piece's rectangle. -/
theorem piece_fact (f2 : IVec S32x8x80 32) (f7 : FVec F S32x640x16 .f32) (f8 : FVec F S50000x128 .f32)
    (h2 : ∀ j, (f2 j).toNat < 50000) (w : Fin 32) (k bl dg : Nat) (hk : k < 8) (hbl : bl < 4) (hdg : dg < 4)
    (r c0 : Nat) (hr : r = 4 * k + bl) (hc0 : c0 = 16 * dg)
    (hinb : ∀ a, (![r, c0] : Fin 2 → Nat) a + S1x16.size a ≤ S32x64.size a)
    (P : (Rect.unit (s := S32x64) ![r, c0] S1x16.size hinb).shape.Idx → F .f32)
    (h : ∀ l : Fin 16, P (ix2 (0 : Fin 1) l) = pieceTerm f2 f7 f8 h2 w k bl dg hk hbl hdg l) :
    ∀ x, P x = tileG f2 f7 f8 h2 w ((Rect.unit (s := S32x64) ![r, c0] S1x16.size hinb).emb x) := by
  intro x
  subst hr hc0
  obtain ⟨a, l, rfl⟩ : ∃ (a : Fin 1) (l : Fin 16), x = ix2 a l := ⟨x 0, x 1, eq_ix2 x⟩
  obtain rfl : a = 0 := Subsingleton.elim _ _
  rw [h l, pieceTerm_eq]
  have hr0 : (((Rect.unit (s := S32x64) ![4 * k + bl, 16 * dg] S1x16.size hinb).emb (ix2 (0 : Fin 1) l)) 0).val = 4 * k + bl := by
    show 4 * k + bl + 1 * 0 = _; omega
  have hc1 : (((Rect.unit (s := S32x64) ![4 * k + bl, 16 * dg] S1x16.size hinb).emb (ix2 (0 : Fin 1) l)) 1).val = 16 * dg + l.val := by
    show 16 * dg + 1 * l.val = _; omega
  unfold tileG
  congr 1 <;> exact Fin.ext (by first | exact hr0.symm | exact hc1.symm)

end Cert.Proof.KI

end
-- ==== Proof.PiecesAll.lean ====
/-
  Every piece the run wrote into the tile's output scratch is the tile's function on the piece's rectangle: the list of
  the 128 pieces is gone through, each piece by its own statement.
-/
import proofs.«204096_g51513837748514_cont_sun_m_306_14_alg».proof.Proof.Pieces
import proofs.«204096_g51513837748514_cont_sun_m_306_14_alg».proof.Proof.PieceEq

noncomputable section

namespace Cert.Proof.KI

open Cert.KernelIdeal Cert.KernelIdeal.Gen
open Idealize.ShloMosaic Idealize.ShloMosaic.ValueIdx
open Idealize.ShloMosaic.SparseCore (S V T)

variable {F : FTy → Type} [FloatOps F] [Named F]

variable (d : Dev nD) (L : grid0.Coords)
  (f2 : Buf (Elt F) ((iV).view.loc (thr d L))) (f7 : Buf (Elt F) ((pV).view.loc (thr d L))) (f8 : Buf (Elt F) ((tV).view.loc (thr d L)))
  (fs0 : Buf (Elt F) ((sIdx).view.loc (thr d L))) (fs1 : Buf (Elt F) ((sRows).view.loc (thr d L)))
  (fs2 : Buf (Elt F) ((sPar).view.loc (thr d L))) (hin : ∀ j, (f2 j).toNat < 50000)

set_option maxHeartbeats 4000000 in
set_option maxRecDepth 100000 in
/-- The 128 pieces, one after the other. -/
theorem pieces_ok : PiecesOk d L f2 f7 f8 fs0 fs1 fs2 hin := by
  intro p hp
  simp only [tileRun.sl.Hs3'_128, List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  · exact piece_fact f2 f7 f8 hin (wOf L) 7 3 3 (by omega) (by omega) (by omega) 31 48 rfl rfl (by decide) _ (piece_31_3 d L f2 f7 f8 fs0 fs1 fs2 hin)
  · exact piece_fact f2 f7 f8 hin (wOf L) 7 3 2 (by omega) (by omega) (by omega) 31 32 rfl rfl (by decide) _ (piece_31_2 d L f2 f7 f8 fs0 fs1 fs2 hin)
  · exact piece_fact f2 f7 f8 hin (wOf L) 7 3 1 (by omega) (by omega) (by omega) 31 16 rfl rfl (by decide) _ (piece_31_1 d L f2 f7 f8 fs0 fs1 fs2 hin)
  · exact piece_fact f2 f7 f8 hin (wOf L) 7 3 0 (by omega) (by omega) (by omega) 31 0 rfl rfl (by decide) _ (piece_31_0 d L f2 f7 f8 fs0 fs1 fs2 hin)
  · exact piece_fact f2 f7 f8 hin (wOf L) 7 2 3 (by omega) (by omega) (by omega) 30 48 rfl rfl (by decide) _ (piece_30_3 d L f2 f7 f8 fs0 fs1 fs2 hin)
  · exact piece_fact f2 f7 f8 hin (wOf L) 7 2 2 (by omega) (by omega) (by omega) 30 32 rfl rfl (by decide) _ (piece_30_2 d L f2 f7 f8 fs0 fs1 fs2 hin)
  · exact piece_fact f2 f7 f8 hin (wOf L) 7 2 1 (by omega) (by omega) (by omega) 30 16 rfl rfl (by decide) _ (piece_30_1 d L f2 f7 f8 fs0 fs1 fs2 hin)
  · exact piece_fact f2 f7 f8 hin (wOf L) 7 2 0 (by omega) (by omega) (by omega) 30 0 rfl rfl (by decide) _ (piece_30_0 d L f2 f7 f8 fs0 fs1 fs2 hin)
  · exact piece_fact f2 f7 f8 hin (wOf L) 7 1 3 (by omega) (by omega) (by omega) 29 48 rfl rfl (by decide) _ (piece_29_3 d L f2 f7 f8 fs0 fs1 fs2 hin)
  · exact piece_fact f2 f7 f8 hin (wOf L) 7 1 2 (by omega) (by omega) (by omega) 29 32 rfl rfl (by decide) _ (piece_29_2 d L f2 f7 f8 fs0 fs1 fs2 hin)
  · exact piece_fact f2 f7 f8 hin (wOf L) 7 1 1 (by omega) (by omega) (by omega) 29 16 rfl rfl (by decide) _ (piece_29_1 d L f2 f7 f8 fs0 fs1 fs2 hin)
  · exact piece_fact f2 f7 f8 hin (wOf L) 7 1 0 (by omega) (by omega) (by omega) 29 0 rfl rfl (by decide) _ (piece_29_0 d L f2 f7 f8 fs0 fs1 fs2 hin)
  · exact piece_fact f2 f7 f8 hin (wOf L) 7 0 3 (by omega) (by omega) (by omega) 28 48 rfl rfl (by decide) _ (piece_28_3 d L f2 f7 f8 fs0 fs1 fs2 hin)
  · exact piece_fact f2 f7 f8 hin (wOf L) 7 0 2 (by omega) (by omega) (by omega) 28 32 rfl rfl (by decide) _ (piece_28_2 d L f2 f7 f8 fs0 fs1 fs2 hin)
  · exact piece_fact f2 f7 f8 hin (wOf L) 7 0 1 (by omega) (by omega) (by omega) 28 16 rfl rfl (by decide) _ (piece_28_1 d L f2 f7 f8 fs0 fs1 fs2 hin)
  · exact piece_fact f2 f7 f8 hin (wOf L) 7 0 0 (by omega) (by omega) (by omega) 28 0 rfl rfl (by decide) _ (piece_28_0 d L f2 f7 f8 fs0 fs1 fs2 hin)
  · exact piece_fact f2 f7 f8 hin (wOf L) 6 3 3 (by omega) (by omega) (by omega) 27 48 rfl rfl (by decide) _ (piece_27_3 d L f2 f7 f8 fs0 fs1 fs2 hin)
  · exact piece_fact f2 f7 f8 hin (wOf L) 6 3 2 (by omega) (by omega) (by omega) 27 32 rfl rfl (by decide) _ (piece_27_2 d L f2 f7 f8 fs0 fs1 fs2 hin)
  · exact piece_fact f2 f7 f8 hin (wOf L) 6 3 1 (by omega) (by omega) (by omega) 27 16 rfl rfl (by decide) _ (piece_27_1 d L f2 f7 f8 fs0 fs1 fs2 hin)
  · exact piece_fact f2 f7 f8 hin (wOf L) 6 3 0 (by omega) (by omega) (by omega) 27 0 rfl rfl (by decide) _ (piece_27_0 d L f2 f7 f8 fs0 fs1 fs2 hin)
  · exact piece_fact f2 f7 f8 hin (wOf L) 6 2 3 (by omega) (by omega) (by omega) 26 48 rfl rfl (by decide) _ (piece_26_3 d L f2 f7 f8 fs0 fs1 fs2 hin)
  · exact piece_fact f2 f7 f8 hin (wOf L) 6 2 2 (by omega) (by omega) (by omega) 26 32 rfl rfl (by decide) _ (piece_26_2 d L f2 f7 f8 fs0 fs1 fs2 hin)
  · exact piece_fact f2 f7 f8 hin (wOf L) 6 2 1 (by omega) (by omega) (by omega) 26 16 rfl rfl (by decide) _ (piece_26_1 d L f2 f7 f8 fs0 fs1 fs2 hin)
  · exact piece_fact f2 f7 f8 hin (wOf L) 6 2 0 (by omega) (by omega) (by omega) 26 0 rfl rfl (by decide) _ (piece_26_0 d L f2 f7 f8 fs0 fs1 fs2 hin)
  · exact piece_fact f2 f7 f8 hin (wOf L) 6 1 3 (by omega) (by omega) (by omega) 25 48 rfl rfl (by decide) _ (piece_25_3 d L f2 f7 f8 fs0 fs1 fs2 hin)
  · exact piece_fact f2 f7 f8 hin (wOf L) 6 1 2 (by omega) (by omega) (by omega) 25 32 rfl rfl (by decide) _ (piece_25_2 d L f2 f7 f8 fs0 fs1 fs2 hin)
  · exact piece_fact f2 f7 f8 hin (wOf L) 6 1 1 (by omega) (by omega) (by omega) 25 16 rfl rfl (by decide) _ (piece_25_1 d L f2 f7 f8 fs0 fs1 fs2 hin)
  · exact piece_fact f2 f7 f8 hin (wOf L) 6 1 0 (by omega) (by omega) (by omega) 25 0 rfl rfl (by decide) _ (piece_25_0 d L f2 f7 f8 fs0 fs1 fs2 hin)
  · exact piece_fact f2 f7 f8 hin (wOf L) 6 0 3 (by omega) (by omega) (by omega) 24 48 rfl rfl (by decide) _ (piece_24_3 d L f2 f7 f8 fs0 fs1 fs2 hin)
  · exact piece_fact f2 f7 f8 hin (wOf L) 6 0 2 (by omega) (by omega) (by omega) 24 32 rfl rfl (by decide) _ (piece_24_2 d L f2 f7 f8 fs0 fs1 fs2 hin)
  · exact piece_fact f2 f7 f8 hin (wOf L) 6 0 1 (by omega) (by omega) (by omega) 24 16 rfl rfl (by decide) _ (piece_24_1 d L f2 f7 f8 fs0 fs1 fs2 hin)
  · exact piece_fact f2 f7 f8 hin (wOf L) 6 0 0 (by omega) (by omega) (by omega) 24 0 rfl rfl (by decide) _ (piece_24_0 d L f2 f7 f8 fs0 fs1 fs2 hin)
  · exact piece_fact f2 f7 f8 hin (wOf L) 5 3 3 (by omega) (by omega) (by omega) 23 48 rfl rfl (by decide) _ (piece_23_3 d L f2 f7 f8 fs0 fs1 fs2 hin)
  · exact piece_fact f2 f7 f8 hin (wOf L) 5 3 2 (by omega) (by omega) (by omega) 23 32 rfl rfl (by decide) _ (piece_23_2 d L f2 f7 f8 fs0 fs1 fs2 hin)
  · exact piece_fact f2 f7 f8 hin (wOf L) 5 3 1 (by omega) (by omega) (by omega) 23 16 rfl rfl (by decide) _ (piece_23_1 d L f2 f7 f8 fs0 fs1 fs2 hin)
  · exact piece_fact f2 f7 f8 hin (wOf L) 5 3 0 (by omega) (by omega) (by omega) 23 0 rfl rfl (by decide) _ (piece_23_0 d L f2 f7 f8 fs0 fs1 fs2 hin)
  · exact piece_fact f2 f7 f8 hin (wOf L) 5 2 3 (by omega) (by omega) (by omega) 22 48 rfl rfl (by decide) _ (piece_22_3 d L f2 f7 f8 fs0 fs1 fs2 hin)
  · exact piece_fact f2 f7 f8 hin (wOf L) 5 2 2 (by omega) (by omega) (by omega) 22 32 rfl rfl (by decide) _ (piece_22_2 d L f2 f7 f8 fs0 fs1 fs2 hin)
  · exact piece_fact f2 f7 f8 hin (wOf L) 5 2 1 (by omega) (by omega) (by omega) 22 16 rfl rfl (by decide) _ (piece_22_1 d L f2 f7 f8 fs0 fs1 fs2 hin)
  · exact piece_fact f2 f7 f8 hin (wOf L) 5 2 0 (by omega) (by omega) (by omega) 22 0 rfl rfl (by decide) _ (piece_22_0 d L f2 f7 f8 fs0 fs1 fs2 hin)
  · exact piece_fact f2 f7 f8 hin (wOf L) 5 1 3 (by omega) (by omega) (by omega) 21 48 rfl rfl (by decide) _ (piece_21_3 d L f2 f7 f8 fs0 fs1 fs2 hin)
  · exact piece_fact f2 f7 f8 hin (wOf L) 5 1 2 (by omega) (by omega) (by omega) 21 32 rfl rfl (by decide) _ (piece_21_2 d L f2 f7 f8 fs0 fs1 fs2 hin)
  · exact piece_fact f2 f7 f8 hin (wOf L) 5 1 1 (by omega) (by omega) (by omega) 21 16 rfl rfl (by decide) _ (piece_21_1 d L f2 f7 f8 fs0 fs1 fs2 hin)
  · exact piece_fact f2 f7 f8 hin (wOf L) 5 1 0 (by omega) (by omega) (by omega) 21 0 rfl rfl (by decide) _ (piece_21_0 d L f2 f7 f8 fs0 fs1 fs2 hin)
  · exact piece_fact f2 f7 f8 hin (wOf L) 5 0 3 (by omega) (by omega) (by omega) 20 48 rfl rfl (by decide) _ (piece_20_3 d L f2 f7 f8 fs0 fs1 fs2 hin)
  · exact piece_fact f2 f7 f8 hin (wOf L) 5 0 2 (by omega) (by omega) (by omega) 20 32 rfl rfl (by decide) _ (piece_20_2 d L f2 f7 f8 fs0 fs1 fs2 hin)
  · exact piece_fact f2 f7 f8 hin (wOf L) 5 0 1 (by omega) (by omega) (by omega) 20 16 rfl rfl (by decide) _ (piece_20_1 d L f2 f7 f8 fs0 fs1 fs2 hin)
  · exact piece_fact f2 f7 f8 hin (wOf L) 5 0 0 (by omega) (by omega) (by omega) 20 0 rfl rfl (by decide) _ (piece_20_0 d L f2 f7 f8 fs0 fs1 fs2 hin)
  · exact piece_fact f2 f7 f8 hin (wOf L) 4 3 3 (by omega) (by omega) (by omega) 19 48 rfl rfl (by decide) _ (piece_19_3 d L f2 f7 f8 fs0 fs1 fs2 hin)
  · exact piece_fact f2 f7 f8 hin (wOf L) 4 3 2 (by omega) (by omega) (by omega) 19 32 rfl rfl (by decide) _ (piece_19_2 d L f2 f7 f8 fs0 fs1 fs2 hin)
  · exact piece_fact f2 f7 f8 hin (wOf L) 4 3 1 (by omega) (by omega) (by omega) 19 16 rfl rfl (by decide) _ (piece_19_1 d L f2 f7 f8 fs0 fs1 fs2 hin)
  · exact piece_fact f2 f7 f8 hin (wOf L) 4 3 0 (by omega) (by omega) (by omega) 19 0 rfl rfl (by decide) _ (piece_19_0 d L f2 f7 f8 fs0 fs1 fs2 hin)
  · exact piece_fact f2 f7 f8 hin (wOf L) 4 2 3 (by omega) (by omega) (by omega) 18 48 rfl rfl (by decide) _ (piece_18_3 d L f2 f7 f8 fs0 fs1 fs2 hin)
  · exact piece_fact f2 f7 f8 hin (wOf L) 4 2 2 (by omega) (by omega) (by omega) 18 32 rfl rfl (by decide) _ (piece_18_2 d L f2 f7 f8 fs0 fs1 fs2 hin)
  · exact piece_fact f2 f7 f8 hin (wOf L) 4 2 1 (by omega) (by omega) (by omega) 18 16 rfl rfl (by decide) _ (piece_18_1 d L f2 f7 f8 fs0 fs1 fs2 hin)
  · exact piece_fact f2 f7 f8 hin (wOf L) 4 2 0 (by omega) (by omega) (by omega) 18 0 rfl rfl (by decide) _ (piece_18_0 d L f2 f7 f8 fs0 fs1 fs2 hin)
  · exact piece_fact f2 f7 f8 hin (wOf L) 4 1 3 (by omega) (by omega) (by omega) 17 48 rfl rfl (by decide) _ (piece_17_3 d L f2 f7 f8 fs0 fs1 fs2 hin)
  · exact piece_fact f2 f7 f8 hin (wOf L) 4 1 2 (by omega) (by omega) (by omega) 17 32 rfl rfl (by decide) _ (piece_17_2 d L f2 f7 f8 fs0 fs1 fs2 hin)
  · exact piece_fact f2 f7 f8 hin (wOf L) 4 1 1 (by omega) (by omega) (by omega) 17 16 rfl rfl (by decide) _ (piece_17_1 d L f2 f7 f8 fs0 fs1 fs2 hin)
  · exact piece_fact f2 f7 f8 hin (wOf L) 4 1 0 (by omega) (by omega) (by omega) 17 0 rfl rfl (by decide) _ (piece_17_0 d L f2 f7 f8 fs0 fs1 fs2 hin)
  · exact piece_fact f2 f7 f8 hin (wOf L) 4 0 3 (by omega) (by omega) (by omega) 16 48 rfl rfl (by decide) _ (piece_16_3 d L f2 f7 f8 fs0 fs1 fs2 hin)
  · exact piece_fact f2 f7 f8 hin (wOf L) 4 0 2 (by omega) (by omega) (by omega) 16 32 rfl rfl (by decide) _ (piece_16_2 d L f2 f7 f8 fs0 fs1 fs2 hin)
  · exact piece_fact f2 f7 f8 hin (wOf L) 4 0 1 (by omega) (by omega) (by omega) 16 16 rfl rfl (by decide) _ (piece_16_1 d L f2 f7 f8 fs0 fs1 fs2 hin)
  · exact piece_fact f2 f7 f8 hin (wOf L) 4 0 0 (by omega) (by omega) (by omega) 16 0 rfl rfl (by decide) _ (piece_16_0 d L f2 f7 f8 fs0 fs1 fs2 hin)
  · exact piece_fact f2 f7 f8 hin (wOf L) 3 3 3 (by omega) (by omega) (by omega) 15 48 rfl rfl (by decide) _ (piece_15_3 d L f2 f7 f8 fs0 fs1 fs2 hin)
  · exact piece_fact f2 f7 f8 hin (wOf L) 3 3 2 (by omega) (by omega) (by omega) 15 32 rfl rfl (by decide) _ (piece_15_2 d L f2 f7 f8 fs0 fs1 fs2 hin)
  · exact piece_fact f2 f7 f8 hin (wOf L) 3 3 1 (by omega) (by omega) (by omega) 15 16 rfl rfl (by decide) _ (piece_15_1 d L f2 f7 f8 fs0 fs1 fs2 hin)
  · exact piece_fact f2 f7 f8 hin (wOf L) 3 3 0 (by omega) (by omega) (by omega) 15 0 rfl rfl (by decide) _ (piece_15_0 d L f2 f7 f8 fs0 fs1 fs2 hin)
  · exact piece_fact f2 f7 f8 hin (wOf L) 3 2 3 (by omega) (by omega) (by omega) 14 48 rfl rfl (by decide) _ (piece_14_3 d L f2 f7 f8 fs0 fs1 fs2 hin)
  · exact piece_fact f2 f7 f8 hin (wOf L) 3 2 2 (by omega) (by omega) (by omega) 14 32 rfl rfl (by decide) _ (piece_14_2 d L f2 f7 f8 fs0 fs1 fs2 hin)
  · exact piece_fact f2 f7 f8 hin (wOf L) 3 2 1 (by omega) (by omega) (by omega) 14 16 rfl rfl (by decide) _ (piece_14_1 d L f2 f7 f8 fs0 fs1 fs2 hin)
  · exact piece_fact f2 f7 f8 hin (wOf L) 3 2 0 (by omega) (by omega) (by omega) 14 0 rfl rfl (by decide) _ (piece_14_0 d L f2 f7 f8 fs0 fs1 fs2 hin)
  · exact piece_fact f2 f7 f8 hin (wOf L) 3 1 3 (by omega) (by omega) (by omega) 13 48 rfl rfl (by decide) _ (piece_13_3 d L f2 f7 f8 fs0 fs1 fs2 hin)
  · exact piece_fact f2 f7 f8 hin (wOf L) 3 1 2 (by omega) (by omega) (by omega) 13 32 rfl rfl (by decide) _ (piece_13_2 d L f2 f7 f8 fs0 fs1 fs2 hin)
  · exact piece_fact f2 f7 f8 hin (wOf L) 3 1 1 (by omega) (by omega) (by omega) 13 16 rfl rfl (by decide) _ (piece_13_1 d L f2 f7 f8 fs0 fs1 fs2 hin)
  · exact piece_fact f2 f7 f8 hin (wOf L) 3 1 0 (by omega) (by omega) (by omega) 13 0 rfl rfl (by decide) _ (piece_13_0 d L f2 f7 f8 fs0 fs1 fs2 hin)
  · exact piece_fact f2 f7 f8 hin (wOf L) 3 0 3 (by omega) (by omega) (by omega) 12 48 rfl rfl (by decide) _ (piece_12_3 d L f2 f7 f8 fs0 fs1 fs2 hin)
  · exact piece_fact f2 f7 f8 hin (wOf L) 3 0 2 (by omega) (by omega) (by omega) 12 32 rfl rfl (by decide) _ (piece_12_2 d L f2 f7 f8 fs0 fs1 fs2 hin)
  · exact piece_fact f2 f7 f8 hin (wOf L) 3 0 1 (by omega) (by omega) (by omega) 12 16 rfl rfl (by decide) _ (piece_12_1 d L f2 f7 f8 fs0 fs1 fs2 hin)
  · exact piece_fact f2 f7 f8 hin (wOf L) 3 0 0 (by omega) (by omega) (by omega) 12 0 rfl rfl (by decide) _ (piece_12_0 d L f2 f7 f8 fs0 fs1 fs2 hin)
  · exact piece_fact f2 f7 f8 hin (wOf L) 2 3 3 (by omega) (by omega) (by omega) 11 48 rfl rfl (by decide) _ (piece_11_3 d L f2 f7 f8 fs0 fs1 fs2 hin)
  · exact piece_fact f2 f7 f8 hin (wOf L) 2 3 2 (by omega) (by omega) (by omega) 11 32 rfl rfl (by decide) _ (piece_11_2 d L f2 f7 f8 fs0 fs1 fs2 hin)
  · exact piece_fact f2 f7 f8 hin (wOf L) 2 3 1 (by omega) (by omega) (by omega) 11 16 rfl rfl (by decide) _ (piece_11_1 d L f2 f7 f8 fs0 fs1 fs2 hin)
  · exact piece_fact f2 f7 f8 hin (wOf L) 2 3 0 (by omega) (by omega) (by omega) 11 0 rfl rfl (by decide) _ (piece_11_0 d L f2 f7 f8 fs0 fs1 fs2 hin)
  · exact piece_fact f2 f7 f8 hin (wOf L) 2 2 3 (by omega) (by omega) (by omega) 10 48 rfl rfl (by decide) _ (piece_10_3 d L f2 f7 f8 fs0 fs1 fs2 hin)
  · exact piece_fact f2 f7 f8 hin (wOf L) 2 2 2 (by omega) (by omega) (by omega) 10 32 rfl rfl (by decide) _ (piece_10_2 d L f2 f7 f8 fs0 fs1 fs2 hin)
  · exact piece_fact f2 f7 f8 hin (wOf L) 2 2 1 (by omega) (by omega) (by omega) 10 16 rfl rfl (by decide) _ (piece_10_1 d L f2 f7 f8 fs0 fs1 fs2 hin)
  · exact piece_fact f2 f7 f8 hin (wOf L) 2 2 0 (by omega) (by omega) (by omega) 10 0 rfl rfl (by decide) _ (piece_10_0 d L f2 f7 f8 fs0 fs1 fs2 hin)
  · exact piece_fact f2 f7 f8 hin (wOf L) 2 1 3 (by omega) (by omega) (by omega) 9 48 rfl rfl (by decide) _ (piece_9_3 d L f2 f7 f8 fs0 fs1 fs2 hin)
  · exact piece_fact f2 f7 f8 hin (wOf L) 2 1 2 (by omega) (by omega) (by omega) 9 32 rfl rfl (by decide) _ (piece_9_2 d L f2 f7 f8 fs0 fs1 fs2 hin)
  · exact piece_fact f2 f7 f8 hin (wOf L) 2 1 1 (by omega) (by omega) (by omega) 9 16 rfl rfl (by decide) _ (piece_9_1 d L f2 f7 f8 fs0 fs1 fs2 hin)
  · exact piece_fact f2 f7 f8 hin (wOf L) 2 1 0 (by omega) (by omega) (by omega) 9 0 rfl rfl (by decide) _ (piece_9_0 d L f2 f7 f8 fs0 fs1 fs2 hin)
  · exact piece_fact f2 f7 f8 hin (wOf L) 2 0 3 (by omega) (by omega) (by omega) 8 48 rfl rfl (by decide) _ (piece_8_3 d L f2 f7 f8 fs0 fs1 fs2 hin)
  · exact piece_fact f2 f7 f8 hin (wOf L) 2 0 2 (by omega) (by omega) (by omega) 8 32 rfl rfl (by decide) _ (piece_8_2 d L f2 f7 f8 fs0 fs1 fs2 hin)
  · exact piece_fact f2 f7 f8 hin (wOf L) 2 0 1 (by omega) (by omega) (by omega) 8 16 rfl rfl (by decide) _ (piece_8_1 d L f2 f7 f8 fs0 fs1 fs2 hin)
  · exact piece_fact f2 f7 f8 hin (wOf L) 2 0 0 (by omega) (by omega) (by omega) 8 0 rfl rfl (by decide) _ (piece_8_0 d L f2 f7 f8 fs0 fs1 fs2 hin)
  · exact piece_fact f2 f7 f8 hin (wOf L) 1 3 3 (by omega) (by omega) (by omega) 7 48 rfl rfl (by decide) _ (piece_7_3 d L f2 f7 f8 fs0 fs1 fs2 hin)
  · exact piece_fact f2 f7 f8 hin (wOf L) 1 3 2 (by omega) (by omega) (by omega) 7 32 rfl rfl (by decide) _ (piece_7_2 d L f2 f7 f8 fs0 fs1 fs2 hin)
  · exact piece_fact f2 f7 f8 hin (wOf L) 1 3 1 (by omega) (by omega) (by omega) 7 16 rfl rfl (by decide) _ (piece_7_1 d L f2 f7 f8 fs0 fs1 fs2 hin)
  · exact piece_fact f2 f7 f8 hin (wOf L) 1 3 0 (by omega) (by omega) (by omega) 7 0 rfl rfl (by decide) _ (piece_7_0 d L f2 f7 f8 fs0 fs1 fs2 hin)
  · exact piece_fact f2 f7 f8 hin (wOf L) 1 2 3 (by omega) (by omega) (by omega) 6 48 rfl rfl (by decide) _ (piece_6_3 d L f2 f7 f8 fs0 fs1 fs2 hin)
  · exact piece_fact f2 f7 f8 hin (wOf L) 1 2 2 (by omega) (by omega) (by omega) 6 32 rfl rfl (by decide) _ (piece_6_2 d L f2 f7 f8 fs0 fs1 fs2 hin)
  · exact piece_fact f2 f7 f8 hin (wOf L) 1 2 1 (by omega) (by omega) (by omega) 6 16 rfl rfl (by decide) _ (piece_6_1 d L f2 f7 f8 fs0 fs1 fs2 hin)
  · exact piece_fact f2 f7 f8 hin (wOf L) 1 2 0 (by omega) (by omega) (by omega) 6 0 rfl rfl (by decide) _ (piece_6_0 d L f2 f7 f8 fs0 fs1 fs2 hin)
  · exact piece_fact f2 f7 f8 hin (wOf L) 1 1 3 (by omega) (by omega) (by omega) 5 48 rfl rfl (by decide) _ (piece_5_3 d L f2 f7 f8 fs0 fs1 fs2 hin)
  · exact piece_fact f2 f7 f8 hin (wOf L) 1 1 2 (by omega) (by omega) (by omega) 5 32 rfl rfl (by decide) _ (piece_5_2 d L f2 f7 f8 fs0 fs1 fs2 hin)
  · exact piece_fact f2 f7 f8 hin (wOf L) 1 1 1 (by omega) (by omega) (by omega) 5 16 rfl rfl (by decide) _ (piece_5_1 d L f2 f7 f8 fs0 fs1 fs2 hin)
  · exact piece_fact f2 f7 f8 hin (wOf L) 1 1 0 (by omega) (by omega) (by omega) 5 0 rfl rfl (by decide) _ (piece_5_0 d L f2 f7 f8 fs0 fs1 fs2 hin)
  · exact piece_fact f2 f7 f8 hin (wOf L) 1 0 3 (by omega) (by omega) (by omega) 4 48 rfl rfl (by decide) _ (piece_4_3 d L f2 f7 f8 fs0 fs1 fs2 hin)
  · exact piece_fact f2 f7 f8 hin (wOf L) 1 0 2 (by omega) (by omega) (by omega) 4 32 rfl rfl (by decide) _ (piece_4_2 d L f2 f7 f8 fs0 fs1 fs2 hin)
  · exact piece_fact f2 f7 f8 hin (wOf L) 1 0 1 (by omega) (by omega) (by omega) 4 16 rfl rfl (by decide) _ (piece_4_1 d L f2 f7 f8 fs0 fs1 fs2 hin)
  · exact piece_fact f2 f7 f8 hin (wOf L) 1 0 0 (by omega) (by omega) (by omega) 4 0 rfl rfl (by decide) _ (piece_4_0 d L f2 f7 f8 fs0 fs1 fs2 hin)
  · exact piece_fact f2 f7 f8 hin (wOf L) 0 3 3 (by omega) (by omega) (by omega) 3 48 rfl rfl (by decide) _ (piece_3_3 d L f2 f7 f8 fs0 fs1 fs2 hin)
  · exact piece_fact f2 f7 f8 hin (wOf L) 0 3 2 (by omega) (by omega) (by omega) 3 32 rfl rfl (by decide) _ (piece_3_2 d L f2 f7 f8 fs0 fs1 fs2 hin)
  · exact piece_fact f2 f7 f8 hin (wOf L) 0 3 1 (by omega) (by omega) (by omega) 3 16 rfl rfl (by decide) _ (piece_3_1 d L f2 f7 f8 fs0 fs1 fs2 hin)
  · exact piece_fact f2 f7 f8 hin (wOf L) 0 3 0 (by omega) (by omega) (by omega) 3 0 rfl rfl (by decide) _ (piece_3_0 d L f2 f7 f8 fs0 fs1 fs2 hin)
  · exact piece_fact f2 f7 f8 hin (wOf L) 0 2 3 (by omega) (by omega) (by omega) 2 48 rfl rfl (by decide) _ (piece_2_3 d L f2 f7 f8 fs0 fs1 fs2 hin)
  · exact piece_fact f2 f7 f8 hin (wOf L) 0 2 2 (by omega) (by omega) (by omega) 2 32 rfl rfl (by decide) _ (piece_2_2 d L f2 f7 f8 fs0 fs1 fs2 hin)
  · exact piece_fact f2 f7 f8 hin (wOf L) 0 2 1 (by omega) (by omega) (by omega) 2 16 rfl rfl (by decide) _ (piece_2_1 d L f2 f7 f8 fs0 fs1 fs2 hin)
  · exact piece_fact f2 f7 f8 hin (wOf L) 0 2 0 (by omega) (by omega) (by omega) 2 0 rfl rfl (by decide) _ (piece_2_0 d L f2 f7 f8 fs0 fs1 fs2 hin)
  · exact piece_fact f2 f7 f8 hin (wOf L) 0 1 3 (by omega) (by omega) (by omega) 1 48 rfl rfl (by decide) _ (piece_1_3 d L f2 f7 f8 fs0 fs1 fs2 hin)
  · exact piece_fact f2 f7 f8 hin (wOf L) 0 1 2 (by omega) (by omega) (by omega) 1 32 rfl rfl (by decide) _ (piece_1_2 d L f2 f7 f8 fs0 fs1 fs2 hin)
  · exact piece_fact f2 f7 f8 hin (wOf L) 0 1 1 (by omega) (by omega) (by omega) 1 16 rfl rfl (by decide) _ (piece_1_1 d L f2 f7 f8 fs0 fs1 fs2 hin)
  · exact piece_fact f2 f7 f8 hin (wOf L) 0 1 0 (by omega) (by omega) (by omega) 1 0 rfl rfl (by decide) _ (piece_1_0 d L f2 f7 f8 fs0 fs1 fs2 hin)
  · exact piece_fact f2 f7 f8 hin (wOf L) 0 0 3 (by omega) (by omega) (by omega) 0 48 rfl rfl (by decide) _ (piece_0_3 d L f2 f7 f8 fs0 fs1 fs2 hin)
  · exact piece_fact f2 f7 f8 hin (wOf L) 0 0 2 (by omega) (by omega) (by omega) 0 32 rfl rfl (by decide) _ (piece_0_2 d L f2 f7 f8 fs0 fs1 fs2 hin)
  · exact piece_fact f2 f7 f8 hin (wOf L) 0 0 1 (by omega) (by omega) (by omega) 0 16 rfl rfl (by decide) _ (piece_0_1 d L f2 f7 f8 fs0 fs1 fs2 hin)
  · exact piece_fact f2 f7 f8 hin (wOf L) 0 0 0 (by omega) (by omega) (by omega) 0 0 rfl rfl (by decide) _ (piece_0_0 d L f2 f7 f8 fs0 fs1 fs2 hin)

end Cert.Proof.KI

end
-- ==== Proof.lean ====
/-
  The certificate's claims.

  Both printed kernel programs (the word-level one and its idealization) are the same SparseCore program: thirty-two
  vector subcores each gather the embedding rows their block of context words names, average them twenty at a time
  into the hidden array, and the TensorCore then multiplies the hidden array by the linear layer's weights in two
  kernel regions. Each runs to the end, faults nowhere and leaves its arguments as they were: the launch theorem for
  SparseCore programs at the tiles' task, with the precondition's index range keeping every gathered row inside the
  table. The reference's run is its host operations in sequence; index by index it computes the mean of the gathered
  rows against the weights plus the bias. The idealization's ledger is the one named constant, 1/20, at eight sites.
  At the exact reals the kernel computes the same array: a tile's row of the hidden array is, lane by lane, the twenty
  summands x0 + p (x1 - x0) — the even or the odd row of a pair, as the word's parity p says, the table's entries being
  finite — added in order and scaled by 1/20, which is the mean of the gathered rows; the two TensorCore regions write
  every column of the result as the sum over the sixty-four coordinates of hidden times weight, plus the bias.
-/
import proofs.«204096_g51513837748514_cont_sun_m_306_14_alg».proof.Defs
import proofs.«204096_g51513837748514_cont_sun_m_306_14_alg».proof.Proof.Gen.Kernel
import proofs.«204096_g51513837748514_cont_sun_m_306_14_alg».proof.Proof.Gen.Kernel.Skeleton
import proofs.«204096_g51513837748514_cont_sun_m_306_14_alg».proof.Proof.Gen.Kernel.Launch
import proofs.«204096_g51513837748514_cont_sun_m_306_14_alg».proof.Proof.Gen.Kernel.Regions
import proofs.«204096_g51513837748514_cont_sun_m_306_14_alg».proof.Proof.Gen.Kernel.Points
import proofs.«204096_g51513837748514_cont_sun_m_306_14_alg».proof.Proof.Gen.KernelIdeal
import proofs.«204096_g51513837748514_cont_sun_m_306_14_alg».proof.Proof.Gen.KernelIdeal.Skeleton
import proofs.«204096_g51513837748514_cont_sun_m_306_14_alg».proof.Proof.Gen.KernelIdeal.Launch
import proofs.«204096_g51513837748514_cont_sun_m_306_14_alg».proof.Proof.Gen.KernelIdeal.Regions
import proofs.«204096_g51513837748514_cont_sun_m_306_14_alg».proof.Proof.Gen.KernelIdeal.Points
import proofs.«204096_g51513837748514_cont_sun_m_306_14_alg».proof.Proof.Gen.ReferenceIdeal
import proofs.«204096_g51513837748514_cont_sun_m_306_14_alg».proof.Proof.Gen.Pre_input_domain
import proofs.«204096_g51513837748514_cont_sun_m_306_14_alg».proof.Proof.Frames
import proofs.«204096_g51513837748514_cont_sun_m_306_14_alg».proof.Proof.FramesB
import proofs.«204096_g51513837748514_cont_sun_m_306_14_alg».proof.Proof.RefValue
import proofs.«204096_g51513837748514_cont_sun_m_306_14_alg».proof.Proof.ValueKI
import proofs.«204096_g51513837748514_cont_sun_m_306_14_alg».proof.Proof.TileOblV
import proofs.«204096_g51513837748514_cont_sun_m_306_14_alg».proof.Proof.TileOut
import proofs.«204096_g51513837748514_cont_sun_m_306_14_alg».proof.Proof.PiecesAll
import Idealize.ShloMosaic.Adequacy
import Idealize.ShloMosaic.Init

noncomputable section

namespace Cert.Proof

open Idealize.ShloMosaic Idealize.SL.Sem

/-- The word-level program runs and keeps its arguments. -/
theorem frame_k : Cert.frame_Kernel (hKernel := Cert.Kernel.Gen.facts) (hPre_input_domain := Cert.Pre_input_domain.Gen.facts) :=
  fun m ρ hpre => (θ_run (Cert.Kernel.defs (F := Bits)) _ _).mono (fun _ h c => h c) (Cert.Proof.KB.run (F := Bits) m ρ hpre)

/-- So does its idealization. -/
theorem frame_ki : Cert.frame_KernelIdeal (hKernelIdeal := Cert.KernelIdeal.Gen.facts) (hPre_input_domain := Cert.Pre_input_domain.Gen.facts) :=
  fun m ρ hpre => (θ_run (Cert.KernelIdeal.defs (F := Ideal)) _ _).mono (fun _ h c => h c) (Cert.Proof.KI.run (F := Ideal) m ρ hpre)

/-- The reference's run with its result dropped. -/
theorem frame_ri : Cert.frame_ReferenceIdeal (hReferenceIdeal := Cert.ReferenceIdeal.Gen.facts) (hPre_input_domain := Cert.Pre_input_domain.Gen.facts) :=
  fun m g h => (θ_run (Cert.ReferenceIdeal.defs (F := Ideal)) _ _).mono (fun _ hh c => (hh c).2) (Cert.ReferenceIdeal.RefValue.run m g h)

/-- The ledger: the named constant denotes 1/20 at each of its eight sites. -/
theorem preserves : Cert.preserves_Kernel_KernelIdeal :=
  have h := IdealRules.named_const.statement Cert.KernelIdeal.κ "inv_20" .f32 0x3D4CCCCD#32 ((1 / 20 : ℝ) : EReal) rfl
  ⟨h, h, h, h, h, h, h, h⟩

/-- Both idealized programs end with the specification's array in their result. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hpre' : ∀ c : Dev Cert.ReferenceIdeal.nD, Cert.Pre_input_domain.fn (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) = fun _ => 1#1 := fun c => by
    rw [(hagree c).1, (hagree c).2.1, (hagree c).2.2.1, (hagree c).2.2.2]; exact hpre c
  refine ⟨fun c => Cert.Spec.out (m (Cert.Proof.KI.a0Loc c)) (m (Cert.Proof.KI.a1Loc c)) (m (Cert.Proof.KI.a2Loc c)) (m (Cert.Proof.KI.a3Loc c)), ?_, ?_⟩
  · exact Cert.Proof.KI.runV m ρ hpre (Cert.Proof.KI.tileOblV m _ Cert.Proof.KI.facts (Cert.Proof.KI.halfOK m hpre)
      (Cert.Proof.KI.outIs_of_pieces m (Cert.Proof.KI.halfOK m hpre) (fun d c i fs0 fs1 fs2 =>
        Cert.Proof.KI.pieces_ok d (Cert.Proof.KI.coordsV c i) _ _ _ fs0 fs1 fs2 _)))
  · refine (θ_run (Cert.ReferenceIdeal.defs (F := Ideal)) _ _).mono (fun _ h c => ⟨?_, (h c).2⟩) (Cert.ReferenceIdeal.RefValue.run m' ρ' hpre')
    rw [(h c).1, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_input_domain.Gen.facts,
  frame_k, frame_ki, frame_ri, preserves, algebraic⟩

end Cert.Proof

end
